-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x5 : Shape := ⟨2, ![500000, 5]⟩
abbrev S2x16000000 : Shape := ⟨2, ![2, 16000000]⟩
abbrev S5x4 : Shape := ⟨2, ![5, 4]⟩
abbrev S4 : Shape := ⟨1, ![4]⟩
abbrev S4x7 : Shape := ⟨2, ![4, 7]⟩
abbrev S7 : Shape := ⟨1, ![7]⟩
abbrev S_ : Shape := ⟨0, ![]⟩

class Facts : Prop where
  bcast_S_S500000x5 : S_.BroadcastsInDim S500000x5 (![] : Fin 0 → Fin S500000x5.rank)
  reducesTo_S500000x5_S_d0_1 : S500000x5.ReducesTo [0, 1] S_
  h_S_ : 0 < S_.numel
  bcast_S_S5x4 : S_.BroadcastsInDim S5x4 (![] : Fin 0 → Fin S5x4.rank)
  reducesTo_S5x4_S_d0_1 : S5x4.ReducesTo [0, 1] S_
  bcast_S_S4 : S_.BroadcastsInDim S4 (![] : Fin 0 → Fin S4.rank)
  reducesTo_S4_S_d0 : S4.ReducesTo [0] S_
  bcast_S_S4x7 : S_.BroadcastsInDim S4x7 (![] : Fin 0 → Fin S4x7.rank)
  reducesTo_S4x7_S_d0_1 : S4x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S4x7 1) : IVec S_ 1 :=
  let main_c_5 : IVec S_ 1 := constantI S_ 1 1#1
  let main_v17 : IVec S_ 1 := (fun x v => Host.reduce IntOp.andi x v reducesTo_S4x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S500000x5 .f32) (main_arg1 : IVec S2x16000000 32) (main_arg2 : FVec F S5x4 .f32) (main_arg3 : FVec F S4 .f32) (main_arg4 : FVec F S4x7 .f32) (main_arg5 : FVec F S7 .f32) : IVec S_ 1 :=
  let main_v0 : FVec F S500000x5 .f32 := Host.absf main_arg0
  let main_cst : FVec F S_ .f32 := constant S_ .f32 0x7F800000#32
  let main_v1 : FVec F S500000x5 .f32 := broadcastInDim S500000x5 ![] bcast_S_S500000x5 main_cst
  let main_v2 : IVec S500000x5 1 := cmpf .olt main_v0 main_v1
  let main_c : IVec S_ 1 := constantI S_ 1 1#1
  let main_v3 : IVec S_ 1 := (fun x v => Host.reduce IntOp.andi x v reducesTo_S500000x5_S_d0_1 h_S_) main_v2 main_c
  let main_v4 : FVec F S5x4 .f32 := Host.absf main_arg2
  let main_cst_0 : FVec F S_ .f32 := constant S_ .f32 0x7F800000#32
  let main_v5 : FVec F S5x4 .f32 := broadcastInDim S5x4 ![] bcast_S_S5x4 main_cst_0
  let main_v6 : IVec S5x4 1 := cmpf .olt main_v4 main_v5
  let main_c_1 : IVec S_ 1 := constantI S_ 1 1#1
  let main_v7 : IVec S_ 1 := (fun x v => Host.reduce IntOp.andi x v reducesTo_S5x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x7 .f32 := Host.absf main_arg4
  let main_cst_4 : FVec F S_ .f32 := constant S_ .f32 0x7F800000#32
  let main_v15 : FVec F S4x7 .f32 := broadcastInDim S4x7 ![] bcast_S_S4x7 main_cst_4
  let main_v16 : IVec S4x7 1 := cmpf .olt main_v14 main_v15
  fn_part1 (F := F) main_arg5 main_v13 main_v16
-- ==== Kernel.lean ====
abbrev S500000x5 : Shape := ⟨2, ![500000, 5]⟩
abbrev S2x16000000 : Shape := ⟨2, ![2, 16000000]⟩
abbrev S5x4 : Shape := ⟨2, ![5, 4]⟩
abbrev S4 : Shape := ⟨1, ![4]⟩
abbrev S4x7 : Shape := ⟨2, ![4, 7]⟩
abbrev S7 : Shape := ⟨1, ![7]⟩
abbrev S1x16000000 : Shape := ⟨2, ![1, 16000000]⟩
abbrev S16000000 : Shape := ⟨1, ![16000000]⟩
abbrev S500000 : Shape := ⟨1, ![500000]⟩
abbrev S16500000 : Shape := ⟨1, ![16500000]⟩
abbrev S_ : Shape := ⟨0, ![]⟩
abbrev S16500000x1 : Shape := ⟨2, ![16500000, 1]⟩
abbrev S500000x4 : Shape := ⟨2, ![500000, 4]⟩
abbrev S5000x5 : Shape := ⟨2, ![5000, 5]⟩
abbrev S5000x4 : Shape := ⟨2, ![5000, 4]⟩
abbrev S16500000x4 : Shape := ⟨2, ![16500000, 4]⟩
abbrev S1x4 : Shape := ⟨2, ![1, 4]⟩
abbrev S500000x7 : Shape := ⟨2, ![500000, 7]⟩
abbrev S5000x7 : Shape := ⟨2, ![5000, 7]⟩
abbrev S16500000x7 : Shape := ⟨2, ![16500000, 7]⟩
abbrev S1x7 : Shape := ⟨2, ![1, 7]⟩

abbrev nBuf : Space → Nat
  | .hbm => 88
  | .vmem => 23
  | .smem => 0
  | _ => 0

abbrev bufTy : (tb : Table) → Fin (tcTables nBuf tb) → BufTy
  | .hbm, ⟨0, _⟩ => ⟨S500000x5, .f32⟩
  | .hbm, ⟨1, _⟩ => ⟨S2x16000000, .i32⟩
  | .hbm, ⟨2, _⟩ => ⟨S5x4, .f32⟩
  | .hbm, ⟨3, _⟩ => ⟨S4, .f32⟩
  | .hbm, ⟨4, _⟩ => ⟨S4x7, .f32⟩
  | .hbm, ⟨5, _⟩ => ⟨S7, .f32⟩
  | .hbm, ⟨6, _⟩ => ⟨S1x16000000, .i32⟩
  | .hbm, ⟨7, _⟩ => ⟨S16000000, .i32⟩
  | .hbm, ⟨8, _⟩ => ⟨S1x16000000, .i32⟩
  | .hbm, ⟨9, _⟩ => ⟨S16000000, .i32⟩
  | .hbm, ⟨10, _⟩ => ⟨S500000, .i32⟩
  | .hbm, ⟨11, _⟩ => ⟨S16500000, .i32⟩
  | .hbm, ⟨12, _⟩ => ⟨S16500000, .i32⟩
  | .hbm, ⟨13, _⟩ => ⟨S_, .f32⟩
  | .hbm, ⟨14, _⟩ => ⟨S16500000, .f32⟩
  | .hbm, ⟨15, _⟩ => ⟨S_, .f32⟩
  | .hbm, ⟨16, _⟩ => ⟨S500000, .f32⟩
  | .hbm, ⟨17, _⟩ => ⟨S16500000x1, .i32⟩
  | .hbm, ⟨18, _⟩ => ⟨S500000, .f32⟩
  | .hbm, ⟨19, _⟩ => ⟨S_, .f32⟩
  | .hbm, ⟨20, _⟩ => ⟨S500000, .f32⟩
  | .hbm, ⟨21, _⟩ => ⟨S500000, .i1⟩
  | .hbm, ⟨22, _⟩ => ⟨S_, .f32⟩
  | .hbm, ⟨23, _⟩ => ⟨S500000, .f32⟩
  | .hbm, ⟨24, _⟩ => ⟨S500000, .f32⟩
  | .hbm, ⟨25, _⟩ => ⟨S500000, .f32⟩
  | .hbm, ⟨26, _⟩ => ⟨S_, .f32⟩
  | .hbm, ⟨27, _⟩ => ⟨S_, .f32⟩
  | .hbm, ⟨28, _⟩ => ⟨S500000, .f32⟩
  | .hbm, ⟨29, _⟩ => ⟨S500000, .f32⟩
  | .hbm, ⟨30, _⟩ => ⟨S_, .i32⟩
  | .hbm, ⟨31, _⟩ => ⟨S16500000, .i32⟩
  | .hbm, ⟨32, _⟩ => ⟨S16500000, .i1⟩
  | .hbm, ⟨33, _⟩ => ⟨S_, .i32⟩
  | .hbm, ⟨34, _⟩ => ⟨S16500000, .i32⟩
  | .hbm, ⟨35, _⟩ => ⟨S16500000, .i32⟩
  | .hbm, ⟨36, _⟩ => ⟨S16500000, .i32⟩
  | .hbm, ⟨37, _⟩ => ⟨S16500000x1, .i32⟩
  | .hbm, ⟨38, _⟩ => ⟨S16500000, .f32⟩
  | .hbm, ⟨39, _⟩ => ⟨S_, .i32⟩
  | .hbm, ⟨40, _⟩ => ⟨S16500000, .i32⟩
  | .hbm, ⟨41, _⟩ => ⟨S16500000, .i1⟩
  | .hbm, ⟨42, _⟩ => ⟨S_, .i32⟩
  | .hbm, ⟨43, _⟩ => ⟨S16500000, .i32⟩
  | .hbm, ⟨44, _⟩ => ⟨S16500000, .i32⟩
  | .hbm, ⟨45, _⟩ => ⟨S16500000, .i32⟩
  | .hbm, ⟨46, _⟩ => ⟨S16500000x1, .i32⟩
  | .hbm, ⟨47, _⟩ => ⟨S16500000, .f32⟩
  | .hbm, ⟨48, _⟩ => ⟨S16500000, .f32⟩
  | .hbm, ⟨49, _⟩ => ⟨S500000x4, .f32⟩
  | .hbm, ⟨50, _⟩ => ⟨S_, .i32⟩
  | .hbm, ⟨51, _⟩ => ⟨S16500000, .i32⟩
  | .hbm, ⟨52, _⟩ => ⟨S16500000, .i1⟩
  | .hbm, ⟨53, _⟩ => ⟨S_, .i32⟩
  | .hbm, ⟨54, _⟩ => ⟨S16500000, .i32⟩
  | .hbm, ⟨55, _⟩ => ⟨S16500000, .i32⟩
  | .hbm, ⟨56, _⟩ => ⟨S16500000, .i32⟩
  | .hbm, ⟨57, _⟩ => ⟨S16500000x1, .i32⟩
  | .hbm, ⟨58, _⟩ => ⟨S16500000x4, .f32⟩
  | .hbm, ⟨59, _⟩ => ⟨S16500000x1, .f32⟩
  | .hbm, ⟨60, _⟩ => ⟨S16500000x4, .f32⟩
  | .hbm, ⟨61, _⟩ => ⟨S16500000x4, .f32⟩
  | .hbm, ⟨62, _⟩ => ⟨S_, .f32⟩
  | .hbm, ⟨63, _⟩ => ⟨S500000x4, .f32⟩
  | .hbm, ⟨64, _⟩ => ⟨S16500000x1, .i32⟩
  | .hbm, ⟨65, _⟩ => ⟨S500000x4, .f32⟩
  | .hbm, ⟨66, _⟩ => ⟨S1x4, .f32⟩
  | .hbm, ⟨67, _⟩ => ⟨S500000x7, .f32⟩
  | .hbm, ⟨68, _⟩ => ⟨S_, .i32⟩
  | .hbm, ⟨69, _⟩ => ⟨S16500000, .i32⟩
  | .hbm, ⟨70, _⟩ => ⟨S16500000, .i1⟩
  | .hbm, ⟨71, _⟩ => ⟨S_, .i32⟩
  | .hbm, ⟨72, _⟩ => ⟨S16500000, .i32⟩
  | .hbm, ⟨73, _⟩ => ⟨S16500000, .i32⟩
  | .hbm, ⟨74, _⟩ => ⟨S16500000, .i32⟩
  | .hbm, ⟨75, _⟩ => ⟨S16500000x1, .i32⟩
  | .hbm, ⟨76, _⟩ => ⟨S16500000x7, .f32⟩
  | .hbm, ⟨77, _⟩ => ⟨S16500000x1, .f32⟩
  | .hbm, ⟨78, _⟩ => ⟨S16500000x7, .f32⟩
  | .hbm, ⟨79, _⟩ => ⟨S16500000x7, .f32⟩
  | .hbm, ⟨80, _⟩ => ⟨S_, .f32⟩
  | .hbm, ⟨81, _⟩ => ⟨S500000x7, .f32⟩
  | .hbm, ⟨82, _⟩ => ⟨S16500000x1, .i32⟩
  | .hbm, ⟨83, _⟩ => ⟨S500000x7, .f32⟩
  | .hbm, ⟨84, _⟩ => ⟨S1x7, .f32⟩
  | .hbm, ⟨85, _⟩ => ⟨S1x7, .f32⟩
  | .hbm, ⟨86, _⟩ => ⟨S1x7, .f32⟩
  | .hbm, ⟨87, _⟩ => ⟨S500000x7, .f32⟩
  | .local _ .vmem, ⟨0, _⟩ => ⟨S5000x5, .f32⟩
  | .local _ .vmem, ⟨1, _⟩ => ⟨S5000x5, .f32⟩
  | .local _ .vmem, ⟨2, _⟩ => ⟨S5x4, .f32⟩
  | .local _ .vmem, ⟨3, _⟩ => ⟨S5000x4, .f32⟩
  | .local _ .vmem, ⟨4, _⟩ => ⟨S5000x4, .f32⟩
  | .local _ .vmem, ⟨5, _⟩ => ⟨S5000x4, .f32⟩
  | .local _ .vmem, ⟨6, _⟩ => ⟨S5000x4, .f32⟩
  | .local _ .vmem, ⟨7, _⟩ => ⟨S1x4, .f32⟩
  | .local _ .vmem, ⟨8, _⟩ => ⟨S4x7, .f32⟩
  | .local _ .vmem, ⟨9, _⟩ => ⟨S5000x7, .f32⟩
  | .local _ .vmem, ⟨10, _⟩ => ⟨S5000x7, .f32⟩
  | .local _ .vmem, ⟨11, _⟩ => ⟨S5000x7, .f32⟩
  | .local _ .vmem, ⟨12, _⟩ => ⟨S5000x7, .f32⟩
  | .local _ .vmem, ⟨13, _⟩ => ⟨S1x7, .f32⟩
  | .local _ .vmem, ⟨14, _⟩ => ⟨S1x7, .f32⟩
  | .local _ .vmem, ⟨15, _⟩ => ⟨S1x7, .f32⟩
  | .local _ .vmem, ⟨16, _⟩ => ⟨S1x7, .f32⟩
  | .local _ .vmem, ⟨17, _⟩ => ⟨S5000x7, .f32⟩
  | .local _ .vmem, ⟨18, _⟩ => ⟨S5000x7, .f32⟩
  | .local _ .vmem, ⟨19, _⟩ => ⟨S1x7, .f32⟩
  | .local _ .vmem, ⟨20, _⟩ => ⟨S1x7, .f32⟩
  | .local _ .vmem, ⟨21, _⟩ => ⟨S5000x7, .f32⟩
  | .local _ .vmem, ⟨22, _⟩ => ⟨S5000x7, .f32⟩
  | _, _ => ⟨S500000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_scratch0 : Ref sig .tc := ⟨.vmem, 15, rfl⟩
abbrev cc2_scratch1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x7 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def k2_cond2 (i : grid2.Coords) : BitVec 1 :=
  let arg0 : BitVec 32 := BitVec.ofNat 32 (i 0).val
  let c99_i32 : BitVec 32 := 99#32
  let v30 : BitVec 1 := Scalar.cmpi .eq arg0 c99_i32
  let v31 : BitVec 32 := Scalar.extui v30
  let c0_i32_15 : BitVec 32 := 0#32
  let v32 : BitVec 1 := Scalar.cmpi .ne v31 c0_i32_15
  v32

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x7 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x7 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x7 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x7 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x7 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x7 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  concatenates_S16000000_S500000_S16500000_d0 : Shape.Concatenates [S16000000, S500000] S16500000 0
  bcast_S_S16500000 : S_.BroadcastsInDim S16500000 (![] : Fin 0 → Fin S16500000.rank)
  bcast_S_S500000 : S_.BroadcastsInDim S500000 (![] : Fin 0 → Fin S500000.rank)
  bcast_S16500000_S16500000x1_0 : S16500000.BroadcastsInDim S16500000x1 (![0] : Fin 1 → Fin S16500000x1.rank)
  inb_S5000x5_S5000x5_0_0 : ∀ a, (![0, 0] : Fin 2 → Nat) a + S5000x5.size a ≤ S5000x5.size a
  h_S5000x5 : 0 < S5000x5.numel
  inb_S5x4_S5x4_0_0 : ∀ a, (![0, 0] : Fin 2 → Nat) a + S5x4.size a ≤ S5x4.size a
  h_S5x4 : 0 < S5x4.numel
  inb_S5000x4_S5000x4_0_0 : ∀ a, (![0, 0] : Fin 2 → Nat) a + S5000x4.size a ≤ S5000x4.size a
  h_S5000x4 : 0 < S5000x4.numel
  bcast_S16500000x1_S16500000x4_0_1 : S16500000x1.BroadcastsInDim S16500000x4 (![0, 1] : Fin 2 → Fin S16500000x4.rank)
  bcast_S_S500000x4 : S_.BroadcastsInDim S500000x4 (![] : Fin 0 → Fin S500000x4.rank)
  shapeCasts_S4_S1x4 : S4.ShapeCasts S1x4
  shapeCasts_S5000x4_S5000x4 : S5000x4.ShapeCasts S5000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S4x7_S4x7_0_0 : ∀ a, (![0, 0] : Fin 2 → Nat) a + S4x7.size a ≤ S4x7.size a
  h_S4x7 : 0 < S4x7.numel
  inb_S5000x7_S5000x7_0_0 : ∀ a, (![0, 0] : Fin 2 → Nat) a + S5000x7.size a ≤ S5000x7.size a
  h_S5000x7 : 0 < S5000x7.numel
  bcast_S16500000x1_S16500000x7_0_1 : S16500000x1.BroadcastsInDim S16500000x7 (![0, 1] : Fin 2 → Fin S16500000x7.rank)
  bcast_S_S500000x7 : S_.BroadcastsInDim S500000x7 (![] : Fin 0 → Fin S500000x7.rank)
  shapeCasts_S7_S1x7 : S7.ShapeCasts S1x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  shapeCasts_S5000x7_S5000x7 : S5000x7.ShapeCasts S5000x7
  broadcasts_S1x7_S5000x7 : S1x7.Broadcasts S5000x7
  reduces_S5000x7_S7 : S5000x7.Reduces [0] S7
  scatter_S500000_S16500000x1_S16500000_n_0_0_1_wf : ScatterDims.WF S500000 S16500000x1 S16500000 [] [0] [0] 1
  gather_S500000_S16500000x1_S16500000_n_0_n_n_0_1_1_wf : GatherDims.WF S500000 S16500000x1 S16500000 [] [0] [] [0] [] 1 ![1]
  dot_S5000x5_S5x4_S5000x4_1_0_0_1_n_n_wf : DotDims.WF S5000x5 S5x4 S5000x4 [1] [0] [0] [1] [] []
  gather_S500000x4_S16500000x1_S16500000x4_1_0_n_n_0_1_14_wf : GatherDims.WF S500000x4 S16500000x1 S16500000x4 [1] [0] [] [0] [] 1 ![1, 4]
  scatter_S500000x4_S16500000x1_S16500000x4_1_0_0_1_wf : ScatterDims.WF S500000x4 S16500000x1 S16500000x4 [1] [0] [0] 1
  dot_S5000x4_S4x7_S5000x7_1_0_0_1_n_n_wf : DotDims.WF S5000x4 S4x7 S5000x7 [1] [0] [0] [1] [] []
  gather_S500000x7_S16500000x1_S16500000x7_1_0_n_n_0_1_17_wf : GatherDims.WF S500000x7 S16500000x1 S16500000x7 [1] [0] [] [0] [] 1 ![1, 7]
  scatter_S500000x7_S16500000x1_S16500000x7_1_0_0_1_wf : ScatterDims.WF S500000x7 S16500000x1 S16500000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S500000x5.size a
  hwx0_0 : ∀ i : grid0.Coords, EltTy.bits .f32 = 32 ∨ (Rect.block (s := S500000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x4.size a ≤ S5x4.size a
  hwx0_1 : ∀ i : grid0.Coords, EltTy.bits .f32 = 32 ∨ (Rect.block (s := S5x4) S5x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x4.size a ≤ S500000x4.size a
  hwx0_2 : ∀ i : grid0.Coords, EltTy.bits .f32 = 32 ∨ (Rect.block (s := S500000x4) S5000x4.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x4.size a ≤ S500000x4.size a
  hwx1_0 : ∀ i : grid1.Coords, EltTy.bits .f32 = 32 ∨ (Rect.block (s := S500000x4) S5000x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4.size a ≤ S1x4.size a
  hwx1_1 : ∀ i : grid1.Coords, EltTy.bits .f32 = 32 ∨ (Rect.block (s := S1x4) S1x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x7.size a ≤ S4x7.size a
  hwx1_2 : ∀ i : grid1.Coords, EltTy.bits .f32 = 32 ∨ (Rect.block (s := S4x7) S4x7.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x7.size a ≤ S500000x7.size a
  hwx1_3 : ∀ i : grid1.Coords, EltTy.bits .f32 = 32 ∨ (Rect.block (s := S500000x7) S5000x7.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x7.size a ≤ S500000x7.size a
  hwx2_0 : ∀ i : grid2.Coords, EltTy.bits .f32 = 32 ∨ (Rect.block (s := S500000x7) S5000x7.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x7.size a ≤ S1x7.size a
  hwx2_1 : ∀ i : grid2.Coords, EltTy.bits .f32 = 32 ∨ (Rect.block (s := S1x7) S1x7.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x7.size a ≤ S1x7.size a
  hwx2_2 : ∀ i : grid2.Coords, EltTy.bits .f32 = 32 ∨ (Rect.block (s := S1x7) S1x7.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x7.size a ≤ S500000x7.size a
  hwx3_0 : ∀ i : grid3.Coords, EltTy.bits .f32 = 32 ∨ (Rect.block (s := S500000x7) S5000x7.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x7.size a ≤ S1x7.size a
  hwx3_1 : ∀ i : grid3.Coords, EltTy.bits .f32 = 32 ∨ (Rect.block (s := S1x7) S1x7.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x7.size a ≤ S1x7.size a
  hwx3_2 : ∀ i : grid3.Coords, EltTy.bits .f32 = 32 ∨ (Rect.block (s := S1x7) S1x7.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x7.size a ≤ S500000x7.size a
  hwx3_3 : ∀ i : grid3.Coords, EltTy.bits .f32 = 32 ∨ (Rect.block (s := S500000x7) S5000x7.size (cc3_transform_3 i) (hinb3_3 i)).WholeWords (EltTy.packing .f32)

variable [Facts₀]

def scatter_S500000_S16500000x1_S16500000_n_0_0_1 : ScatterDims S500000 S16500000x1 S16500000 where
  updateWindowDims := []
  insertedWindowDims := [0]
  scatterDimsToOperandDims := [0]
  indexVectorDim := 1
  wf := scatter_S500000_S16500000x1_S16500000_n_0_0_1_wf
def gather_S500000_S16500000x1_S16500000_n_0_n_n_0_1_1 : GatherDims S500000 S16500000x1 S16500000 where
  offsetDims := []
  collapsedSliceDims := [0]
  operandBatchingDims := []
  startIndicesBatchingDims := []
  startIndexMap := [0]
  indexVectorDim := 1
  sliceSizes := ![1]
  wf := gather_S500000_S16500000x1_S16500000_n_0_n_n_0_1_1_wf
def dot_S5000x5_S5x4_S5000x4_1_0_0_1_n_n : DotDims S5000x5 S5x4 S5000x4 where
  lhsContracting := [1]
  rhsContracting := [0]
  lhsNonContracting := [0]
  rhsNonContracting := [1]
  lhsBatch := []
  rhsBatch := []
  wf := dot_S5000x5_S5x4_S5000x4_1_0_0_1_n_n_wf
def gather_S500000x4_S16500000x1_S16500000x4_1_0_n_n_0_1_14 : GatherDims S500000x4 S16500000x1 S16500000x4 where
  offsetDims := [1]
  collapsedSliceDims := [0]
  operandBatchingDims := []
  startIndicesBatchingDims := []
  startIndexMap := [0]
  indexVectorDim := 1
  sliceSizes := ![1, 4]
  wf := gather_S500000x4_S16500000x1_S16500000x4_1_0_n_n_0_1_14_wf
def scatter_S500000x4_S16500000x1_S16500000x4_1_0_0_1 : ScatterDims S500000x4 S16500000x1 S16500000x4 where
  updateWindowDims := [1]
  insertedWindowDims := [0]
  scatterDimsToOperandDims := [0]
  indexVectorDim := 1
  wf := scatter_S500000x4_S16500000x1_S16500000x4_1_0_0_1_wf
def dot_S5000x4_S4x7_S5000x7_1_0_0_1_n_n : DotDims S5000x4 S4x7 S5000x7 where
  lhsContracting := [1]
  rhsContracting := [0]
  lhsNonContracting := [0]
  rhsNonContracting := [1]
  lhsBatch := []
  rhsBatch := []
  wf := dot_S5000x4_S4x7_S5000x7_1_0_0_1_n_n_wf
def gather_S500000x7_S16500000x1_S16500000x7_1_0_n_n_0_1_17 : GatherDims S500000x7 S16500000x1 S16500000x7 where
  offsetDims := [1]
  collapsedSliceDims := [0]
  operandBatchingDims := []
  startIndicesBatchingDims := []
  startIndexMap := [0]
  indexVectorDim := 1
  sliceSizes := ![1, 7]
  wf := gather_S500000x7_S16500000x1_S16500000x7_1_0_n_n_0_1_17_wf
def scatter_S500000x7_S16500000x1_S16500000x7_1_0_0_1 : ScatterDims S500000x7 S16500000x1 S16500000x7 where
  updateWindowDims := [1]
  insertedWindowDims := [0]
  scatterDimsToOperandDims := [0]
  indexVectorDim := 1
  wf := scatter_S500000x7_S16500000x1_S16500000x7_1_0_0_1_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S4x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x7.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x7.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1x7.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v60) S5000x7.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x7.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x7.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S5000x7.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S500000x5 : Shape := ⟨2, ![500000, 5]⟩
abbrev S2x16000000 : Shape := ⟨2, ![2, 16000000]⟩
abbrev S5x4 : Shape := ⟨2, ![5, 4]⟩
abbrev S4 : Shape := ⟨1, ![4]⟩
abbrev S4x7 : Shape := ⟨2, ![4, 7]⟩
abbrev S7 : Shape := ⟨1, ![7]⟩
abbrev S1x16000000 : Shape := ⟨2, ![1, 16000000]⟩
abbrev S16000000 : Shape := ⟨1, ![16000000]⟩
abbrev S500000 : Shape := ⟨1, ![500000]⟩
abbrev S16500000 : Shape := ⟨1, ![16500000]⟩
abbrev S_ : Shape := ⟨0, ![]⟩
abbrev S16500000x1 : Shape := ⟨2, ![16500000, 1]⟩
abbrev S500000x4 : Shape := ⟨2, ![500000, 4]⟩
abbrev S16500000x4 : Shape := ⟨2, ![16500000, 4]⟩
abbrev S1x4 : Shape := ⟨2, ![1, 4]⟩
abbrev S500000x7 : Shape := ⟨2, ![500000, 7]⟩
abbrev S16500000x7 : Shape := ⟨2, ![16500000, 7]⟩
abbrev S1x7 : Shape := ⟨2, ![1, 7]⟩

abbrev nBuf : Space → Nat
  | .hbm => 107
  | .vmem => 0
  | .smem => 0
  | _ => 0

abbrev bufTy : (tb : Table) → Fin (tcTables nBuf tb) → BufTy
  | .hbm, ⟨0, _⟩ => ⟨S500000x5, .f32⟩
  | .hbm, ⟨1, _⟩ => ⟨S2x16000000, .i32⟩
  | .hbm, ⟨2, _⟩ => ⟨S5x4, .f32⟩
  | .hbm, ⟨3, _⟩ => ⟨S4, .f32⟩
  | .hbm, ⟨4, _⟩ => ⟨S4x7, .f32⟩
  | .hbm, ⟨5, _⟩ => ⟨S7, .f32⟩
  | .hbm, ⟨6, _⟩ => ⟨S1x16000000, .i32⟩
  | .hbm, ⟨7, _⟩ => ⟨S16000000, .i32⟩
  | .hbm, ⟨8, _⟩ => ⟨S1x16000000, .i32⟩
  | .hbm, ⟨9, _⟩ => ⟨S16000000, .i32⟩
  | .hbm, ⟨10, _⟩ => ⟨S500000, .i32⟩
  | .hbm, ⟨11, _⟩ => ⟨S16500000, .i32⟩
  | .hbm, ⟨12, _⟩ => ⟨S16500000, .i32⟩
  | .hbm, ⟨13, _⟩ => ⟨S_, .f32⟩
  | .hbm, ⟨14, _⟩ => ⟨S16500000, .f32⟩
  | .hbm, ⟨15, _⟩ => ⟨S_, .f32⟩
  | .hbm, ⟨16, _⟩ => ⟨S500000, .f32⟩
  | .hbm, ⟨17, _⟩ => ⟨S16500000x1, .i32⟩
  | .hbm, ⟨18, _⟩ => ⟨S500000, .f32⟩
  | .hbm, ⟨19, _⟩ => ⟨S_, .f32⟩
  | .hbm, ⟨20, _⟩ => ⟨S500000, .f32⟩
  | .hbm, ⟨21, _⟩ => ⟨S500000, .i1⟩
  | .hbm, ⟨22, _⟩ => ⟨S_, .f32⟩
  | .hbm, ⟨23, _⟩ => ⟨S500000, .f32⟩
  | .hbm, ⟨24, _⟩ => ⟨S500000, .f32⟩
  | .hbm, ⟨25, _⟩ => ⟨S500000, .f32⟩
  | .hbm, ⟨26, _⟩ => ⟨S_, .f32⟩
  | .hbm, ⟨27, _⟩ => ⟨S_, .f32⟩
  | .hbm, ⟨28, _⟩ => ⟨S500000, .f32⟩
  | .hbm, ⟨29, _⟩ => ⟨S500000, .f32⟩
  | .hbm, ⟨30, _⟩ => ⟨S_, .i32⟩
  | .hbm, ⟨31, _⟩ => ⟨S16500000, .i32⟩
  | .hbm, ⟨32, _⟩ => ⟨S16500000, .i1⟩
  | .hbm, ⟨33, _⟩ => ⟨S_, .i32⟩
  | .hbm, ⟨34, _⟩ => ⟨S16500000, .i32⟩
  | .hbm, ⟨35, _⟩ => ⟨S16500000, .i32⟩
  | .hbm, ⟨36, _⟩ => ⟨S16500000, .i32⟩
  | .hbm, ⟨37, _⟩ => ⟨S16500000x1, .i32⟩
  | .hbm, ⟨38, _⟩ => ⟨S16500000, .f32⟩
  | .hbm, ⟨39, _⟩ => ⟨S_, .i32⟩
  | .hbm, ⟨40, _⟩ => ⟨S16500000, .i32⟩
  | .hbm, ⟨41, _⟩ => ⟨S16500000, .i1⟩
  | .hbm, ⟨42, _⟩ => ⟨S_, .i32⟩
  | .hbm, ⟨43, _⟩ => ⟨S16500000, .i32⟩
  | .hbm, ⟨44, _⟩ => ⟨S16500000, .i32⟩
  | .hbm, ⟨45, _⟩ => ⟨S16500000, .i32⟩
  | .hbm, ⟨46, _⟩ => ⟨S16500000x1, .i32⟩
  | .hbm, ⟨47, _⟩ => ⟨S16500000, .f32⟩
  | .hbm, ⟨48, _⟩ => ⟨S16500000, .f32⟩
  | .hbm, ⟨49, _⟩ => ⟨S500000x4, .f32⟩
  | .hbm, ⟨50, _⟩ => ⟨S_, .i32⟩
  | .hbm, ⟨51, _⟩ => ⟨S16500000, .i32⟩
  | .hbm, ⟨52, _⟩ => ⟨S16500000, .i1⟩
  | .hbm, ⟨53, _⟩ => ⟨S_, .i32⟩
  | .hbm, ⟨54, _⟩ => ⟨S16500000, .i32⟩
  | .hbm, ⟨55, _⟩ => ⟨S16500000, .i32⟩
  | .hbm, ⟨56, _⟩ => ⟨S16500000, .i32⟩
  | .hbm, ⟨57, _⟩ => ⟨S16500000x1, .i32⟩
  | .hbm, ⟨58, _⟩ => ⟨S16500000x4, .f32⟩
  | .hbm, ⟨59, _⟩ => ⟨S16500000x1, .f32⟩
  | .hbm, ⟨60, _⟩ => ⟨S16500000x4, .f32⟩
  | .hbm, ⟨61, _⟩ => ⟨S16500000x4, .f32⟩
  | .hbm, ⟨62, _⟩ => ⟨S_, .f32⟩
  | .hbm, ⟨63, _⟩ => ⟨S500000x4, .f32⟩
  | .hbm, ⟨64, _⟩ => ⟨S16500000x1, .i32⟩
  | .hbm, ⟨65, _⟩ => ⟨S500000x4, .f32⟩
  | .hbm, ⟨66, _⟩ => ⟨S1x4, .f32⟩
  | .hbm, ⟨67, _⟩ => ⟨S500000x4, .f32⟩
  | .hbm, ⟨68, _⟩ => ⟨S500000x4, .f32⟩
  | .hbm, ⟨69, _⟩ => ⟨S_, .f32⟩
  | .hbm, ⟨70, _⟩ => ⟨S500000x4, .f32⟩
  | .hbm, ⟨71, _⟩ => ⟨S500000x4, .f32⟩
  | .hbm, ⟨72, _⟩ => ⟨S500000x7, .f32⟩
  | .hbm, ⟨73, _⟩ => ⟨S_, .i32⟩
  | .hbm, ⟨74, _⟩ => ⟨S16500000, .i32⟩
  | .hbm, ⟨75, _⟩ => ⟨S16500000, .i1⟩
  | .hbm, ⟨76, _⟩ => ⟨S_, .i32⟩
  | .hbm, ⟨77, _⟩ => ⟨S16500000, .i32⟩
  | .hbm, ⟨78, _⟩ => ⟨S16500000, .i32⟩
  | .hbm, ⟨79, _⟩ => ⟨S16500000, .i32⟩
  | .hbm, ⟨80, _⟩ => ⟨S16500000x1, .i32⟩
  | .hbm, ⟨81, _⟩ => ⟨S16500000x7, .f32⟩
  | .hbm, ⟨82, _⟩ => ⟨S16500000x1, .f32⟩
  | .hbm, ⟨83, _⟩ => ⟨S16500000x7, .f32⟩
  | .hbm, ⟨84, _⟩ => ⟨S16500000x7, .f32⟩
  | .hbm, ⟨85, _⟩ => ⟨S_, .f32⟩
  | .hbm, ⟨86, _⟩ => ⟨S500000x7, .f32⟩
  | .hbm, ⟨87, _⟩ => ⟨S16500000x1, .i32⟩
  | .hbm, ⟨88, _⟩ => ⟨S500000x7, .f32⟩
  | .hbm, ⟨89, _⟩ => ⟨S1x7, .f32⟩
  | .hbm, ⟨90, _⟩ => ⟨S500000x7, .f32⟩
  | .hbm, ⟨91, _⟩ => ⟨S500000x7, .f32⟩
  | .hbm, ⟨92, _⟩ => ⟨S_, .f32⟩
  | .hbm, ⟨93, _⟩ => ⟨S7, .f32⟩
  | .hbm, ⟨94, _⟩ => ⟨S_, .f32⟩
  | .hbm, ⟨95, _⟩ => ⟨S7, .f32⟩
  | .hbm, ⟨96, _⟩ => ⟨S7, .f32⟩
  | .hbm, ⟨97, _⟩ => ⟨S1x7, .f32⟩
  | .hbm, ⟨98, _⟩ => ⟨S500000x7, .f32⟩
  | .hbm, ⟨99, _⟩ => ⟨S500000x7, .f32⟩
  | .hbm, ⟨100, _⟩ => ⟨S500000x7, .f32⟩
  | .hbm, ⟨101, _⟩ => ⟨S_, .f32⟩
  | .hbm, ⟨102, _⟩ => ⟨S7, .f32⟩
  | .hbm, ⟨103, _⟩ => ⟨S1x7, .f32⟩
  | .hbm, ⟨104, _⟩ => ⟨S1x7, .f32⟩
  | .hbm, ⟨105, _⟩ => ⟨S500000x7, .f32⟩
  | .hbm, ⟨106, _⟩ => ⟨S500000x7, .f32⟩
  | _, _ => ⟨S500000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  concatenates_S16000000_S500000_S16500000_d0 : Shape.Concatenates [S16000000, S500000] S16500000 0
  bcast_S_S16500000 : S_.BroadcastsInDim S16500000 (![] : Fin 0 → Fin S16500000.rank)
  bcast_S_S500000 : S_.BroadcastsInDim S500000 (![] : Fin 0 → Fin S500000.rank)
  bcast_S16500000_S16500000x1_0 : S16500000.BroadcastsInDim S16500000x1 (![0] : Fin 1 → Fin S16500000x1.rank)
  bcast_S16500000x1_S16500000x4_0_1 : S16500000x1.BroadcastsInDim S16500000x4 (![0, 1] : Fin 2 → Fin S16500000x4.rank)
  bcast_S_S500000x4 : S_.BroadcastsInDim S500000x4 (![] : Fin 0 → Fin S500000x4.rank)
  bcast_S4_S1x4_1 : S4.BroadcastsInDim S1x4 (![1] : Fin 1 → Fin S1x4.rank)
  bcast_S1x4_S500000x4_0_1 : S1x4.BroadcastsInDim S500000x4 (![0, 1] : Fin 2 → Fin S500000x4.rank)
  bcast_S16500000x1_S16500000x7_0_1 : S16500000x1.BroadcastsInDim S16500000x7 (![0, 1] : Fin 2 → Fin S16500000x7.rank)
  bcast_S_S500000x7 : S_.BroadcastsInDim S500000x7 (![] : Fin 0 → Fin S500000x7.rank)
  bcast_S7_S1x7_1 : S7.BroadcastsInDim S1x7 (![1] : Fin 1 → Fin S1x7.rank)
  bcast_S1x7_S500000x7_0_1 : S1x7.BroadcastsInDim S500000x7 (![0, 1] : Fin 2 → Fin S500000x7.rank)
  reducesTo_S500000x7_S7_d0 : S500000x7.ReducesTo [0] S7
  h_S_ : 0 < S_.numel
  bcast_S_S7 : S_.BroadcastsInDim S7 (![] : Fin 0 → Fin S7.rank)
  scatter_S500000_S16500000x1_S16500000_n_0_0_1_wf : ScatterDims.WF S500000 S16500000x1 S16500000 [] [0] [0] 1
  gather_S500000_S16500000x1_S16500000_n_0_n_n_0_1_1_wf : GatherDims.WF S500000 S16500000x1 S16500000 [] [0] [] [0] [] 1 ![1]
  dot_S500000x5_S5x4_S500000x4_1_0_0_1_n_n_wf : DotDims.WF S500000x5 S5x4 S500000x4 [1] [0] [0] [1] [] []
  gather_S500000x4_S16500000x1_S16500000x4_1_0_n_n_0_1_14_wf : GatherDims.WF S500000x4 S16500000x1 S16500000x4 [1] [0] [] [0] [] 1 ![1, 4]
  scatter_S500000x4_S16500000x1_S16500000x4_1_0_0_1_wf : ScatterDims.WF S500000x4 S16500000x1 S16500000x4 [1] [0] [0] 1
  dot_S500000x4_S4x7_S500000x7_1_0_0_1_n_n_wf : DotDims.WF S500000x4 S4x7 S500000x7 [1] [0] [0] [1] [] []
  gather_S500000x7_S16500000x1_S16500000x7_1_0_n_n_0_1_17_wf : GatherDims.WF S500000x7 S16500000x1 S16500000x7 [1] [0] [] [0] [] 1 ![1, 7]
  scatter_S500000x7_S16500000x1_S16500000x7_1_0_0_1_wf : ScatterDims.WF S500000x7 S16500000x1 S16500000x7 [1] [0] [0] 1

variable [Facts₀]

def scatter_S500000_S16500000x1_S16500000_n_0_0_1 : ScatterDims S500000 S16500000x1 S16500000 where
  updateWindowDims := []
  insertedWindowDims := [0]
  scatterDimsToOperandDims := [0]
  indexVectorDim := 1
  wf := scatter_S500000_S16500000x1_S16500000_n_0_0_1_wf
def gather_S500000_S16500000x1_S16500000_n_0_n_n_0_1_1 : GatherDims S500000 S16500000x1 S16500000 where
  offsetDims := []
  collapsedSliceDims := [0]
  operandBatchingDims := []
  startIndicesBatchingDims := []
  startIndexMap := [0]
  indexVectorDim := 1
  sliceSizes := ![1]
  wf := gather_S500000_S16500000x1_S16500000_n_0_n_n_0_1_1_wf
def dot_S500000x5_S5x4_S500000x4_1_0_0_1_n_n : DotDims S500000x5 S5x4 S500000x4 where
  lhsContracting := [1]
  rhsContracting := [0]
  lhsNonContracting := [0]
  rhsNonContracting := [1]
  lhsBatch := []
  rhsBatch := []
  wf := dot_S500000x5_S5x4_S500000x4_1_0_0_1_n_n_wf
def gather_S500000x4_S16500000x1_S16500000x4_1_0_n_n_0_1_14 : GatherDims S500000x4 S16500000x1 S16500000x4 where
  offsetDims := [1]
  collapsedSliceDims := [0]
  operandBatchingDims := []
  startIndicesBatchingDims := []
  startIndexMap := [0]
  indexVectorDim := 1
  sliceSizes := ![1, 4]
  wf := gather_S500000x4_S16500000x1_S16500000x4_1_0_n_n_0_1_14_wf
def scatter_S500000x4_S16500000x1_S16500000x4_1_0_0_1 : ScatterDims S500000x4 S16500000x1 S16500000x4 where
  updateWindowDims := [1]
  insertedWindowDims := [0]
  scatterDimsToOperandDims := [0]
  indexVectorDim := 1
  wf := scatter_S500000x4_S16500000x1_S16500000x4_1_0_0_1_wf
def dot_S500000x4_S4x7_S500000x7_1_0_0_1_n_n : DotDims S500000x4 S4x7 S500000x7 where
  lhsContracting := [1]
  rhsContracting := [0]
  lhsNonContracting := [0]
  rhsNonContracting := [1]
  lhsBatch := []
  rhsBatch := []
  wf := dot_S500000x4_S4x7_S500000x7_1_0_0_1_n_n_wf
def gather_S500000x7_S16500000x1_S16500000x7_1_0_n_n_0_1_17 : GatherDims S500000x7 S16500000x1 S16500000x7 where
  offsetDims := [1]
  collapsedSliceDims := [0]
  operandBatchingDims := []
  startIndicesBatchingDims := []
  startIndexMap := [0]
  indexVectorDim := 1
  sliceSizes := ![1, 7]
  wf := gather_S500000x7_S16500000x1_S16500000x7_1_0_n_n_0_1_17_wf
def scatter_S500000x7_S16500000x1_S16500000x7_1_0_0_1 : ScatterDims S500000x7 S16500000x1 S16500000x7 where
  updateWindowDims := [1]
  insertedWindowDims := [0]
  scatterDimsToOperandDims := [0]
  indexVectorDim := 1
  wf := scatter_S500000x7_S16500000x1_S16500000x7_1_0_0_1_wf

class Facts : Prop extends Facts₀ where

variable [Facts]
-- ==== Proof.KernelFrame.R0.lean ====
/-
  Region 0 of the program: the first linear layer, `h0 = x · W1`, tiled over the rows. The grid has 100 points; point `t`
  is handed rows `5000 t … 5000 t + 4999` of `x` (window 0), the whole of `W1` (window 1, fetched once: its block never
  moves) and the matching 5000 rows of the result (window 2). The body loads the two input blocks and the result block,
  and stores over the whole result block the product of the two input blocks accumulated into zeros.
  Here: the body run once on whole staging buffers (what the result buffer then holds is one piece covering it), the
  region's proof data at any contents `V` of the buffers on entry, and the obligation the pipeline asks of the body at
  every grid point.
-/
import proofs.«139132_j10462540333056_2_alg».proof.Proof.Gen.Kernel.Launch
import proofs.«139132_j10462540333056_2_alg».proof.Proof.Gen.Kernel.Skeleton
import proofs.«139132_j10462540333056_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of `x` handed to point `t` sit in window 0's current buffer when the body runs, whatever the proof data,
    as long as its array is the entry contents and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- `W1` sits in window 1's buffer at every point: fetched at the first, and its block index never moves after. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and the store take a whole buffer -/

abbrev rx0 : Rect S5000x5 := Rect.unit (s := S5000x5) ![0, 0] S5000x5.size inb_S5000x5_S5000x5_0_0
abbrev rw0 : Rect S5x4 := Rect.unit (s := S5x4) ![0, 0] S5x4.size inb_S5x4_S5x4_0_0
abbrev ro0 : Rect S5000x4 := Rect.unit (s := S5000x4) ![0, 0] S5000x4.size inb_S5000x4_S5000x4_0_0

/-- The result buffer after the body, from the two input blocks: one piece, the product, over the whole buffer. -/
def out0_2 (x0 : Vec F S5000x5 .f32) (x1 : Vec F S5x4 .f32) : Vec F S5000x4 .f32 :=
  View.canon [⟨ro0, k0_pay1 (View.ld x0 rx0) (View.ld x1 rw0)⟩]

/-- The one store covers the result buffer. -/
theorem cover0_2 (p0 : Vec F S5000x4 .f32) (y : S5000x4.Idx) :
    ∃ pc ∈ ([⟨ro0, p0⟩] : List (View.Piece (Elt F) S5000x4 .f32)), y ∈ pc.1.set :=
  View.cover_of_tiled [⟨ro0, p0⟩] S5000x4.size (by rfl) y

/-! ## The body's triple -/

set_option maxHeartbeats 1000000 in
/-- On whole staging buffers, the inputs' at `x0`, `x1` and the result's at anything, the body runs to its return with
    the inputs' as they were and the result's at `out0_2 x0 x1`. -/
theorem sound_kernel0 (c : Dev nD) (E : Set ℕ) (i : grid0.Coords) (arg1 : Memref sig .tc .vmem S5000x5 .f32) (harg1 : arg1.IsWhole) (arg2 : Memref sig .tc .vmem S5x4 .f32) (harg2 : arg2.IsWhole) (arg3 : Memref sig .tc .vmem S5000x4 .f32) (harg3 : arg3.IsWhole)
    (x0 : Vec F S5000x5 .f32) (x1 : Vec F S5x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The region's proof data -/

/-- The proof data of region 0 on core `c` from entry contents `V`: the three arrays as found; after the body at point
    `t` the inputs' buffers at their blocks and the result's at the product of the blocks; between points only the scoped
    buffers and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KernelFrame.R1.lean ====
/-
  Region 1 of the program: bias, rectifier and the second linear layer fused, `max(agg1 + b1, 0) · W2`, tiled over the rows.
  The grid has 100 points; point `t` is handed rows `5000 t … 5000 t + 4999` of the first layer's aggregate (window 0), the
  bias as one row and `W2` whole (windows 1 and 2, each fetched once: their blocks never move) and the matching 5000 rows
  of the result (window 3). The body stores over the whole result block one value computed from the three input blocks.
  Here: the body run once on whole staging buffers, the region's proof data at any contents `V` of the buffers on entry,
  and the obligation the pipeline asks of the body at every grid point.
-/
import proofs.«139132_j10462540333056_2_alg».proof.Proof.Gen.Kernel.Launch
import proofs.«139132_j10462540333056_2_alg».proof.Proof.Gen.Kernel.Skeleton
import proofs.«139132_j10462540333056_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 5000 rows of the first layer's aggregate handed to point `t` sits in window 0's current buffer whenever the body runs (fetched there, or fetched earlier and its block index
    has not moved since), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The first bias, laid as one row, sits in window 1's current buffer whenever the body runs (fetched there, or fetched earlier and its block index
    has not moved since), for any proof data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- `W2` sits in window 2's current buffer whenever the body runs (fetched there, or fetched earlier and its block index
    has not moved since), for any proof data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and the store take a whole buffer -/

abbrev ri1_0 : Rect S5000x4 := Rect.unit (s := S5000x4) ![0, 0] S5000x4.size inb_S5000x4_S5000x4_0_0
abbrev ri1_1 : Rect S1x4 := Rect.unit (s := S1x4) ![0, 0] S1x4.size inb_S1x4_S1x4_0_0
abbrev ri1_2 : Rect S4x7 := Rect.unit (s := S4x7) ![0, 0] S4x7.size inb_S4x7_S4x7_0_0
abbrev ro1 : Rect S5000x7 := Rect.unit (s := S5000x7) ![0, 0] S5000x7.size inb_S5000x7_S5000x7_0_0

/-- The result buffer after the body, from the input blocks: one piece over the whole buffer. -/
def out1_3 (x0 : Vec F S5000x4 .f32) (x1 : Vec F S1x4 .f32) (x2 : Vec F S4x7 .f32) : Vec F S5000x7 .f32 :=
  View.canon [⟨ro1, k1_pay1 (View.ld x0 ri1_0) (View.ld x1 ri1_1) (View.ld x2 ri1_2)⟩]

/-- The one store covers the result buffer. -/
theorem cover1_3 (p0 : Vec F S5000x7 .f32) (y : S5000x7.Idx) :
    ∃ pc ∈ ([⟨ro1, p0⟩] : List (View.Piece (Elt F) S5000x7 .f32)), y ∈ pc.1.set :=
  View.cover_of_tiled [⟨ro1, p0⟩] S5000x7.size (by rfl) y

/-! ## The body's triple -/

set_option maxHeartbeats 1000000 in
/-- On whole staging buffers, the inputs' at given contents and the result's at anything, the body runs to its return
    with the inputs' as they were and the result's at `out1_3` of them. -/
theorem sound_kernel1 (c : Dev nD) (E : Set ℕ) (i : grid1.Coords) (arg1 : Memref sig .tc .vmem S5000x4 .f32) (harg1 : arg1.IsWhole) (arg2 : Memref sig .tc .vmem S1x4 .f32) (harg2 : arg2.IsWhole) (arg3 : Memref sig .tc .vmem S4x7 .f32) (harg3 : arg3.IsWhole) (arg4 : Memref sig .tc .vmem S5000x7 .f32) (harg4 : arg4.IsWhole)
    (x0 : Vec F S5000x4 .f32) (x1 : Vec F S1x4 .f32) (x2 : Vec F S4x7 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bias_relu_matmul_kernel i arg1 harg1 arg2 harg2 arg3 harg3 arg4 harg4) K := by
  simp only [cc1__bias_relu_matmul_kernel_eq_skeleton]; unfold cc1__bias_relu_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-! ## The region's proof data -/

/-- The proof data of region 1 on core `c` from entry contents `V`: the arrays as found; after the body at point `t` the
    inputs' buffers at their blocks and the result's at `out1_3` of the blocks; between points only the scoped buffers and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KernelFrame.R2Facts.lean ====
/-
  Region 2 of the program: the column log-sum-exps of `z = agg2 + b2`, accumulated tile by tile. The grid has 100 points;
  point `t` is handed rows `5000 t … 5000 t + 4999` of `agg2` (window 0), the bias as one row (window 1, fetched once) and
  the one-row result (window 2, the same block at every point: written by the body only at the last point and written
  back once, after it). Two one-row scratch buffers of the kernel's own carry the running column maximum and the running
  rescaled sum of exponentials from one point to the next: the first point resets them to `-inf` and `0`.
  Here, what the three body runs and the region's proof data share: the body's two branch conditions decided over the
  grid (the first point; the last point), where the result window is idle, the scratch buffers by name, and the core's
  scoped buffers that no window of this region stages taken apart into the two scratch buffers and the seventeen others.
-/
import proofs.«139132_j10462540333056_2_alg».proof.Proof.Gen.Kernel.Launch
import proofs.«139132_j10462540333056_2_alg».proof.Proof.Gen.Kernel.Skeleton
import proofs.«139132_j10462540333056_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The 5000 rows of `agg2` handed to point `t` sit in window 0's current buffer when the body runs. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The bias row sits in window 1's buffer at every point: fetched at the first, its block index never moves after. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, over the grid -/

/-- "This is the first point": the body's first conditional, its scalar chain from the grid coordinate spelt out. -/
abbrev cond2_0 (i : grid2.Coords) : Prop := (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val % 100 = 0 :=
  (by decide +kernel : ∀ t : Fin grid2.N, cond2_0 (grid2.coords t) ↔ t.val % 100 = 0)

/-- "This is the last point": the body's second conditional. -/
abbrev cond2_1 (i : grid2.Coords) : Prop := k2_cond2 i = 1#1
/-- It holds at point 99 only. -/
theorem hcond2_1 : ∀ t : Fin cfg2.N, cond2_1 (grid2.coords t) ↔ t.val % 100 = 99 :=
  (by decide +kernel : ∀ t : Fin grid2.N, cond2_1 (grid2.coords t) ↔ t.val % 100 = 99)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Away from the last point the result window is idle: the body stores nothing into it, -/
theorem idleAt2_2 : ∀ t : Fin cfg2.N, ¬cond2_1 (grid2.coords t) → cfg2.idle 2 (grid2.coords t) = true := by decide +kernel
/-- and the pipeline does not write it back there. -/
theorem noFlush2_2 : ∀ t : Fin cfg2.N, ¬cond2_1 (grid2.coords t) → (cfg2.win 2).flush t = false := by decide +kernel
/-- At the last point it is live. -/
theorem liveAt2_2 : ∀ t : Fin cfg2.N, cond2_1 (grid2.coords t) → cfg2.idle 2 (grid2.coords t) = false := by decide +kernel

/-! ## The memrefs the body is called with -/

abbrev ms2_0 (t : Fin cfg2.N) : Memref sig .tc .vmem S5000x7 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x7 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x7 .f32 := win2_2.stage (cfg2.slots t 2)
abbrev hs2_2 (t : Fin cfg2.N) : (ms2_2 t).IsWhole := hstage2_2 ((cfg2.slots t 2).cast nbuf2_2)
/-- The running maximum's and the running sum's scratch buffers, whole. -/
abbrev scM2_0 : Memref sig .tc .vmem S1x7 .f32 := Memref.whole cc2_scratch0
abbrev scM2_1 : Memref sig .tc .vmem S1x7 .f32 := Memref.whole cc2_scratch1
/-- One buffer of each kind as a view, through which contents are stated. -/
abbrev VO2_2 : View sig .tc .vmem S1x7 .f32 := (Memref.whole cc2_stg2_0 : Memref sig .tc .vmem S1x7 .f32).view
abbrev VS2_0 : View sig .tc .vmem S1x7 .f32 := scM2_0.view
abbrev VS2_1 : View sig .tc .vmem S1x7 .f32 := scM2_1.view

/-! ## The scoped buffers no window of this region stages -/

/-- A scoped buffer of the core held whole at some contents. -/
abbrev heldSome (c : Dev nD) (r : Ref sig .tc) : sProp 𝕄 :=
  iprop(∃ f : Buf (Elt F) ((c : Thread nD τ).loc r), ((c : Thread nD τ).loc r) ↦{fullShare} f)

/-- The seventeen that are other regions' staging buffers. -/
def others2 (c : Dev nD) : sProp 𝕄 :=
  iprop(heldSome (F := F) c cc0_stg0_0 ∗ heldSome (F := F) c cc0_stg0_1 ∗ heldSome (F := F) c cc0_stg1_0 ∗ heldSome (F := F) c cc0_stg2_0 ∗ heldSome (F := F) c cc0_stg2_1 ∗ heldSome (F := F) c cc1_stg0_0 ∗ heldSome (F := F) c cc1_stg0_1 ∗ heldSome (F := F) c cc1_stg1_0 ∗ heldSome (F := F) c cc1_stg2_0 ∗ heldSome (F := F) c cc1_stg3_0 ∗ heldSome (F := F) c cc1_stg3_1 ∗ heldSome (F := F) c cc3_stg0_0 ∗ heldSome (F := F) c cc3_stg0_1 ∗ heldSome (F := F) c cc3_stg1_0 ∗ heldSome (F := F) c cc3_stg2_0 ∗ heldSome (F := F) c cc3_stg3_0 ∗ heldSome (F := F) c cc3_stg3_1)

/-- The scoped rest taken apart: the two scratch buffers at some contents, and the others. -/
theorem scopedRest2_split (c : Dev nD) :
    (Pipeline.scopedRest (Ix := Unit) (Name := ℕ) (U := UR sig nD τ) (Lvl := ℕ) (Val := Elt F) spec2 c : sProp 𝕄)
      ⊢ iprop(heldSome (F := F) c cc2_scratch0 ∗ heldSome (F := F) c cc2_scratch1 ∗ others2 (F := F) c) := by
  rw [scopedRest2_eq]; unfold others2
  iintro ⟨H1, H2, H3, H4, H5, H6, H7, H8, H9, H10, H11, H12, H13, H14, H15, H16, H17, H18, H19⟩
  isplitl [H12]; · iexact H12
  isplitl [H13]; · iexact H13
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H14]; · iexact H14
  isplitl [H15]; · iexact H15
  isplitl [H16]; · iexact H16
  isplitl [H17]; · iexact H17
  isplitl [H18]; · iexact H18
  iexact H19

/-- and put back together. -/
theorem scopedRest2_join (c : Dev nD) :
    iprop(heldSome (F := F) c cc2_scratch0 ∗ heldSome (F := F) c cc2_scratch1 ∗ others2 (F := F) c)
      ⊢ (Pipeline.scopedRest (Ix := Unit) (Name := ℕ) (U := UR sig nD τ) (Lvl := ℕ) (Val := Elt F) spec2 c : sProp 𝕄) := by
  rw [scopedRest2_eq]; unfold others2
  iintro ⟨H12, H13, H1, H2, H3, H4, H5, H6, H7, H8, H9, H10, H11, H14, H15, H16, H17, H18, H19⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- A whole scratch buffer held at some contents, said through its memref. -/
theorem heldSome_scratch0 (c : Dev nD) : (heldSome (F := F) c cc2_scratch0 : sProp 𝕄) = iprop(∃ d, owns (c : Thread nD τ) scM2_0 fullShare d) := by
  simp only [scM2_0, owns_whole]; try rfl
theorem heldSome_scratch1 (c : Dev nD) : (heldSome (F := F) c cc2_scratch1 : sProp 𝕄) = iprop(∃ d, owns (c : Thread nD τ) scM2_1 fullShare d) := by
  simp only [scM2_1, owns_whole]; try rfl

end Cert.Kernel.Fr

end
-- ==== Proof.KernelFrame.R2Runs.lean ====
/-
  Region 2's body, run once per case of its two conditionals, on whole buffers: the tile and the bias row at given contents;
  what each run leaves in the two scratch buffers (and, at the last point, in the result buffer) is the list of pieces its
  stores wrote, found by the run itself.
  * first point (the reset branch taken, the closing branch not): the scratch buffers may hold anything; the result buffer is
    handed back as it was;
  * a middle point (neither branch): the scratch buffers hold what the point before left; the result buffer is handed back;
  * the last point (the closing branch only): as a middle point, and the result buffer, at anything, is stored into.
-/
import proofs.«139132_j10462540333056_2_alg».proof.Proof.Gen.Kernel.Launch
import proofs.«139132_j10462540333056_2_alg».proof.Proof.Gen.Kernel.Skeleton
import proofs.«139132_j10462540333056_2_alg».proof.Proof.Gen.Kernel.Points
import proofs.«139132_j10462540333056_2_alg».proof.Proof.KernelFrame.R2Facts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- The first point. -/
noncomputable def kernelRun2_A (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : cond2_0 i) (hc1 : ¬cond2_1 i)
    (x0 : Vec F S5000x7 .f32) (x1 : Vec F S1x7 .f32) :
    Σ' (LS0 : List (View.Piece (Elt F) S1x7 .f32)), { LS1 : List (View.Piece (Elt F) S1x7 .f32) //
      ∀ (xi2 : Vec F S1x7 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc2__lse_kernel i arg1 harg1 arg2 harg2 arg3 harg3 arg4 harg4 arg5 harg5) K } := by
  refine ⟨?_, ?_, fun xi2 E K => ?run⟩
  case run =>
    simp only [cc2__lse_kernel_eq_skeleton]; unfold cc2__lse_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 4000000 in
/-- A middle point. -/
noncomputable def kernelRun2_B (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : ¬cond2_1 i)
    (x0 : Vec F S5000x7 .f32) (x1 : Vec F S1x7 .f32) (xs0 : Vec F S1x7 .f32) (xs1 : Vec F S1x7 .f32) :
    Σ' (LS0 : List (View.Piece (Elt F) S1x7 .f32)), { LS1 : List (View.Piece (Elt F) S1x7 .f32) //
      ∀ (xi2 : Vec F S1x7 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc2__lse_kernel i arg1 harg1 arg2 harg2 arg3 harg3 arg4 harg4 arg5 harg5) K } := by
  refine ⟨?_, ?_, fun xi2 E K => ?run⟩
  case run =>
    simp only [cc2__lse_kernel_eq_skeleton]; unfold cc2__lse_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 4000000 in
/-- The last point. -/
noncomputable def kernelRun2_C (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : cond2_1 i)
    (x0 : Vec F S5000x7 .f32) (x1 : Vec F S1x7 .f32) (xs0 : Vec F S1x7 .f32) (xs1 : Vec F S1x7 .f32) :
    Σ' (L2 : List (View.Piece (Elt F) S1x7 .f32)) (LS0 : List (View.Piece (Elt F) S1x7 .f32)), { LS1 : List (View.Piece (Elt F) S1x7 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc2__lse_kernel i arg1 harg1 arg2 harg2 arg3 harg3 arg4 harg4 arg5 harg5) K } := by
  refine ⟨?_, ?_, ?_, fun E K => ?run⟩
  case run =>
    simp only [cc2__lse_kernel_eq_skeleton]; unfold cc2__lse_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

end Cert.Kernel.Fr

end
-- ==== Proof.KernelFrame.R2.lean ====
/-
  Region 2, the rest: what each case of the body leaves in the two scratch buffers and in the result buffer; the same point
  by point along the grid (the accumulation: point 0 from anything, every later point from what the point before left);
  the invariant the region keeps between points — before the first point only "the scoped buffers at something and the
  generator register", afterwards the running-maximum and running-sum scratch buffers AT the accumulation's values —; the
  proof data; and the obligation the pipeline asks of the body at every point, in the three cases.
-/
import proofs.«139132_j10462540333056_2_alg».proof.Proof.Gen.Kernel.Launch
import proofs.«139132_j10462540333056_2_alg».proof.Proof.Gen.Kernel.Skeleton
import proofs.«139132_j10462540333056_2_alg».proof.Proof.Gen.Kernel.Points
import proofs.«139132_j10462540333056_2_alg».proof.Proof.KernelFrame.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-- Case A's pieces for the running-maximum scratch cover it. -/
theorem scover2_A_0 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : cond2_0 i) (hc1 : ¬cond2_1 i) (x0 : Vec F S5000x7 .f32) (x1 : Vec F S1x7 .f32) (y : S1x7.Idx) :
    ∃ pc ∈ (kernelRun2_A c i arg1 harg1 arg2 harg2 arg3 harg3 arg4 harg4 arg5 harg5 hc0 hc1 x0 x1).1, y ∈ pc.1.set :=
  View.cover_of_tiledL (kernelRun2_A c i arg1 harg1 arg2 harg2 arg3 harg3 arg4 harg4 arg5 harg5 hc0 hc1 x0 x1).1 S1x7.size (by sl_kernel_rfl) y
/-- What case A leaves in the running-maximum scratch. -/
def sout2_A_0 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : cond2_0 i) (hc1 : ¬cond2_1 i) (x0 : Vec F S5000x7 .f32) (x1 : Vec F S1x7 .f32) : Vec F S1x7 .f32 :=
  VS2_0.read (Elt F) (VS2_0.writes (Elt F) VS2_0.junk (kernelRun2_A c i arg1 harg1 arg2 harg2 arg3 harg3 arg4 harg4 arg5 harg5 hc0 hc1 x0 x1).1)
/-- Case A's pieces for the running-sum scratch cover it. -/
theorem scover2_A_1 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : cond2_0 i) (hc1 : ¬cond2_1 i) (x0 : Vec F S5000x7 .f32) (x1 : Vec F S1x7 .f32) (y : S1x7.Idx) :
    ∃ pc ∈ (kernelRun2_A c i arg1 harg1 arg2 harg2 arg3 harg3 arg4 harg4 arg5 harg5 hc0 hc1 x0 x1).2.1, y ∈ pc.1.set :=
  View.cover_of_tiledL (kernelRun2_A c i arg1 harg1 arg2 harg2 arg3 harg3 arg4 harg4 arg5 harg5 hc0 hc1 x0 x1).2.1 S1x7.size (by sl_kernel_rfl) y
/-- What case A leaves in the running-sum scratch. -/
def sout2_A_1 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : cond2_0 i) (hc1 : ¬cond2_1 i) (x0 : Vec F S5000x7 .f32) (x1 : Vec F S1x7 .f32) : Vec F S1x7 .f32 :=
  VS2_1.read (Elt F) (VS2_1.writes (Elt F) VS2_1.junk (kernelRun2_A c i arg1 harg1 arg2 harg2 arg3 harg3 arg4 harg4 arg5 harg5 hc0 hc1 x0 x1).2.1)

/-- Case B's pieces for the running-maximum scratch cover it. -/
theorem scover2_B_0 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : ¬cond2_1 i) (x0 : Vec F S5000x7 .f32) (x1 : Vec F S1x7 .f32) (xs0 : Vec F S1x7 .f32) (xs1 : Vec F S1x7 .f32) (y : S1x7.Idx) :
    ∃ pc ∈ (kernelRun2_B c i arg1 harg1 arg2 harg2 arg3 harg3 arg4 harg4 arg5 harg5 hc0 hc1 x0 x1 xs0 xs1).1, y ∈ pc.1.set :=
  View.cover_of_tiledL (kernelRun2_B c i arg1 harg1 arg2 harg2 arg3 harg3 arg4 harg4 arg5 harg5 hc0 hc1 x0 x1 xs0 xs1).1 S1x7.size (by sl_kernel_rfl) y
/-- What case B leaves in the running-maximum scratch. -/
def sout2_B_0 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : ¬cond2_1 i) (x0 : Vec F S5000x7 .f32) (x1 : Vec F S1x7 .f32) (xs0 : Vec F S1x7 .f32) (xs1 : Vec F S1x7 .f32) : Vec F S1x7 .f32 :=
  VS2_0.read (Elt F) (VS2_0.writes (Elt F) VS2_0.junk (kernelRun2_B c i arg1 harg1 arg2 harg2 arg3 harg3 arg4 harg4 arg5 harg5 hc0 hc1 x0 x1 xs0 xs1).1)
/-- Case B's pieces for the running-sum scratch cover it. -/
theorem scover2_B_1 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : ¬cond2_1 i) (x0 : Vec F S5000x7 .f32) (x1 : Vec F S1x7 .f32) (xs0 : Vec F S1x7 .f32) (xs1 : Vec F S1x7 .f32) (y : S1x7.Idx) :
    ∃ pc ∈ (kernelRun2_B c i arg1 harg1 arg2 harg2 arg3 harg3 arg4 harg4 arg5 harg5 hc0 hc1 x0 x1 xs0 xs1).2.1, y ∈ pc.1.set :=
  View.cover_of_tiledL (kernelRun2_B c i arg1 harg1 arg2 harg2 arg3 harg3 arg4 harg4 arg5 harg5 hc0 hc1 x0 x1 xs0 xs1).2.1 S1x7.size (by sl_kernel_rfl) y
/-- What case B leaves in the running-sum scratch. -/
def sout2_B_1 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : ¬cond2_1 i) (x0 : Vec F S5000x7 .f32) (x1 : Vec F S1x7 .f32) (xs0 : Vec F S1x7 .f32) (xs1 : Vec F S1x7 .f32) : Vec F S1x7 .f32 :=
  VS2_1.read (Elt F) (VS2_1.writes (Elt F) VS2_1.junk (kernelRun2_B c i arg1 harg1 arg2 harg2 arg3 harg3 arg4 harg4 arg5 harg5 hc0 hc1 x0 x1 xs0 xs1).2.1)

/-- Case C's pieces for the running-maximum scratch cover it. -/
theorem scover2_C_0 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : cond2_1 i) (x0 : Vec F S5000x7 .f32) (x1 : Vec F S1x7 .f32) (xs0 : Vec F S1x7 .f32) (xs1 : Vec F S1x7 .f32) (y : S1x7.Idx) :
    ∃ pc ∈ (kernelRun2_C c i arg1 harg1 arg2 harg2 arg3 harg3 arg4 harg4 arg5 harg5 hc0 hc1 x0 x1 xs0 xs1).2.1, y ∈ pc.1.set :=
  View.cover_of_tiledL (kernelRun2_C c i arg1 harg1 arg2 harg2 arg3 harg3 arg4 harg4 arg5 harg5 hc0 hc1 x0 x1 xs0 xs1).2.1 S1x7.size (by sl_kernel_rfl) y
/-- What case C leaves in the running-maximum scratch. -/
def sout2_C_0 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : cond2_1 i) (x0 : Vec F S5000x7 .f32) (x1 : Vec F S1x7 .f32) (xs0 : Vec F S1x7 .f32) (xs1 : Vec F S1x7 .f32) : Vec F S1x7 .f32 :=
  VS2_0.read (Elt F) (VS2_0.writes (Elt F) VS2_0.junk (kernelRun2_C c i arg1 harg1 arg2 harg2 arg3 harg3 arg4 harg4 arg5 harg5 hc0 hc1 x0 x1 xs0 xs1).2.1)
/-- Case C's pieces for the running-sum scratch cover it. -/
theorem scover2_C_1 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : cond2_1 i) (x0 : Vec F S5000x7 .f32) (x1 : Vec F S1x7 .f32) (xs0 : Vec F S1x7 .f32) (xs1 : Vec F S1x7 .f32) (y : S1x7.Idx) :
    ∃ pc ∈ (kernelRun2_C c i arg1 harg1 arg2 harg2 arg3 harg3 arg4 harg4 arg5 harg5 hc0 hc1 x0 x1 xs0 xs1).2.2.1, y ∈ pc.1.set :=
  View.cover_of_tiledL (kernelRun2_C c i arg1 harg1 arg2 harg2 arg3 harg3 arg4 harg4 arg5 harg5 hc0 hc1 x0 x1 xs0 xs1).2.2.1 S1x7.size (by sl_kernel_rfl) y
/-- What case C leaves in the running-sum scratch. -/
def sout2_C_1 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : cond2_1 i) (x0 : Vec F S5000x7 .f32) (x1 : Vec F S1x7 .f32) (xs0 : Vec F S1x7 .f32) (xs1 : Vec F S1x7 .f32) : Vec F S1x7 .f32 :=
  VS2_1.read (Elt F) (VS2_1.writes (Elt F) VS2_1.junk (kernelRun2_C c i arg1 harg1 arg2 harg2 arg3 harg3 arg4 harg4 arg5 harg5 hc0 hc1 x0 x1 xs0 xs1).2.2.1)

/-- The last point's one store into the result buffer covers it. -/
theorem cover2_C_2 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : cond2_1 i) (x0 : Vec F S5000x7 .f32) (x1 : Vec F S1x7 .f32) (xs0 : Vec F S1x7 .f32) (xs1 : Vec F S1x7 .f32) (y : S1x7.Idx) :
    ∃ pc ∈ (kernelRun2_C c i arg1 harg1 arg2 harg2 arg3 harg3 arg4 harg4 arg5 harg5 hc0 hc1 x0 x1 xs0 xs1).1, y ∈ pc.1.set :=
  View.cover_of_tiledL (kernelRun2_C c i arg1 harg1 arg2 harg2 arg3 harg3 arg4 harg4 arg5 harg5 hc0 hc1 x0 x1 xs0 xs1).1 S1x7.size (by sl_kernel_rfl) y
/-- What the last point leaves in the result buffer. -/
def out2_C_2 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : cond2_1 i) (x0 : Vec F S5000x7 .f32) (x1 : Vec F S1x7 .f32) (xs0 : Vec F S1x7 .f32) (xs1 : Vec F S1x7 .f32) : Vec F S1x7 .f32 :=
  VO2_2.read (Elt F) (VO2_2.writes (Elt F) VO2_2.junk (kernelRun2_C c i arg1 harg1 arg2 harg2 arg3 harg3 arg4 harg4 arg5 harg5 hc0 hc1 x0 x1 xs0 xs1).1)

/-! ## The accumulation along the grid -/

/-- After the body at position `n`: the result buffer (a placeholder that nothing consults away from the last point, where the
    window is idle and not written back), the running-maximum scratch, the running-sum scratch. -/
def outsAt2 (c : Dev nD) : (n : ℕ) → n < cfg2.N → Vec F S1x7 .f32 × Vec F S1x7 .f32 × Vec F S1x7 .f32
  | 0, hn => ((VO2_2.read (Elt F) VO2_2.junk), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 100 = 0 then
      False.elim (by have hN : n + 1 < 100 := lt_of_lt_of_eq hn (show cfg2.N = 100 from N_2); omega)
    else
      if h1 : (n + 1) % 100 = 99 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2.1 (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2.1 (outsAt2 c n (Nat.lt_of_succ_lt hn)).2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2.1 (outsAt2 c n (Nat.lt_of_succ_lt hn)).2.2)
      else
        ((VO2_2.read (Elt F) VO2_2.junk), sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2.1 (outsAt2 c n (Nat.lt_of_succ_lt hn)).2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2.1 (outsAt2 c n (Nat.lt_of_succ_lt hn)).2.2)

theorem outsAt2_A (c : Dev nD) (t : Fin cfg2.N) (h0 : t.val % 100 = 0) (h1 : ¬t.val % 100 = 99) :
    outsAt2 V c t.val t.isLt = ((VO2_2.read (Elt F) VO2_2.junk), sout2_A_0 c (grid2.coords t) (ms2_0 t) (hs2_0 t) (ms2_1 t) (hs2_1 t) (ms2_2 t) (hs2_2 t) scM2_0 (Memref.isWhole_whole _) scM2_1 (Memref.isWhole_whole _) ((hcond2_0 t).mpr h0) (fun h => h1 ((hcond2_1 t).mp h)) (iblk2 V c 0 t) (iblk2 V c 1 t), sout2_A_1 c (grid2.coords t) (ms2_0 t) (hs2_0 t) (ms2_1 t) (hs2_1 t) (ms2_2 t) (hs2_2 t) scM2_0 (Memref.isWhole_whole _) scM2_1 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (by exfalso; have hN : n + 1 < 100 := lt_of_lt_of_eq hn (show cfg2.N = 100 from N_2); (try dsimp only at h0); omega)

theorem outsAt2_B (c : Dev nD) (t : Fin cfg2.N) (h0 : ¬t.val % 100 = 0) (h1 : ¬t.val % 100 = 99) :
    outsAt2 V c t.val t.isLt = ((VO2_2.read (Elt F) VO2_2.junk), sout2_B_0 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2.1 (outsAt2 V c (t.val - 1) (Nat.lt_of_le_of_lt (Nat.sub_le _ _) t.isLt)).2.2, sout2_B_1 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 100 = 0) (h1 : t.val % 100 = 99) :
    outsAt2 V c t.val t.isLt = (out2_C_2 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.1 (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.1 (outsAt2 V c (t.val - 1) (Nat.lt_of_le_of_lt (Nat.sub_le _ _) t.isLt)).2.2, sout2_C_1 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the start the scoped buffers at something and the generator register; after any point the other
    regions' buffers at something, the two scratch buffers at what that point left, and the generator register. -/
def PhiS (c : Dev nD) : (n : ℕ) → n ≤ cfg2.N → sProp 𝕄
  | 0, _ => Pipeline.ΦA spec2 c
  | n + 1, hn => iprop(iprop(owns (c : Thread nD τ) scM2_0 fullShare ((outsAt2 V c n hn).2.1) ∗ owns (c : Thread nD τ) scM2_1 fullShare ((outsAt2 V c n hn).2.2) ∗ others2 (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM2_0 fullShare ((outsAt2 V c n hn).2.1) ∗ owns (c : Thread nD τ) scM2_1 fullShare ((outsAt2 V c n hn).2.2) ∗ others2 (F := F) c) ∗ (∃ r, prngReg c r)) := rfl

theorem PhiS_pos (c : Dev nD) (n : ℕ) (h : n ≤ cfg2.N) (hz : n ≠ 0) :
    PhiS V c n h = iprop(iprop(owns (c : Thread nD τ) scM2_0 fullShare ((outsAt2 V c (n - 1) (by omega)).2.1) ∗ owns (c : Thread nD τ) scM2_1 fullShare ((outsAt2 V c (n - 1) (by omega)).2.2) ∗ others2 (F := F) c) ∗ (∃ r, prngReg c r)) := by
  cases n with
  | zero => exact absurd rfl hz
  | succ n => rfl

/-- The start invariant hands out the two scratch buffers at something, the others, and the generator register. -/
theorem PhiA2_split (c : Dev nD) :
    (Pipeline.ΦA spec2 c : sProp 𝕄)
      ⊢ iprop(iprop((∃ d, owns (c : Thread nD τ) scM2_0 fullShare d) ∗ (∃ d, owns (c : Thread nD τ) scM2_1 fullShare d) ∗ others2 (F := F) c) ∗ (∃ r, prngReg c r)) := by
  unfold Pipeline.ΦA
  iintro ⟨Hs, Hg⟩
  isplitl [Hs]
  · ihave H := scopedRest2_split (F := F) c $$ Hs
    rw [heldSome_scratch0, heldSome_scratch1]
    iexact H
  iexact Hg

/-- and takes them back. -/
theorem PhiA2_join (c : Dev nD) :
    iprop(iprop((∃ d, owns (c : Thread nD τ) scM2_0 fullShare d) ∗ (∃ d, owns (c : Thread nD τ) scM2_1 fullShare d) ∗ others2 (F := F) c) ∗ (∃ r, prngReg c r))
      ⊢ (Pipeline.ΦA spec2 c : sProp 𝕄) := by
  unfold Pipeline.ΦA
  iintro ⟨Hs, Hg⟩
  isplitl [Hs]
  · rw [← heldSome_scratch0, ← heldSome_scratch1]
    iapply (scopedRest2_join (F := F) c)
    iexact Hs
  iexact Hg

/-! ## The region's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' buffers hold their blocks; which case the point is in is read off the closed forms of
    the two conditions. At the first point the invariant hands the body the two scratch buffers at anything; at a later point
    at what the point before left; either way it takes them back at this point's values. Away from the last point the result
    buffer is handed back untouched (the window is idle there); at the last point it is stored into. Nothing is owed. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS V c (t.val + 1) t.isLt from rfl, PhiS_succ]
  have hN : t.val < 100 := lt_of_lt_of_eq t.isLt (show cfg2.N = 100 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 100 = 0
  · have h1 : ¬t.val % 100 = 99 := by omega
    have hz : t.val = 0 := by omega
    rw [Dat.leavesExact_idle (dat2 V c) 2 t (idleAt2_2 t (fun h => h1 ((hcond2_1 t).mp h))) (noFlush2_2 t (fun h => h1 ((hcond2_1 t).mp h)))]
    rw [outsAt2_A V c t h0 h1]
    unfold sout2_A_0 sout2_A_1; (try dsimp only)
    rw [PhiS_castSucc V c t, PhiS_zero V c _ _ hz]
    iintro ⟨HΦ, Ho, ⟨%d0, H0⟩, ⟨%d1, H1⟩, ⟨%d2, H2⟩⟩
    ihave HΦ' := PhiA2_split (F := F) c $$ HΦ
    icases HΦ' with ⟨⟨HS0, HS1, Hoth⟩, Hg⟩
    iapply ((kernelRun2_A c (grid2.coords t) _ _ _ _ _ _ _ _ _ _ ((hcond2_0 t).mpr h0) (fun h => h1 ((hcond2_1 t).mp h)) (iblk2 V c 0 t) (iblk2 V c 1 t)).2.2 _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact View.read_writes_of_cover _ _ _ _ _ (scover2_A_0 c _ _ _ _ _ _ _ _ _ _ _ _ _ _ _)
        isplitl [HS1]
        · unfold owns; iexists _; isplitr
          swap; · iexact HS1
          ipureintro; exact View.read_writes_of_cover _ _ _ _ _ (scover2_A_1 c _ _ _ _ _ _ _ _ _ _ _ _ _ _ _)
        iexact Hoth
      iexact Hg
    isplitl [Ho]; · iexact Ho
    isplitl [H0]; · iexact H0
    isplitl [H1]; · iexact H1
    iexists _; iexact H2
  · have hz : t.val ≠ 0 := by omega
    by_cases h1 : t.val % 100 = 99
    · rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C_2 sout2_C_0 sout2_C_1; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩⟩
      iapply ((kernelRun2_C c (grid2.coords t) _ _ _ _ _ _ _ _ _ _ (fun h => h0 ((hcond2_0 t).mp h)) ((hcond2_1 t).mpr h1) (iblk2 V c 0 t) (iblk2 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover2_C_0 c _ _ _ _ _ _ _ _ _ _ _ _ _ _ _ _ _)
          isplitl [HS1]
          · unfold owns; iexists _; isplitr
            swap; · iexact HS1
            ipureintro; exact View.read_writes_of_cover _ _ _ _ _ (scover2_C_1 c _ _ _ _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _ _ _ _)
    · rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B_0 sout2_B_1; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) _ _).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover2_B_0 c _ _ _ _ _ _ _ _ _ _ _ _ _ _ _ _ _)
          isplitl [HS1]
          · unfold owns; iexists _; isplitr
            swap; · iexact HS1
            ipureintro; exact View.read_writes_of_cover _ _ _ _ _ (scover2_B_1 c _ _ _ _ _ _ _ _ _ _ _ _ _ _ _ _ _)
          iexact Hoth
        iexact Hg
      isplitl [Ho]; · iexact Ho
      isplitl [H0]; · iexact H0
      isplitl [H1]; · iexact H1
      iexists _; iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KernelFrame.R3.lean ====
/-
  Region 3 of the program: the normalisation `(agg2 + b2) - lse`, tiled over the rows. The grid has 100 points; point `t` is
  handed rows `5000 t … 5000 t + 4999` of the second layer's aggregate (window 0), the bias as one row and the row of column
  log-sum-exps (windows 1 and 2, each fetched once: their blocks never move) and the matching 5000 rows of the result
  (window 3). The body stores over the whole result block one pointwise value of the three input blocks.
  Here: the body run once on whole staging buffers, the region's proof data at any contents `V` of the buffers on entry,
  and the obligation the pipeline asks of the body at every grid point.
-/
import proofs.«139132_j10462540333056_2_alg».proof.Proof.Gen.Kernel.Launch
import proofs.«139132_j10462540333056_2_alg».proof.Proof.Gen.Kernel.Skeleton
import proofs.«139132_j10462540333056_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The 5000 rows of the second layer's aggregate handed to point `t` sits in window 0's current buffer whenever the body runs (fetched there, or fetched earlier and its block index
    has not moved since), for any proof data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The second bias, laid as one row, sits in window 1's current buffer whenever the body runs (fetched there, or fetched earlier and its block index
    has not moved since), for any proof data whose array is the entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The row of column log-sum-exps sits in window 2's current buffer whenever the body runs (fetched there, or fetched earlier and its block index
    has not moved since), for any proof data whose array is the entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each load and the store take a whole buffer -/

abbrev ri3_0 : Rect S5000x7 := Rect.unit (s := S5000x7) ![0, 0] S5000x7.size inb_S5000x7_S5000x7_0_0
abbrev ri3_1 : Rect S1x7 := Rect.unit (s := S1x7) ![0, 0] S1x7.size inb_S1x7_S1x7_0_0
abbrev ri3_2 : Rect S1x7 := Rect.unit (s := S1x7) ![0, 0] S1x7.size inb_S1x7_S1x7_0_0
abbrev ro3 : Rect S5000x7 := Rect.unit (s := S5000x7) ![0, 0] S5000x7.size inb_S5000x7_S5000x7_0_0

/-- The result buffer after the body, from the input blocks: one piece over the whole buffer. -/
def out3_3 (x0 : Vec F S5000x7 .f32) (x1 : Vec F S1x7 .f32) (x2 : Vec F S1x7 .f32) : Vec F S5000x7 .f32 :=
  View.canon [⟨ro3, k3_pay1 (View.ld x0 ri3_0) (View.ld x1 ri3_1) (View.ld x2 ri3_2)⟩]

/-- The one store covers the result buffer. -/
theorem cover3_3 (p0 : Vec F S5000x7 .f32) (y : S5000x7.Idx) :
    ∃ pc ∈ ([⟨ro3, p0⟩] : List (View.Piece (Elt F) S5000x7 .f32)), y ∈ pc.1.set :=
  View.cover_of_tiled [⟨ro3, p0⟩] S5000x7.size (by rfl) y

/-! ## The body's triple -/

set_option maxHeartbeats 1000000 in
/-- On whole staging buffers, the inputs' at given contents and the result's at anything, the body runs to its return
    with the inputs' as they were and the result's at `out3_3` of them. -/
theorem sound_kernel3 (c : Dev nD) (E : Set ℕ) (i : grid3.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S5000x7 .f32) (harg4 : arg4.IsWhole)
    (x0 : Vec F S5000x7 .f32) (x1 : Vec F S1x7 .f32) (x2 : Vec F S1x7 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__normalize_kernel i arg1 harg1 arg2 harg2 arg3 harg3 arg4 harg4) K := by
  simp only [cc3__normalize_kernel_eq_skeleton]; unfold cc3__normalize_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover3_3 _)

/-! ## The region's proof data -/

/-- The proof data of region 3 on core `c` from entry contents `V`: the arrays as found; after the body at point `t` the
    inputs' buffers at their blocks and the result's at `out3_3` of the blocks; between points only the scoped buffers and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KernelFrame.Run.lean ====
/-
  The whole program as ten segments — three stretches of host operations, region 0, a stretch, region 1, a stretch,
  region 2, a one-operation stretch, region 3 — with the contents of every unscoped buffer of the core named at each of the
  eleven boundaries: the launch memory, then after a host stretch the stretch's operations applied, and after a region its
  windows' arrays at what the pipeline's write-backs leave (each input as entered) and every other buffer as entered.
  Each region is entered from "every unscoped buffer at the boundary's contents, the generator register at some state,
  nothing owed" and left at the next boundary's; the run of the ten segments then ends with every unscoped buffer of the
  core at the last boundary's contents. Read at the six arguments this is the frame (no stretch and no region writes an
  argument); read at the result it is the result's value.
-/
import proofs.«139132_j10462540333056_2_alg».proof.Proof.Gen.Kernel.Launch
import proofs.«139132_j10462540333056_2_alg».proof.Proof.Gen.Kernel.Skeleton
import proofs.«139132_j10462540333056_2_alg».proof.Proof.Gen.Kernel.Points
import proofs.«139132_j10462540333056_2_alg».proof.Proof.Gen.Kernel.Regions
import proofs.«139132_j10462540333056_2_alg».proof.Proof.KernelFrame.R0
import proofs.«139132_j10462540333056_2_alg».proof.Proof.KernelFrame.R1
import proofs.«139132_j10462540333056_2_alg».proof.Proof.KernelFrame.R2
import proofs.«139132_j10462540333056_2_alg».proof.Proof.KernelFrame.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the stretch `hostOps0`. -/
abbrev W1 : Dev nD → Valuation τ sig (Elt F) := fun c => StableHlo.after hostOps0 (W0 m c)
/-- After the stretch `hostOps0_1`. -/
abbrev W2 : Dev nD → Valuation τ sig (Elt F) := fun c => StableHlo.after hostOps0_1 (W1 m c)
/-- After the stretch `hostOps0_2`. -/
abbrev W3 : Dev nD → Valuation τ sig (Elt F) := fun c => StableHlo.after hostOps0_2 (W2 m c)
/-- Region 0's entry contents, read at the TensorCore's references. -/
abbrev V3 : (c : Dev nD) → (b : Ref sig .tc) → Buf (Elt F) ((c : Thread nD τ).loc b) := fun c b => W3 m c b
/-- At region 0's exit: its arrays at what the pipeline leaves, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- After the stretch `hostOps1`. -/
abbrev W5 : Dev nD → Valuation τ sig (Elt F) := fun c => StableHlo.after hostOps1 (W4 m c)
/-- Region 1's entry contents, read at the TensorCore's references. -/
abbrev V5 : (c : Dev nD) → (b : Ref sig .tc) → Buf (Elt F) ((c : Thread nD τ).loc b) := fun c b => W5 m c b
/-- At region 1's exit: its arrays at what the pipeline leaves, every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
/-- After the stretch `hostOps2`. -/
abbrev W7 : Dev nD → Valuation τ sig (Elt F) := fun c => StableHlo.after hostOps2 (W6 m c)
/-- Region 2's entry contents, read at the TensorCore's references. -/
abbrev V7 : (c : Dev nD) → (b : Ref sig .tc) → Buf (Elt F) ((c : Thread nD τ).loc b) := fun c b => W7 m c b
/-- At region 2's exit: its arrays at what the pipeline leaves, every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)
/-- After the stretch `hostOps3`. -/
abbrev W9 : Dev nD → Valuation τ sig (Elt F) := fun c => StableHlo.after hostOps3 (W8 m c)
/-- Region 3's entry contents, read at the TensorCore's references. -/
abbrev V9 : (c : Dev nD) → (b : Ref sig .tc) → Buf (Elt F) ((c : Thread nD τ).loc b) := fun c b => W9 m c b
/-- At region 3's exit: its arrays at what the pipeline leaves, every other buffer as entered. -/
def W10 (c : Dev nD) : Valuation τ sig (Elt F) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
abbrev V10 : (c : Dev nD) → (b : Ref sig .tc) → Buf (Elt F) ((c : Thread nD τ).loc b) := fun c b => W10 m c b
theorem hF3 (c : Dev nD) (w : Fin cfg3.W) : (dat3 (V9 m) c).arrAt w cfg3.N = V10 m c (Pipeline.arrRef spec3 w) :=
  (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)

/-! ## The arguments end as launched -/
theorem W10_main_arg0 (c : Dev nD) : W10 m c (Proc.devRef .tc main_arg0) = m ((c : Thread nD τ).loc main_arg0) :=
  calc W10 m c (Proc.devRef .tc main_arg0)
    _ = W9 m c (Proc.devRef .tc main_arg0) := W10_of_ne m c main_arg0 (by decide)
    _ = W8 m c (Proc.devRef .tc main_arg0) := StableHlo.after_of_writes_sub hostOps3 _ hostOps3_writes (by decide : main_arg0 ∉ hostOps3_W)
    _ = W7 m c (Proc.devRef .tc main_arg0) := W8_of_ne m c main_arg0 (by decide)
    _ = W6 m c (Proc.devRef .tc main_arg0) := StableHlo.after_of_writes_sub hostOps2 _ hostOps2_writes (by decide : main_arg0 ∉ hostOps2_W)
    _ = W5 m c (Proc.devRef .tc main_arg0) := W6_of_ne m c main_arg0 (by decide)
    _ = W4 m c (Proc.devRef .tc main_arg0) := StableHlo.after_of_writes_sub hostOps1 _ hostOps1_writes (by decide : main_arg0 ∉ hostOps1_W)
    _ = W3 m c (Proc.devRef .tc main_arg0) := (W4_arr m c 0).trans (((dat0 (V3 m) c).arrAt_in 0 rfl _).trans (A_eq0 (V3 m) c 0))
    _ = W2 m c (Proc.devRef .tc main_arg0) := StableHlo.after_of_writes_sub hostOps0_2 _ hostOps0_2_writes (by decide : main_arg0 ∉ hostOps0_2_W)
    _ = W1 m c (Proc.devRef .tc main_arg0) := StableHlo.after_of_writes_sub hostOps0_1 _ hostOps0_1_writes (by decide : main_arg0 ∉ hostOps0_1_W)
    _ = W0 m c (Proc.devRef .tc main_arg0) := StableHlo.after_of_writes_sub hostOps0 _ hostOps0_writes (by decide : main_arg0 ∉ hostOps0_W)
    _ = m ((c : Thread nD τ).loc main_arg0) := rfl
theorem W10_main_arg1 (c : Dev nD) : W10 m c (Proc.devRef .tc main_arg1) = m ((c : Thread nD τ).loc main_arg1) :=
  calc W10 m c (Proc.devRef .tc main_arg1)
    _ = W9 m c (Proc.devRef .tc main_arg1) := W10_of_ne m c main_arg1 (by decide)
    _ = W8 m c (Proc.devRef .tc main_arg1) := StableHlo.after_of_writes_sub hostOps3 _ hostOps3_writes (by decide : main_arg1 ∉ hostOps3_W)
    _ = W7 m c (Proc.devRef .tc main_arg1) := W8_of_ne m c main_arg1 (by decide)
    _ = W6 m c (Proc.devRef .tc main_arg1) := StableHlo.after_of_writes_sub hostOps2 _ hostOps2_writes (by decide : main_arg1 ∉ hostOps2_W)
    _ = W5 m c (Proc.devRef .tc main_arg1) := W6_of_ne m c main_arg1 (by decide)
    _ = W4 m c (Proc.devRef .tc main_arg1) := StableHlo.after_of_writes_sub hostOps1 _ hostOps1_writes (by decide : main_arg1 ∉ hostOps1_W)
    _ = W3 m c (Proc.devRef .tc main_arg1) := W4_of_ne m c main_arg1 (by decide)
    _ = W2 m c (Proc.devRef .tc main_arg1) := StableHlo.after_of_writes_sub hostOps0_2 _ hostOps0_2_writes (by decide : main_arg1 ∉ hostOps0_2_W)
    _ = W1 m c (Proc.devRef .tc main_arg1) := StableHlo.after_of_writes_sub hostOps0_1 _ hostOps0_1_writes (by decide : main_arg1 ∉ hostOps0_1_W)
    _ = W0 m c (Proc.devRef .tc main_arg1) := StableHlo.after_of_writes_sub hostOps0 _ hostOps0_writes (by decide : main_arg1 ∉ hostOps0_W)
    _ = m ((c : Thread nD τ).loc main_arg1) := rfl
theorem W10_main_arg2 (c : Dev nD) : W10 m c (Proc.devRef .tc main_arg2) = m ((c : Thread nD τ).loc main_arg2) :=
  calc W10 m c (Proc.devRef .tc main_arg2)
    _ = W9 m c (Proc.devRef .tc main_arg2) := W10_of_ne m c main_arg2 (by decide)
    _ = W8 m c (Proc.devRef .tc main_arg2) := StableHlo.after_of_writes_sub hostOps3 _ hostOps3_writes (by decide : main_arg2 ∉ hostOps3_W)
    _ = W7 m c (Proc.devRef .tc main_arg2) := W8_of_ne m c main_arg2 (by decide)
    _ = W6 m c (Proc.devRef .tc main_arg2) := StableHlo.after_of_writes_sub hostOps2 _ hostOps2_writes (by decide : main_arg2 ∉ hostOps2_W)
    _ = W5 m c (Proc.devRef .tc main_arg2) := W6_of_ne m c main_arg2 (by decide)
    _ = W4 m c (Proc.devRef .tc main_arg2) := StableHlo.after_of_writes_sub hostOps1 _ hostOps1_writes (by decide : main_arg2 ∉ hostOps1_W)
    _ = W3 m c (Proc.devRef .tc main_arg2) := (W4_arr m c 1).trans (((dat0 (V3 m) c).arrAt_in 1 rfl _).trans (A_eq0 (V3 m) c 1))
    _ = W2 m c (Proc.devRef .tc main_arg2) := StableHlo.after_of_writes_sub hostOps0_2 _ hostOps0_2_writes (by decide : main_arg2 ∉ hostOps0_2_W)
    _ = W1 m c (Proc.devRef .tc main_arg2) := StableHlo.after_of_writes_sub hostOps0_1 _ hostOps0_1_writes (by decide : main_arg2 ∉ hostOps0_1_W)
    _ = W0 m c (Proc.devRef .tc main_arg2) := StableHlo.after_of_writes_sub hostOps0 _ hostOps0_writes (by decide : main_arg2 ∉ hostOps0_W)
    _ = m ((c : Thread nD τ).loc main_arg2) := rfl
theorem W10_main_arg3 (c : Dev nD) : W10 m c (Proc.devRef .tc main_arg3) = m ((c : Thread nD τ).loc main_arg3) :=
  calc W10 m c (Proc.devRef .tc main_arg3)
    _ = W9 m c (Proc.devRef .tc main_arg3) := W10_of_ne m c main_arg3 (by decide)
    _ = W8 m c (Proc.devRef .tc main_arg3) := StableHlo.after_of_writes_sub hostOps3 _ hostOps3_writes (by decide : main_arg3 ∉ hostOps3_W)
    _ = W7 m c (Proc.devRef .tc main_arg3) := W8_of_ne m c main_arg3 (by decide)
    _ = W6 m c (Proc.devRef .tc main_arg3) := StableHlo.after_of_writes_sub hostOps2 _ hostOps2_writes (by decide : main_arg3 ∉ hostOps2_W)
    _ = W5 m c (Proc.devRef .tc main_arg3) := W6_of_ne m c main_arg3 (by decide)
    _ = W4 m c (Proc.devRef .tc main_arg3) := StableHlo.after_of_writes_sub hostOps1 _ hostOps1_writes (by decide : main_arg3 ∉ hostOps1_W)
    _ = W3 m c (Proc.devRef .tc main_arg3) := W4_of_ne m c main_arg3 (by decide)
    _ = W2 m c (Proc.devRef .tc main_arg3) := StableHlo.after_of_writes_sub hostOps0_2 _ hostOps0_2_writes (by decide : main_arg3 ∉ hostOps0_2_W)
    _ = W1 m c (Proc.devRef .tc main_arg3) := StableHlo.after_of_writes_sub hostOps0_1 _ hostOps0_1_writes (by decide : main_arg3 ∉ hostOps0_1_W)
    _ = W0 m c (Proc.devRef .tc main_arg3) := StableHlo.after_of_writes_sub hostOps0 _ hostOps0_writes (by decide : main_arg3 ∉ hostOps0_W)
    _ = m ((c : Thread nD τ).loc main_arg3) := rfl
theorem W10_main_arg4 (c : Dev nD) : W10 m c (Proc.devRef .tc main_arg4) = m ((c : Thread nD τ).loc main_arg4) :=
  calc W10 m c (Proc.devRef .tc main_arg4)
    _ = W9 m c (Proc.devRef .tc main_arg4) := W10_of_ne m c main_arg4 (by decide)
    _ = W8 m c (Proc.devRef .tc main_arg4) := StableHlo.after_of_writes_sub hostOps3 _ hostOps3_writes (by decide : main_arg4 ∉ hostOps3_W)
    _ = W7 m c (Proc.devRef .tc main_arg4) := W8_of_ne m c main_arg4 (by decide)
    _ = W6 m c (Proc.devRef .tc main_arg4) := StableHlo.after_of_writes_sub hostOps2 _ hostOps2_writes (by decide : main_arg4 ∉ hostOps2_W)
    _ = W5 m c (Proc.devRef .tc main_arg4) := (W6_arr m c 2).trans (((dat1 (V5 m) c).arrAt_in 2 rfl _).trans (A_eq1 (V5 m) c 2))
    _ = W4 m c (Proc.devRef .tc main_arg4) := StableHlo.after_of_writes_sub hostOps1 _ hostOps1_writes (by decide : main_arg4 ∉ hostOps1_W)
    _ = W3 m c (Proc.devRef .tc main_arg4) := W4_of_ne m c main_arg4 (by decide)
    _ = W2 m c (Proc.devRef .tc main_arg4) := StableHlo.after_of_writes_sub hostOps0_2 _ hostOps0_2_writes (by decide : main_arg4 ∉ hostOps0_2_W)
    _ = W1 m c (Proc.devRef .tc main_arg4) := StableHlo.after_of_writes_sub hostOps0_1 _ hostOps0_1_writes (by decide : main_arg4 ∉ hostOps0_1_W)
    _ = W0 m c (Proc.devRef .tc main_arg4) := StableHlo.after_of_writes_sub hostOps0 _ hostOps0_writes (by decide : main_arg4 ∉ hostOps0_W)
    _ = m ((c : Thread nD τ).loc main_arg4) := rfl
theorem W10_main_arg5 (c : Dev nD) : W10 m c (Proc.devRef .tc main_arg5) = m ((c : Thread nD τ).loc main_arg5) :=
  calc W10 m c (Proc.devRef .tc main_arg5)
    _ = W9 m c (Proc.devRef .tc main_arg5) := W10_of_ne m c main_arg5 (by decide)
    _ = W8 m c (Proc.devRef .tc main_arg5) := StableHlo.after_of_writes_sub hostOps3 _ hostOps3_writes (by decide : main_arg5 ∉ hostOps3_W)
    _ = W7 m c (Proc.devRef .tc main_arg5) := W8_of_ne m c main_arg5 (by decide)
    _ = W6 m c (Proc.devRef .tc main_arg5) := StableHlo.after_of_writes_sub hostOps2 _ hostOps2_writes (by decide : main_arg5 ∉ hostOps2_W)
    _ = W5 m c (Proc.devRef .tc main_arg5) := W6_of_ne m c main_arg5 (by decide)
    _ = W4 m c (Proc.devRef .tc main_arg5) := StableHlo.after_of_writes_sub hostOps1 _ hostOps1_writes (by decide : main_arg5 ∉ hostOps1_W)
    _ = W3 m c (Proc.devRef .tc main_arg5) := W4_of_ne m c main_arg5 (by decide)
    _ = W2 m c (Proc.devRef .tc main_arg5) := StableHlo.after_of_writes_sub hostOps0_2 _ hostOps0_2_writes (by decide : main_arg5 ∉ hostOps0_2_W)
    _ = W1 m c (Proc.devRef .tc main_arg5) := StableHlo.after_of_writes_sub hostOps0_1 _ hostOps0_1_writes (by decide : main_arg5 ∉ hostOps0_1_W)
    _ = W0 m c (Proc.devRef .tc main_arg5) := StableHlo.after_of_writes_sub hostOps0 _ hostOps0_writes (by decide : main_arg5 ∉ hostOps0_W)
    _ = m ((c : Thread nD τ).loc main_arg5) := rfl

/-! ## The proof data family and the thread state -/

abbrev adm : (p : Fin 4) → (pcfgs (F := F) p).Adm := fun p => (cfgs p).toPCfg_adm
/-- Every region's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W10 m c) ∗ ∃ r, prngReg c r)

/-- After any point but the first, region 2's invariant gives the start invariant back: the scratch buffers' named contents
    are forgotten. -/
theorem Phi2_out (c : Dev nD) (t : Fin (cfg2.N + 1)) (ht : t.val ≠ 0) : (dat2 (V7 m) c).Φ t ⊢ Pipeline.ΦA spec2 c := by
  rw [show (dat2 (V7 m) c).Φ t = PhiS (V7 m) c t.val (Nat.le_of_lt_succ t.isLt) from rfl, PhiS_pos (V7 m) c _ _ ht]
  iintro ⟨⟨HS0, HS1, Hoth⟩, Hg⟩
  iapply (PhiA2_join (F := F) c)
  isplitl [HS0 HS1 Hoth]
  · isplitl [HS0]; · iexists _; iexact HS0
    isplitl [HS1]; · iexists _; iexact HS1
    iexact Hoth
  iexact Hg

/-! ## The regions as segments -/

set_option backward.isDefEq.respectTransparency.types false in
/-- Region 0 over the thread state: its arrays split out of the unscoped buffers on entry and put back at the exit
    contents; the generator register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers on entry and put back at the exit
    contents; the generator register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers on entry and put back at the exit
    contents; the generator register into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = (dat2 (V7 m) c).Φ (Fin.last cfg2.N) from rfl]
    have h := Phi2_out m c (Fin.last cfg2.N) (by rw [Fin.val_last]; have : cfg2.N = 100 := N_2; omega)
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: its arrays split out of the unscoped buffers on entry and put back at the exit
    contents; the generator register into the invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m) ]

theorem main_run (c : Dev nD) : main (F := F) c = Pipeline.Seg.run (segs m) := (main_chain c).trans (by chain_rfl)

set_option backward.isDefEq.respectTransparency.types false in
/-- From any memory with zero counters every weakly fair execution of the program terminates, nothing faulting, and in
    every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c _ (mem_uc main_arg0 (by decide))).trans (W10_main_arg0 m c),
      (h c _ (mem_uc main_arg1 (by decide))).trans (W10_main_arg1 m c),
      (h c _ (mem_uc main_arg2 (by decide))).trans (W10_main_arg2 m c),
      (h c _ (mem_uc main_arg3 (by decide))).trans (W10_main_arg3 m c),
      (h c _ (mem_uc main_arg4 (by decide))).trans (W10_main_arg4 m c),
      (h c _ (mem_uc main_arg5 (by decide))).trans (W10_main_arg5 m c)⟩) (run_all m ρ)

/-- The result: the result array ends at region 3's output array as the pipeline's write-backs leave it, beside the frame. -/
theorem run_result : θ_run defs (onTc (τ := τ) (main (F := F))) ⟨m, fun _ => 0, ρ⟩ (fun r => ∀ c : Dev nD,
      r.2.mem ((c.tc : Thread nD τ).loc main_v64) = (dat3 (V9 m) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c _ (mem_uc main_v64 (by decide))).trans (W10_arr m c 3),
      (h c _ (mem_uc main_arg0 (by decide))).trans (W10_main_arg0 m c),
      (h c _ (mem_uc main_arg1 (by decide))).trans (W10_main_arg1 m c),
      (h c _ (mem_uc main_arg2 (by decide))).trans (W10_main_arg2 m c),
      (h c _ (mem_uc main_arg3 (by decide))).trans (W10_main_arg3 m c),
      (h c _ (mem_uc main_arg4 (by decide))).trans (W10_main_arg4 m c),
      (h c _ (mem_uc main_arg5 (by decide))).trans (W10_main_arg5 m c)⟩) (run_all m ρ)

end Cert.Kernel.Fr

end
-- ==== Proof.KernelIdealFrame.R0.lean ====
/-
  Region 0 of the program: the first linear layer, `h0 = x · W1`, tiled over the rows. The grid has 100 points; point `t`
  is handed rows `5000 t … 5000 t + 4999` of `x` (window 0), the whole of `W1` (window 1, fetched once: its block never
  moves) and the matching 5000 rows of the result (window 2). The body loads the two input blocks and the result block,
  and stores over the whole result block the product of the two input blocks accumulated into zeros.
  Here: the body run once on whole staging buffers (what the result buffer then holds is one piece covering it), the
  region's proof data at any contents `V` of the buffers on entry, and the obligation the pipeline asks of the body at
  every grid point.
-/
import proofs.«139132_j10462540333056_2_alg».proof.Proof.Gen.KernelIdeal.Launch
import proofs.«139132_j10462540333056_2_alg».proof.Proof.Gen.KernelIdeal.Skeleton
import proofs.«139132_j10462540333056_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of `x` handed to point `t` sit in window 0's current buffer when the body runs, whatever the proof data,
    as long as its array is the entry contents and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- `W1` sits in window 1's buffer at every point: fetched at the first, and its block index never moves after. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and the store take a whole buffer -/

abbrev rx0 : Rect S5000x5 := Rect.unit (s := S5000x5) ![0, 0] S5000x5.size inb_S5000x5_S5000x5_0_0
abbrev rw0 : Rect S5x4 := Rect.unit (s := S5x4) ![0, 0] S5x4.size inb_S5x4_S5x4_0_0
abbrev ro0 : Rect S5000x4 := Rect.unit (s := S5000x4) ![0, 0] S5000x4.size inb_S5000x4_S5000x4_0_0

/-- The result buffer after the body, from the two input blocks: one piece, the product, over the whole buffer. -/
def out0_2 (x0 : Vec F S5000x5 .f32) (x1 : Vec F S5x4 .f32) : Vec F S5000x4 .f32 :=
  View.canon [⟨ro0, k0_pay1 (View.ld x0 rx0) (View.ld x1 rw0)⟩]

/-- The one store covers the result buffer. -/
theorem cover0_2 (p0 : Vec F S5000x4 .f32) (y : S5000x4.Idx) :
    ∃ pc ∈ ([⟨ro0, p0⟩] : List (View.Piece (Elt F) S5000x4 .f32)), y ∈ pc.1.set :=
  View.cover_of_tiled [⟨ro0, p0⟩] S5000x4.size (by rfl) y

/-! ## The body's triple -/

set_option maxHeartbeats 1000000 in
/-- On whole staging buffers, the inputs' at `x0`, `x1` and the result's at anything, the body runs to its return with
    the inputs' as they were and the result's at `out0_2 x0 x1`. -/
theorem sound_kernel0 (c : Dev nD) (E : Set ℕ) (i : grid0.Coords) (arg1 : Memref sig .tc .vmem S5000x5 .f32) (harg1 : arg1.IsWhole) (arg2 : Memref sig .tc .vmem S5x4 .f32) (harg2 : arg2.IsWhole) (arg3 : Memref sig .tc .vmem S5000x4 .f32) (harg3 : arg3.IsWhole)
    (x0 : Vec F S5000x5 .f32) (x1 : Vec F S5x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The region's proof data -/

/-- The proof data of region 0 on core `c` from entry contents `V`: the three arrays as found; after the body at point
    `t` the inputs' buffers at their blocks and the result's at the product of the blocks; between points only the scoped
    buffers and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KernelIdealFrame.R1.lean ====
/-
  Region 1 of the program: bias, rectifier and the second linear layer fused, `max(agg1 + b1, 0) · W2`, tiled over the rows.
  The grid has 100 points; point `t` is handed rows `5000 t … 5000 t + 4999` of the first layer's aggregate (window 0), the
  bias as one row and `W2` whole (windows 1 and 2, each fetched once: their blocks never move) and the matching 5000 rows
  of the result (window 3). The body stores over the whole result block one value computed from the three input blocks.
  Here: the body run once on whole staging buffers, the region's proof data at any contents `V` of the buffers on entry,
  and the obligation the pipeline asks of the body at every grid point.
-/
import proofs.«139132_j10462540333056_2_alg».proof.Proof.Gen.KernelIdeal.Launch
import proofs.«139132_j10462540333056_2_alg».proof.Proof.Gen.KernelIdeal.Skeleton
import proofs.«139132_j10462540333056_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 5000 rows of the first layer's aggregate handed to point `t` sits in window 0's current buffer whenever the body runs (fetched there, or fetched earlier and its block index
    has not moved since), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The first bias, laid as one row, sits in window 1's current buffer whenever the body runs (fetched there, or fetched earlier and its block index
    has not moved since), for any proof data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- `W2` sits in window 2's current buffer whenever the body runs (fetched there, or fetched earlier and its block index
    has not moved since), for any proof data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and the store take a whole buffer -/

abbrev ri1_0 : Rect S5000x4 := Rect.unit (s := S5000x4) ![0, 0] S5000x4.size inb_S5000x4_S5000x4_0_0
abbrev ri1_1 : Rect S1x4 := Rect.unit (s := S1x4) ![0, 0] S1x4.size inb_S1x4_S1x4_0_0
abbrev ri1_2 : Rect S4x7 := Rect.unit (s := S4x7) ![0, 0] S4x7.size inb_S4x7_S4x7_0_0
abbrev ro1 : Rect S5000x7 := Rect.unit (s := S5000x7) ![0, 0] S5000x7.size inb_S5000x7_S5000x7_0_0

/-- The result buffer after the body, from the input blocks: one piece over the whole buffer. -/
def out1_3 (x0 : Vec F S5000x4 .f32) (x1 : Vec F S1x4 .f32) (x2 : Vec F S4x7 .f32) : Vec F S5000x7 .f32 :=
  View.canon [⟨ro1, k1_pay1 (View.ld x0 ri1_0) (View.ld x1 ri1_1) (View.ld x2 ri1_2)⟩]

/-- The one store covers the result buffer. -/
theorem cover1_3 (p0 : Vec F S5000x7 .f32) (y : S5000x7.Idx) :
    ∃ pc ∈ ([⟨ro1, p0⟩] : List (View.Piece (Elt F) S5000x7 .f32)), y ∈ pc.1.set :=
  View.cover_of_tiled [⟨ro1, p0⟩] S5000x7.size (by rfl) y

/-! ## The body's triple -/

set_option maxHeartbeats 1000000 in
/-- On whole staging buffers, the inputs' at given contents and the result's at anything, the body runs to its return
    with the inputs' as they were and the result's at `out1_3` of them. -/
theorem sound_kernel1 (c : Dev nD) (E : Set ℕ) (i : grid1.Coords) (arg1 : Memref sig .tc .vmem S5000x4 .f32) (harg1 : arg1.IsWhole) (arg2 : Memref sig .tc .vmem S1x4 .f32) (harg2 : arg2.IsWhole) (arg3 : Memref sig .tc .vmem S4x7 .f32) (harg3 : arg3.IsWhole) (arg4 : Memref sig .tc .vmem S5000x7 .f32) (harg4 : arg4.IsWhole)
    (x0 : Vec F S5000x4 .f32) (x1 : Vec F S1x4 .f32) (x2 : Vec F S4x7 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bias_relu_matmul_kernel i arg1 harg1 arg2 harg2 arg3 harg3 arg4 harg4) K := by
  simp only [cc1__bias_relu_matmul_kernel_eq_skeleton]; unfold cc1__bias_relu_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-! ## The region's proof data -/

/-- The proof data of region 1 on core `c` from entry contents `V`: the arrays as found; after the body at point `t` the
    inputs' buffers at their blocks and the result's at `out1_3` of the blocks; between points only the scoped buffers and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KernelIdealFrame.R2Facts.lean ====
/-
  Region 2 of the program: the column log-sum-exps of `z = agg2 + b2`, accumulated tile by tile. The grid has 100 points;
  point `t` is handed rows `5000 t … 5000 t + 4999` of `agg2` (window 0), the bias as one row (window 1, fetched once) and
  the one-row result (window 2, the same block at every point: written by the body only at the last point and written
  back once, after it). Two one-row scratch buffers of the kernel's own carry the running column maximum and the running
  rescaled sum of exponentials from one point to the next: the first point resets them to `-inf` and `0`.
  Here, what the three body runs and the region's proof data share: the body's two branch conditions decided over the
  grid (the first point; the last point), where the result window is idle, the scratch buffers by name, and the core's
  scoped buffers that no window of this region stages taken apart into the two scratch buffers and the seventeen others.
-/
import proofs.«139132_j10462540333056_2_alg».proof.Proof.Gen.KernelIdeal.Launch
import proofs.«139132_j10462540333056_2_alg».proof.Proof.Gen.KernelIdeal.Skeleton
import proofs.«139132_j10462540333056_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The 5000 rows of `agg2` handed to point `t` sit in window 0's current buffer when the body runs. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The bias row sits in window 1's buffer at every point: fetched at the first, its block index never moves after. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, over the grid -/

/-- "This is the first point": the body's first conditional, its scalar chain from the grid coordinate spelt out. -/
abbrev cond2_0 (i : grid2.Coords) : Prop := (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val % 100 = 0 :=
  (by decide +kernel : ∀ t : Fin grid2.N, cond2_0 (grid2.coords t) ↔ t.val % 100 = 0)

/-- "This is the last point": the body's second conditional. -/
abbrev cond2_1 (i : grid2.Coords) : Prop := k2_cond2 i = 1#1
/-- It holds at point 99 only. -/
theorem hcond2_1 : ∀ t : Fin cfg2.N, cond2_1 (grid2.coords t) ↔ t.val % 100 = 99 :=
  (by decide +kernel : ∀ t : Fin grid2.N, cond2_1 (grid2.coords t) ↔ t.val % 100 = 99)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Away from the last point the result window is idle: the body stores nothing into it, -/
theorem idleAt2_2 : ∀ t : Fin cfg2.N, ¬cond2_1 (grid2.coords t) → cfg2.idle 2 (grid2.coords t) = true := by decide +kernel
/-- and the pipeline does not write it back there. -/
theorem noFlush2_2 : ∀ t : Fin cfg2.N, ¬cond2_1 (grid2.coords t) → (cfg2.win 2).flush t = false := by decide +kernel
/-- At the last point it is live. -/
theorem liveAt2_2 : ∀ t : Fin cfg2.N, cond2_1 (grid2.coords t) → cfg2.idle 2 (grid2.coords t) = false := by decide +kernel

/-! ## The memrefs the body is called with -/

abbrev ms2_0 (t : Fin cfg2.N) : Memref sig .tc .vmem S5000x7 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x7 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x7 .f32 := win2_2.stage (cfg2.slots t 2)
abbrev hs2_2 (t : Fin cfg2.N) : (ms2_2 t).IsWhole := hstage2_2 ((cfg2.slots t 2).cast nbuf2_2)
/-- The running maximum's and the running sum's scratch buffers, whole. -/
abbrev scM2_0 : Memref sig .tc .vmem S1x7 .f32 := Memref.whole cc2_scratch0
abbrev scM2_1 : Memref sig .tc .vmem S1x7 .f32 := Memref.whole cc2_scratch1
/-- One buffer of each kind as a view, through which contents are stated. -/
abbrev VO2_2 : View sig .tc .vmem S1x7 .f32 := (Memref.whole cc2_stg2_0 : Memref sig .tc .vmem S1x7 .f32).view
abbrev VS2_0 : View sig .tc .vmem S1x7 .f32 := scM2_0.view
abbrev VS2_1 : View sig .tc .vmem S1x7 .f32 := scM2_1.view

/-! ## The scoped buffers no window of this region stages -/

/-- A scoped buffer of the core held whole at some contents. -/
abbrev heldSome (c : Dev nD) (r : Ref sig .tc) : sProp 𝕄 :=
  iprop(∃ f : Buf (Elt F) ((c : Thread nD τ).loc r), ((c : Thread nD τ).loc r) ↦{fullShare} f)

/-- The seventeen that are other regions' staging buffers. -/
def others2 (c : Dev nD) : sProp 𝕄 :=
  iprop(heldSome (F := F) c cc0_stg0_0 ∗ heldSome (F := F) c cc0_stg0_1 ∗ heldSome (F := F) c cc0_stg1_0 ∗ heldSome (F := F) c cc0_stg2_0 ∗ heldSome (F := F) c cc0_stg2_1 ∗ heldSome (F := F) c cc1_stg0_0 ∗ heldSome (F := F) c cc1_stg0_1 ∗ heldSome (F := F) c cc1_stg1_0 ∗ heldSome (F := F) c cc1_stg2_0 ∗ heldSome (F := F) c cc1_stg3_0 ∗ heldSome (F := F) c cc1_stg3_1 ∗ heldSome (F := F) c cc3_stg0_0 ∗ heldSome (F := F) c cc3_stg0_1 ∗ heldSome (F := F) c cc3_stg1_0 ∗ heldSome (F := F) c cc3_stg2_0 ∗ heldSome (F := F) c cc3_stg3_0 ∗ heldSome (F := F) c cc3_stg3_1)

/-- The scoped rest taken apart: the two scratch buffers at some contents, and the others. -/
theorem scopedRest2_split (c : Dev nD) :
    (Pipeline.scopedRest (Ix := Unit) (Name := ℕ) (U := UR sig nD τ) (Lvl := ℕ) (Val := Elt F) spec2 c : sProp 𝕄)
      ⊢ iprop(heldSome (F := F) c cc2_scratch0 ∗ heldSome (F := F) c cc2_scratch1 ∗ others2 (F := F) c) := by
  rw [scopedRest2_eq]; unfold others2
  iintro ⟨H1, H2, H3, H4, H5, H6, H7, H8, H9, H10, H11, H12, H13, H14, H15, H16, H17, H18, H19⟩
  isplitl [H12]; · iexact H12
  isplitl [H13]; · iexact H13
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H14]; · iexact H14
  isplitl [H15]; · iexact H15
  isplitl [H16]; · iexact H16
  isplitl [H17]; · iexact H17
  isplitl [H18]; · iexact H18
  iexact H19

/-- and put back together. -/
theorem scopedRest2_join (c : Dev nD) :
    iprop(heldSome (F := F) c cc2_scratch0 ∗ heldSome (F := F) c cc2_scratch1 ∗ others2 (F := F) c)
      ⊢ (Pipeline.scopedRest (Ix := Unit) (Name := ℕ) (U := UR sig nD τ) (Lvl := ℕ) (Val := Elt F) spec2 c : sProp 𝕄) := by
  rw [scopedRest2_eq]; unfold others2
  iintro ⟨H12, H13, H1, H2, H3, H4, H5, H6, H7, H8, H9, H10, H11, H14, H15, H16, H17, H18, H19⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- A whole scratch buffer held at some contents, said through its memref. -/
theorem heldSome_scratch0 (c : Dev nD) : (heldSome (F := F) c cc2_scratch0 : sProp 𝕄) = iprop(∃ d, owns (c : Thread nD τ) scM2_0 fullShare d) := by
  simp only [scM2_0, owns_whole]; try rfl
theorem heldSome_scratch1 (c : Dev nD) : (heldSome (F := F) c cc2_scratch1 : sProp 𝕄) = iprop(∃ d, owns (c : Thread nD τ) scM2_1 fullShare d) := by
  simp only [scM2_1, owns_whole]; try rfl

end Cert.KernelIdeal.Fr

end
-- ==== Proof.KernelIdealFrame.R2Runs.lean ====
/-
  Region 2's body, run once per case of its two conditionals, on whole buffers: the tile and the bias row at given contents;
  what each run leaves in the two scratch buffers (and, at the last point, in the result buffer) is the list of pieces its
  stores wrote, found by the run itself.
  * first point (the reset branch taken, the closing branch not): the scratch buffers may hold anything; the result buffer is
    handed back as it was;
  * a middle point (neither branch): the scratch buffers hold what the point before left; the result buffer is handed back;
  * the last point (the closing branch only): as a middle point, and the result buffer, at anything, is stored into.
-/
import proofs.«139132_j10462540333056_2_alg».proof.Proof.Gen.KernelIdeal.Launch
import proofs.«139132_j10462540333056_2_alg».proof.Proof.Gen.KernelIdeal.Skeleton
import proofs.«139132_j10462540333056_2_alg».proof.Proof.Gen.KernelIdeal.Points
import proofs.«139132_j10462540333056_2_alg».proof.Proof.KernelIdealFrame.R2Facts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- The first point. -/
noncomputable def kernelRun2_A (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : cond2_0 i) (hc1 : ¬cond2_1 i)
    (x0 : Vec F S5000x7 .f32) (x1 : Vec F S1x7 .f32) :
    Σ' (LS0 : List (View.Piece (Elt F) S1x7 .f32)), { LS1 : List (View.Piece (Elt F) S1x7 .f32) //
      ∀ (xi2 : Vec F S1x7 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc2__lse_kernel i arg1 harg1 arg2 harg2 arg3 harg3 arg4 harg4 arg5 harg5) K } := by
  refine ⟨?_, ?_, fun xi2 E K => ?run⟩
  case run =>
    simp only [cc2__lse_kernel_eq_skeleton]; unfold cc2__lse_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 4000000 in
/-- A middle point. -/
noncomputable def kernelRun2_B (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : ¬cond2_1 i)
    (x0 : Vec F S5000x7 .f32) (x1 : Vec F S1x7 .f32) (xs0 : Vec F S1x7 .f32) (xs1 : Vec F S1x7 .f32) :
    Σ' (LS0 : List (View.Piece (Elt F) S1x7 .f32)), { LS1 : List (View.Piece (Elt F) S1x7 .f32) //
      ∀ (xi2 : Vec F S1x7 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc2__lse_kernel i arg1 harg1 arg2 harg2 arg3 harg3 arg4 harg4 arg5 harg5) K } := by
  refine ⟨?_, ?_, fun xi2 E K => ?run⟩
  case run =>
    simp only [cc2__lse_kernel_eq_skeleton]; unfold cc2__lse_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 4000000 in
/-- The last point. -/
noncomputable def kernelRun2_C (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : cond2_1 i)
    (x0 : Vec F S5000x7 .f32) (x1 : Vec F S1x7 .f32) (xs0 : Vec F S1x7 .f32) (xs1 : Vec F S1x7 .f32) :
    Σ' (L2 : List (View.Piece (Elt F) S1x7 .f32)) (LS0 : List (View.Piece (Elt F) S1x7 .f32)), { LS1 : List (View.Piece (Elt F) S1x7 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc2__lse_kernel i arg1 harg1 arg2 harg2 arg3 harg3 arg4 harg4 arg5 harg5) K } := by
  refine ⟨?_, ?_, ?_, fun E K => ?run⟩
  case run =>
    simp only [cc2__lse_kernel_eq_skeleton]; unfold cc2__lse_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

end Cert.KernelIdeal.Fr

end
-- ==== Proof.KernelIdealFrame.R2.lean ====
/-
  Region 2, the rest: what each case of the body leaves in the two scratch buffers and in the result buffer; the same point
  by point along the grid (the accumulation: point 0 from anything, every later point from what the point before left);
  the invariant the region keeps between points — before the first point only "the scoped buffers at something and the
  generator register", afterwards the running-maximum and running-sum scratch buffers AT the accumulation's values —; the
  proof data; and the obligation the pipeline asks of the body at every point, in the three cases.
-/
import proofs.«139132_j10462540333056_2_alg».proof.Proof.Gen.KernelIdeal.Launch
import proofs.«139132_j10462540333056_2_alg».proof.Proof.Gen.KernelIdeal.Skeleton
import proofs.«139132_j10462540333056_2_alg».proof.Proof.Gen.KernelIdeal.Points
import proofs.«139132_j10462540333056_2_alg».proof.Proof.KernelIdealFrame.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-- Case A's pieces for the running-maximum scratch cover it. -/
theorem scover2_A_0 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : cond2_0 i) (hc1 : ¬cond2_1 i) (x0 : Vec F S5000x7 .f32) (x1 : Vec F S1x7 .f32) (y : S1x7.Idx) :
    ∃ pc ∈ (kernelRun2_A c i arg1 harg1 arg2 harg2 arg3 harg3 arg4 harg4 arg5 harg5 hc0 hc1 x0 x1).1, y ∈ pc.1.set :=
  View.cover_of_tiledL (kernelRun2_A c i arg1 harg1 arg2 harg2 arg3 harg3 arg4 harg4 arg5 harg5 hc0 hc1 x0 x1).1 S1x7.size (by sl_kernel_rfl) y
/-- What case A leaves in the running-maximum scratch. -/
def sout2_A_0 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : cond2_0 i) (hc1 : ¬cond2_1 i) (x0 : Vec F S5000x7 .f32) (x1 : Vec F S1x7 .f32) : Vec F S1x7 .f32 :=
  VS2_0.read (Elt F) (VS2_0.writes (Elt F) VS2_0.junk (kernelRun2_A c i arg1 harg1 arg2 harg2 arg3 harg3 arg4 harg4 arg5 harg5 hc0 hc1 x0 x1).1)
/-- Case A's pieces for the running-sum scratch cover it. -/
theorem scover2_A_1 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : cond2_0 i) (hc1 : ¬cond2_1 i) (x0 : Vec F S5000x7 .f32) (x1 : Vec F S1x7 .f32) (y : S1x7.Idx) :
    ∃ pc ∈ (kernelRun2_A c i arg1 harg1 arg2 harg2 arg3 harg3 arg4 harg4 arg5 harg5 hc0 hc1 x0 x1).2.1, y ∈ pc.1.set :=
  View.cover_of_tiledL (kernelRun2_A c i arg1 harg1 arg2 harg2 arg3 harg3 arg4 harg4 arg5 harg5 hc0 hc1 x0 x1).2.1 S1x7.size (by sl_kernel_rfl) y
/-- What case A leaves in the running-sum scratch. -/
def sout2_A_1 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : cond2_0 i) (hc1 : ¬cond2_1 i) (x0 : Vec F S5000x7 .f32) (x1 : Vec F S1x7 .f32) : Vec F S1x7 .f32 :=
  VS2_1.read (Elt F) (VS2_1.writes (Elt F) VS2_1.junk (kernelRun2_A c i arg1 harg1 arg2 harg2 arg3 harg3 arg4 harg4 arg5 harg5 hc0 hc1 x0 x1).2.1)

/-- Case B's pieces for the running-maximum scratch cover it. -/
theorem scover2_B_0 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : ¬cond2_1 i) (x0 : Vec F S5000x7 .f32) (x1 : Vec F S1x7 .f32) (xs0 : Vec F S1x7 .f32) (xs1 : Vec F S1x7 .f32) (y : S1x7.Idx) :
    ∃ pc ∈ (kernelRun2_B c i arg1 harg1 arg2 harg2 arg3 harg3 arg4 harg4 arg5 harg5 hc0 hc1 x0 x1 xs0 xs1).1, y ∈ pc.1.set :=
  View.cover_of_tiledL (kernelRun2_B c i arg1 harg1 arg2 harg2 arg3 harg3 arg4 harg4 arg5 harg5 hc0 hc1 x0 x1 xs0 xs1).1 S1x7.size (by sl_kernel_rfl) y
/-- What case B leaves in the running-maximum scratch. -/
def sout2_B_0 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : ¬cond2_1 i) (x0 : Vec F S5000x7 .f32) (x1 : Vec F S1x7 .f32) (xs0 : Vec F S1x7 .f32) (xs1 : Vec F S1x7 .f32) : Vec F S1x7 .f32 :=
  VS2_0.read (Elt F) (VS2_0.writes (Elt F) VS2_0.junk (kernelRun2_B c i arg1 harg1 arg2 harg2 arg3 harg3 arg4 harg4 arg5 harg5 hc0 hc1 x0 x1 xs0 xs1).1)
/-- Case B's pieces for the running-sum scratch cover it. -/
theorem scover2_B_1 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : ¬cond2_1 i) (x0 : Vec F S5000x7 .f32) (x1 : Vec F S1x7 .f32) (xs0 : Vec F S1x7 .f32) (xs1 : Vec F S1x7 .f32) (y : S1x7.Idx) :
    ∃ pc ∈ (kernelRun2_B c i arg1 harg1 arg2 harg2 arg3 harg3 arg4 harg4 arg5 harg5 hc0 hc1 x0 x1 xs0 xs1).2.1, y ∈ pc.1.set :=
  View.cover_of_tiledL (kernelRun2_B c i arg1 harg1 arg2 harg2 arg3 harg3 arg4 harg4 arg5 harg5 hc0 hc1 x0 x1 xs0 xs1).2.1 S1x7.size (by sl_kernel_rfl) y
/-- What case B leaves in the running-sum scratch. -/
def sout2_B_1 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : ¬cond2_1 i) (x0 : Vec F S5000x7 .f32) (x1 : Vec F S1x7 .f32) (xs0 : Vec F S1x7 .f32) (xs1 : Vec F S1x7 .f32) : Vec F S1x7 .f32 :=
  VS2_1.read (Elt F) (VS2_1.writes (Elt F) VS2_1.junk (kernelRun2_B c i arg1 harg1 arg2 harg2 arg3 harg3 arg4 harg4 arg5 harg5 hc0 hc1 x0 x1 xs0 xs1).2.1)

/-- Case C's pieces for the running-maximum scratch cover it. -/
theorem scover2_C_0 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : cond2_1 i) (x0 : Vec F S5000x7 .f32) (x1 : Vec F S1x7 .f32) (xs0 : Vec F S1x7 .f32) (xs1 : Vec F S1x7 .f32) (y : S1x7.Idx) :
    ∃ pc ∈ (kernelRun2_C c i arg1 harg1 arg2 harg2 arg3 harg3 arg4 harg4 arg5 harg5 hc0 hc1 x0 x1 xs0 xs1).2.1, y ∈ pc.1.set :=
  View.cover_of_tiledL (kernelRun2_C c i arg1 harg1 arg2 harg2 arg3 harg3 arg4 harg4 arg5 harg5 hc0 hc1 x0 x1 xs0 xs1).2.1 S1x7.size (by sl_kernel_rfl) y
/-- What case C leaves in the running-maximum scratch. -/
def sout2_C_0 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : cond2_1 i) (x0 : Vec F S5000x7 .f32) (x1 : Vec F S1x7 .f32) (xs0 : Vec F S1x7 .f32) (xs1 : Vec F S1x7 .f32) : Vec F S1x7 .f32 :=
  VS2_0.read (Elt F) (VS2_0.writes (Elt F) VS2_0.junk (kernelRun2_C c i arg1 harg1 arg2 harg2 arg3 harg3 arg4 harg4 arg5 harg5 hc0 hc1 x0 x1 xs0 xs1).2.1)
/-- Case C's pieces for the running-sum scratch cover it. -/
theorem scover2_C_1 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : cond2_1 i) (x0 : Vec F S5000x7 .f32) (x1 : Vec F S1x7 .f32) (xs0 : Vec F S1x7 .f32) (xs1 : Vec F S1x7 .f32) (y : S1x7.Idx) :
    ∃ pc ∈ (kernelRun2_C c i arg1 harg1 arg2 harg2 arg3 harg3 arg4 harg4 arg5 harg5 hc0 hc1 x0 x1 xs0 xs1).2.2.1, y ∈ pc.1.set :=
  View.cover_of_tiledL (kernelRun2_C c i arg1 harg1 arg2 harg2 arg3 harg3 arg4 harg4 arg5 harg5 hc0 hc1 x0 x1 xs0 xs1).2.2.1 S1x7.size (by sl_kernel_rfl) y
/-- What case C leaves in the running-sum scratch. -/
def sout2_C_1 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : cond2_1 i) (x0 : Vec F S5000x7 .f32) (x1 : Vec F S1x7 .f32) (xs0 : Vec F S1x7 .f32) (xs1 : Vec F S1x7 .f32) : Vec F S1x7 .f32 :=
  VS2_1.read (Elt F) (VS2_1.writes (Elt F) VS2_1.junk (kernelRun2_C c i arg1 harg1 arg2 harg2 arg3 harg3 arg4 harg4 arg5 harg5 hc0 hc1 x0 x1 xs0 xs1).2.2.1)

/-- The last point's one store into the result buffer covers it. -/
theorem cover2_C_2 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : cond2_1 i) (x0 : Vec F S5000x7 .f32) (x1 : Vec F S1x7 .f32) (xs0 : Vec F S1x7 .f32) (xs1 : Vec F S1x7 .f32) (y : S1x7.Idx) :
    ∃ pc ∈ (kernelRun2_C c i arg1 harg1 arg2 harg2 arg3 harg3 arg4 harg4 arg5 harg5 hc0 hc1 x0 x1 xs0 xs1).1, y ∈ pc.1.set :=
  View.cover_of_tiledL (kernelRun2_C c i arg1 harg1 arg2 harg2 arg3 harg3 arg4 harg4 arg5 harg5 hc0 hc1 x0 x1 xs0 xs1).1 S1x7.size (by sl_kernel_rfl) y
/-- What the last point leaves in the result buffer. -/
def out2_C_2 (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : cond2_1 i) (x0 : Vec F S5000x7 .f32) (x1 : Vec F S1x7 .f32) (xs0 : Vec F S1x7 .f32) (xs1 : Vec F S1x7 .f32) : Vec F S1x7 .f32 :=
  VO2_2.read (Elt F) (VO2_2.writes (Elt F) VO2_2.junk (kernelRun2_C c i arg1 harg1 arg2 harg2 arg3 harg3 arg4 harg4 arg5 harg5 hc0 hc1 x0 x1 xs0 xs1).1)

/-! ## The accumulation along the grid -/

/-- After the body at position `n`: the result buffer (a placeholder that nothing consults away from the last point, where the
    window is idle and not written back), the running-maximum scratch, the running-sum scratch. -/
def outsAt2 (c : Dev nD) : (n : ℕ) → n < cfg2.N → Vec F S1x7 .f32 × Vec F S1x7 .f32 × Vec F S1x7 .f32
  | 0, hn => ((VO2_2.read (Elt F) VO2_2.junk), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 100 = 0 then
      False.elim (by have hN : n + 1 < 100 := lt_of_lt_of_eq hn (show cfg2.N = 100 from N_2); omega)
    else
      if h1 : (n + 1) % 100 = 99 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2.1 (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2.1 (outsAt2 c n (Nat.lt_of_succ_lt hn)).2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2.1 (outsAt2 c n (Nat.lt_of_succ_lt hn)).2.2)
      else
        ((VO2_2.read (Elt F) VO2_2.junk), sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2.1 (outsAt2 c n (Nat.lt_of_succ_lt hn)).2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2.1 (outsAt2 c n (Nat.lt_of_succ_lt hn)).2.2)

theorem outsAt2_A (c : Dev nD) (t : Fin cfg2.N) (h0 : t.val % 100 = 0) (h1 : ¬t.val % 100 = 99) :
    outsAt2 V c t.val t.isLt = ((VO2_2.read (Elt F) VO2_2.junk), sout2_A_0 c (grid2.coords t) (ms2_0 t) (hs2_0 t) (ms2_1 t) (hs2_1 t) (ms2_2 t) (hs2_2 t) scM2_0 (Memref.isWhole_whole _) scM2_1 (Memref.isWhole_whole _) ((hcond2_0 t).mpr h0) (fun h => h1 ((hcond2_1 t).mp h)) (iblk2 V c 0 t) (iblk2 V c 1 t), sout2_A_1 c (grid2.coords t) (ms2_0 t) (hs2_0 t) (ms2_1 t) (hs2_1 t) (ms2_2 t) (hs2_2 t) scM2_0 (Memref.isWhole_whole _) scM2_1 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (by exfalso; have hN : n + 1 < 100 := lt_of_lt_of_eq hn (show cfg2.N = 100 from N_2); (try dsimp only at h0); omega)

theorem outsAt2_B (c : Dev nD) (t : Fin cfg2.N) (h0 : ¬t.val % 100 = 0) (h1 : ¬t.val % 100 = 99) :
    outsAt2 V c t.val t.isLt = ((VO2_2.read (Elt F) VO2_2.junk), sout2_B_0 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2.1 (outsAt2 V c (t.val - 1) (Nat.lt_of_le_of_lt (Nat.sub_le _ _) t.isLt)).2.2, sout2_B_1 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 100 = 0) (h1 : t.val % 100 = 99) :
    outsAt2 V c t.val t.isLt = (out2_C_2 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.1 (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.1 (outsAt2 V c (t.val - 1) (Nat.lt_of_le_of_lt (Nat.sub_le _ _) t.isLt)).2.2, sout2_C_1 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the start the scoped buffers at something and the generator register; after any point the other
    regions' buffers at something, the two scratch buffers at what that point left, and the generator register. -/
def PhiS (c : Dev nD) : (n : ℕ) → n ≤ cfg2.N → sProp 𝕄
  | 0, _ => Pipeline.ΦA spec2 c
  | n + 1, hn => iprop(iprop(owns (c : Thread nD τ) scM2_0 fullShare ((outsAt2 V c n hn).2.1) ∗ owns (c : Thread nD τ) scM2_1 fullShare ((outsAt2 V c n hn).2.2) ∗ others2 (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM2_0 fullShare ((outsAt2 V c n hn).2.1) ∗ owns (c : Thread nD τ) scM2_1 fullShare ((outsAt2 V c n hn).2.2) ∗ others2 (F := F) c) ∗ (∃ r, prngReg c r)) := rfl

theorem PhiS_pos (c : Dev nD) (n : ℕ) (h : n ≤ cfg2.N) (hz : n ≠ 0) :
    PhiS V c n h = iprop(iprop(owns (c : Thread nD τ) scM2_0 fullShare ((outsAt2 V c (n - 1) (by omega)).2.1) ∗ owns (c : Thread nD τ) scM2_1 fullShare ((outsAt2 V c (n - 1) (by omega)).2.2) ∗ others2 (F := F) c) ∗ (∃ r, prngReg c r)) := by
  cases n with
  | zero => exact absurd rfl hz
  | succ n => rfl

/-- The start invariant hands out the two scratch buffers at something, the others, and the generator register. -/
theorem PhiA2_split (c : Dev nD) :
    (Pipeline.ΦA spec2 c : sProp 𝕄)
      ⊢ iprop(iprop((∃ d, owns (c : Thread nD τ) scM2_0 fullShare d) ∗ (∃ d, owns (c : Thread nD τ) scM2_1 fullShare d) ∗ others2 (F := F) c) ∗ (∃ r, prngReg c r)) := by
  unfold Pipeline.ΦA
  iintro ⟨Hs, Hg⟩
  isplitl [Hs]
  · ihave H := scopedRest2_split (F := F) c $$ Hs
    rw [heldSome_scratch0, heldSome_scratch1]
    iexact H
  iexact Hg

/-- and takes them back. -/
theorem PhiA2_join (c : Dev nD) :
    iprop(iprop((∃ d, owns (c : Thread nD τ) scM2_0 fullShare d) ∗ (∃ d, owns (c : Thread nD τ) scM2_1 fullShare d) ∗ others2 (F := F) c) ∗ (∃ r, prngReg c r))
      ⊢ (Pipeline.ΦA spec2 c : sProp 𝕄) := by
  unfold Pipeline.ΦA
  iintro ⟨Hs, Hg⟩
  isplitl [Hs]
  · rw [← heldSome_scratch0, ← heldSome_scratch1]
    iapply (scopedRest2_join (F := F) c)
    iexact Hs
  iexact Hg

/-! ## The region's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' buffers hold their blocks; which case the point is in is read off the closed forms of
    the two conditions. At the first point the invariant hands the body the two scratch buffers at anything; at a later point
    at what the point before left; either way it takes them back at this point's values. Away from the last point the result
    buffer is handed back untouched (the window is idle there); at the last point it is stored into. Nothing is owed. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS V c (t.val + 1) t.isLt from rfl, PhiS_succ]
  have hN : t.val < 100 := lt_of_lt_of_eq t.isLt (show cfg2.N = 100 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 100 = 0
  · have h1 : ¬t.val % 100 = 99 := by omega
    have hz : t.val = 0 := by omega
    rw [Dat.leavesExact_idle (dat2 V c) 2 t (idleAt2_2 t (fun h => h1 ((hcond2_1 t).mp h))) (noFlush2_2 t (fun h => h1 ((hcond2_1 t).mp h)))]
    rw [outsAt2_A V c t h0 h1]
    unfold sout2_A_0 sout2_A_1; (try dsimp only)
    rw [PhiS_castSucc V c t, PhiS_zero V c _ _ hz]
    iintro ⟨HΦ, Ho, ⟨%d0, H0⟩, ⟨%d1, H1⟩, ⟨%d2, H2⟩⟩
    ihave HΦ' := PhiA2_split (F := F) c $$ HΦ
    icases HΦ' with ⟨⟨HS0, HS1, Hoth⟩, Hg⟩
    iapply ((kernelRun2_A c (grid2.coords t) _ _ _ _ _ _ _ _ _ _ ((hcond2_0 t).mpr h0) (fun h => h1 ((hcond2_1 t).mp h)) (iblk2 V c 0 t) (iblk2 V c 1 t)).2.2 _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact View.read_writes_of_cover _ _ _ _ _ (scover2_A_0 c _ _ _ _ _ _ _ _ _ _ _ _ _ _ _)
        isplitl [HS1]
        · unfold owns; iexists _; isplitr
          swap; · iexact HS1
          ipureintro; exact View.read_writes_of_cover _ _ _ _ _ (scover2_A_1 c _ _ _ _ _ _ _ _ _ _ _ _ _ _ _)
        iexact Hoth
      iexact Hg
    isplitl [Ho]; · iexact Ho
    isplitl [H0]; · iexact H0
    isplitl [H1]; · iexact H1
    iexists _; iexact H2
  · have hz : t.val ≠ 0 := by omega
    by_cases h1 : t.val % 100 = 99
    · rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C_2 sout2_C_0 sout2_C_1; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩⟩
      iapply ((kernelRun2_C c (grid2.coords t) _ _ _ _ _ _ _ _ _ _ (fun h => h0 ((hcond2_0 t).mp h)) ((hcond2_1 t).mpr h1) (iblk2 V c 0 t) (iblk2 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover2_C_0 c _ _ _ _ _ _ _ _ _ _ _ _ _ _ _ _ _)
          isplitl [HS1]
          · unfold owns; iexists _; isplitr
            swap; · iexact HS1
            ipureintro; exact View.read_writes_of_cover _ _ _ _ _ (scover2_C_1 c _ _ _ _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _ _ _ _)
    · rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B_0 sout2_B_1; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) _ _).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover2_B_0 c _ _ _ _ _ _ _ _ _ _ _ _ _ _ _ _ _)
          isplitl [HS1]
          · unfold owns; iexists _; isplitr
            swap; · iexact HS1
            ipureintro; exact View.read_writes_of_cover _ _ _ _ _ (scover2_B_1 c _ _ _ _ _ _ _ _ _ _ _ _ _ _ _ _ _)
          iexact Hoth
        iexact Hg
      isplitl [Ho]; · iexact Ho
      isplitl [H0]; · iexact H0
      isplitl [H1]; · iexact H1
      iexists _; iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KernelIdealFrame.R3.lean ====
/-
  Region 3 of the program: the normalisation `(agg2 + b2) - lse`, tiled over the rows. The grid has 100 points; point `t` is
  handed rows `5000 t … 5000 t + 4999` of the second layer's aggregate (window 0), the bias as one row and the row of column
  log-sum-exps (windows 1 and 2, each fetched once: their blocks never move) and the matching 5000 rows of the result
  (window 3). The body stores over the whole result block one pointwise value of the three input blocks.
  Here: the body run once on whole staging buffers, the region's proof data at any contents `V` of the buffers on entry,
  and the obligation the pipeline asks of the body at every grid point.
-/
import proofs.«139132_j10462540333056_2_alg».proof.Proof.Gen.KernelIdeal.Launch
import proofs.«139132_j10462540333056_2_alg».proof.Proof.Gen.KernelIdeal.Skeleton
import proofs.«139132_j10462540333056_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The 5000 rows of the second layer's aggregate handed to point `t` sits in window 0's current buffer whenever the body runs (fetched there, or fetched earlier and its block index
    has not moved since), for any proof data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The second bias, laid as one row, sits in window 1's current buffer whenever the body runs (fetched there, or fetched earlier and its block index
    has not moved since), for any proof data whose array is the entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The row of column log-sum-exps sits in window 2's current buffer whenever the body runs (fetched there, or fetched earlier and its block index
    has not moved since), for any proof data whose array is the entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each load and the store take a whole buffer -/

abbrev ri3_0 : Rect S5000x7 := Rect.unit (s := S5000x7) ![0, 0] S5000x7.size inb_S5000x7_S5000x7_0_0
abbrev ri3_1 : Rect S1x7 := Rect.unit (s := S1x7) ![0, 0] S1x7.size inb_S1x7_S1x7_0_0
abbrev ri3_2 : Rect S1x7 := Rect.unit (s := S1x7) ![0, 0] S1x7.size inb_S1x7_S1x7_0_0
abbrev ro3 : Rect S5000x7 := Rect.unit (s := S5000x7) ![0, 0] S5000x7.size inb_S5000x7_S5000x7_0_0

/-- The result buffer after the body, from the input blocks: one piece over the whole buffer. -/
def out3_3 (x0 : Vec F S5000x7 .f32) (x1 : Vec F S1x7 .f32) (x2 : Vec F S1x7 .f32) : Vec F S5000x7 .f32 :=
  View.canon [⟨ro3, k3_pay1 (View.ld x0 ri3_0) (View.ld x1 ri3_1) (View.ld x2 ri3_2)⟩]

/-- The one store covers the result buffer. -/
theorem cover3_3 (p0 : Vec F S5000x7 .f32) (y : S5000x7.Idx) :
    ∃ pc ∈ ([⟨ro3, p0⟩] : List (View.Piece (Elt F) S5000x7 .f32)), y ∈ pc.1.set :=
  View.cover_of_tiled [⟨ro3, p0⟩] S5000x7.size (by rfl) y

/-! ## The body's triple -/

set_option maxHeartbeats 1000000 in
/-- On whole staging buffers, the inputs' at given contents and the result's at anything, the body runs to its return
    with the inputs' as they were and the result's at `out3_3` of them. -/
theorem sound_kernel3 (c : Dev nD) (E : Set ℕ) (i : grid3.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S5000x7 .f32) (harg4 : arg4.IsWhole)
    (x0 : Vec F S5000x7 .f32) (x1 : Vec F S1x7 .f32) (x2 : Vec F S1x7 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__normalize_kernel i arg1 harg1 arg2 harg2 arg3 harg3 arg4 harg4) K := by
  simp only [cc3__normalize_kernel_eq_skeleton]; unfold cc3__normalize_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover3_3 _)

/-! ## The region's proof data -/

/-- The proof data of region 3 on core `c` from entry contents `V`: the arrays as found; after the body at point `t` the
    inputs' buffers at their blocks and the result's at `out3_3` of the blocks; between points only the scoped buffers and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KernelIdealFrame.Run.lean ====
/-
  The whole program as ten segments — three stretches of host operations, region 0, a stretch, region 1, a stretch,
  region 2, a one-operation stretch, region 3 — with the contents of every unscoped buffer of the core named at each of the
  eleven boundaries: the launch memory, then after a host stretch the stretch's operations applied, and after a region its
  windows' arrays at what the pipeline's write-backs leave (each input as entered) and every other buffer as entered.
  Each region is entered from "every unscoped buffer at the boundary's contents, the generator register at some state,
  nothing owed" and left at the next boundary's; the run of the ten segments then ends with every unscoped buffer of the
  core at the last boundary's contents. Read at the six arguments this is the frame (no stretch and no region writes an
  argument); read at the result it is the result's value.
-/
import proofs.«139132_j10462540333056_2_alg».proof.Proof.Gen.KernelIdeal.Launch
import proofs.«139132_j10462540333056_2_alg».proof.Proof.Gen.KernelIdeal.Skeleton
import proofs.«139132_j10462540333056_2_alg».proof.Proof.Gen.KernelIdeal.Points
import proofs.«139132_j10462540333056_2_alg».proof.Proof.Gen.KernelIdeal.Regions
import proofs.«139132_j10462540333056_2_alg».proof.Proof.KernelIdealFrame.R0
import proofs.«139132_j10462540333056_2_alg».proof.Proof.KernelIdealFrame.R1
import proofs.«139132_j10462540333056_2_alg».proof.Proof.KernelIdealFrame.R2
import proofs.«139132_j10462540333056_2_alg».proof.Proof.KernelIdealFrame.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the stretch `hostOps0`. -/
abbrev W1 : Dev nD → Valuation τ sig (Elt F) := fun c => StableHlo.after hostOps0 (W0 m c)
/-- After the stretch `hostOps0_1`. -/
abbrev W2 : Dev nD → Valuation τ sig (Elt F) := fun c => StableHlo.after hostOps0_1 (W1 m c)
/-- After the stretch `hostOps0_2`. -/
abbrev W3 : Dev nD → Valuation τ sig (Elt F) := fun c => StableHlo.after hostOps0_2 (W2 m c)
/-- Region 0's entry contents, read at the TensorCore's references. -/
abbrev V3 : (c : Dev nD) → (b : Ref sig .tc) → Buf (Elt F) ((c : Thread nD τ).loc b) := fun c b => W3 m c b
/-- At region 0's exit: its arrays at what the pipeline leaves, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- After the stretch `hostOps1`. -/
abbrev W5 : Dev nD → Valuation τ sig (Elt F) := fun c => StableHlo.after hostOps1 (W4 m c)
/-- Region 1's entry contents, read at the TensorCore's references. -/
abbrev V5 : (c : Dev nD) → (b : Ref sig .tc) → Buf (Elt F) ((c : Thread nD τ).loc b) := fun c b => W5 m c b
/-- At region 1's exit: its arrays at what the pipeline leaves, every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
/-- After the stretch `hostOps2`. -/
abbrev W7 : Dev nD → Valuation τ sig (Elt F) := fun c => StableHlo.after hostOps2 (W6 m c)
/-- Region 2's entry contents, read at the TensorCore's references. -/
abbrev V7 : (c : Dev nD) → (b : Ref sig .tc) → Buf (Elt F) ((c : Thread nD τ).loc b) := fun c b => W7 m c b
/-- At region 2's exit: its arrays at what the pipeline leaves, every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)
/-- After the stretch `hostOps3`. -/
abbrev W9 : Dev nD → Valuation τ sig (Elt F) := fun c => StableHlo.after hostOps3 (W8 m c)
/-- Region 3's entry contents, read at the TensorCore's references. -/
abbrev V9 : (c : Dev nD) → (b : Ref sig .tc) → Buf (Elt F) ((c : Thread nD τ).loc b) := fun c b => W9 m c b
/-- At region 3's exit: its arrays at what the pipeline leaves, every other buffer as entered. -/
def W10 (c : Dev nD) : Valuation τ sig (Elt F) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
abbrev V10 : (c : Dev nD) → (b : Ref sig .tc) → Buf (Elt F) ((c : Thread nD τ).loc b) := fun c b => W10 m c b
theorem hF3 (c : Dev nD) (w : Fin cfg3.W) : (dat3 (V9 m) c).arrAt w cfg3.N = V10 m c (Pipeline.arrRef spec3 w) :=
  (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)

/-! ## The arguments end as launched -/
theorem W10_main_arg0 (c : Dev nD) : W10 m c (Proc.devRef .tc main_arg0) = m ((c : Thread nD τ).loc main_arg0) :=
  calc W10 m c (Proc.devRef .tc main_arg0)
    _ = W9 m c (Proc.devRef .tc main_arg0) := W10_of_ne m c main_arg0 (by decide)
    _ = W8 m c (Proc.devRef .tc main_arg0) := StableHlo.after_of_writes_sub hostOps3 _ hostOps3_writes (by decide : main_arg0 ∉ hostOps3_W)
    _ = W7 m c (Proc.devRef .tc main_arg0) := W8_of_ne m c main_arg0 (by decide)
    _ = W6 m c (Proc.devRef .tc main_arg0) := StableHlo.after_of_writes_sub hostOps2 _ hostOps2_writes (by decide : main_arg0 ∉ hostOps2_W)
    _ = W5 m c (Proc.devRef .tc main_arg0) := W6_of_ne m c main_arg0 (by decide)
    _ = W4 m c (Proc.devRef .tc main_arg0) := StableHlo.after_of_writes_sub hostOps1 _ hostOps1_writes (by decide : main_arg0 ∉ hostOps1_W)
    _ = W3 m c (Proc.devRef .tc main_arg0) := (W4_arr m c 0).trans (((dat0 (V3 m) c).arrAt_in 0 rfl _).trans (A_eq0 (V3 m) c 0))
    _ = W2 m c (Proc.devRef .tc main_arg0) := StableHlo.after_of_writes_sub hostOps0_2 _ hostOps0_2_writes (by decide : main_arg0 ∉ hostOps0_2_W)
    _ = W1 m c (Proc.devRef .tc main_arg0) := StableHlo.after_of_writes_sub hostOps0_1 _ hostOps0_1_writes (by decide : main_arg0 ∉ hostOps0_1_W)
    _ = W0 m c (Proc.devRef .tc main_arg0) := StableHlo.after_of_writes_sub hostOps0 _ hostOps0_writes (by decide : main_arg0 ∉ hostOps0_W)
    _ = m ((c : Thread nD τ).loc main_arg0) := rfl
theorem W10_main_arg1 (c : Dev nD) : W10 m c (Proc.devRef .tc main_arg1) = m ((c : Thread nD τ).loc main_arg1) :=
  calc W10 m c (Proc.devRef .tc main_arg1)
    _ = W9 m c (Proc.devRef .tc main_arg1) := W10_of_ne m c main_arg1 (by decide)
    _ = W8 m c (Proc.devRef .tc main_arg1) := StableHlo.after_of_writes_sub hostOps3 _ hostOps3_writes (by decide : main_arg1 ∉ hostOps3_W)
    _ = W7 m c (Proc.devRef .tc main_arg1) := W8_of_ne m c main_arg1 (by decide)
    _ = W6 m c (Proc.devRef .tc main_arg1) := StableHlo.after_of_writes_sub hostOps2 _ hostOps2_writes (by decide : main_arg1 ∉ hostOps2_W)
    _ = W5 m c (Proc.devRef .tc main_arg1) := W6_of_ne m c main_arg1 (by decide)
    _ = W4 m c (Proc.devRef .tc main_arg1) := StableHlo.after_of_writes_sub hostOps1 _ hostOps1_writes (by decide : main_arg1 ∉ hostOps1_W)
    _ = W3 m c (Proc.devRef .tc main_arg1) := W4_of_ne m c main_arg1 (by decide)
    _ = W2 m c (Proc.devRef .tc main_arg1) := StableHlo.after_of_writes_sub hostOps0_2 _ hostOps0_2_writes (by decide : main_arg1 ∉ hostOps0_2_W)
    _ = W1 m c (Proc.devRef .tc main_arg1) := StableHlo.after_of_writes_sub hostOps0_1 _ hostOps0_1_writes (by decide : main_arg1 ∉ hostOps0_1_W)
    _ = W0 m c (Proc.devRef .tc main_arg1) := StableHlo.after_of_writes_sub hostOps0 _ hostOps0_writes (by decide : main_arg1 ∉ hostOps0_W)
    _ = m ((c : Thread nD τ).loc main_arg1) := rfl
theorem W10_main_arg2 (c : Dev nD) : W10 m c (Proc.devRef .tc main_arg2) = m ((c : Thread nD τ).loc main_arg2) :=
  calc W10 m c (Proc.devRef .tc main_arg2)
    _ = W9 m c (Proc.devRef .tc main_arg2) := W10_of_ne m c main_arg2 (by decide)
    _ = W8 m c (Proc.devRef .tc main_arg2) := StableHlo.after_of_writes_sub hostOps3 _ hostOps3_writes (by decide : main_arg2 ∉ hostOps3_W)
    _ = W7 m c (Proc.devRef .tc main_arg2) := W8_of_ne m c main_arg2 (by decide)
    _ = W6 m c (Proc.devRef .tc main_arg2) := StableHlo.after_of_writes_sub hostOps2 _ hostOps2_writes (by decide : main_arg2 ∉ hostOps2_W)
    _ = W5 m c (Proc.devRef .tc main_arg2) := W6_of_ne m c main_arg2 (by decide)
    _ = W4 m c (Proc.devRef .tc main_arg2) := StableHlo.after_of_writes_sub hostOps1 _ hostOps1_writes (by decide : main_arg2 ∉ hostOps1_W)
    _ = W3 m c (Proc.devRef .tc main_arg2) := (W4_arr m c 1).trans (((dat0 (V3 m) c).arrAt_in 1 rfl _).trans (A_eq0 (V3 m) c 1))
    _ = W2 m c (Proc.devRef .tc main_arg2) := StableHlo.after_of_writes_sub hostOps0_2 _ hostOps0_2_writes (by decide : main_arg2 ∉ hostOps0_2_W)
    _ = W1 m c (Proc.devRef .tc main_arg2) := StableHlo.after_of_writes_sub hostOps0_1 _ hostOps0_1_writes (by decide : main_arg2 ∉ hostOps0_1_W)
    _ = W0 m c (Proc.devRef .tc main_arg2) := StableHlo.after_of_writes_sub hostOps0 _ hostOps0_writes (by decide : main_arg2 ∉ hostOps0_W)
    _ = m ((c : Thread nD τ).loc main_arg2) := rfl
theorem W10_main_arg3 (c : Dev nD) : W10 m c (Proc.devRef .tc main_arg3) = m ((c : Thread nD τ).loc main_arg3) :=
  calc W10 m c (Proc.devRef .tc main_arg3)
    _ = W9 m c (Proc.devRef .tc main_arg3) := W10_of_ne m c main_arg3 (by decide)
    _ = W8 m c (Proc.devRef .tc main_arg3) := StableHlo.after_of_writes_sub hostOps3 _ hostOps3_writes (by decide : main_arg3 ∉ hostOps3_W)
    _ = W7 m c (Proc.devRef .tc main_arg3) := W8_of_ne m c main_arg3 (by decide)
    _ = W6 m c (Proc.devRef .tc main_arg3) := StableHlo.after_of_writes_sub hostOps2 _ hostOps2_writes (by decide : main_arg3 ∉ hostOps2_W)
    _ = W5 m c (Proc.devRef .tc main_arg3) := W6_of_ne m c main_arg3 (by decide)
    _ = W4 m c (Proc.devRef .tc main_arg3) := StableHlo.after_of_writes_sub hostOps1 _ hostOps1_writes (by decide : main_arg3 ∉ hostOps1_W)
    _ = W3 m c (Proc.devRef .tc main_arg3) := W4_of_ne m c main_arg3 (by decide)
    _ = W2 m c (Proc.devRef .tc main_arg3) := StableHlo.after_of_writes_sub hostOps0_2 _ hostOps0_2_writes (by decide : main_arg3 ∉ hostOps0_2_W)
    _ = W1 m c (Proc.devRef .tc main_arg3) := StableHlo.after_of_writes_sub hostOps0_1 _ hostOps0_1_writes (by decide : main_arg3 ∉ hostOps0_1_W)
    _ = W0 m c (Proc.devRef .tc main_arg3) := StableHlo.after_of_writes_sub hostOps0 _ hostOps0_writes (by decide : main_arg3 ∉ hostOps0_W)
    _ = m ((c : Thread nD τ).loc main_arg3) := rfl
theorem W10_main_arg4 (c : Dev nD) : W10 m c (Proc.devRef .tc main_arg4) = m ((c : Thread nD τ).loc main_arg4) :=
  calc W10 m c (Proc.devRef .tc main_arg4)
    _ = W9 m c (Proc.devRef .tc main_arg4) := W10_of_ne m c main_arg4 (by decide)
    _ = W8 m c (Proc.devRef .tc main_arg4) := StableHlo.after_of_writes_sub hostOps3 _ hostOps3_writes (by decide : main_arg4 ∉ hostOps3_W)
    _ = W7 m c (Proc.devRef .tc main_arg4) := W8_of_ne m c main_arg4 (by decide)
    _ = W6 m c (Proc.devRef .tc main_arg4) := StableHlo.after_of_writes_sub hostOps2 _ hostOps2_writes (by decide : main_arg4 ∉ hostOps2_W)
    _ = W5 m c (Proc.devRef .tc main_arg4) := (W6_arr m c 2).trans (((dat1 (V5 m) c).arrAt_in 2 rfl _).trans (A_eq1 (V5 m) c 2))
    _ = W4 m c (Proc.devRef .tc main_arg4) := StableHlo.after_of_writes_sub hostOps1 _ hostOps1_writes (by decide : main_arg4 ∉ hostOps1_W)
    _ = W3 m c (Proc.devRef .tc main_arg4) := W4_of_ne m c main_arg4 (by decide)
    _ = W2 m c (Proc.devRef .tc main_arg4) := StableHlo.after_of_writes_sub hostOps0_2 _ hostOps0_2_writes (by decide : main_arg4 ∉ hostOps0_2_W)
    _ = W1 m c (Proc.devRef .tc main_arg4) := StableHlo.after_of_writes_sub hostOps0_1 _ hostOps0_1_writes (by decide : main_arg4 ∉ hostOps0_1_W)
    _ = W0 m c (Proc.devRef .tc main_arg4) := StableHlo.after_of_writes_sub hostOps0 _ hostOps0_writes (by decide : main_arg4 ∉ hostOps0_W)
    _ = m ((c : Thread nD τ).loc main_arg4) := rfl
theorem W10_main_arg5 (c : Dev nD) : W10 m c (Proc.devRef .tc main_arg5) = m ((c : Thread nD τ).loc main_arg5) :=
  calc W10 m c (Proc.devRef .tc main_arg5)
    _ = W9 m c (Proc.devRef .tc main_arg5) := W10_of_ne m c main_arg5 (by decide)
    _ = W8 m c (Proc.devRef .tc main_arg5) := StableHlo.after_of_writes_sub hostOps3 _ hostOps3_writes (by decide : main_arg5 ∉ hostOps3_W)
    _ = W7 m c (Proc.devRef .tc main_arg5) := W8_of_ne m c main_arg5 (by decide)
    _ = W6 m c (Proc.devRef .tc main_arg5) := StableHlo.after_of_writes_sub hostOps2 _ hostOps2_writes (by decide : main_arg5 ∉ hostOps2_W)
    _ = W5 m c (Proc.devRef .tc main_arg5) := W6_of_ne m c main_arg5 (by decide)
    _ = W4 m c (Proc.devRef .tc main_arg5) := StableHlo.after_of_writes_sub hostOps1 _ hostOps1_writes (by decide : main_arg5 ∉ hostOps1_W)
    _ = W3 m c (Proc.devRef .tc main_arg5) := W4_of_ne m c main_arg5 (by decide)
    _ = W2 m c (Proc.devRef .tc main_arg5) := StableHlo.after_of_writes_sub hostOps0_2 _ hostOps0_2_writes (by decide : main_arg5 ∉ hostOps0_2_W)
    _ = W1 m c (Proc.devRef .tc main_arg5) := StableHlo.after_of_writes_sub hostOps0_1 _ hostOps0_1_writes (by decide : main_arg5 ∉ hostOps0_1_W)
    _ = W0 m c (Proc.devRef .tc main_arg5) := StableHlo.after_of_writes_sub hostOps0 _ hostOps0_writes (by decide : main_arg5 ∉ hostOps0_W)
    _ = m ((c : Thread nD τ).loc main_arg5) := rfl

/-! ## The proof data family and the thread state -/

abbrev adm : (p : Fin 4) → (pcfgs (F := F) p).Adm := fun p => (cfgs p).toPCfg_adm
/-- Every region's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W10 m c) ∗ ∃ r, prngReg c r)

/-- After any point but the first, region 2's invariant gives the start invariant back: the scratch buffers' named contents
    are forgotten. -/
theorem Phi2_out (c : Dev nD) (t : Fin (cfg2.N + 1)) (ht : t.val ≠ 0) : (dat2 (V7 m) c).Φ t ⊢ Pipeline.ΦA spec2 c := by
  rw [show (dat2 (V7 m) c).Φ t = PhiS (V7 m) c t.val (Nat.le_of_lt_succ t.isLt) from rfl, PhiS_pos (V7 m) c _ _ ht]
  iintro ⟨⟨HS0, HS1, Hoth⟩, Hg⟩
  iapply (PhiA2_join (F := F) c)
  isplitl [HS0 HS1 Hoth]
  · isplitl [HS0]; · iexists _; iexact HS0
    isplitl [HS1]; · iexists _; iexact HS1
    iexact Hoth
  iexact Hg

/-! ## The regions as segments -/

set_option backward.isDefEq.respectTransparency.types false in
/-- Region 0 over the thread state: its arrays split out of the unscoped buffers on entry and put back at the exit
    contents; the generator register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers on entry and put back at the exit
    contents; the generator register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers on entry and put back at the exit
    contents; the generator register into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = (dat2 (V7 m) c).Φ (Fin.last cfg2.N) from rfl]
    have h := Phi2_out m c (Fin.last cfg2.N) (by rw [Fin.val_last]; have : cfg2.N = 100 := N_2; omega)
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: its arrays split out of the unscoped buffers on entry and put back at the exit
    contents; the generator register into the invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m) ]

theorem main_run (c : Dev nD) : main (F := F) c = Pipeline.Seg.run (segs m) := (main_chain c).trans (by chain_rfl)

set_option backward.isDefEq.respectTransparency.types false in
/-- From any memory with zero counters every weakly fair execution of the program terminates, nothing faulting, and in
    every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c _ (mem_uc main_arg0 (by decide))).trans (W10_main_arg0 m c),
      (h c _ (mem_uc main_arg1 (by decide))).trans (W10_main_arg1 m c),
      (h c _ (mem_uc main_arg2 (by decide))).trans (W10_main_arg2 m c),
      (h c _ (mem_uc main_arg3 (by decide))).trans (W10_main_arg3 m c),
      (h c _ (mem_uc main_arg4 (by decide))).trans (W10_main_arg4 m c),
      (h c _ (mem_uc main_arg5 (by decide))).trans (W10_main_arg5 m c)⟩) (run_all m ρ)

/-- The result: the result array ends at region 3's output array as the pipeline's write-backs leave it, beside the frame. -/
theorem run_result : θ_run defs (onTc (τ := τ) (main (F := F))) ⟨m, fun _ => 0, ρ⟩ (fun r => ∀ c : Dev nD,
      r.2.mem ((c.tc : Thread nD τ).loc main_v64) = (dat3 (V9 m) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c _ (mem_uc main_v64 (by decide))).trans (W10_arr m c 3),
      (h c _ (mem_uc main_arg0 (by decide))).trans (W10_main_arg0 m c),
      (h c _ (mem_uc main_arg1 (by decide))).trans (W10_main_arg1 m c),
      (h c _ (mem_uc main_arg2 (by decide))).trans (W10_main_arg2 m c),
      (h c _ (mem_uc main_arg3 (by decide))).trans (W10_main_arg3 m c),
      (h c _ (mem_uc main_arg4 (by decide))).trans (W10_main_arg4 m c),
      (h c _ (mem_uc main_arg5 (by decide))).trans (W10_main_arg5 m c)⟩) (run_all m ρ)

end Cert.KernelIdeal.Fr

end
-- ==== Proof.RefStages.lean ====
/-
  The reference computation as five stages over literal shapes.

  With e the edge list [2, 16000000], the 16000000 edges are followed by one self-loop per node, giving
  16500000 (source, destination) pairs. deg counts the pairs ending at each node; dinv is 1/√(max deg 1)
  where deg > 0 and 0 elsewhere; a pair's weight Norm is dinv at its source times dinv at its destination
  (a negative node number is first moved up by 500000, as jax's indexing does). One propagation L sends
  features h [500000, C] to the array whose row d is the sum over the pairs ending at d of
  Norm · (row of h at the pair's source): a gather of rows, a scaling, and an accumulating scatter into
  zeros. The network is
      h0 = x · W1,  agg1 = L h0,  h2 = max (agg1 + b1) 0 · W2,  agg2 = L h2,  z = agg2 + b2,
  and the result is the log-softmax of z down each column: (z - M) - log ∑ exp (z - M) with M the column's
  maximum, folded from -∞.
  Every definition is the plain composition of the printed operations, so that the same operations met in
  another program can be recognised as the same function of e and h.
-/
import proofs.«139132_j10462540333056_2_alg».proof.Proof.Gen.ReferenceIdeal
import Idealize.ShloMosaic.PureOps.Ideal

noncomputable section

namespace Cert.RefValue

open Cert.ReferenceIdeal Cert.ReferenceIdeal.Gen Idealize.ShloMosaic

variable {F : FTy → Type} [FloatOps F]

/-- An array's contents over the float values F (the theorems about these stages are at the ideal values). -/
abbrev Arr (F : FTy → Type) (S : Shape) (e : EltTy) : Type := (⟨S, e⟩ : BufTy).Contents (Elt F)

/-- The sources of the 16500000 pairs: row 0 of the edge list, then every node once. -/
def EdgeSrc (e : IVec S2x16000000 32) : IVec S16500000 32 :=
  concatenate S16500000 0 [⟨S16000000, (shapeCast _ (extractStridedSlice S1x16000000 ![0, 0] e slices_S2x16000000_S1x16000000_0_0) shapeCasts_S1x16000000_S16000000)⟩, ⟨S500000, (iotaInDim S500000 32 0)⟩] concatenates_S16000000_S500000_S16500000_d0

/-- The destinations of the pairs: row 1 of the edge list, then every node once. -/
def EdgeDst (e : IVec S2x16000000 32) : IVec S16500000 32 :=
  concatenate S16500000 0 [⟨S16000000, (shapeCast _ (extractStridedSlice S1x16000000 ![1, 0] e slices_S2x16000000_S1x16000000_1_0) shapeCasts_S1x16000000_S16000000)⟩, ⟨S500000, (iotaInDim S500000 32 0)⟩] concatenates_S16000000_S500000_S16500000_d0

/-- Node numbers as a column of gather indices, a negative number moved up by 500000. -/
def Wrap (v : IVec S16500000 32) : IVec S16500000x1 32 :=
  broadcastInDim S16500000x1 ![0] bcast_S16500000_S16500000x1_0
    (select (cmpi .slt v (broadcastInDim S16500000 ![] bcast_S_S16500000 (constantI S_ 32 0#32)))
      (addi v (broadcastInDim S16500000 ![] bcast_S_S16500000 (constantI S_ 32 500000#32))) v)

/-- Node numbers as a column of scatter indices. -/
def Col (v : IVec S16500000 32) : IVec S16500000x1 32 :=
  broadcastInDim S16500000x1 ![0] bcast_S16500000_S16500000x1_0 v

/-- How many pairs end at each node. -/
def Deg (e : IVec S2x16000000 32) : Arr F S500000 .f32 :=
  Host.scatterAdd scatter_S500000_S16500000x1_S16500000_n_0_0_1
    (broadcastInDim S500000 ![] bcast_S_S500000 (constant (F := F) S_ .f32 0x00000000#32))
    (Col (EdgeDst e))
    (broadcastInDim S16500000 ![] bcast_S_S16500000 (constant (F := F) S_ .f32 0x3F800000#32))

/-- 1/√(max deg 1) where deg > 0, else 0. -/
def Dinv (e : IVec S2x16000000 32) : Arr F S500000 .f32 :=
  select (cmpf (F := F) .ogt (Deg e) (broadcastInDim S500000 ![] bcast_S_S500000 (constant (F := F) S_ .f32 0x00000000#32)))
    (Host.rsqrt (maximumf (Deg e) (broadcastInDim S500000 ![] bcast_S_S500000 (constant (F := F) S_ .f32 0x3F800000#32))))
    (broadcastInDim S500000 ![] bcast_S_S500000 (id (constant (F := F) S_ .f32 0x00000000#32)))

/-- A pair's weight: dinv at its source times dinv at its destination. -/
def Norm (e : IVec S2x16000000 32) : Arr F S16500000 .f32 :=
  mulf (Host.gather gather_S500000_S16500000x1_S16500000_n_0_n_n_0_1_1 (Dinv e) (Wrap (EdgeSrc e)))
    (Host.gather gather_S500000_S16500000x1_S16500000_n_0_n_n_0_1_1 (Dinv e) (Wrap (EdgeDst e)))

/-- h0 = x · W1. -/
def DotA (x : Arr F S500000x5 .f32) (W1 : Arr F S5x4 .f32) : Arr F S500000x4 .f32 :=
  Host.dotGeneral dot_S500000x5_S5x4_S500000x4_1_0_0_1_n_n none x W1

/-- One propagation at width 4. -/
def L4 (e : IVec S2x16000000 32) (h : Arr F S500000x4 .f32) : Arr F S500000x4 .f32 :=
  Host.scatterAdd scatter_S500000x4_S16500000x1_S16500000x4_1_0_0_1
    (broadcastInDim S500000x4 ![] bcast_S_S500000x4 (constant (F := F) S_ .f32 0x00000000#32))
    (Col (EdgeDst e))
    (mulf (Host.gather gather_S500000x4_S16500000x1_S16500000x4_1_0_n_n_0_1_14 h (Wrap (EdgeSrc e)))
      (broadcastInDim S16500000x4 ![0, 1] bcast_S16500000x1_S16500000x4_0_1
        (broadcastInDim S16500000x1 ![0] bcast_S16500000_S16500000x1_0 (Norm e))))

/-- h2 = max (agg1 + b1) 0 · W2. -/
def Mid (agg1 : Arr F S500000x4 .f32) (b1 : Arr F S4 .f32) (W2 : Arr F S4x7 .f32) : Arr F S500000x7 .f32 :=
  Host.dotGeneral dot_S500000x4_S4x7_S500000x7_1_0_0_1_n_n none
    (maximumf (addf agg1 (broadcastInDim S500000x4 ![0, 1] bcast_S1x4_S500000x4_0_1 (broadcastInDim S1x4 ![1] bcast_S4_S1x4_1 b1)))
      (broadcastInDim S500000x4 ![] bcast_S_S500000x4 (constant (F := F) S_ .f32 0x00000000#32)))
    W2

/-- One propagation at width 7. -/
def L7 (e : IVec S2x16000000 32) (h : Arr F S500000x7 .f32) : Arr F S500000x7 .f32 :=
  Host.scatterAdd scatter_S500000x7_S16500000x1_S16500000x7_1_0_0_1
    (broadcastInDim S500000x7 ![] bcast_S_S500000x7 (constant (F := F) S_ .f32 0x00000000#32))
    (Col (EdgeDst e))
    (mulf (Host.gather gather_S500000x7_S16500000x1_S16500000x7_1_0_n_n_0_1_17 h (Wrap (EdgeSrc e)))
      (broadcastInDim S16500000x7 ![0, 1] bcast_S16500000x1_S16500000x7_0_1
        (broadcastInDim S16500000x1 ![0] bcast_S16500000_S16500000x1_0 (Norm e))))

/-- z = agg2 + b2. -/
def AddB2 (agg2 : Arr F S500000x7 .f32) (b2 : Arr F S7 .f32) : Arr F S500000x7 .f32 :=
  addf agg2 (broadcastInDim S500000x7 ![0, 1] bcast_S1x7_S500000x7_0_1 (broadcastInDim S1x7 ![1] bcast_S7_S1x7_1 b2))

/-- Each column's maximum, folded from -∞ (and once more compared with -∞). -/
def ColMax (z : Arr F S500000x7 .f32) : Arr F S7 .f32 :=
  maximumf (broadcastInDim S7 ![] bcast_S_S7 (constant (F := F) S_ .f32 0xFF800000#32))
    (Host.reduce FloatOps.maximumf z (constant (F := F) S_ .f32 0xFF800000#32) reducesTo_S500000x7_S7_d0 h_S_)

/-- z less its column's maximum. -/
def Shift (z : Arr F S500000x7 .f32) : Arr F S500000x7 .f32 :=
  subf z (broadcastInDim S500000x7 ![0, 1] bcast_S1x7_S500000x7_0_1 (broadcastInDim S1x7 ![1] bcast_S7_S1x7_1 (ColMax z)))

/-- The log-softmax down each column. -/
def LogSoftmax (z : Arr F S500000x7 .f32) : Arr F S500000x7 .f32 :=
  subf (Shift z)
    (broadcastInDim S500000x7 ![0, 1] bcast_S1x7_S500000x7_0_1
      (Host.log (broadcastInDim S1x7 ![1] bcast_S7_S1x7_1
        (Host.reduceAdd (Host.exp (Shift z)) (constant (F := F) S_ .f32 0x00000000#32) reducesTo_S500000x7_S7_d0 h_S_))))

/-- The whole reference as one function of the six arguments. -/
def Net (x : Arr F S500000x5 .f32) (e : IVec S2x16000000 32) (W1 : Arr F S5x4 .f32) (b1 : Arr F S4 .f32) (W2 : Arr F S4x7 .f32)
    (b2 : Arr F S7 .f32) : Arr F S500000x7 .f32 :=
  LogSoftmax (AddB2 (L7 e (Mid (L4 e (DotA x W1)) b1 W2)) b2)

end Cert.RefValue

end
-- ==== Proof.KernelIdealBridge.Host.lean ====
/-
  The host stretches of the kernel program read against the contents at the boundary before them, and which buffers keep their
  contents from one boundary to a later one. After the first three stretches the two index vectors are the edge list's sources
  and destinations (each followed by every node once) and the pair weights are the symmetric degree normalisation; the
  stretch after region 0 is one propagation at width 4 of region 0's result (gather the source rows, scale by the weights,
  add into the destination rows) beside the first bias laid as a row; the stretch after region 1 is the same at width 7 beside
  the second bias as a row; the last stretch lays the second bias as a row once more.
-/
import proofs.«139132_j10462540333056_2_alg».proof.Proof.KernelIdealFrame.Run
import proofs.«139132_j10462540333056_2_alg».proof.Proof.RefStages
import Idealize.ShloMosaic.Lib.StableHlo.Run
import Idealize.ShloMosaic.Lib.Tactic

set_option maxRecDepth 16384

noncomputable section

namespace Cert.KernelIdeal.Br

open Cert.KernelIdeal Cert.KernelIdeal.Gen Cert.KernelIdeal.Fr
open Idealize.ShloMosaic Idealize.ShloMosaic.TcCoe Idealize.ShloMosaic.Tactic Idealize.SL.Sem Idealize.ShloMosaic.StableHlo
open Cert.RefValue (Arr EdgeSrc EdgeDst Wrap Col Deg Dinv Norm DotA L4 Mid L7 AddB2 LogSoftmax Net)

variable {F : FTy → Type} [FloatOps F]
variable (m : (ℓ : Loc nD τ sig) → Buf (Elt F) ℓ)

/-- The edge list as launched, on core `c`. -/
abbrev edges (c : Dev nD) : IVec S2x16000000 32 := m ((c : Thread nD τ).loc main_arg1)

/-! ## What keeps its contents -/

theorem keep_main_v5_1_6 (c : Dev nD) : W6 m c (Proc.devRef .tc main_v5) = W1 m c (Proc.devRef .tc main_v5) :=
  calc W6 m c (Proc.devRef .tc main_v5)
    _ = W5 m c (Proc.devRef .tc main_v5) := W6_of_ne m c main_v5 (by decide)
    _ = W4 m c (Proc.devRef .tc main_v5) := StableHlo.after_of_writes_sub hostOps1 _ hostOps1_writes (by decide : main_v5 ∉ hostOps1_W)
    _ = W3 m c (Proc.devRef .tc main_v5) := W4_of_ne m c main_v5 (by decide)
    _ = W2 m c (Proc.devRef .tc main_v5) := StableHlo.after_of_writes_sub hostOps0_2 _ hostOps0_2_writes (by decide : main_v5 ∉ hostOps0_2_W)
    _ = W1 m c (Proc.devRef .tc main_v5) := StableHlo.after_of_writes_sub hostOps0_1 _ hostOps0_1_writes (by decide : main_v5 ∉ hostOps0_1_W)

theorem keep_main_v6_1_6 (c : Dev nD) : W6 m c (Proc.devRef .tc main_v6) = W1 m c (Proc.devRef .tc main_v6) :=
  calc W6 m c (Proc.devRef .tc main_v6)
    _ = W5 m c (Proc.devRef .tc main_v6) := W6_of_ne m c main_v6 (by decide)
    _ = W4 m c (Proc.devRef .tc main_v6) := StableHlo.after_of_writes_sub hostOps1 _ hostOps1_writes (by decide : main_v6 ∉ hostOps1_W)
    _ = W3 m c (Proc.devRef .tc main_v6) := W4_of_ne m c main_v6 (by decide)
    _ = W2 m c (Proc.devRef .tc main_v6) := StableHlo.after_of_writes_sub hostOps0_2 _ hostOps0_2_writes (by decide : main_v6 ∉ hostOps0_2_W)
    _ = W1 m c (Proc.devRef .tc main_v6) := StableHlo.after_of_writes_sub hostOps0_1 _ hostOps0_1_writes (by decide : main_v6 ∉ hostOps0_1_W)

theorem keep_main_v5_1_2 (c : Dev nD) : W2 m c (Proc.devRef .tc main_v5) = W1 m c (Proc.devRef .tc main_v5) :=
  calc W2 m c (Proc.devRef .tc main_v5)
    _ = W1 m c (Proc.devRef .tc main_v5) := StableHlo.after_of_writes_sub hostOps0_1 _ hostOps0_1_writes (by decide : main_v5 ∉ hostOps0_1_W)

theorem keep_main_v6_1_2 (c : Dev nD) : W2 m c (Proc.devRef .tc main_v6) = W1 m c (Proc.devRef .tc main_v6) :=
  calc W2 m c (Proc.devRef .tc main_v6)
    _ = W1 m c (Proc.devRef .tc main_v6) := StableHlo.after_of_writes_sub hostOps0_1 _ hostOps0_1_writes (by decide : main_v6 ∉ hostOps0_1_W)

theorem keep_main_v5_1_4 (c : Dev nD) : W4 m c (Proc.devRef .tc main_v5) = W1 m c (Proc.devRef .tc main_v5) :=
  calc W4 m c (Proc.devRef .tc main_v5)
    _ = W3 m c (Proc.devRef .tc main_v5) := W4_of_ne m c main_v5 (by decide)
    _ = W2 m c (Proc.devRef .tc main_v5) := StableHlo.after_of_writes_sub hostOps0_2 _ hostOps0_2_writes (by decide : main_v5 ∉ hostOps0_2_W)
    _ = W1 m c (Proc.devRef .tc main_v5) := StableHlo.after_of_writes_sub hostOps0_1 _ hostOps0_1_writes (by decide : main_v5 ∉ hostOps0_1_W)

theorem keep_main_v6_1_4 (c : Dev nD) : W4 m c (Proc.devRef .tc main_v6) = W1 m c (Proc.devRef .tc main_v6) :=
  calc W4 m c (Proc.devRef .tc main_v6)
    _ = W3 m c (Proc.devRef .tc main_v6) := W4_of_ne m c main_v6 (by decide)
    _ = W2 m c (Proc.devRef .tc main_v6) := StableHlo.after_of_writes_sub hostOps0_2 _ hostOps0_2_writes (by decide : main_v6 ∉ hostOps0_2_W)
    _ = W1 m c (Proc.devRef .tc main_v6) := StableHlo.after_of_writes_sub hostOps0_1 _ hostOps0_1_writes (by decide : main_v6 ∉ hostOps0_1_W)

theorem keep_main_v31_3_4 (c : Dev nD) : W4 m c (Proc.devRef .tc main_v31) = W3 m c (Proc.devRef .tc main_v31) :=
  calc W4 m c (Proc.devRef .tc main_v31)
    _ = W3 m c (Proc.devRef .tc main_v31) := W4_of_ne m c main_v31 (by decide)

theorem keep_main_v31_3_6 (c : Dev nD) : W6 m c (Proc.devRef .tc main_v31) = W3 m c (Proc.devRef .tc main_v31) :=
  calc W6 m c (Proc.devRef .tc main_v31)
    _ = W5 m c (Proc.devRef .tc main_v31) := W6_of_ne m c main_v31 (by decide)
    _ = W4 m c (Proc.devRef .tc main_v31) := StableHlo.after_of_writes_sub hostOps1 _ hostOps1_writes (by decide : main_v31 ∉ hostOps1_W)
    _ = W3 m c (Proc.devRef .tc main_v31) := W4_of_ne m c main_v31 (by decide)

theorem keep_main_arg3_0_4 (c : Dev nD) : W4 m c (Proc.devRef .tc main_arg3) = W0 m c (Proc.devRef .tc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps0_2 _ hostOps0_2_writes (by decide : main_arg3 ∉ hostOps0_2_W)
    _ = W1 m c (Proc.devRef .tc main_arg3) := StableHlo.after_of_writes_sub hostOps0_1 _ hostOps0_1_writes (by decide : main_arg3 ∉ hostOps0_1_W)
    _ = W0 m c (Proc.devRef .tc main_arg3) := StableHlo.after_of_writes_sub hostOps0 _ hostOps0_writes (by decide : main_arg3 ∉ hostOps0_W)

theorem keep_main_arg4_0_5 (c : Dev nD) : W5 m c (Proc.devRef .tc main_arg4) = W0 m c (Proc.devRef .tc main_arg4) :=
  calc W5 m c (Proc.devRef .tc main_arg4)
    _ = W4 m c (Proc.devRef .tc main_arg4) := StableHlo.after_of_writes_sub hostOps1 _ hostOps1_writes (by decide : main_arg4 ∉ hostOps1_W)
    _ = W3 m c (Proc.devRef .tc main_arg4) := W4_of_ne m c main_arg4 (by decide)
    _ = W2 m c (Proc.devRef .tc main_arg4) := StableHlo.after_of_writes_sub hostOps0_2 _ hostOps0_2_writes (by decide : main_arg4 ∉ hostOps0_2_W)
    _ = W1 m c (Proc.devRef .tc main_arg4) := StableHlo.after_of_writes_sub hostOps0_1 _ hostOps0_1_writes (by decide : main_arg4 ∉ hostOps0_1_W)
    _ = W0 m c (Proc.devRef .tc main_arg4) := StableHlo.after_of_writes_sub hostOps0 _ hostOps0_writes (by decide : main_arg4 ∉ hostOps0_W)

theorem keep_main_arg5_0_6 (c : Dev nD) : W6 m c (Proc.devRef .tc main_arg5) = W0 m c (Proc.devRef .tc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps1 _ hostOps1_writes (by decide : main_arg5 ∉ hostOps1_W)
    _ = W3 m c (Proc.devRef .tc main_arg5) := W4_of_ne m c main_arg5 (by decide)
    _ = W2 m c (Proc.devRef .tc main_arg5) := StableHlo.after_of_writes_sub hostOps0_2 _ hostOps0_2_writes (by decide : main_arg5 ∉ hostOps0_2_W)
    _ = W1 m c (Proc.devRef .tc main_arg5) := StableHlo.after_of_writes_sub hostOps0_1 _ hostOps0_1_writes (by decide : main_arg5 ∉ hostOps0_1_W)
    _ = W0 m c (Proc.devRef .tc main_arg5) := StableHlo.after_of_writes_sub hostOps0 _ hostOps0_writes (by decide : main_arg5 ∉ hostOps0_W)

theorem keep_main_arg5_0_8 (c : Dev nD) : W8 m c (Proc.devRef .tc main_arg5) = W0 m c (Proc.devRef .tc main_arg5) :=
  calc W8 m c (Proc.devRef .tc main_arg5)
    _ = W7 m c (Proc.devRef .tc main_arg5) := W8_of_ne m c main_arg5 (by decide)
    _ = W6 m c (Proc.devRef .tc main_arg5) := StableHlo.after_of_writes_sub hostOps2 _ hostOps2_writes (by decide : main_arg5 ∉ hostOps2_W)
    _ = W5 m c (Proc.devRef .tc main_arg5) := W6_of_ne m c main_arg5 (by decide)
    _ = W4 m c (Proc.devRef .tc main_arg5) := StableHlo.after_of_writes_sub hostOps1 _ hostOps1_writes (by decide : main_arg5 ∉ hostOps1_W)
    _ = W3 m c (Proc.devRef .tc main_arg5) := W4_of_ne m c main_arg5 (by decide)
    _ = W2 m c (Proc.devRef .tc main_arg5) := StableHlo.after_of_writes_sub hostOps0_2 _ hostOps0_2_writes (by decide : main_arg5 ∉ hostOps0_2_W)
    _ = W1 m c (Proc.devRef .tc main_arg5) := StableHlo.after_of_writes_sub hostOps0_1 _ hostOps0_1_writes (by decide : main_arg5 ∉ hostOps0_1_W)
    _ = W0 m c (Proc.devRef .tc main_arg5) := StableHlo.after_of_writes_sub hostOps0 _ hostOps0_writes (by decide : main_arg5 ∉ hostOps0_W)

theorem keep_main_arg0_0_3 (c : Dev nD) : W3 m c (Proc.devRef .tc main_arg0) = W0 m c (Proc.devRef .tc main_arg0) :=
  calc W3 m c (Proc.devRef .tc main_arg0)
    _ = W2 m c (Proc.devRef .tc main_arg0) := StableHlo.after_of_writes_sub hostOps0_2 _ hostOps0_2_writes (by decide : main_arg0 ∉ hostOps0_2_W)
    _ = W1 m c (Proc.devRef .tc main_arg0) := StableHlo.after_of_writes_sub hostOps0_1 _ hostOps0_1_writes (by decide : main_arg0 ∉ hostOps0_1_W)
    _ = W0 m c (Proc.devRef .tc main_arg0) := StableHlo.after_of_writes_sub hostOps0 _ hostOps0_writes (by decide : main_arg0 ∉ hostOps0_W)

theorem keep_main_arg2_0_3 (c : Dev nD) : W3 m c (Proc.devRef .tc main_arg2) = W0 m c (Proc.devRef .tc main_arg2) :=
  calc W3 m c (Proc.devRef .tc main_arg2)
    _ = W2 m c (Proc.devRef .tc main_arg2) := StableHlo.after_of_writes_sub hostOps0_2 _ hostOps0_2_writes (by decide : main_arg2 ∉ hostOps0_2_W)
    _ = W1 m c (Proc.devRef .tc main_arg2) := StableHlo.after_of_writes_sub hostOps0_1 _ hostOps0_1_writes (by decide : main_arg2 ∉ hostOps0_1_W)
    _ = W0 m c (Proc.devRef .tc main_arg2) := StableHlo.after_of_writes_sub hostOps0 _ hostOps0_writes (by decide : main_arg2 ∉ hostOps0_W)

theorem keep_main_v60_7_9 (c : Dev nD) : W9 m c (Proc.devRef .tc main_v60) = W7 m c (Proc.devRef .tc main_v60) :=
  calc W9 m c (Proc.devRef .tc main_v60)
    _ = W8 m c (Proc.devRef .tc main_v60) := StableHlo.after_of_writes_sub hostOps3 _ hostOps3_writes (by decide : main_v60 ∉ hostOps3_W)
    _ = W7 m c (Proc.devRef .tc main_v60) := (W8_arr m c 0).trans (((dat2 (V7 m) c).arrAt_in 0 rfl _).trans (A_eq2 (V7 m) c 0))

theorem keep_main_v62_8_9 (c : Dev nD) : W9 m c (Proc.devRef .tc main_v62) = W8 m c (Proc.devRef .tc main_v62) :=
  calc W9 m c (Proc.devRef .tc main_v62)
    _ = W8 m c (Proc.devRef .tc main_v62) := StableHlo.after_of_writes_sub hostOps3 _ hostOps3_writes (by decide : main_v62 ∉ hostOps3_W)

/-! ## The first three stretches: index vectors and pair weights -/

theorem W1_v5 (c : Dev nD) : W1 m c main_v5 = EdgeSrc (edges m c) := by
  show StableHlo.after hostOps0 (W0 m c) (Proc.devRef .tc main_v5) = _
  after_results
  rfl

theorem W1_v6 (c : Dev nD) : W1 m c main_v6 = EdgeDst (edges m c) := by
  show StableHlo.after hostOps0 (W0 m c) (Proc.devRef .tc main_v6) = _
  after_results
  rfl

theorem W1_v12 (c : Dev nD) : W1 m c main_v12 = cmpf (F := F) .ogt (Deg (edges m c)) (broadcastInDim S500000 ![] bcast_S_S500000 (constant (F := F) S_ .f32 0x00000000#32)) := by
  show StableHlo.after hostOps0 (W0 m c) (Proc.devRef .tc main_v12) = _
  after_results
  rfl

theorem W1_v15 (c : Dev nD) : W1 m c main_v15 = Host.rsqrt (maximumf (Deg (F := F) (edges m c)) (broadcastInDim S500000 ![] bcast_S_S500000 (constant (F := F) S_ .f32 0x3F800000#32))) := by
  show StableHlo.after hostOps0 (W0 m c) (Proc.devRef .tc main_v15) = _
  after_results
  rfl

theorem W1_cst3 (c : Dev nD) : W1 m c main_cst_3 = constant (F := F) S_ .f32 0x00000000#32 := by
  show StableHlo.after hostOps0 (W0 m c) (Proc.devRef .tc main_cst_3) = _
  after_results

/-! ## The later stretches over any contents before them -/

section AnyContents

variable (V : Valuation τ sig (Elt F))

/-- The select of the degree normalisation, from the comparison, the reciprocal root and the zero it reads. -/
theorem stretch01_v16 : StableHlo.after hostOps0_1 V (Proc.devRef .tc main_v16)
    = select (α := F .f32) (V (Proc.devRef .tc main_v12)) (V (Proc.devRef .tc main_v15)) (broadcastInDim S500000 ![] bcast_S_S500000 (id (V (Proc.devRef .tc main_cst_3)))) := by
  after_results
  try rfl

/-- The pair weights from the node weights and the two index vectors. -/
def WeightsOf (dinv : Arr F S500000 .f32) (src dst : IVec S16500000 32) : Arr F S16500000 .f32 :=
  mulf (Host.gather gather_S500000_S16500000x1_S16500000_n_0_n_n_0_1_1 dinv (Wrap src))
    (Host.gather gather_S500000_S16500000x1_S16500000_n_0_n_n_0_1_1 dinv (Wrap dst))

set_option maxHeartbeats 8000000 in
theorem stretch02_v31 : StableHlo.after hostOps0_2 V (Proc.devRef .tc main_v31)
    = WeightsOf (F := F) (V (Proc.devRef .tc main_v16)) (V (Proc.devRef .tc main_v5)) (V (Proc.devRef .tc main_v6)) := by
  after_results
  try rfl

/-- One propagation step at width 4: gather the source rows, scale by the weights, add into the destination rows. -/
def Prop4 (src dst : IVec S16500000 32) (nrm : Arr F S16500000 .f32) (h : Arr F S500000x4 .f32) : Arr F S500000x4 .f32 :=
  Host.scatterAdd scatter_S500000x4_S16500000x1_S16500000x4_1_0_0_1
    (broadcastInDim S500000x4 ![] bcast_S_S500000x4 (constant (F := F) S_ .f32 0x00000000#32))
    (Col dst)
    (mulf (Host.gather gather_S500000x4_S16500000x1_S16500000x4_1_0_n_n_0_1_14 h (Wrap src))
      (broadcastInDim S16500000x4 ![0, 1] bcast_S16500000x1_S16500000x4_0_1
        (broadcastInDim S16500000x1 ![0] bcast_S16500000_S16500000x1_0 nrm)))

set_option maxHeartbeats 8000000 in
theorem stretch1_v45 : StableHlo.after hostOps1 V (Proc.devRef .tc main_v45)
    = Prop4 (F := F) (V (Proc.devRef .tc main_v5)) (V (Proc.devRef .tc main_v6)) (V (Proc.devRef .tc main_v31)) (V (Proc.devRef .tc main_v32)) := by
  after_results
  try rfl

theorem stretch1_v46 : StableHlo.after hostOps1 V (Proc.devRef .tc main_v46)
    = shapeCast S1x4 (V (Proc.devRef .tc main_arg3)) shapeCasts_S4_S1x4 := by
  after_results
  try rfl

/-- The same step at width 7. -/
def Prop7 (src dst : IVec S16500000 32) (nrm : Arr F S16500000 .f32) (h : Arr F S500000x7 .f32) : Arr F S500000x7 .f32 :=
  Host.scatterAdd scatter_S500000x7_S16500000x1_S16500000x7_1_0_0_1
    (broadcastInDim S500000x7 ![] bcast_S_S500000x7 (constant (F := F) S_ .f32 0x00000000#32))
    (Col dst)
    (mulf (Host.gather gather_S500000x7_S16500000x1_S16500000x7_1_0_n_n_0_1_17 h (Wrap src))
      (broadcastInDim S16500000x7 ![0, 1] bcast_S16500000x1_S16500000x7_0_1
        (broadcastInDim S16500000x1 ![0] bcast_S16500000_S16500000x1_0 nrm)))

set_option maxHeartbeats 8000000 in
theorem stretch2_v60 : StableHlo.after hostOps2 V (Proc.devRef .tc main_v60)
    = Prop7 (F := F) (V (Proc.devRef .tc main_v5)) (V (Proc.devRef .tc main_v6)) (V (Proc.devRef .tc main_v31)) (V (Proc.devRef .tc main_v47)) := by
  after_results
  try rfl

theorem stretch2_v61 : StableHlo.after hostOps2 V (Proc.devRef .tc main_v61)
    = shapeCast S1x7 (V (Proc.devRef .tc main_arg5)) shapeCasts_S7_S1x7 := by
  after_results
  try rfl

theorem stretch3_v63 : StableHlo.after hostOps3 V (Proc.devRef .tc main_v63)
    = shapeCast S1x7 (V (Proc.devRef .tc main_arg5)) shapeCasts_S7_S1x7 := by
  after_results
  try rfl

end AnyContents

/-- The reference's stages are these steps at the edge list's vectors. -/
theorem Dinv_eq (e : IVec S2x16000000 32) :
    Dinv (F := F) e = select (α := F .f32) (cmpf (F := F) .ogt (Deg e) (broadcastInDim S500000 ![] bcast_S_S500000 (constant (F := F) S_ .f32 0x00000000#32)))
      (Host.rsqrt (maximumf (Deg (F := F) e) (broadcastInDim S500000 ![] bcast_S_S500000 (constant (F := F) S_ .f32 0x3F800000#32))))
      (broadcastInDim S500000 ![] bcast_S_S500000 (id (constant (F := F) S_ .f32 0x00000000#32))) := rfl
theorem Norm_eq (e : IVec S2x16000000 32) : Norm (F := F) e = WeightsOf (F := F) (Dinv e) (EdgeSrc e) (EdgeDst e) := rfl
theorem L4_eq (e : IVec S2x16000000 32) (h : Arr F S500000x4 .f32) : L4 (F := F) e h = Prop4 (F := F) (EdgeSrc e) (EdgeDst e) (Norm e) h := rfl
theorem L7_eq (e : IVec S2x16000000 32) (h : Arr F S500000x7 .f32) : L7 (F := F) e h = Prop7 (F := F) (EdgeSrc e) (EdgeDst e) (Norm e) h := rfl

/-! ## The stretches at the boundaries' contents -/

theorem W2_v16 (c : Dev nD) : W2 m c main_v16 = Dinv (F := F) (edges m c) := by
  have h := stretch01_v16 (F := F) (W1 m c)
  rw [W1_v12 m c, W1_v15 m c, W1_cst3 m c] at h
  exact h.trans (Dinv_eq (edges m c)).symm

theorem W3_v31 (c : Dev nD) : W3 m c main_v31 = Norm (F := F) (edges m c) := by
  have h := stretch02_v31 (F := F) (W2 m c)
  rw [W2_v16 m c, keep_main_v5_1_2 m c, keep_main_v6_1_2 m c, W1_v5 m c, W1_v6 m c] at h
  exact h.trans (Norm_eq (edges m c)).symm

/-! ## The stretch after region 0 -/

theorem W5_v45 (c : Dev nD) : W5 m c main_v45 = L4 (F := F) (edges m c) (W4 m c main_v32) := by
  have h := stretch1_v45 (F := F) (W4 m c)
  rw [keep_main_v5_1_4 m c, keep_main_v6_1_4 m c, keep_main_v31_3_4 m c, W1_v5 m c, W1_v6 m c, W3_v31 m c] at h
  exact h.trans (L4_eq (edges m c) _).symm

theorem W5_v46 (c : Dev nD) : W5 m c main_v46 = shapeCast S1x4 (m ((c : Thread nD τ).loc main_arg3)) shapeCasts_S4_S1x4 := by
  have h := stretch1_v46 (F := F) (W4 m c)
  rw [keep_main_arg3_0_4 m c] at h
  exact h

/-! ## The stretch after region 1 -/

theorem W7_v60 (c : Dev nD) : W7 m c main_v60 = L7 (F := F) (edges m c) (W6 m c main_v47) := by
  have h := stretch2_v60 (F := F) (W6 m c)
  rw [keep_main_v5_1_6 m c, keep_main_v6_1_6 m c, keep_main_v31_3_6 m c, W1_v5 m c, W1_v6 m c, W3_v31 m c] at h
  exact h.trans (L7_eq (edges m c) _).symm

theorem W7_v61 (c : Dev nD) : W7 m c main_v61 = shapeCast S1x7 (m ((c : Thread nD τ).loc main_arg5)) shapeCasts_S7_S1x7 := by
  have h := stretch2_v61 (F := F) (W6 m c)
  rw [keep_main_arg5_0_6 m c] at h
  exact h

/-! ## The last stretch -/

theorem W9_v63 (c : Dev nD) : W9 m c main_v63 = shapeCast S1x7 (m ((c : Thread nD τ).loc main_arg5)) shapeCasts_S7_S1x7 := by
  have h := stretch3_v63 (F := F) (W8 m c)
  rw [keep_main_arg5_0_8 m c] at h
  exact h

end Cert.KernelIdeal.Br

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.KernelIdealValue.Pay0.lean ====
/-
  The first linear layer's arithmetic at one entry. The body multiplies a tile of 5000 rows of the features, each of five
  entries, by the whole first weight matrix (five rows, four columns) into an accumulator of zeros; at the ideal values the
  entry in row `p`, column `q` of the product is the sum over the five features of the row's feature times the weight.
  `H0` is the same sum for the whole array of 500000 rows: the function the layer's result is, entry by entry.
-/
import proofs.«139132_j10462540333056_2_alg».proof.Proof.Gen.KernelIdeal.Skeleton
import proofs.«139132_j10462540333056_2_alg».proof.Proof.LibDenseRows
import Idealize.ShloMosaic.Lib.ValueIdx

noncomputable section

namespace Cert.KernelIdeal.Val

open Cert.KernelIdeal Cert.KernelIdeal.Gen
open Idealize.ShloMosaic Idealize.ShloMosaic.TcCoe Idealize.SL.Sem Idealize.ShloMosaic.ValueIdx
open scoped BigOperators

/-- The first layer on the whole array: row `r` of the features against column `j` of the weights. -/
def H0 (x : FVec Ideal S500000x5 .f32) (w : FVec Ideal S5x4 .f32) : FVec Ideal S500000x4 .f32 :=
  fun i => ∑ k : Fin 5, x (ix2 (⟨(i 0).val, (i 0).isLt⟩ : Fin 500000) k) * w (ix2 k (⟨(i 1).val, (i 1).isLt⟩ : Fin 4))

theorem H0_apply (x : FVec Ideal S500000x5 .f32) (w : FVec Ideal S5x4 .f32) (r : Fin 500000) (j : Fin 4) :
    H0 x w (ix2 r j) = ∑ k : Fin 5, x (ix2 r k) * w (ix2 k j) := rfl

/-- A kept row of the left operand is the result's row. -/
theorem dot0_lhs0 (i : S5000x4.Idx) (q : dot_S5000x5_S5x4_S5000x4_1_0_0_1_n_n.contr.Idx) :
    (dot_S5000x5_S5x4_S5000x4_1_0_0_1_n_n.lhsIdx i q 0).val = (i 0).val := by
  unfold DotDims.lhsIdx
  rw [dif_neg (show ¬(0 : Fin S5000x5.rank) ∈ dot_S5000x5_S5x4_S5000x4_1_0_0_1_n_n.lhsBatch by decide), dif_pos (show (0 : Fin S5000x5.rank) ∈ dot_S5000x5_S5x4_S5000x4_1_0_0_1_n_n.lhsNonContracting by decide)]
  rfl

/-- A kept column of the right operand is the result's column. -/
theorem dot0_rhs1 (i : S5000x4.Idx) (q : dot_S5000x5_S5x4_S5000x4_1_0_0_1_n_n.contr.Idx) :
    (dot_S5000x5_S5x4_S5000x4_1_0_0_1_n_n.rhsIdx i q 1).val = (i 1).val := by
  unfold DotDims.rhsIdx
  rw [dif_neg (show ¬(1 : Fin S5x4.rank) ∈ dot_S5000x5_S5x4_S5000x4_1_0_0_1_n_n.rhsBatch by decide), dif_pos (show (1 : Fin S5x4.rank) ∈ dot_S5000x5_S5x4_S5000x4_1_0_0_1_n_n.rhsNonContracting by decide)]
  rfl

/-- The body's product at row `p`, column `q` of the tile. -/
theorem k0_pay1_apply (x0 : FVec Ideal S5000x5 .f32) (x1 : FVec Ideal S5x4 .f32) (p : Fin 5000) (q : Fin 4) :
    k0_pay1 (F := Ideal) x0 x1 (ix2 p q) = ∑ k : Fin 5, x0 (ix2 p k) * x1 (ix2 k q) := by
  unfold k0_pay1
  exact Cert.DenseRows.matmul_zero_plain_apply dot_S5000x5_S5x4_S5000x4_1_0_0_1_n_n rfl rfl rfl rfl dot0_lhs0 dot0_rhs1 x0 x1 p q

end Cert.KernelIdeal.Val

end
-- ==== Proof.KernelIdealValue.Arr0.lean ====
/-
  The first linear layer as one array. The region's grid has 100 points; point `t` multiplies rows `5000 t … 5000 t + 4999`
  of the features by the whole weight matrix and writes the product back over the same rows of the result. Entry `(y0, y1)`
  of the block written at point `t` is entry `(5000 t + y0, y1)` of the array (a block's coordinate in the array is the
  block index times the block size plus the coordinate inside the block), the feature rows it reads are rows
  `5000 t + y0` of the features, and the weight block is the weight matrix itself; so what point `t` writes is block `t`
  of `H0` of the two arrays as the region finds them. Row `r` lies in the block of point `r / 5000`, so the blocks cover
  the array and it ends as `H0`.
-/
import proofs.«139132_j10462540333056_2_alg».proof.Proof.KernelIdealFrame.R0
import proofs.«139132_j10462540333056_2_alg».proof.Proof.KernelIdealValue.Pay0
import Idealize.ShloMosaic.Lib.Pipeline.Value

noncomputable section

namespace Cert.KernelIdeal.Val

open Cert.KernelIdeal Cert.KernelIdeal.Gen
open Idealize.ShloMosaic Idealize.ShloMosaic.TcCoe Idealize.SL.Sem Idealize.ShloMosaic.ValueIdx
open scoped BigOperators
open Cert.KernelIdeal.Fr
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the grid: the feature rows and the result rows move with the point, the weights stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `H0` of the features and the weights as the region finds them. -/
theorem flushed0_eq (c : Dev nD) (t : Fin cfg0.N) :
    (dat0 (F := Ideal) V c).flushed 2 t = ((cfg0.win 2).blk t).view.read (Elt Ideal) (H0 (V c main_arg0) (V c main_arg2)) := by
  show (cfg0.win 2).cut (grid0.coords t) ((dat0 V c).after 2 t) = _
  rw [after0_2]
  unfold out0_2
  rw [View.canon_unit_zero zeros2]
  simp only [View.ld_unit_zero (S := S5000x5) zeros2, View.ld_unit_zero (S := S5x4) zeros2]
  obtain ⟨e00, e01, e10, e11, e20, e21⟩ := idx_facts0 t
  have ht : t.val < 100 := Nat.lt_of_lt_of_eq t.isLt N_0
  funext y
  have hy0 : (y 0).val < 5000 := (y 0).isLt
  have hy1 : (y 1).val < 4 := (y 1).isLt
  have hr : t.val * 5000 + (y 0).val < 500000 := by omega
  have hL : (cfg0.win 2).xinj (grid0.coords t) y = ix2 (⟨(y 0).val, hy0⟩ : Fin 5000) (⟨(y 1).val, hy1⟩ : Fin 4) :=
    funext fun a => by match a with | ⟨0, _⟩ => rfl | ⟨1, _⟩ => rfl
  have hR : ((cfg0.win 2).blk t).view.emb y = ix2 (⟨t.val * 5000 + (y 0).val, hr⟩ : Fin 500000) (⟨(y 1).val, hy1⟩ : Fin 4) := by
    funext a; apply Fin.ext
    match a with
    | ⟨0, _⟩ => show win0_2.index t (0 : Fin 2) * 5000 + 1 * (y 0).val = t.val * 5000 + (y 0).val; rw [e20]; omega
    | ⟨1, _⟩ => show win0_2.index t (1 : Fin 2) * 4 + 1 * (y 1).val = (y 1).val; rw [e21]; omega
  show k0_pay1 (F := Ideal) (iblk0 V c 0 t) (iblk0 V c 1 t) ((cfg0.win 2).xinj (grid0.coords t) y)
    = H0 (V c main_arg0) (V c main_arg2) (((cfg0.win 2).blk t).view.emb y)
  rw [hL, hR, H0_apply]
  refine (k0_pay1_apply _ _ _ _).trans ?_
  refine Finset.sum_congr rfl fun k _ => ?_
  congr 1
  · show V c main_arg0 (((cfg0.win 0).blk t).view.emb (ix2 (⟨(y 0).val, hy0⟩ : Fin 5000) k)) = V c main_arg0 _
    refine congrArg _ (funext fun a => Fin.ext ?_)
    match a with
    | ⟨0, _⟩ => show win0_0.index t (0 : Fin 2) * 5000 + 1 * (y 0).val = t.val * 5000 + (y 0).val; rw [e00]; omega
    | ⟨1, _⟩ => show win0_0.index t (1 : Fin 2) * 5 + 1 * k.val = k.val; rw [e01]; omega
  · show V c main_arg2 (((cfg0.win 1).blk t).view.emb (ix2 k (⟨(y 1).val, hy1⟩ : Fin 4))) = V c main_arg2 _
    refine congrArg _ (funext fun a => Fin.ext ?_)
    match a with
    | ⟨0, _⟩ => show win0_1.index t (0 : Fin 2) * 5 + 1 * k.val = k.val; rw [e10]; omega
    | ⟨1, _⟩ => show win0_1.index t (1 : Fin 2) * 4 + 1 * (y 1).val = (y 1).val; rw [e11]; omega

/-- An entry of the array is in point `t`'s block iff each coordinate is in the block's range on its axis. -/
theorem mem_blk0 (t : Fin cfg0.N) (i : S500000x4.Idx) :
    i ∈ ((cfg0.win 2).blk t).view.set ↔ ∀ a : Fin 2, win0_2.index t a * S5000x4.size a ≤ (i a).val ∧ (i a).val < win0_2.index t a * S5000x4.size a + S5000x4.size a := by
  show i ∈ ((View.whole main_v32).slice (win0_2.rect t)).set ↔ _
  rw [View.set_slice_whole, Rect.mem_set_unit]
  exact Iff.rfl

/-- Row `r` is in the block of point `r / 5000`: the blocks cover the array. -/
theorem cover0 (i : S500000x4.Idx) : ∃ t : Fin cfg0.N, (cfg0.win 2).flush t = true ∧ i ∈ ((cfg0.win 2).blk t).view.set := by
  have hi0 : (i 0).val < 500000 := (i 0).isLt
  have hi1 : (i 1).val < 4 := (i 1).isLt
  obtain ⟨t, ht⟩ : ∃ t : Fin cfg0.N, t.val = (i 0).val / 5000 :=
    ⟨⟨(i 0).val / 5000, by rw [show cfg0.N = 100 from N_0]; omega⟩, rfl⟩
  obtain ⟨e00, e01, e10, e11, e20, e21⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e20, ht]; omega
  | ⟨1, _⟩ => show win0_2.index t (1 : Fin 2) * 4 ≤ (i 1).val ∧ (i 1).val < win0_2.index t (1 : Fin 2) * 4 + 4; rw [e21]; omega

/-- The result array after the region: the first layer of the features and the weights as the region finds them. -/
theorem final0 (c : Dev nD) : (dat0 (F := Ideal) V c).arrAt 2 cfg0.N = H0 (V c main_arg0) (V c main_arg2) :=
  (dat0 V c).arrAt_eq_of_cover 2 (H0 (V c main_arg0) (V c main_arg2)) (fun t _ => flushed0_eq V c t) cover0

end Cert.KernelIdeal.Val

end
-- ==== Proof.KernelIdealValue.Pay1.lean ====
/-
  The second linear layer's arithmetic at one entry. The body takes a tile of 5000 rows of the first aggregation (four
  entries each), adds the first bias (one row of four, laid along every row of the tile), clamps below at zero, and multiplies
  by the whole second weight matrix (four rows, seven columns) into an accumulator of zeros. At the ideal values the entry in
  row `p`, column `q` is the sum over the four hidden units `k` of `max (a (p, k) + b (0, k)) 0` times the weight at `(k, q)`;
  the zero the body clamps at is the word of all zero bits, read here as the extended real `0`.
  `H1` is the same sum for the whole array of 500000 rows.
-/
import proofs.«139132_j10462540333056_2_alg».proof.Proof.Gen.KernelIdeal.Skeleton
import proofs.«139132_j10462540333056_2_alg».proof.Proof.LibDenseRows
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen
open Idealize.ShloMosaic Idealize.ShloMosaic.TcCoe Idealize.SL.Sem Idealize.ShloMosaic.ValueIdx
open scoped BigOperators

/-- The second layer on the whole array: bias, clamp at zero, then row `r` against column `j` of the weights. -/
def H1 (a : FVec Ideal S500000x4 .f32) (b : FVec Ideal S1x4 .f32) (w : FVec Ideal S4x7 .f32) : FVec Ideal S500000x7 .f32 :=
  fun i => ∑ k : Fin 4, max (a (ix2 (⟨(i 0).val, (i 0).isLt⟩ : Fin 500000) k) + b (ix2 (0 : Fin 1) k)) 0
    * w (ix2 k (⟨(i 1).val, (i 1).isLt⟩ : Fin 7))

theorem H1_apply (a : FVec Ideal S500000x4 .f32) (b : FVec Ideal S1x4 .f32) (w : FVec Ideal S4x7 .f32) (r : Fin 500000) (j : Fin 7) :
    H1 a b w (ix2 r j) = ∑ k : Fin 4, max (a (ix2 r k) + b (ix2 (0 : Fin 1) k)) 0 * w (ix2 k j) := rfl

/-- A kept row of the left operand is the result's row. -/
theorem dot1_lhs0 (i : S5000x7.Idx) (q : dot_S5000x4_S4x7_S5000x7_1_0_0_1_n_n.contr.Idx) :
    (dot_S5000x4_S4x7_S5000x7_1_0_0_1_n_n.lhsIdx i q 0).val = (i 0).val := by
  unfold DotDims.lhsIdx
  rw [dif_neg (show ¬(0 : Fin S5000x4.rank) ∈ dot_S5000x4_S4x7_S5000x7_1_0_0_1_n_n.lhsBatch by decide), dif_pos (show (0 : Fin S5000x4.rank) ∈ dot_S5000x4_S4x7_S5000x7_1_0_0_1_n_n.lhsNonContracting by decide)]
  rfl

/-- A kept column of the right operand is the result's column. -/
theorem dot1_rhs1 (i : S5000x7.Idx) (q : dot_S5000x4_S4x7_S5000x7_1_0_0_1_n_n.contr.Idx) :
    (dot_S5000x4_S4x7_S5000x7_1_0_0_1_n_n.rhsIdx i q 1).val = (i 1).val := by
  unfold DotDims.rhsIdx
  rw [dif_neg (show ¬(1 : Fin S4x7.rank) ∈ dot_S5000x4_S4x7_S5000x7_1_0_0_1_n_n.rhsBatch by decide), dif_pos (show (1 : Fin S4x7.rank) ∈ dot_S5000x4_S4x7_S5000x7_1_0_0_1_n_n.rhsNonContracting by decide)]
  rfl

/-- The body's left factor at row `p`, hidden unit `k`: the aggregation plus the bias, clamped below at zero. -/
theorem relu1_apply (x0 : FVec Ideal S5000x4 .f32) (x1 : FVec Ideal S1x4 .f32) (p : Fin 5000) (k : Fin 4) :
    maximumf (addf (shapeCast S5000x4 x0 shapeCasts_S5000x4_S5000x4)
        (broadcastTo S5000x4 (shapeCast S1x4 x1 shapeCasts_S1x4_S1x4) broadcasts_S1x4_S5000x4))
      (broadcast S5000x4 (Scalar.ofBits (F := Ideal) .f32 0x00000000#32)) (ix2 p k)
      = max (x0 (ix2 p k) + x1 (ix2 (0 : Fin 1) k)) 0 := by
  rw [shapeCast_self, shapeCast_self]
  show max (x0 (ix2 p k) + broadcastTo S5000x4 x1 broadcasts_S1x4_S5000x4 (ix2 p k)) (Ideal.ofBits .f32 0x00000000#32) = _
  rw [broadcastTo_1b_ab_apply x1 broadcasts_S1x4_S5000x4 p k, Ideal.ofBits_zero_f32]

/-- The body's product at row `p`, column `q` of the tile. -/
theorem k1_pay1_apply (x0 : FVec Ideal S5000x4 .f32) (x1 : FVec Ideal S1x4 .f32) (x2 : FVec Ideal S4x7 .f32) (p : Fin 5000) (q : Fin 7) :
    k1_pay1 (F := Ideal) x0 x1 x2 (ix2 p q) = ∑ k : Fin 4, max (x0 (ix2 p k) + x1 (ix2 (0 : Fin 1) k)) 0 * x2 (ix2 k q) := by
  unfold k1_pay1
  refine (Cert.DenseRows.matmul_zero_plain_apply dot_S5000x4_S4x7_S5000x7_1_0_0_1_n_n rfl rfl rfl rfl dot1_lhs0 dot1_rhs1 _ x2 p q).trans ?_
  exact Finset.sum_congr rfl fun k _ => congrArg (· * x2 (ix2 k q)) (relu1_apply x0 x1 p k)

end Cert.KernelIdeal.Val

end
-- ==== Proof.KernelIdealValue.Arr1.lean ====
/-
  The second linear layer as one array. The region's grid has 100 points; point `t` reads rows `5000 t … 5000 t + 4999` of
  the first aggregation, the whole first bias row and the whole second weight matrix, and writes the product back over the
  same rows of the result. Entry `(y0, y1)` of the block written at point `t` is entry `(5000 t + y0, y1)` of the array, the
  aggregation rows it reads are rows `5000 t + y0`, and the bias and weight blocks are those arrays themselves; so what
  point `t` writes is block `t` of `H1` of the three arrays as the region finds them. Row `r` lies in the block of point
  `r / 5000`, so the blocks cover the array and it ends as `H1`.
-/
import proofs.«139132_j10462540333056_2_alg».proof.Proof.KernelIdealFrame.R1
import proofs.«139132_j10462540333056_2_alg».proof.Proof.KernelIdealValue.Pay1
import Idealize.ShloMosaic.Lib.Pipeline.Value

noncomputable section

namespace Cert.KernelIdeal.Val

open Cert.KernelIdeal Cert.KernelIdeal.Gen
open Idealize.ShloMosaic Idealize.ShloMosaic.TcCoe Idealize.SL.Sem Idealize.ShloMosaic.ValueIdx
open scoped BigOperators
open Cert.KernelIdeal.Fr
open Idealize.ShloMosaic.Pipeline (Dat)

variable (V : (c : Dev nD) → (b : Ref sig .tc) → Buf (Elt Ideal) ((c : Thread nD τ).loc b))

theorem zeros2_1 : (![0, 0] : Fin 2 → Nat) = fun _ => 0 := funext fun a => by fin_cases a <;> rfl

/-- The printed index maps over the grid: the aggregation rows and the result rows move with the point, the bias and
    the weights stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `H1` of the aggregation, the bias and the weights as the region finds them. -/
theorem flushed1_eq (c : Dev nD) (t : Fin cfg1.N) :
    (dat1 (F := Ideal) V c).flushed 3 t
      = ((cfg1.win 3).blk t).view.read (Elt Ideal) (H1 (V c main_v45) (V c main_v46) (V c main_arg4)) := by
  show (cfg1.win 3).cut (grid1.coords t) ((dat1 V c).after 3 t) = _
  rw [after1_3]
  unfold out1_3
  rw [View.canon_unit_zero zeros2_1]
  simp only [View.ld_unit_zero (S := S5000x4) zeros2_1, View.ld_unit_zero (S := S1x4) zeros2_1, View.ld_unit_zero (S := S4x7) zeros2_1]
  obtain ⟨e00, e01, e10, e11, e20, e21, e30, e31⟩ := idx_facts1 t
  have ht : t.val < 100 := Nat.lt_of_lt_of_eq t.isLt N_1
  funext y
  have hy0 : (y 0).val < 5000 := (y 0).isLt
  have hy1 : (y 1).val < 7 := (y 1).isLt
  have hr : t.val * 5000 + (y 0).val < 500000 := by omega
  have hL : (cfg1.win 3).xinj (grid1.coords t) y = ix2 (⟨(y 0).val, hy0⟩ : Fin 5000) (⟨(y 1).val, hy1⟩ : Fin 7) :=
    funext fun a => by match a with | ⟨0, _⟩ => rfl | ⟨1, _⟩ => rfl
  have hR : ((cfg1.win 3).blk t).view.emb y = ix2 (⟨t.val * 5000 + (y 0).val, hr⟩ : Fin 500000) (⟨(y 1).val, hy1⟩ : Fin 7) := by
    funext a; apply Fin.ext
    match a with
    | ⟨0, _⟩ => show win1_3.index t (0 : Fin 2) * 5000 + 1 * (y 0).val = t.val * 5000 + (y 0).val; rw [e30]; omega
    | ⟨1, _⟩ => show win1_3.index t (1 : Fin 2) * 7 + 1 * (y 1).val = (y 1).val; rw [e31]; omega
  show k1_pay1 (F := Ideal) (iblk1 V c 0 t) (iblk1 V c 1 t) (iblk1 V c 2 t) ((cfg1.win 3).xinj (grid1.coords t) y)
    = H1 (V c main_v45) (V c main_v46) (V c main_arg4) (((cfg1.win 3).blk t).view.emb y)
  rw [hL, hR, H1_apply]
  refine (k1_pay1_apply _ _ _ _ _).trans ?_
  refine Finset.sum_congr rfl fun k _ => ?_
  have ha : iblk1 V c 0 t (ix2 (⟨(y 0).val, hy0⟩ : Fin 5000) k)
      = V c main_v45 (ix2 (⟨t.val * 5000 + (y 0).val, hr⟩ : Fin 500000) k) := by
    show V c main_v45 (((cfg1.win 0).blk t).view.emb (ix2 (⟨(y 0).val, hy0⟩ : Fin 5000) k)) = V c main_v45 _
    refine congrArg _ (funext fun a => Fin.ext ?_)
    match a with
    | ⟨0, _⟩ => show win1_0.index t (0 : Fin 2) * 5000 + 1 * (y 0).val = t.val * 5000 + (y 0).val; rw [e00]; omega
    | ⟨1, _⟩ => show win1_0.index t (1 : Fin 2) * 4 + 1 * k.val = k.val; rw [e01]; omega
  have hb : iblk1 V c 1 t (ix2 (0 : Fin 1) k) = V c main_v46 (ix2 (0 : Fin 1) k) := by
    show V c main_v46 (((cfg1.win 1).blk t).view.emb (ix2 (0 : Fin 1) k)) = V c main_v46 _
    refine congrArg _ (funext fun a => Fin.ext ?_)
    match a with
    | ⟨0, _⟩ => show win1_1.index t (0 : Fin 2) * 1 + 1 * 0 = 0; rw [e10]
    | ⟨1, _⟩ => show win1_1.index t (1 : Fin 2) * 4 + 1 * k.val = k.val; rw [e11]; omega
  have hw : iblk1 V c 2 t (ix2 k (⟨(y 1).val, hy1⟩ : Fin 7)) = V c main_arg4 (ix2 k (⟨(y 1).val, hy1⟩ : Fin 7)) := by
    show V c main_arg4 (((cfg1.win 2).blk t).view.emb (ix2 k (⟨(y 1).val, hy1⟩ : Fin 7))) = V c main_arg4 _
    refine congrArg _ (funext fun a => Fin.ext ?_)
    match a with
    | ⟨0, _⟩ => show win1_2.index t (0 : Fin 2) * 4 + 1 * k.val = k.val; rw [e20]; omega
    | ⟨1, _⟩ => show win1_2.index t (1 : Fin 2) * 7 + 1 * (y 1).val = (y 1).val; rw [e21]; omega
  rw [ha, hb, hw]

/-- An entry of the array is in point `t`'s block iff each coordinate is in the block's range on its axis. -/
theorem mem_blk1 (t : Fin cfg1.N) (i : S500000x7.Idx) :
    i ∈ ((cfg1.win 3).blk t).view.set ↔ ∀ a : Fin 2, win1_3.index t a * S5000x7.size a ≤ (i a).val ∧ (i a).val < win1_3.index t a * S5000x7.size a + S5000x7.size a := by
  show i ∈ ((View.whole main_v47).slice (win1_3.rect t)).set ↔ _
  rw [View.set_slice_whole, Rect.mem_set_unit]
  exact Iff.rfl

/-- Row `r` is in the block of point `r / 5000`: the blocks cover the array. -/
theorem cover1 (i : S500000x7.Idx) : ∃ t : Fin cfg1.N, (cfg1.win 3).flush t = true ∧ i ∈ ((cfg1.win 3).blk t).view.set := by
  have hi0 : (i 0).val < 500000 := (i 0).isLt
  have hi1 : (i 1).val < 7 := (i 1).isLt
  obtain ⟨t, ht⟩ : ∃ t : Fin cfg1.N, t.val = (i 0).val / 5000 :=
    ⟨⟨(i 0).val / 5000, by rw [show cfg1.N = 100 from N_1]; omega⟩, rfl⟩
  obtain ⟨e00, e01, e10, e11, e20, e21, e30, e31⟩ := idx_facts1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; rw [e30, ht]; omega
  | ⟨1, _⟩ => show win1_3.index t (1 : Fin 2) * 7 ≤ (i 1).val ∧ (i 1).val < win1_3.index t (1 : Fin 2) * 7 + 7; rw [e31]; omega

/-- The result array after the region: the second layer of the aggregation, the bias and the weights as the region finds them. -/
theorem final1 (c : Dev nD) : (dat1 (F := Ideal) V c).arrAt 3 cfg1.N = H1 (V c main_v45) (V c main_v46) (V c main_arg4) :=
  (dat1 V c).arrAt_eq_of_cover 3 (H1 (V c main_v45) (V c main_v46) (V c main_arg4)) (fun t _ => flushed1_eq V c t) cover1

end Cert.KernelIdeal.Val

end
-- ==== Proof.KernelIdealValue.Pay3.lean ====
/-
  The last region's arithmetic at one entry. The body takes a tile of 5000 rows of the second aggregation (seven entries
  each), adds the second bias (one row of seven, laid along every row) and subtracts the row of the seven columns'
  log-sum-exps (laid along every row likewise). At the ideal values the entry in row `p`, column `q` is
  `(a (p, q) + b (0, q)) - l (0, q)`. `H3` is the same for the whole array of 500000 rows.
-/
import proofs.«139132_j10462540333056_2_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen
open Idealize.ShloMosaic Idealize.ShloMosaic.TcCoe Idealize.SL.Sem Idealize.ShloMosaic.ValueIdx
open scoped BigOperators

/-- The normalisation on the whole array: bias added, the column's log-sum-exp subtracted. -/
def H3 (a : FVec Ideal S500000x7 .f32) (b : FVec Ideal S1x7 .f32) (l : FVec Ideal S1x7 .f32) : FVec Ideal S500000x7 .f32 :=
  fun i => (a i + b (ix2 (0 : Fin 1) (⟨(i 1).val, (i 1).isLt⟩ : Fin 7))) - l (ix2 (0 : Fin 1) (⟨(i 1).val, (i 1).isLt⟩ : Fin 7))

theorem H3_apply (a : FVec Ideal S500000x7 .f32) (b : FVec Ideal S1x7 .f32) (l : FVec Ideal S1x7 .f32) (r : Fin 500000) (j : Fin 7) :
    H3 a b l (ix2 r j) = (a (ix2 r j) + b (ix2 (0 : Fin 1) j)) - l (ix2 (0 : Fin 1) j) := rfl

/-- The body's value at row `p`, column `q` of the tile. -/
theorem k3_pay1_apply (x0 : FVec Ideal S5000x7 .f32) (x1 : FVec Ideal S1x7 .f32) (x2 : FVec Ideal S1x7 .f32) (p : Fin 5000) (q : Fin 7) :
    k3_pay1 (F := Ideal) x0 x1 x2 (ix2 p q) = (x0 (ix2 p q) + x1 (ix2 (0 : Fin 1) q)) - x2 (ix2 (0 : Fin 1) q) := by
  unfold k3_pay1
  rw [shapeCast_self, shapeCast_self, shapeCast_self]
  show (x0 (ix2 p q) + broadcastTo S5000x7 x1 broadcasts_S1x7_S5000x7 (ix2 p q)) - broadcastTo S5000x7 x2 broadcasts_S1x7_S5000x7 (ix2 p q) = _
  rw [broadcastTo_1b_ab_apply x1 broadcasts_S1x7_S5000x7 p q, broadcastTo_1b_ab_apply x2 broadcasts_S1x7_S5000x7 p q]

end Cert.KernelIdeal.Val

end
-- ==== Proof.KernelIdealValue.Arr3.lean ====
/-
  The last region as one array. The region's grid has 100 points; point `t` reads rows `5000 t … 5000 t + 4999` of the second
  aggregation, the whole second bias row and the whole row of the columns' log-sum-exps, and writes the normalised rows back
  over the same rows of the result. Entry `(y0, y1)` of the block written at point `t` is entry `(5000 t + y0, y1)` of the
  array, the aggregation entry it reads is the same entry of the aggregation, and the two row blocks are those rows
  themselves; so what point `t` writes is block `t` of `H3` of the three arrays as the region finds them. Row `r` lies in the
  block of point `r / 5000`, so the blocks cover the array and it ends as `H3`.
-/
import proofs.«139132_j10462540333056_2_alg».proof.Proof.KernelIdealFrame.R3
import proofs.«139132_j10462540333056_2_alg».proof.Proof.KernelIdealValue.Pay3
import Idealize.ShloMosaic.Lib.Pipeline.Value

noncomputable section

namespace Cert.KernelIdeal.Val

open Cert.KernelIdeal Cert.KernelIdeal.Gen
open Idealize.ShloMosaic Idealize.ShloMosaic.TcCoe Idealize.SL.Sem Idealize.ShloMosaic.ValueIdx
open scoped BigOperators
open Cert.KernelIdeal.Fr
open Idealize.ShloMosaic.Pipeline (Dat)

variable (V : (c : Dev nD) → (b : Ref sig .tc) → Buf (Elt Ideal) ((c : Thread nD τ).loc b))

theorem zeros2_3 : (![0, 0] : Fin 2 → Nat) = fun _ => 0 := funext fun a => by fin_cases a <;> rfl

/-- The printed index maps over the grid: the aggregation rows and the result rows move with the point, the bias row and
    the log-sum-exp row stay. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of `H3` of the aggregation, the bias row and the log-sum-exp row as the region
    finds them. -/
theorem flushed3_eq (c : Dev nD) (t : Fin cfg3.N) :
    (dat3 (F := Ideal) V c).flushed 3 t
      = ((cfg3.win 3).blk t).view.read (Elt Ideal) (H3 (V c main_v60) (V c main_v63) (V c main_v62)) := by
  show (cfg3.win 3).cut (grid3.coords t) ((dat3 V c).after 3 t) = _
  rw [after3_3]
  unfold out3_3
  rw [View.canon_unit_zero zeros2_3]
  simp only [View.ld_unit_zero (S := S5000x7) zeros2_3, View.ld_unit_zero (S := S1x7) zeros2_3]
  obtain ⟨e00, e01, e10, e11, e20, e21, e30, e31⟩ := idx_facts3 t
  have ht : t.val < 100 := Nat.lt_of_lt_of_eq t.isLt N_3
  funext y
  have hy0 : (y 0).val < 5000 := (y 0).isLt
  have hy1 : (y 1).val < 7 := (y 1).isLt
  have hr : t.val * 5000 + (y 0).val < 500000 := by omega
  have hL : (cfg3.win 3).xinj (grid3.coords t) y = ix2 (⟨(y 0).val, hy0⟩ : Fin 5000) (⟨(y 1).val, hy1⟩ : Fin 7) :=
    funext fun a => by match a with | ⟨0, _⟩ => rfl | ⟨1, _⟩ => rfl
  have hR : ((cfg3.win 3).blk t).view.emb y = ix2 (⟨t.val * 5000 + (y 0).val, hr⟩ : Fin 500000) (⟨(y 1).val, hy1⟩ : Fin 7) := by
    funext a; apply Fin.ext
    match a with
    | ⟨0, _⟩ => show win3_3.index t (0 : Fin 2) * 5000 + 1 * (y 0).val = t.val * 5000 + (y 0).val; rw [e30]; omega
    | ⟨1, _⟩ => show win3_3.index t (1 : Fin 2) * 7 + 1 * (y 1).val = (y 1).val; rw [e31]; omega
  show k3_pay1 (F := Ideal) (iblk3 V c 0 t) (iblk3 V c 1 t) (iblk3 V c 2 t) ((cfg3.win 3).xinj (grid3.coords t) y)
    = H3 (V c main_v60) (V c main_v63) (V c main_v62) (((cfg3.win 3).blk t).view.emb y)
  rw [hL, hR, H3_apply]
  refine (k3_pay1_apply _ _ _ _ _).trans ?_
  have ha : iblk3 V c 0 t (ix2 (⟨(y 0).val, hy0⟩ : Fin 5000) (⟨(y 1).val, hy1⟩ : Fin 7))
      = V c main_v60 (ix2 (⟨t.val * 5000 + (y 0).val, hr⟩ : Fin 500000) (⟨(y 1).val, hy1⟩ : Fin 7)) := by
    show V c main_v60 (((cfg3.win 0).blk t).view.emb (ix2 (⟨(y 0).val, hy0⟩ : Fin 5000) (⟨(y 1).val, hy1⟩ : Fin 7))) = V c main_v60 _
    refine congrArg _ (funext fun a => Fin.ext ?_)
    match a with
    | ⟨0, _⟩ => show win3_0.index t (0 : Fin 2) * 5000 + 1 * (y 0).val = t.val * 5000 + (y 0).val; rw [e00]; omega
    | ⟨1, _⟩ => show win3_0.index t (1 : Fin 2) * 7 + 1 * (y 1).val = (y 1).val; rw [e01]; omega
  have hb : iblk3 V c 1 t (ix2 (0 : Fin 1) (⟨(y 1).val, hy1⟩ : Fin 7)) = V c main_v63 (ix2 (0 : Fin 1) (⟨(y 1).val, hy1⟩ : Fin 7)) := by
    show V c main_v63 (((cfg3.win 1).blk t).view.emb (ix2 (0 : Fin 1) (⟨(y 1).val, hy1⟩ : Fin 7))) = V c main_v63 _
    refine congrArg _ (funext fun a => Fin.ext ?_)
    match a with
    | ⟨0, _⟩ => show win3_1.index t (0 : Fin 2) * 1 + 1 * 0 = 0; rw [e10]
    | ⟨1, _⟩ => show win3_1.index t (1 : Fin 2) * 7 + 1 * (y 1).val = (y 1).val; rw [e11]; omega
  have hl : iblk3 V c 2 t (ix2 (0 : Fin 1) (⟨(y 1).val, hy1⟩ : Fin 7)) = V c main_v62 (ix2 (0 : Fin 1) (⟨(y 1).val, hy1⟩ : Fin 7)) := by
    show V c main_v62 (((cfg3.win 2).blk t).view.emb (ix2 (0 : Fin 1) (⟨(y 1).val, hy1⟩ : Fin 7))) = V c main_v62 _
    refine congrArg _ (funext fun a => Fin.ext ?_)
    match a with
    | ⟨0, _⟩ => show win3_2.index t (0 : Fin 2) * 1 + 1 * 0 = 0; rw [e20]
    | ⟨1, _⟩ => show win3_2.index t (1 : Fin 2) * 7 + 1 * (y 1).val = (y 1).val; rw [e21]; omega
  rw [ha, hb, hl]

/-- An entry of the array is in point `t`'s block iff each coordinate is in the block's range on its axis. -/
theorem mem_blk3 (t : Fin cfg3.N) (i : S500000x7.Idx) :
    i ∈ ((cfg3.win 3).blk t).view.set ↔ ∀ a : Fin 2, win3_3.index t a * S5000x7.size a ≤ (i a).val ∧ (i a).val < win3_3.index t a * S5000x7.size a + S5000x7.size a := by
  show i ∈ ((View.whole main_v64).slice (win3_3.rect t)).set ↔ _
  rw [View.set_slice_whole, Rect.mem_set_unit]
  exact Iff.rfl

/-- Row `r` is in the block of point `r / 5000`: the blocks cover the array. -/
theorem cover3 (i : S500000x7.Idx) : ∃ t : Fin cfg3.N, (cfg3.win 3).flush t = true ∧ i ∈ ((cfg3.win 3).blk t).view.set := by
  have hi0 : (i 0).val < 500000 := (i 0).isLt
  have hi1 : (i 1).val < 7 := (i 1).isLt
  obtain ⟨t, ht⟩ : ∃ t : Fin cfg3.N, t.val = (i 0).val / 5000 :=
    ⟨⟨(i 0).val / 5000, by rw [show cfg3.N = 100 from N_3]; omega⟩, rfl⟩
  obtain ⟨e00, e01, e10, e11, e20, e21, e30, e31⟩ := idx_facts3 t
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; rw [e30, ht]; omega
  | ⟨1, _⟩ => show win3_3.index t (1 : Fin 2) * 7 ≤ (i 1).val ∧ (i 1).val < win3_3.index t (1 : Fin 2) * 7 + 7; rw [e31]; omega

/-- The result array after the region: the normalisation of the aggregation, the bias row and the log-sum-exp row as the
    region finds them. -/
theorem final3 (c : Dev nD) : (dat3 (F := Ideal) V c).arrAt 3 cfg3.N = H3 (V c main_v60) (V c main_v63) (V c main_v62) :=
  (dat3 V c).arrAt_eq_of_cover 3 (H3 (V c main_v60) (V c main_v63) (V c main_v62)) (fun t _ => flushed3_eq V c t) cover3

end Cert.KernelIdeal.Val

end
-- ==== Proof.LibIdealExpSum.lean ====
/-
  Exponential sums on the extended reals read through the coercion from ℝ.

  At the ideal instance a float is an extended real, `exp` sends `-∞` to `0`, a real `r` to the real `exp r`, and
  sums and products are the extended reals' own. A softmax accumulated tile by tile starts its running shift at
  `-∞`; every later shift, every score and every weight of a finite input is a real number. These lemmas carry
  each expression of such an accumulation to the coercion of the same expression over ℝ, where the algebra
  (distributivity, `exp (a + b) = exp a * exp b`) is unconditional:
  * a finite sum of coercions is the coercion of the sum;
  * `exp (a - b)` of two reals, and `exp (-∞ - x) = 0`;
  * `∑ j, exp (s j - m) * w j`, one accumulation step `exp (m - m') * a + ∑ …`, and the first step, whose
    factor `exp (-∞ - m')` is `0` and multiplies an empty accumulator;
  * the maximum of two reals, of `-∞` and a real; the logarithm of a positive real.
-/
import Idealize.ShloMosaic.PureOps.Ideal

namespace IdealExpSum

open Finset Idealize.ShloMosaic

variable {ι : Type*}

/-- The coercion ℝ → EReal commutes with finite sums. -/
theorem coe_sum (J : Finset ι) (f : ι → ℝ) : ((∑ j ∈ J, f j : ℝ) : EReal) = ∑ j ∈ J, (f j : EReal) := by
  classical
  induction J using Finset.induction_on with
  | empty => simp
  | insert a J ha ih => rw [sum_insert ha, sum_insert ha, EReal.coe_add, ih]

/-- `exp` of a difference of reals is the real exponential of the difference. -/
theorem exp_sub_coe (a b : ℝ) : Ideal.exp ((a : EReal) - (b : EReal)) = ((Real.exp (a - b) : ℝ) : EReal) := by
  rw [← EReal.coe_sub]
  rfl

/-- A shift still at `-∞` contributes the factor `0`, whatever it is compared with. -/
theorem exp_bot_sub (x : EReal) : Ideal.exp ((⊥ : EReal) - x) = 0 := by
  rw [EReal.bot_sub]
  rfl

/-- The weighted exponential sum of real scores relative to a real shift. -/
theorem expsum_coe (J : Finset ι) (s w : ι → ℝ) (m : ℝ) :
    ∑ j ∈ J, Ideal.exp ((s j : EReal) - (m : EReal)) * (w j : EReal)
      = ((∑ j ∈ J, Real.exp (s j - m) * w j : ℝ) : EReal) := by
  rw [coe_sum]
  refine sum_congr rfl fun j _ => ?_
  rw [exp_sub_coe, ← EReal.coe_mul]

/-- One accumulation step from the real shift `m` to the real shift `m'`. -/
theorem step_coe (m m' a : ℝ) (J : Finset ι) (s w : ι → ℝ) :
    Ideal.exp ((m : EReal) - (m' : EReal)) * (a : EReal)
        + ∑ j ∈ J, Ideal.exp ((s j : EReal) - (m' : EReal)) * (w j : EReal)
      = ((Real.exp (m - m') * a + ∑ j ∈ J, Real.exp (s j - m') * w j : ℝ) : EReal) := by
  rw [expsum_coe, exp_sub_coe, ← EReal.coe_mul, ← EReal.coe_add]

/-- The first step: the shift comes from `-∞`, the accumulator is empty. -/
theorem first_coe (m' : ℝ) (J : Finset ι) (s w : ι → ℝ) :
    Ideal.exp ((⊥ : EReal) - (m' : EReal)) * 0
        + ∑ j ∈ J, Ideal.exp ((s j : EReal) - (m' : EReal)) * (w j : EReal)
      = ((∑ j ∈ J, Real.exp (s j - m') * w j : ℝ) : EReal) := by
  rw [exp_bot_sub, mul_zero, zero_add, expsum_coe]

/-- The maximum of two reals. -/
theorem max_coe (a b : ℝ) : max (a : EReal) (b : EReal) = ((max a b : ℝ) : EReal) :=
  (EReal.coe_strictMono.monotone.map_max).symm

/-- `-∞` is the maximum's unit. -/
theorem max_bot_coe (b : ℝ) : max (⊥ : EReal) (b : EReal) = (b : EReal) :=
  max_eq_right bot_le

/-- The logarithm of a positive real. -/
theorem log_coe_pos {r : ℝ} (h : 0 < r) : Ideal.log (r : EReal) = ((Real.log r : ℝ) : EReal) := by
  show (if r ≤ 0 then (⊥ : EReal) else (Real.log r : EReal)) = _
  rw [if_neg (not_le.mpr h)]

end IdealExpSum
-- ==== Proof.RefOnline.lean ====
/-
  A column's log-softmax denominator accumulated tile by tile, on the extended reals.

  A column of real scores is visited in consecutive tiles of B rows. The running pair (m, l) starts at
  (-∞, 0); a tile with entries zt replaces it by
      m' = max m (max of the tile, folded from -∞),
      l' = exp (m - m') * l + (0 + ∑ over the tile of exp (zt - m')).
  Since exp (m - m') * exp (s - m) = exp (s - m'), after k ≥ 1 tiles m is the largest score seen and l is
  the sum of exp (s - m) over every row seen; the first step's factor exp (-∞ - m') = 0 multiplies the empty
  accumulator. All of this is arithmetic of real numbers read through the coercion into the extended reals,
  where sums of products distribute; so with M the column's maximum and S = ∑ exp (s - M) > 0,
      (s r - M) - log S = s r - (M + log S)
  is an identity of reals, and it is the identity between the two-pass log-softmax and the one that
  subtracts the accumulated m + log l.
-/
import proofs.«139132_j10462540333056_2_alg».proof.Proof.LibIdealExpSum

namespace Cert.RefOnline

open Finset Idealize.ShloMosaic

/-- One tile: the new running maximum and the rescaled, extended sum. -/
noncomputable def step (B : ℕ) (ml : EReal × EReal) (zt : Fin B → EReal) : EReal × EReal :=
  (max ml.1 ((univ : Finset (Fin B)).fold max ⊥ zt),
   Ideal.exp (ml.1 - max ml.1 ((univ : Finset (Fin B)).fold max ⊥ zt)) * ml.2
     + (0 + ∑ q : Fin B, Ideal.exp (zt q - max ml.1 ((univ : Finset (Fin B)).fold max ⊥ zt))))

/-- The pair after k tiles of B rows of the column c (row number ↦ entry): tile k holds rows B * k + q. -/
noncomputable def online (B : ℕ) (c : ℕ → EReal) : ℕ → EReal × EReal
  | 0 => (⊥, 0)
  | k + 1 => step B (online B c k) (fun q => c (B * k + q.val))

theorem online_zero (B : ℕ) (c : ℕ → EReal) : online B c 0 = (⊥, 0) := rfl

theorem online_succ (B : ℕ) (c : ℕ → EReal) (k : ℕ) :
    online B c (k + 1) = step B (online B c k) (fun q => c (B * k + q.val)) := rfl

/-- A column given on Fin N, as a function of the row number (0 past the end, never read). -/
noncomputable def colOf {N : ℕ} (z : Fin N → EReal) : ℕ → EReal := fun n => if h : n < N then z ⟨n, h⟩ else 0

theorem colOf_lt {N : ℕ} (z : Fin N → EReal) (n : ℕ) (h : n < N) : colOf z n = z ⟨n, h⟩ := dif_pos h

/-- The maximum of a nonempty tile of reals, folded from -∞, is the coercion of a real that bounds the
    tile and is attained in it. -/
theorem tile_max (B : ℕ) (hB : 0 < B) (t : Fin B → ℝ) :
    ∃ b : ℝ, (univ : Finset (Fin B)).fold max (⊥ : EReal) (fun q => (t q : EReal)) = (b : EReal)
      ∧ (∀ q, t q ≤ b) ∧ ∃ q, t q = b := by
  haveI : Nonempty (Fin B) := ⟨⟨0, hB⟩⟩
  obtain ⟨q0, -, hq0⟩ := Finset.exists_max_image (univ : Finset (Fin B)) t univ_nonempty
  refine ⟨t q0, le_antisymm ?_ ?_, fun q => hq0 q (mem_univ q), q0, rfl⟩
  · exact (Finset.fold_max_le _).2 ⟨bot_le, fun q _ => EReal.coe_le_coe_iff.2 (hq0 q (mem_univ q))⟩
  · exact (Finset.le_fold_max _).2 (Or.inr ⟨q0, mem_univ q0, le_rfl⟩)

/-- The tile's exponential sum through the coercion. -/
theorem tile_sum (B : ℕ) (t : Fin B → ℝ) (m : ℝ) :
    ∑ q : Fin B, Ideal.exp ((t q : EReal) - (m : EReal)) = ((∑ q : Fin B, Real.exp (t q - m) : ℝ) : EReal) := by
  rw [IdealExpSum.coe_sum]
  exact sum_congr rfl fun q _ => IdealExpSum.exp_sub_coe _ _

/-- After k + 1 tiles of a column of reals: the running maximum is a real, the largest score among the
    rows seen, attained there; the running sum is the real ∑ exp (s - m) over the rows seen. -/
theorem online_real (B : ℕ) (hB : 0 < B) (s : ℕ → ℝ) (k : ℕ) :
    ∃ m l : ℝ, online B (fun n => (s n : EReal)) (k + 1) = ((m : EReal), (l : EReal))
      ∧ (∀ n, n < B * (k + 1) → s n ≤ m) ∧ (∃ n, n < B * (k + 1) ∧ s n = m)
      ∧ l = ∑ n ∈ range (B * (k + 1)), Real.exp (s n - m) := by
  induction k with
  | zero =>
    obtain ⟨b, hb, hle, q0, hq0⟩ := tile_max B hB (fun q => s (B * 0 + q.val))
    refine ⟨b, ∑ q : Fin B, Real.exp (s (B * 0 + q.val) - b), ?_, ?_, ?_, ?_⟩
    · rw [online_succ, online_zero]
      unfold step
      simp only []
      rw [hb, IdealExpSum.max_bot_coe, IdealExpSum.exp_bot_sub, zero_mul, zero_add, zero_add, tile_sum]
    · intro n hn
      have hn' : n < B := by simpa using hn
      have := hle ⟨n, hn'⟩
      simpa using this
    · exact ⟨B * 0 + q0.val, by have := q0.isLt; simp only [Nat.mul_zero, Nat.zero_add, Nat.mul_one]; exact this, hq0⟩
    · rw [Nat.mul_zero, Nat.zero_add, Nat.mul_one, ← Fin.sum_univ_eq_sum_range (fun n => Real.exp (s n - b)) B]
      simp
  | succ k ih =>
    obtain ⟨m, l, hml, hle, ⟨n0, hn0, hn0m⟩, hl⟩ := ih
    obtain ⟨b, hb, hble, q0, hq0⟩ := tile_max B hB (fun q => s (B * (k + 1) + q.val))
    refine ⟨max m b, Real.exp (m - max m b) * l + ∑ q : Fin B, Real.exp (s (B * (k + 1) + q.val) - max m b), ?_, ?_, ?_, ?_⟩
    · rw [online_succ, hml]
      unfold step
      simp only []
      rw [hb, IdealExpSum.max_coe, IdealExpSum.exp_sub_coe, zero_add, tile_sum, ← EReal.coe_mul, ← EReal.coe_add]
    · intro n hn
      by_cases h : n < B * (k + 1)
      · exact (hle n h).trans (le_max_left _ _)
      · have hq : n - B * (k + 1) < B := by
          have : B * (k + 1 + 1) = B * (k + 1) + B := by ring
          omega
        have := hble ⟨n - B * (k + 1), hq⟩
        have e : B * (k + 1) + (n - B * (k + 1)) = n := by omega
        simp only [e] at this
        exact this.trans (le_max_right _ _)
    · rcases le_total b m with h | h
      · refine ⟨n0, ?_, by rw [max_eq_left h]; exact hn0m⟩
        have : B * (k + 1 + 1) = B * (k + 1) + B := by ring
        omega
      · refine ⟨B * (k + 1) + q0.val, ?_, by rw [max_eq_right h]; exact hq0⟩
        have : B * (k + 1 + 1) = B * (k + 1) + B := by ring
        have := q0.isLt
        omega
    · have e : B * (k + 1 + 1) = B * (k + 1) + B := by ring
      rw [e, Finset.sum_range_add, hl, Finset.mul_sum,
        ← Fin.sum_univ_eq_sum_range (fun x => Real.exp (s (B * (k + 1) + x) - max m b)) B]
      congr 1
      refine sum_congr rfl fun n _ => ?_
      rw [← Real.exp_add]
      congr 1
      ring

/-- The column's maximum folded from -∞ over all N = B * K rows is the running maximum after K tiles, and
    the two-pass log-softmax entry equals the entry less the accumulated m + log l. -/
theorem final_law {N : ℕ} (B K : ℕ) (hN : N = B * K) (hB : 0 < B) (hK : 0 < K) (z : Fin N → EReal)
    (hz : ∀ i, ∃ x : ℝ, z i = (x : EReal)) (r : Fin N) :
    (z r - max ⊥ ((univ : Finset (Fin N)).fold max ⊥ z))
        - Ideal.log (0 + ∑ i : Fin N, Ideal.exp (z i - max ⊥ ((univ : Finset (Fin N)).fold max ⊥ z)))
      = z r - ((online B (colOf z) K).1 + Ideal.log (online B (colOf z) K).2) := by
  choose x hx using hz
  obtain ⟨k, rfl⟩ : ∃ k, K = k + 1 := ⟨K - 1, by omega⟩
  -- the column as reals on every row number
  let s : ℕ → ℝ := fun n => if h : n < N then x ⟨n, h⟩ else 0
  have hcol : colOf z = fun n => (s n : EReal) := by
    funext n
    unfold colOf
    by_cases h : n < N
    · simp only [dif_pos h, s, hx]
    · simp only [dif_neg h, s, EReal.coe_zero]
  obtain ⟨m, l, hml, hle, ⟨n0, hn0, hn0m⟩, hl⟩ := online_real B hB s k
  have hs : ∀ i : Fin N, s i.val = x i := fun i => by simp only [s, dif_pos i.isLt]
  -- the folded maximum is m
  have hM : (univ : Finset (Fin N)).fold max (⊥ : EReal) z = (m : EReal) := by
    refine le_antisymm ?_ ?_
    · refine (Finset.fold_max_le _).2 ⟨bot_le, fun i _ => ?_⟩
      rw [hx i, EReal.coe_le_coe_iff, ← hs i]
      exact hle i.val (hN ▸ i.isLt)
    · refine (Finset.le_fold_max _).2 (Or.inr ⟨⟨n0, hN ▸ hn0⟩, mem_univ _, ?_⟩)
      rw [hx, ← hs ⟨n0, hN ▸ hn0⟩, hn0m]
  -- the sum over Fin N is l
  have hS : ∑ i : Fin N, Ideal.exp (z i - (m : EReal)) = (l : EReal) := by
    rw [hl, ← hN, ← Fin.sum_univ_eq_sum_range (fun n => Real.exp (s n - m)) N, IdealExpSum.coe_sum]
    refine sum_congr rfl fun i _ => ?_
    rw [hx i, IdealExpSum.exp_sub_coe, hs i]
  have hlpos : 0 < l := by
    rw [hl]
    refine Finset.sum_pos (fun n _ => Real.exp_pos _) ?_
    exact ⟨n0, mem_range.2 hn0⟩
  rw [hcol, hml, hM, IdealExpSum.max_bot_coe, hS, zero_add, IdealExpSum.log_coe_pos hlpos, hx r]
  simp only []
  rw [← EReal.coe_sub, ← EReal.coe_sub, ← EReal.coe_add, ← EReal.coe_sub]
  congr 1
  ring

end Cert.RefOnline
-- ==== Proof.KernelIdealValue.Pay2.lean ====
/-
  The log-sum-exp region's arithmetic at one column. A tile holds 5000 rows of the second aggregation, seven entries each;
  the body adds the second bias (one row of seven, laid along every row) to get the tile's scores, takes each column's
  maximum over the 5000 rows (folded from -∞) and the larger of it and the running maximum, rescales the running sum by
  `exp` of the old maximum less the new, and adds the column's sum over the 5000 rows of `exp` of the score less the new
  maximum. At column `j` this is one step of the online log-sum-exp on the pair (running maximum, running sum) with the
  tile's column of scores. The region starts the pair at (-∞, 0) — the word `0xFF800000` is -∞, the zero word is 0 — and
  ends by adding the logarithm of the sum to the maximum.
-/
import proofs.«139132_j10462540333056_2_alg».proof.Proof.Gen.KernelIdeal.Skeleton
import proofs.«139132_j10462540333056_2_alg».proof.Proof.RefOnline
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.TcCoe Idealize.SL.Sem Idealize.ShloMosaic.ValueIdx
open scoped BigOperators

/-- The word `0xFF800000` is -∞. -/
theorem ofBits_ninf_f32 : Ideal.ofBits .f32 0xFF800000#32 = (⊥ : EReal) := by simp [Ideal.ofBits, Ideal.ieee]

/-- The source entry over column `j` whose coordinate on the reduced row axis is `q` is `(q, j)`. -/
theorem lift_col (h : S5000x7.Reduces [(0 : Fin 2)] S7) (j : Fin 7) (q : Fin 5000) : h.lift (ix1 j) q = ix2 q j := by
  funext c
  apply Fin.ext
  match c with
  | ⟨0, _⟩ => rfl
  | ⟨1, _⟩ => rfl

/-- The lane maximum of a tile over its rows, from the word of -∞, at column `j`: the fold of `max` from -∞ over the rows. -/
theorem laneMax_apply (src : FVec Ideal S5000x7 .f32) (h : S5000x7.Reduces [(0 : Fin 2)] S7) (hφ : FKind.Formats .f32)
    (hacc : (0xFF800000#32 : BitVec 32) = FKind.maximumf.neutral .f32 hφ) (j : Fin 7) :
    multiReduction (F := Ideal) .maximumf [(0 : Fin 2)] S7 src 0xFF800000#32 h hφ hacc (ix1 j)
      = (Finset.univ : Finset (Fin 5000)).fold max (⊥ : EReal) (fun q => src (ix2 q j)) := by
  refine (Ideal.multiReduction_maximumf_single src 0xFF800000#32 h hφ hacc (ix1 j)).trans ?_
  show (Finset.univ : Finset (Fin 5000)).fold max (Ideal.ofBits .f32 0xFF800000#32) (fun q => src (h.lift (ix1 j) q)) = _
  rw [ofBits_ninf_f32]
  exact congrArg (fun f => (Finset.univ : Finset (Fin 5000)).fold max (⊥ : EReal) f) (funext fun q => congrArg src (lift_col h j q))

/-- The lane sum of a tile over its rows, from the zero word, at column `j`: the sum over the rows. -/
theorem laneSum0_apply (src : FVec Ideal S5000x7 .f32) (h : S5000x7.Reduces [(0 : Fin 2)] S7) (hφ : FKind.Formats .f32)
    (hacc : (0x00000000#32 : BitVec 32) = FKind.add.neutral .f32 hφ) (j : Fin 7) :
    multiReduction (F := Ideal) .add [(0 : Fin 2)] S7 src 0x00000000#32 h hφ hacc (ix1 j) = ∑ q : Fin 5000, src (ix2 q j) :=
  (Ideal.multiReduction_add_single src 0x00000000#32 h hφ hacc (ix1 j)).trans
    (Finset.sum_congr rfl fun q _ => congrArg src (lift_col h j q))

/-- A tile's score at row `q`, column `j`: the aggregation plus the bias. -/
theorem k2_pay3_apply (v3 : FVec Ideal S5000x7 .f32) (v5 : FVec Ideal S1x7 .f32) (q : Fin 5000) (j : Fin 7) :
    k2_pay3 (F := Ideal) v3 v5 (ix2 q j) = v3 (ix2 q j) + v5 (ix2 (0 : Fin 1) j) := by
  unfold k2_pay3
  rw [shapeCast_self, shapeCast_self]
  show v3 (ix2 q j) + broadcastTo S5000x7 v5 broadcasts_S1x7_S5000x7 (ix2 q j) = _
  rw [broadcastTo_1b_ab_apply v5 broadcasts_S1x7_S5000x7 q j]

/-- The new running maximum at column `j`: the larger of the old one and the tile's column maximum. -/
theorem k2_pay4_apply (v3 : FVec Ideal S5000x7 .f32) (v5 : FVec Ideal S1x7 .f32) (v11 : FVec Ideal S1x7 .f32) (j : Fin 7) :
    k2_pay4 (F := Ideal) v3 v5 v11 (ix2 (0 : Fin 1) j)
      = max (v11 (ix2 (0 : Fin 1) j))
          ((Finset.univ : Finset (Fin 5000)).fold max (⊥ : EReal) (fun q => v3 (ix2 q j) + v5 (ix2 (0 : Fin 1) j))) := by
  unfold k2_pay4
  show max (v11 (ix2 (0 : Fin 1) j)) (shapeCast S1x7 (multiReduction (F := Ideal) .maximumf [(0 : Fin 2)] S7 (k2_pay3 v3 v5) 0xFF800000#32
      reduces_S5000x7_S7 (.inl rfl) rfl) shapeCasts_S7_S1x7 (ix2 (0 : Fin 1) j)) = _
  refine congrArg (max (v11 (ix2 (0 : Fin 1) j))) ?_
  refine (shapeCast_a_1a_apply _ shapeCasts_S7_S1x7 (0 : Fin 1) j).trans ?_
  refine (laneMax_apply (k2_pay3 v3 v5) reduces_S5000x7_S7 (.inl rfl) rfl j).trans ?_
  exact congrArg (fun f => (Finset.univ : Finset (Fin 5000)).fold max (⊥ : EReal) f) (funext fun q => k2_pay3_apply v3 v5 q j)

/-- The new running sum at column `j`: the old one rescaled to the new maximum, plus the tile's column sum of `exp` of the
    score less the new maximum. -/
theorem k2_pay5_apply (v3 : FVec Ideal S5000x7 .f32) (v5 : FVec Ideal S1x7 .f32) (v11 v13 v19 : FVec Ideal S1x7 .f32) (j : Fin 7) :
    k2_pay5 (F := Ideal) v3 v5 v11 v13 v19 (ix2 (0 : Fin 1) j)
      = Ideal.exp (v13 (ix2 (0 : Fin 1) j) - k2_pay4 (F := Ideal) v3 v5 v11 (ix2 (0 : Fin 1) j)) * v19 (ix2 (0 : Fin 1) j)
        + ∑ q : Fin 5000, Ideal.exp ((v3 (ix2 q j) + v5 (ix2 (0 : Fin 1) j)) - k2_pay4 (F := Ideal) v3 v5 v11 (ix2 (0 : Fin 1) j)) := by
  unfold k2_pay5
  rw [shapeCast_self]
  show Ideal.exp (v13 (ix2 (0 : Fin 1) j) - k2_pay4 (F := Ideal) v3 v5 v11 (ix2 (0 : Fin 1) j)) * v19 (ix2 (0 : Fin 1) j)
      + shapeCast S1x7 (multiReduction (F := Ideal) .add [(0 : Fin 2)] S7
          (exp (subf (k2_pay3 v3 v5) (broadcastTo S5000x7 (k2_pay4 v3 v5 v11) broadcasts_S1x7_S5000x7))) 0x00000000#32
          reduces_S5000x7_S7 (.inl rfl) rfl) shapeCasts_S7_S1x7 (ix2 (0 : Fin 1) j) = _
  refine congrArg (Ideal.exp (v13 (ix2 (0 : Fin 1) j) - k2_pay4 (F := Ideal) v3 v5 v11 (ix2 (0 : Fin 1) j)) * v19 (ix2 (0 : Fin 1) j) + ·) ?_
  refine (shapeCast_a_1a_apply _ shapeCasts_S7_S1x7 (0 : Fin 1) j).trans ?_
  refine (laneSum0_apply _ reduces_S5000x7_S7 (.inl rfl) rfl j).trans ?_
  refine Finset.sum_congr rfl fun q _ => ?_
  show Ideal.exp (k2_pay3 (F := Ideal) v3 v5 (ix2 q j) - broadcastTo S5000x7 (k2_pay4 (F := Ideal) v3 v5 v11) broadcasts_S1x7_S5000x7 (ix2 q j)) = _
  rw [k2_pay3_apply, broadcastTo_1b_ab_apply (k2_pay4 (F := Ideal) v3 v5 v11) broadcasts_S1x7_S5000x7 q j]

/-- One tile at column `j` is one step of the online log-sum-exp: the pair (new maximum, new sum) is the step of the pair
    (old maximum, old sum) on the tile's column of scores. -/
theorem k2_step (v3 : FVec Ideal S5000x7 .f32) (v5 : FVec Ideal S1x7 .f32) (v11 v19 : FVec Ideal S1x7 .f32) (j : Fin 7) :
    (k2_pay4 (F := Ideal) v3 v5 v11 (ix2 (0 : Fin 1) j), k2_pay5 (F := Ideal) v3 v5 v11 v11 v19 (ix2 (0 : Fin 1) j))
      = Cert.RefOnline.step 5000 (v11 (ix2 (0 : Fin 1) j), v19 (ix2 (0 : Fin 1) j))
          (fun q : Fin 5000 => v3 (ix2 q j) + v5 (ix2 (0 : Fin 1) j)) := by
  unfold Cert.RefOnline.step
  rw [k2_pay5_apply, k2_pay4_apply, zero_add]

/-- The maximum the body stores back is the new running maximum. -/
theorem k2_pay6_eq (v3 : FVec Ideal S5000x7 .f32) (v5 : FVec Ideal S1x7 .f32) (v11 : FVec Ideal S1x7 .f32) :
    k2_pay6 (F := Ideal) v3 v5 v11 = k2_pay4 (F := Ideal) v3 v5 v11 := by
  unfold k2_pay6
  rw [shapeCast_self]

/-- The running maximum starts at -∞. -/
theorem k2_pay1_apply (j : Fin 7) : k2_pay1 (F := Ideal) (ix2 (0 : Fin 1) j) = (⊥ : EReal) := by
  unfold k2_pay1
  rw [shapeCast_self]
  exact ofBits_ninf_f32

/-- The running sum starts at zero. -/
theorem k2_pay2_apply (j : Fin 7) : k2_pay2 (F := Ideal) (ix2 (0 : Fin 1) j) = (0 : EReal) := by
  unfold k2_pay2
  rw [shapeCast_self]
  exact Ideal.ofBits_zero_f32

/-- The region's result at column `j`: the maximum plus the logarithm of the sum. -/
theorem k2_pay7_apply (v33 v34 : FVec Ideal S1x7 .f32) (j : Fin 7) :
    k2_pay7 (F := Ideal) v33 v34 (ix2 (0 : Fin 1) j) = v33 (ix2 (0 : Fin 1) j) + Ideal.log (v34 (ix2 (0 : Fin 1) j)) := by
  unfold k2_pay7
  rfl

end Cert.KernelIdeal.Val

end
-- ==== Proof.KernelIdealValue.Blk2.lean ====
/-
  The log-sum-exp region's input blocks as entries of the arrays. Point `t` of the grid's 100 is handed rows
  `5000 t … 5000 t + 4999` of the second aggregation, so entry `(q, j)` of its block is entry `(5000 t + q, j)` of the
  array; the bias row's block is the bias row itself at every point.
-/
import proofs.«139132_j10462540333056_2_alg».proof.Proof.KernelIdealFrame.R2Facts
import Idealize.ShloMosaic.Lib.ValueIdx
import Idealize.ShloMosaic.Lib.Pipeline.Value

noncomputable section

namespace Cert.KernelIdeal.Val

open Cert.KernelIdeal Cert.KernelIdeal.Gen
open Idealize.ShloMosaic Idealize.ShloMosaic.TcCoe Idealize.SL.Sem Idealize.ShloMosaic.ValueIdx
open scoped BigOperators
open Cert.KernelIdeal.Fr
open Idealize.ShloMosaic.Pipeline (Dat)

variable (V : (c : Dev nD) → (b : Ref sig .tc) → Buf (Elt Ideal) ((c : Thread nD τ).loc b))

/-- The printed index maps over the grid: the aggregation rows move with the point, the bias row and the result row stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- Entry `(q, j)` of the tile at point `t` is entry `(5000 t + q, j)` of the aggregation. -/
theorem iblk2_0_apply (c : Dev nD) (t : Fin cfg2.N) (q : Fin 5000) (j : Fin 7) (r : Fin 500000) (hr : r.val = 5000 * t.val + q.val) :
    iblk2 V c 0 t (ix2 q j) = V c main_v60 (ix2 r j) := by
  obtain ⟨e00, e01, e10, e11, e20, e21⟩ := idx_facts2 t
  show V c main_v60 (((cfg2.win 0).blk t).view.emb (ix2 q j)) = V c main_v60 _
  refine congrArg _ (funext fun a => Fin.ext ?_)
  match a with
  | ⟨0, _⟩ => show win2_0.index t (0 : Fin 2) * 5000 + 1 * q.val = r.val; rw [e00, hr]; omega
  | ⟨1, _⟩ => show win2_0.index t (1 : Fin 2) * 7 + 1 * j.val = j.val; rw [e01]; omega

/-- The bias block at any point is the bias row. -/
theorem iblk2_1_apply (c : Dev nD) (t : Fin cfg2.N) (j : Fin 7) :
    iblk2 V c 1 t (ix2 (0 : Fin 1) j) = V c main_v61 (ix2 (0 : Fin 1) j) := by
  obtain ⟨e00, e01, e10, e11, e20, e21⟩ := idx_facts2 t
  show V c main_v61 (((cfg2.win 1).blk t).view.emb (ix2 (0 : Fin 1) j)) = V c main_v61 _
  refine congrArg _ (funext fun a => Fin.ext ?_)
  match a with
  | ⟨0, _⟩ => show win2_1.index t (0 : Fin 2) * 1 + 1 * 0 = 0; rw [e10]
  | ⟨1, _⟩ => show win2_1.index t (1 : Fin 2) * 7 + 1 * j.val = j.val; rw [e11]; omega

end Cert.KernelIdeal.Val

end
-- ==== Proof.KernelIdealValue.Pieces2.lean ====
/-
  What one run of the log-sum-exp body leaves in its buffers, as arithmetic of what it found there. The body loads the tile,
  the bias row, the running maximum (twice) and the running sum, stores the new running sum, then the new running maximum;
  each store takes the whole one-row buffer, so what a buffer holds afterwards is the last store's value.
  * At the first point the body first stores -∞ into the running maximum and 0 into the running sum, and the loads that
    follow read those back: the buffers end at the new maximum and the new sum computed from (-∞, 0).
  * At a middle point they end at the new maximum and the new sum computed from what the buffers held.
  * At the last point likewise, and the body then loads the two buffers again — reading the values just stored — and stores
    the maximum plus the logarithm of the sum into the result row.
-/
import proofs.«139132_j10462540333056_2_alg».proof.Proof.KernelIdealFrame.R2
import Idealize.ShloMosaic.Lib.Pipeline.Value
import Idealize.ShloMosaic.Lib.ValueIdx
import Idealize.ShloMosaic.Lib.Tactic

noncomputable section

namespace Cert.KernelIdeal.Val

open Cert.KernelIdeal Cert.KernelIdeal.Gen
open Idealize.ShloMosaic Idealize.ShloMosaic.TcCoe Idealize.ShloMosaic.Tactic Idealize.SL.Sem Idealize.ShloMosaic.ValueIdx
open scoped BigOperators
open Cert.KernelIdeal.Fr
open Idealize.ShloMosaic.Pipeline (Dat)

variable {F : FTy → Type} [FloatOps F]

theorem zeros2_2 : (![0, 0] : Fin 2 → Nat) = fun _ => 0 := funext fun a => by fin_cases a <;> rfl

/-- First point, running maximum: the new maximum from -∞. -/
theorem sout2_A_0_eq (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : cond2_0 i) (hc1 : ¬cond2_1 i) (x0 : Vec F S5000x7 .f32) (x1 : Vec F S1x7 .f32) :
    sout2_A_0 (F := F) c i arg1 harg1 arg2 harg2 arg3 harg3 arg4 harg4 arg5 harg5 hc0 hc1 x0 x1 = k2_pay6 x0 x1 k2_pay1 := by
  unfold sout2_A_0
  rw [View.read_writes_eq_canon _ _ _ (scover2_A_0 c i arg1 harg1 arg2 harg2 arg3 harg3 arg4 harg4 arg5 harg5 hc0 hc1 x0 x1)]
  unfold kernelRun2_A
  dsimp only
  try sl_unfold_words
  rw [View.canon_cons_unit_zero zeros2_2]
  simp only [View.readAt_eq_ld, harg1.read_unread, harg2.read_unread, harg4.read_unread, harg5.read_unread,
    View.readCov_unit_zero (S := S1x7) _ zeros2_2, View.ld_unit_zero (S := S5000x7) zeros2_2, View.ld_unit_zero (S := S1x7) zeros2_2]

/-- First point, running sum: the new sum from (-∞, 0). -/
theorem sout2_A_1_eq (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : cond2_0 i) (hc1 : ¬cond2_1 i) (x0 : Vec F S5000x7 .f32) (x1 : Vec F S1x7 .f32) :
    sout2_A_1 (F := F) c i arg1 harg1 arg2 harg2 arg3 harg3 arg4 harg4 arg5 harg5 hc0 hc1 x0 x1 = k2_pay5 x0 x1 k2_pay1 k2_pay1 k2_pay2 := by
  unfold sout2_A_1
  rw [View.read_writes_eq_canon _ _ _ (scover2_A_1 c i arg1 harg1 arg2 harg2 arg3 harg3 arg4 harg4 arg5 harg5 hc0 hc1 x0 x1)]
  unfold kernelRun2_A
  dsimp only
  try sl_unfold_words
  rw [View.canon_cons_unit_zero zeros2_2]
  simp only [View.readAt_eq_ld, harg1.read_unread, harg2.read_unread, harg4.read_unread, harg5.read_unread,
    View.readCov_unit_zero (S := S1x7) _ zeros2_2, View.ld_unit_zero (S := S5000x7) zeros2_2, View.ld_unit_zero (S := S1x7) zeros2_2]

/-- Middle point, running maximum: the new maximum from the old. -/
theorem sout2_B_0_eq (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : ¬cond2_1 i) (x0 : Vec F S5000x7 .f32) (x1 xs0 xs1 : Vec F S1x7 .f32) :
    sout2_B_0 (F := F) c i arg1 harg1 arg2 harg2 arg3 harg3 arg4 harg4 arg5 harg5 hc0 hc1 x0 x1 xs0 xs1 = k2_pay6 x0 x1 xs0 := by
  unfold sout2_B_0
  rw [View.read_writes_eq_canon _ _ _ (scover2_B_0 c i arg1 harg1 arg2 harg2 arg3 harg3 arg4 harg4 arg5 harg5 hc0 hc1 x0 x1 xs0 xs1)]
  unfold kernelRun2_B
  dsimp only
  try sl_unfold_words
  rw [View.canon_unit_zero zeros2_2]
  simp only [View.readAt_eq_ld, harg1.read_unread, harg2.read_unread, harg4.read_unread, harg5.read_unread,
    View.readCov_unit_zero (S := S1x7) _ zeros2_2, View.ld_unit_zero (S := S5000x7) zeros2_2, View.ld_unit_zero (S := S1x7) zeros2_2]

/-- Middle point, running sum: the new sum from the old pair. -/
theorem sout2_B_1_eq (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : ¬cond2_1 i) (x0 : Vec F S5000x7 .f32) (x1 xs0 xs1 : Vec F S1x7 .f32) :
    sout2_B_1 (F := F) c i arg1 harg1 arg2 harg2 arg3 harg3 arg4 harg4 arg5 harg5 hc0 hc1 x0 x1 xs0 xs1 = k2_pay5 x0 x1 xs0 xs0 xs1 := by
  unfold sout2_B_1
  rw [View.read_writes_eq_canon _ _ _ (scover2_B_1 c i arg1 harg1 arg2 harg2 arg3 harg3 arg4 harg4 arg5 harg5 hc0 hc1 x0 x1 xs0 xs1)]
  unfold kernelRun2_B
  dsimp only
  try sl_unfold_words
  rw [View.canon_unit_zero zeros2_2]
  simp only [View.readAt_eq_ld, harg1.read_unread, harg2.read_unread, harg4.read_unread, harg5.read_unread,
    View.readCov_unit_zero (S := S1x7) _ zeros2_2, View.ld_unit_zero (S := S5000x7) zeros2_2, View.ld_unit_zero (S := S1x7) zeros2_2]

/-- Last point, running maximum. -/
theorem sout2_C_0_eq (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : cond2_1 i) (x0 : Vec F S5000x7 .f32) (x1 xs0 xs1 : Vec F S1x7 .f32) :
    sout2_C_0 (F := F) c i arg1 harg1 arg2 harg2 arg3 harg3 arg4 harg4 arg5 harg5 hc0 hc1 x0 x1 xs0 xs1 = k2_pay6 x0 x1 xs0 := by
  unfold sout2_C_0
  rw [View.read_writes_eq_canon _ _ _ (scover2_C_0 c i arg1 harg1 arg2 harg2 arg3 harg3 arg4 harg4 arg5 harg5 hc0 hc1 x0 x1 xs0 xs1)]
  unfold kernelRun2_C
  dsimp only
  try sl_unfold_words
  rw [View.canon_unit_zero zeros2_2]
  simp only [View.readAt_eq_ld, harg1.read_unread, harg2.read_unread, harg4.read_unread, harg5.read_unread,
    View.readCov_unit_zero (S := S1x7) _ zeros2_2, View.ld_unit_zero (S := S5000x7) zeros2_2, View.ld_unit_zero (S := S1x7) zeros2_2]

/-- Last point, running sum. -/
theorem sout2_C_1_eq (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : cond2_1 i) (x0 : Vec F S5000x7 .f32) (x1 xs0 xs1 : Vec F S1x7 .f32) :
    sout2_C_1 (F := F) c i arg1 harg1 arg2 harg2 arg3 harg3 arg4 harg4 arg5 harg5 hc0 hc1 x0 x1 xs0 xs1 = k2_pay5 x0 x1 xs0 xs0 xs1 := by
  unfold sout2_C_1
  rw [View.read_writes_eq_canon _ _ _ (scover2_C_1 c i arg1 harg1 arg2 harg2 arg3 harg3 arg4 harg4 arg5 harg5 hc0 hc1 x0 x1 xs0 xs1)]
  unfold kernelRun2_C
  dsimp only
  try sl_unfold_words
  rw [View.canon_unit_zero zeros2_2]
  simp only [View.readAt_eq_ld, harg1.read_unread, harg2.read_unread, harg4.read_unread, harg5.read_unread,
    View.readCov_unit_zero (S := S1x7) _ zeros2_2, View.ld_unit_zero (S := S5000x7) zeros2_2, View.ld_unit_zero (S := S1x7) zeros2_2]

/-- Last point, the result row: the new maximum plus the logarithm of the new sum. -/
theorem out2_C_2_eq (c : Dev nD) (i : grid2.Coords) (arg1 : Memref sig .tc .vmem S5000x7 .f32) (harg1 : arg1.IsWhole) (arg2 : Memref sig .tc .vmem S1x7 .f32) (harg2 : arg2.IsWhole) (arg3 : Memref sig .tc .vmem S1x7 .f32) (harg3 : arg3.IsWhole) (arg4 : Memref sig .tc .vmem S1x7 .f32) (harg4 : arg4.IsWhole) (arg5 : Memref sig .tc .vmem S1x7 .f32) (harg5 : arg5.IsWhole) (hc0 : ¬cond2_0 i) (hc1 : cond2_1 i) (x0 : Vec F S5000x7 .f32) (x1 xs0 xs1 : Vec F S1x7 .f32) :
    out2_C_2 (F := F) c i arg1 harg1 arg2 harg2 arg3 harg3 arg4 harg4 arg5 harg5 hc0 hc1 x0 x1 xs0 xs1 = k2_pay7 (k2_pay6 x0 x1 xs0) (k2_pay5 x0 x1 xs0 xs0 xs1) := by
  unfold out2_C_2
  rw [View.read_writes_eq_canon _ _ _ (cover2_C_2 c i arg1 harg1 arg2 harg2 arg3 harg3 arg4 harg4 arg5 harg5 hc0 hc1 x0 x1 xs0 xs1)]
  unfold kernelRun2_C
  dsimp only
  try sl_unfold_words
  rw [View.canon_unit_zero zeros2_2]
  simp only [View.readAt_eq_ld, harg1.read_unread, harg2.read_unread, harg4.read_unread, harg5.read_unread,
    View.readCov_unit_zero (S := S1x7) _ zeros2_2, View.ld_unit_zero (S := S5000x7) zeros2_2, View.ld_unit_zero (S := S1x7) zeros2_2]

end Cert.KernelIdeal.Val

end
-- ==== Proof.KernelIdealValue.Inv2.lean ====
/-
  The log-sum-exp region along its grid, and its result. The two scratch rows carry, column by column, the pair (running
  maximum, running sum). The first point leaves the online step of (-∞, 0) on its tile's column of scores; every later point
  leaves the online step of what the point before left; and the tile of point `t` holds rows `5000 t … 5000 t + 4999` of the
  scores `agg2 + b2`. So after point `n` the pair at column `j` is the online recurrence over the first `n + 1` tiles of that
  column. The last point also stores the maximum plus the logarithm of the sum into the result row, which is written back
  once, after it, and whose one block is the whole row: the result array ends as that value of the recurrence after all
  100 tiles.
-/
import proofs.«139132_j10462540333056_2_alg».proof.Proof.KernelIdealFrame.R2
import proofs.«139132_j10462540333056_2_alg».proof.Proof.KernelIdealValue.Pay2
import proofs.«139132_j10462540333056_2_alg».proof.Proof.KernelIdealValue.Blk2
import proofs.«139132_j10462540333056_2_alg».proof.Proof.KernelIdealValue.Pieces2
import proofs.«139132_j10462540333056_2_alg».proof.Proof.RefOnline
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.Tactic Idealize.SL.Sem Idealize.ShloMosaic.ValueIdx
open scoped BigOperators
open Cert.KernelIdeal.Fr
open Idealize.ShloMosaic.Pipeline (Dat)

variable (V : (c : Dev nD) → (b : Ref sig .tc) → Buf (Elt Ideal) ((c : Thread nD τ).loc b))

/-- Column `j` of the scores `a + b` (the bias row laid along every row), as a function of the row number. -/
abbrev scoreCol (a : FVec Ideal S500000x7 .f32) (b : FVec Ideal S1x7 .f32) (j : Fin 7) : ℕ → EReal :=
  Cert.RefOnline.colOf (fun r : Fin 500000 => a (ix2 r j) + b (ix2 (0 : Fin 1) j))

/-- Column `j` of a tile's scores: the tile plus the bias row. -/
abbrev tileScores (x0 : FVec Ideal S5000x7 .f32) (x1 : FVec Ideal S1x7 .f32) (j : Fin 7) : Fin 5000 → EReal :=
  fun q => x0 (ix2 q j) + x1 (ix2 (0 : Fin 1) j)

/-- The tile of point `t`, at column `j`, is rows `5000 t + q` of the column of scores. -/
theorem tile_col (c : Dev nD) (t : Fin cfg2.N) (j : Fin 7) :
    tileScores (iblk2 V c 0 t) (iblk2 V c 1 t) j
      = fun q : Fin 5000 => (scoreCol (V c main_v60) (V c main_v61) j) (5000 * t.val + q.val) := by
  have ht : t.val < 100 := Nat.lt_of_lt_of_eq t.isLt N_2
  funext q
  have hq : q.val < 5000 := q.isLt
  have h : 5000 * t.val + q.val < 500000 := by omega
  refine (congrArg₂ (fun a b : EReal => a + b) (iblk2_0_apply V c t q j ⟨5000 * t.val + q.val, h⟩ rfl) (iblk2_1_apply V c t j)).trans ?_
  show _ = Cert.RefOnline.colOf _ (5000 * t.val + q.val)
  rw [Cert.RefOnline.colOf_lt _ _ h]

/-- The first point leaves, at column `j`, the online step of (-∞, 0) on its tile. -/
theorem pair_first (c : Dev nD) (t : Fin cfg2.N) (h0 : t.val % 100 = 0) (h1 : ¬t.val % 100 = 99) (j : Fin 7) :
    ((outsAt2 V c t.val t.isLt).2.1 (ix2 (0 : Fin 1) j), (outsAt2 V c t.val t.isLt).2.2 (ix2 (0 : Fin 1) j))
      = Cert.RefOnline.step 5000 ((⊥ : EReal), (0 : EReal)) (fun q : Fin 5000 => (scoreCol (V c main_v60) (V c main_v61) j) (5000 * t.val + q.val)) := by
  have hA := outsAt2_A V c t h0 h1
  have e1 : (outsAt2 V c t.val t.isLt).2.1 = k2_pay6 (F := Ideal) (iblk2 V c 0 t) (iblk2 V c 1 t) (k2_pay1 (F := Ideal)) :=
    (congrArg (fun p => p.2.1) hA).trans
      (sout2_A_0_eq (F := Ideal) c (grid2.coords t) (ms2_0 t) (hs2_0 t) (ms2_1 t) (hs2_1 t) (ms2_2 t) (hs2_2 t) scM2_0 (Memref.isWhole_whole _) scM2_1 (Memref.isWhole_whole _) ((hcond2_0 t).mpr h0) (fun h => h1 ((hcond2_1 t).mp h)) (iblk2 V c 0 t) (iblk2 V c 1 t))
  have e2 : (outsAt2 V c t.val t.isLt).2.2 = k2_pay5 (F := Ideal) (iblk2 V c 0 t) (iblk2 V c 1 t) (k2_pay1 (F := Ideal)) (k2_pay1 (F := Ideal)) (k2_pay2 (F := Ideal)) :=
    (congrArg (fun p => p.2.2) hA).trans
      (sout2_A_1_eq (F := Ideal) c (grid2.coords t) (ms2_0 t) (hs2_0 t) (ms2_1 t) (hs2_1 t) (ms2_2 t) (hs2_2 t) scM2_0 (Memref.isWhole_whole _) scM2_1 (Memref.isWhole_whole _) ((hcond2_0 t).mpr h0) (fun h => h1 ((hcond2_1 t).mp h)) (iblk2 V c 0 t) (iblk2 V c 1 t))
  rw [e1, e2, k2_pay6_eq]
  refine (k2_step (iblk2 V c 0 t) (iblk2 V c 1 t) (k2_pay1 (F := Ideal)) (k2_pay2 (F := Ideal)) j).trans ?_
  rw [k2_pay1_apply, k2_pay2_apply]
  exact congrArg (Cert.RefOnline.step 5000 ((⊥ : EReal), (0 : EReal))) (tile_col V c t j)

/-- A later point leaves, at column `j`, the online step of what the point before left, on its tile. -/
theorem pair_next (c : Dev nD) (t : Fin cfg2.N) (h0 : ¬t.val % 100 = 0) (j : Fin 7) (ml : EReal × EReal)
    (hprev : ((outsAt2 V c (t.val - 1) (Nat.lt_of_le_of_lt (Nat.sub_le _ _) t.isLt)).2.1 (ix2 (0 : Fin 1) j), (outsAt2 V c (t.val - 1) (Nat.lt_of_le_of_lt (Nat.sub_le _ _) t.isLt)).2.2 (ix2 (0 : Fin 1) j)) = ml) :
    ((outsAt2 V c t.val t.isLt).2.1 (ix2 (0 : Fin 1) j), (outsAt2 V c t.val t.isLt).2.2 (ix2 (0 : Fin 1) j))
      = Cert.RefOnline.step 5000 ml (fun q : Fin 5000 => (scoreCol (V c main_v60) (V c main_v61) j) (5000 * t.val + q.val)) := by
  have e : (outsAt2 V c t.val t.isLt).2.1 = k2_pay6 (F := Ideal) (iblk2 V c 0 t) (iblk2 V c 1 t) (outsAt2 V c (t.val - 1) (Nat.lt_of_le_of_lt (Nat.sub_le _ _) t.isLt)).2.1
      ∧ (outsAt2 V c t.val t.isLt).2.2 = k2_pay5 (F := Ideal) (iblk2 V c 0 t) (iblk2 V c 1 t) (outsAt2 V c (t.val - 1) (Nat.lt_of_le_of_lt (Nat.sub_le _ _) t.isLt)).2.1 (outsAt2 V c (t.val - 1) (Nat.lt_of_le_of_lt (Nat.sub_le _ _) t.isLt)).2.1 (outsAt2 V c (t.val - 1) (Nat.lt_of_le_of_lt (Nat.sub_le _ _) t.isLt)).2.2 := by
    by_cases h1 : t.val % 100 = 99
    · have hC := outsAt2_C V c t h0 h1
      exact ⟨(congrArg (fun p => p.2.1) hC).trans
          (sout2_C_0_eq (F := Ideal) c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.1 (outsAt2 V c (t.val - 1) (Nat.lt_of_le_of_lt (Nat.sub_le _ _) t.isLt)).2.2),
        (congrArg (fun p => p.2.2) hC).trans
          (sout2_C_1_eq (F := Ideal) c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.1 (outsAt2 V c (t.val - 1) (Nat.lt_of_le_of_lt (Nat.sub_le _ _) t.isLt)).2.2)⟩
    · have hB := outsAt2_B V c t h0 h1
      exact ⟨(congrArg (fun p => p.2.1) hB).trans
          (sout2_B_0_eq (F := Ideal) c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2.1 (outsAt2 V c (t.val - 1) (Nat.lt_of_le_of_lt (Nat.sub_le _ _) t.isLt)).2.2),
        (congrArg (fun p => p.2.2) hB).trans
          (sout2_B_1_eq (F := Ideal) c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2.1 (outsAt2 V c (t.val - 1) (Nat.lt_of_le_of_lt (Nat.sub_le _ _) t.isLt)).2.2)⟩
  rw [e.1, e.2, k2_pay6_eq]
  refine (k2_step (iblk2 V c 0 t) (iblk2 V c 1 t) (outsAt2 V c (t.val - 1) (Nat.lt_of_le_of_lt (Nat.sub_le _ _) t.isLt)).2.1 (outsAt2 V c (t.val - 1) (Nat.lt_of_le_of_lt (Nat.sub_le _ _) t.isLt)).2.2 j).trans ?_
  rw [hprev]
  exact congrArg (Cert.RefOnline.step 5000 ml) (tile_col V c t j)

/-- After point `n` the two scratch rows hold, at column `j`, the online recurrence over the first `n + 1` tiles of the
    column of scores. -/
theorem online_inv (c : Dev nD) (j : Fin 7) : ∀ (n : ℕ) (hn : n < cfg2.N),
    ((outsAt2 V c n hn).2.1 (ix2 (0 : Fin 1) j), (outsAt2 V c n hn).2.2 (ix2 (0 : Fin 1) j))
      = Cert.RefOnline.online 5000 (scoreCol (V c main_v60) (V c main_v61) j) (n + 1) := by
  intro n
  induction n with
  | zero =>
    intro hn
    rw [Cert.RefOnline.online_succ, Cert.RefOnline.online_zero]
    exact pair_first V c ⟨0, hn⟩ (Nat.zero_mod _) (by show ¬(0 % 100 = 99); decide) j
  | succ n ih =>
    intro hn
    have hN : n + 1 < 100 := Nat.lt_of_lt_of_eq hn N_2
    rw [Cert.RefOnline.online_succ]
    exact pair_next V c ⟨n + 1, hn⟩ (by show ¬(n + 1) % 100 = 0; omega) j _ (ih (Nat.lt_of_succ_lt hn))

/-- The column log-sum-exps: the maximum plus the logarithm of the sum, of the recurrence after all 100 tiles. -/
def LSE (a : FVec Ideal S500000x7 .f32) (b : FVec Ideal S1x7 .f32) : FVec Ideal S1x7 .f32 :=
  fun i => (Cert.RefOnline.online 5000 (scoreCol a b (⟨(i 1).val, (i 1).isLt⟩ : Fin 7)) 100).1
    + Ideal.log (Cert.RefOnline.online 5000 (scoreCol a b (⟨(i 1).val, (i 1).isLt⟩ : Fin 7)) 100).2

theorem LSE_apply (a : FVec Ideal S500000x7 .f32) (b : FVec Ideal S1x7 .f32) (u : Fin 1) (j : Fin 7) :
    LSE a b (ix2 u j) = (Cert.RefOnline.online 5000 (scoreCol a b j) 100).1 + Ideal.log (Cert.RefOnline.online 5000 (scoreCol a b j) 100).2 := rfl

/-- At the last point the result row holds, at column `j`, the maximum plus the logarithm of the sum of the pair the point
    leaves. -/
theorem out_last (c : Dev nD) (t : Fin cfg2.N) (h0 : ¬t.val % 100 = 0) (h1 : t.val % 100 = 99) (j : Fin 7) :
    (outsAt2 V c t.val t.isLt).1 (ix2 (0 : Fin 1) j)
      = (outsAt2 V c t.val t.isLt).2.1 (ix2 (0 : Fin 1) j) + Ideal.log ((outsAt2 V c t.val t.isLt).2.2 (ix2 (0 : Fin 1) j)) := by
  have hC := outsAt2_C V c t h0 h1
  have e0 : (outsAt2 V c t.val t.isLt).1 = k2_pay7 (F := Ideal) (k2_pay6 (iblk2 V c 0 t) (iblk2 V c 1 t) (outsAt2 V c (t.val - 1) (Nat.lt_of_le_of_lt (Nat.sub_le _ _) t.isLt)).2.1)
      (k2_pay5 (iblk2 V c 0 t) (iblk2 V c 1 t) (outsAt2 V c (t.val - 1) (Nat.lt_of_le_of_lt (Nat.sub_le _ _) t.isLt)).2.1 (outsAt2 V c (t.val - 1) (Nat.lt_of_le_of_lt (Nat.sub_le _ _) t.isLt)).2.1 (outsAt2 V c (t.val - 1) (Nat.lt_of_le_of_lt (Nat.sub_le _ _) t.isLt)).2.2) :=
    (congrArg (fun p => p.1) hC).trans
      (out2_C_2_eq (F := Ideal) c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.1 (outsAt2 V c (t.val - 1) (Nat.lt_of_le_of_lt (Nat.sub_le _ _) t.isLt)).2.2)
  have e1 : (outsAt2 V c t.val t.isLt).2.1 = k2_pay6 (F := Ideal) (iblk2 V c 0 t) (iblk2 V c 1 t) (outsAt2 V c (t.val - 1) (Nat.lt_of_le_of_lt (Nat.sub_le _ _) t.isLt)).2.1 :=
    (congrArg (fun p => p.2.1) hC).trans
      (sout2_C_0_eq (F := Ideal) c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.1 (outsAt2 V c (t.val - 1) (Nat.lt_of_le_of_lt (Nat.sub_le _ _) t.isLt)).2.2)
  have e2 : (outsAt2 V c t.val t.isLt).2.2 = k2_pay5 (F := Ideal) (iblk2 V c 0 t) (iblk2 V c 1 t) (outsAt2 V c (t.val - 1) (Nat.lt_of_le_of_lt (Nat.sub_le _ _) t.isLt)).2.1 (outsAt2 V c (t.val - 1) (Nat.lt_of_le_of_lt (Nat.sub_le _ _) t.isLt)).2.1 (outsAt2 V c (t.val - 1) (Nat.lt_of_le_of_lt (Nat.sub_le _ _) t.isLt)).2.2 :=
    (congrArg (fun p => p.2.2) hC).trans
      (sout2_C_1_eq (F := Ideal) c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.1 (outsAt2 V c (t.val - 1) (Nat.lt_of_le_of_lt (Nat.sub_le _ _) t.isLt)).2.2)
  rw [e0, e1, e2]
  exact k2_pay7_apply _ _ j

/-- What the last point writes back is the row of column log-sum-exps of the aggregation and the bias row as the region
    finds them. -/
theorem flushed2_eq (c : Dev nD) (t : Fin cfg2.N) (h1 : t.val % 100 = 99) :
    (dat2 (F := Ideal) V c).flushed 2 t = ((cfg2.win 2).blk t).view.read (Elt Ideal) (LSE (V c main_v60) (V c main_v61)) := by
  show (cfg2.win 2).cut (grid2.coords t) ((dat2 V c).after 2 t) = _
  rw [after2_2]
  obtain ⟨e00, e01, e10, e11, e20, e21⟩ := idx_facts2 t
  have ht : t.val < 100 := Nat.lt_of_lt_of_eq t.isLt N_2
  have h99 : t.val = 99 := by omega
  funext y
  have hy0 : (y 0).val < 1 := (y 0).isLt
  have hy1 : (y 1).val < 7 := (y 1).isLt
  have hL : (cfg2.win 2).xinj (grid2.coords t) y = ix2 (0 : Fin 1) (⟨(y 1).val, hy1⟩ : Fin 7) :=
    funext fun a => Fin.ext (by
      match a with
      | ⟨0, _⟩ => show (y 0).val = 0; omega
      | ⟨1, _⟩ => rfl)
  have hR : ((cfg2.win 2).blk t).view.emb y = ix2 (0 : Fin 1) (⟨(y 1).val, hy1⟩ : Fin 7) := by
    funext a; apply Fin.ext
    match a with
    | ⟨0, _⟩ => show win2_2.index t (0 : Fin 2) * 1 + 1 * (y 0).val = 0; rw [e20]; omega
    | ⟨1, _⟩ => show win2_2.index t (1 : Fin 2) * 7 + 1 * (y 1).val = (y 1).val; rw [e21]; omega
  show (outsAt2 V c t.val t.isLt).1 ((cfg2.win 2).xinj (grid2.coords t) y)
    = LSE (V c main_v60) (V c main_v61) (((cfg2.win 2).blk t).view.emb y)
  rw [hL, hR, LSE_apply, out_last V c t (by omega) h1]
  have hinv := online_inv V c (⟨(y 1).val, hy1⟩ : Fin 7) t.val t.isLt
  have h100 : t.val + 1 = 100 := by omega
  rw [h100] at hinv
  exact congrArg (fun p : EReal × EReal => p.1 + Ideal.log p.2) hinv

/-- An entry of the result row is in point `t`'s block iff each coordinate is in the block's range on its axis. -/
theorem mem_blk2 (t : Fin cfg2.N) (i : S1x7.Idx) :
    i ∈ ((cfg2.win 2).blk t).view.set ↔ ∀ a : Fin 2, win2_2.index t a * S1x7.size a ≤ (i a).val ∧ (i a).val < win2_2.index t a * S1x7.size a + S1x7.size a := by
  show i ∈ ((View.whole main_v62).slice (win2_2.rect t)).set ↔ _
  rw [View.set_slice_whole, Rect.mem_set_unit]
  exact Iff.rfl

/-- The last point's block is the whole result row. -/
theorem cover2 (i : S1x7.Idx) : ∃ t : Fin cfg2.N, (cfg2.win 2).flush t = true ∧ i ∈ ((cfg2.win 2).blk t).view.set := by
  have hi0 : (i 0).val < 1 := (i 0).isLt
  have hi1 : (i 1).val < 7 := (i 1).isLt
  obtain ⟨t, ht⟩ : ∃ t : Fin cfg2.N, t.val = 99 := ⟨⟨99, by rw [show cfg2.N = 100 from N_2]; omega⟩, rfl⟩
  obtain ⟨e00, e01, e10, e11, e20, e21⟩ := idx_facts2 t
  refine ⟨t, (flush2_2 t).mpr (by rw [ht]), ?_⟩
  rw [mem_blk2]
  intro a
  match a with
  | ⟨0, _⟩ => show win2_2.index t (0 : Fin 2) * 1 ≤ (i 0).val ∧ (i 0).val < win2_2.index t (0 : Fin 2) * 1 + 1; rw [e20]; omega
  | ⟨1, _⟩ => show win2_2.index t (1 : Fin 2) * 7 ≤ (i 1).val ∧ (i 1).val < win2_2.index t (1 : Fin 2) * 7 + 7; rw [e21]; omega

/-- The result row after the region: the column log-sum-exps of the aggregation and the bias row as the region finds them. -/
theorem final2 (c : Dev nD) : (dat2 (F := Ideal) V c).arrAt 2 cfg2.N = LSE (V c main_v60) (V c main_v61) :=
  (dat2 V c).arrAt_eq_of_cover 2 (LSE (V c main_v60) (V c main_v61)) (fun t hf => flushed2_eq V c t ((flush2_2 t).mp hf)) cover2

end Cert.KernelIdeal.Val

end
-- ==== Proof.RefReal.lean ====
/-
  Which operations keep every entry a real number.

  At the ideal values a float is an extended real. An entry is called real when it is the coercion of a real
  number. Sums, products and maxima of reals are real; so a contraction (a finite sum of products), an
  accumulating scatter into real entries (each entry plus a finite sum of update entries) and every
  entrywise sum, product or maximum keep all entries real. A gather and a broadcast only copy entries of
  their operand. The reciprocal square root of max d 1 for a real d is the real (√(max d 1))⁻¹, because
  max d 1 ≥ 1 > 0 keeps it away from the corners of the reciprocal square root (0 ↦ +∞, negative ↦ -∞).
-/
import Idealize.ShloMosaic.Lib.ValueIdx
import Idealize.ShloMosaic.PureOps.Ideal.Laws

namespace Cert.RefReal

open Finset Idealize.ShloMosaic

/-- An extended real that is the coercion of a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem isReal_sum {ι : Type*} (J : Finset ι) (f : ι → EReal) (h : ∀ j ∈ J, IsReal (f j)) : IsReal (∑ j ∈ J, f j) := by
  classical
  induction J using Finset.induction_on with
  | empty => simpa using isReal_zero
  | insert a J ha ih =>
    rw [sum_insert ha]
    exact (h a (mem_insert_self a J)).add (ih fun j hj => h j (mem_insert_of_mem hj))

/-- The float words of 0 and 1 denote 0 and 1. -/
theorem ofBits_one_f32 : Ideal.ofBits .f32 0x3F800000#32 = 1 := by
  simp [Ideal.ofBits, Ideal.ieee]
  norm_cast
  norm_num

/-- The float word of -∞ denotes the bottom of the extended reals. -/
theorem ofBits_neg_inf_f32 : Ideal.ofBits .f32 0xFF800000#32 = ⊥ := by simp [Ideal.ofBits, Ideal.ieee]

theorem isReal_ofBits_zero : IsReal (Ideal.ofBits .f32 0x00000000#32) := by
  rw [Ideal.ofBits_zero_f32]; exact isReal_zero
theorem isReal_ofBits_one : IsReal (Ideal.ofBits .f32 0x3F800000#32) := by
  rw [ofBits_one_f32]; exact isReal_one

/-- The reciprocal square root of max d 1 for a real d is real. -/
theorem isReal_rsqrt_max_one {d : EReal} (hd : IsReal d) : IsReal (Ideal.rsqrt (max d 1)) := by
  obtain ⟨r, rfl⟩ := hd
  have e : max ((r : ℝ) : EReal) 1 = ((max r 1 : ℝ) : EReal) := by
    rw [← EReal.coe_one]; exact (EReal.coe_strictMono.monotone.map_max).symm
  rw [e]
  have h1 : (1 : ℝ) ≤ max r 1 := le_max_right _ _
  refine ⟨(Real.sqrt (max r 1))⁻¹, ?_⟩
  show (if max r 1 < 0 then (⊥ : EReal) else if max r 1 = 0 then ⊤ else ((Real.sqrt (max r 1))⁻¹ : ℝ)) = _
  rw [if_neg (by linarith), if_neg (by linarith)]

/-- A select between two reals is real. -/
theorem isReal_select (c : BitVec 1) {a b : EReal} (ha : IsReal a) (hb : IsReal b) : IsReal (Scalar.select c a b) := by
  unfold Scalar.select; split <;> assumption

/-! ## Whole arrays -/

section Arrays
variable {s t si su : Shape} {φ : FTy}

theorem constant_real (b : BitVec φ.bits) (hb : IsReal (Ideal.ofBits φ b)) (i : s.Idx) :
    IsReal (constant (F := Ideal) s φ b i) := hb

theorem broadcastInDim_real (dims : Fin s.rank → Fin t.rank) (h : s.BroadcastsInDim t dims) (x : s.Idx → EReal)
    (hx : ∀ i, IsReal (x i)) (j : t.Idx) : IsReal (broadcastInDim t dims h x j) := by
  unfold broadcastInDim; exact hx _

theorem addf_real (a b : FVec Ideal s φ) (ha : ∀ i, IsReal (a i)) (hb : ∀ i, IsReal (b i)) (i : s.Idx) :
    IsReal (addf a b i) := (ha i).add (hb i)

theorem mulf_real (a b : FVec Ideal s φ) (ha : ∀ i, IsReal (a i)) (hb : ∀ i, IsReal (b i)) (i : s.Idx) :
    IsReal (mulf a b i) := (ha i).mul (hb i)

theorem maximumf_real (a b : FVec Ideal s φ) (ha : ∀ i, IsReal (a i)) (hb : ∀ i, IsReal (b i)) (i : s.Idx) :
    IsReal (maximumf a b i) := (ha i).max (hb i)

theorem select_real (c : IVec s 1) (a b : s.Idx → EReal) (ha : ∀ i, IsReal (a i)) (hb : ∀ i, IsReal (b i)) (i : s.Idx) :
    IsReal (select c a b i) := isReal_select (c i) (ha i) (hb i)

/-- A gather copies entries of its operand. -/
theorem gather_real {w : ℕ} (d : GatherDims s si t) (x : s.Idx → EReal) (idx : IVec si w) (hx : ∀ i, IsReal (x i))
    (j : t.Idx) : IsReal (Host.gather d x idx j) := by
  unfold Host.gather; exact hx _

/-- An accumulating scatter: each entry of the operand plus a finite sum of update entries. -/
theorem scatterAdd_real {w : ℕ} (d : ScatterDims s si su) (x : FVec Ideal s φ) (idx : IVec si w) (upd : FVec Ideal su φ)
    (hx : ∀ i, IsReal (x i)) (hu : ∀ i, IsReal (upd i)) (j : s.Idx) : IsReal (Host.scatterAdd d x idx upd j) := by
  show IsReal (x j + ∑ k ∈ Finset.univ.filter (fun k => d.resultIdx? k idx = some j), upd k)
  exact (hx j).add (isReal_sum _ _ fun k _ => hu k)

/-- A contraction: a finite sum of products. -/
theorem dotGeneral_real {sl sr so : Shape} {φ₁ φ₂ : FTy} (d : DotDims sl sr so) (prec : Option ContractPrecision)
    (l : FVec Ideal sl φ₁) (r : FVec Ideal sr φ₂) (hl : ∀ i, IsReal (l i)) (hr : ∀ i, IsReal (r i)) (j : so.Idx) :
    IsReal (Host.dotGeneral d prec l r j) := by
  show IsReal (FloatOps.dotGeneral d prec .single l r j)
  rw [Ideal.dotGeneral_apply]
  exact isReal_sum _ _ fun k _ => (hl _).mul (hr _)

/-- The reciprocal square root of the entrywise maximum with an array of ones. -/
theorem rsqrt_max_one_real (a b : FVec Ideal s φ) (ha : ∀ i, IsReal (a i)) (hb : ∀ i, b i = 1) (i : s.Idx) :
    IsReal (Host.rsqrt (maximumf a b) i) := by
  show IsReal (Ideal.rsqrt (max (a i) (b i)))
  rw [hb i]; exact isReal_rsqrt_max_one (ha i)

end Arrays

end Cert.RefReal
-- ==== Proof.LibBroadcastLayout.lean ====
/-
  Two host broadcasts read at an index given by coordinates: a column `[n, 1]` and a row `[1, d]`, each placed along
  both axes of `[n, d]`. The column's copy reads the column's entry of the same row; the row's copy reads the row's
  entry of the same position in the row.
-/
import Idealize.ShloMosaic.Lib.Pipeline.Value
import Idealize.ShloMosaic.Lib.ValueIdx

namespace Cert.BroadcastLayout

open Idealize.ShloMosaic Idealize.ShloMosaic.ValueIdx

variable {α : Type}

/-- A column `[n, 1]` placed along both axes of `[n, d]` reads, at `(p, q)`, the column's entry of row `p`. -/
theorem broadcastInDim_col_apply {n d : ℕ} (v : (⟨2, ![n, 1]⟩ : Shape).Idx → α)
    (h : (⟨2, ![n, 1]⟩ : Shape).BroadcastsInDim ⟨2, ![n, d]⟩ ![0, 1]) (p : Fin n) (q : Fin d) :
    broadcastInDim ⟨2, ![n, d]⟩ ![0, 1] h v (ix2 p q) = v (ix2 p (0 : Fin 1)) := by
  refine broadcastInDim_apply _ h v (ix2 p q) (ix2 p (0 : Fin 1)) fun a => ?_
  match a with
  | ⟨0, _⟩ =>
    show p.val = if n = 1 then 0 else p.val
    split
    · have := p.isLt; omega
    · rfl
  | ⟨1, _⟩ => rfl

/-- A row `[1, d]` placed along both axes of `[n, d]` reads, at `(p, q)`, the row's entry at `q`. -/
theorem broadcastInDim_row_apply {n d : ℕ} (v : (⟨2, ![1, d]⟩ : Shape).Idx → α)
    (h : (⟨2, ![1, d]⟩ : Shape).BroadcastsInDim ⟨2, ![n, d]⟩ ![0, 1]) (p : Fin n) (q : Fin d) :
    broadcastInDim ⟨2, ![n, d]⟩ ![0, 1] h v (ix2 p q) = v (ix2 (0 : Fin 1) q) := by
  refine broadcastInDim_apply _ h v (ix2 p q) (ix2 (0 : Fin 1) q) fun a => ?_
  match a with
  | ⟨0, _⟩ => rfl
  | ⟨1, _⟩ =>
    show q.val = if d = 1 then 0 else q.val
    split
    · have := q.isLt; omega
    · rfl

end Cert.BroadcastLayout
-- ==== Proof.RefIndex.lean ====
/-
  The stages read at an index, at the ideal values.

  A plain contraction [M, K] · [K, N] at (r, j) is the sum over k of left (r, k) times right (k, j); the bias
  laid along every row reads the bias at the column; the maximum with the zero array is the maximum with 0.
-/
import proofs.«139132_j10462540333056_2_alg».proof.Proof.RefStages
import proofs.«139132_j10462540333056_2_alg».proof.Proof.RefReal
import proofs.«139132_j10462540333056_2_alg».proof.Proof.LibDenseRows
import proofs.«139132_j10462540333056_2_alg».proof.Proof.LibBroadcastLayout
import Idealize.ShloMosaic.Lib.Pipeline.Value
import Idealize.ShloMosaic.Lib.ValueIdx
import Idealize.ShloMosaic.Lib.IdealHost
import Idealize.ShloMosaic.PureOps.Ideal.Laws

noncomputable section

namespace Cert.RefValue

open Cert.ReferenceIdeal Cert.ReferenceIdeal.Gen Idealize.ShloMosaic Idealize.ShloMosaic.ValueIdx Finset

/-! ## The two contractions -/

theorem dotA_lhs0 (i : S500000x4.Idx) (q : dot_S500000x5_S5x4_S500000x4_1_0_0_1_n_n.contr.Idx) :
    (dot_S500000x5_S5x4_S500000x4_1_0_0_1_n_n.lhsIdx i q 0).val = (i 0).val := by
  unfold DotDims.lhsIdx
  rw [dif_neg (show ¬(0 : Fin S500000x5.rank) ∈ dot_S500000x5_S5x4_S500000x4_1_0_0_1_n_n.lhsBatch by decide),
    dif_pos (show (0 : Fin S500000x5.rank) ∈ dot_S500000x5_S5x4_S500000x4_1_0_0_1_n_n.lhsNonContracting by decide)]
  rfl

theorem dotA_rhs1 (i : S500000x4.Idx) (q : dot_S500000x5_S5x4_S500000x4_1_0_0_1_n_n.contr.Idx) :
    (dot_S500000x5_S5x4_S500000x4_1_0_0_1_n_n.rhsIdx i q 1).val = (i 1).val := by
  unfold DotDims.rhsIdx
  rw [dif_neg (show ¬(1 : Fin S5x4.rank) ∈ dot_S500000x5_S5x4_S500000x4_1_0_0_1_n_n.rhsBatch by decide),
    dif_pos (show (1 : Fin S5x4.rank) ∈ dot_S500000x5_S5x4_S500000x4_1_0_0_1_n_n.rhsNonContracting by decide)]
  rfl

/-- h0 at (r, j): row r of x against column j of W1. -/
theorem DotA_apply (x : Arr Ideal S500000x5 .f32) (W1 : Arr Ideal S5x4 .f32) (r : Fin 500000) (j : Fin 4) :
    DotA x W1 (ix2 r j) = ∑ k : Fin 5, x (ix2 r k) * W1 (ix2 k j) := by
  unfold DotA
  exact Cert.DenseRows.dotGeneral_plain_apply dot_S500000x5_S5x4_S500000x4_1_0_0_1_n_n rfl rfl rfl rfl dotA_lhs0 dotA_rhs1 x W1 r j

theorem mid_lhs0 (i : S500000x7.Idx) (q : dot_S500000x4_S4x7_S500000x7_1_0_0_1_n_n.contr.Idx) :
    (dot_S500000x4_S4x7_S500000x7_1_0_0_1_n_n.lhsIdx i q 0).val = (i 0).val := by
  unfold DotDims.lhsIdx
  rw [dif_neg (show ¬(0 : Fin S500000x4.rank) ∈ dot_S500000x4_S4x7_S500000x7_1_0_0_1_n_n.lhsBatch by decide),
    dif_pos (show (0 : Fin S500000x4.rank) ∈ dot_S500000x4_S4x7_S500000x7_1_0_0_1_n_n.lhsNonContracting by decide)]
  rfl

theorem mid_rhs1 (i : S500000x7.Idx) (q : dot_S500000x4_S4x7_S500000x7_1_0_0_1_n_n.contr.Idx) :
    (dot_S500000x4_S4x7_S500000x7_1_0_0_1_n_n.rhsIdx i q 1).val = (i 1).val := by
  unfold DotDims.rhsIdx
  rw [dif_neg (show ¬(1 : Fin S4x7.rank) ∈ dot_S500000x4_S4x7_S500000x7_1_0_0_1_n_n.rhsBatch by decide),
    dif_pos (show (1 : Fin S4x7.rank) ∈ dot_S500000x4_S4x7_S500000x7_1_0_0_1_n_n.rhsNonContracting by decide)]
  rfl

/-- The bias [4] laid along every row, at (r, k). -/
theorem bias4_apply (b1 : Arr Ideal S4 .f32) (r : Fin 500000) (k : Fin 4) :
    (broadcastInDim S500000x4 ![0, 1] bcast_S1x4_S500000x4_0_1 (broadcastInDim S1x4 ![1] bcast_S4_S1x4_1 b1)) (ix2 r k)
      = b1 (ix1 k) :=
  Cert.DenseRows.rowBias_inDim_apply (M := 500000) (N := 4) b1 bcast_S4_S1x4_1 bcast_S1x4_S500000x4_0_1 r k

/-- The bias [7] laid along every row, at (r, j). -/
theorem bias7_apply (b2 : Arr Ideal S7 .f32) (r : Fin 500000) (j : Fin 7) :
    (broadcastInDim S500000x7 ![0, 1] bcast_S1x7_S500000x7_0_1 (broadcastInDim S1x7 ![1] bcast_S7_S1x7_1 b2)) (ix2 r j)
      = b2 (ix1 j) :=
  Cert.DenseRows.rowBias_inDim_apply (M := 500000) (N := 7) b2 bcast_S7_S1x7_1 bcast_S1x7_S500000x7_0_1 r j

/-- The activation max (agg1 + b1) 0 at (r, k). -/
theorem relu_apply (agg1 : Arr Ideal S500000x4 .f32) (b1 : Arr Ideal S4 .f32) (r : Fin 500000) (k : Fin 4) :
    (maximumf (addf agg1 (broadcastInDim S500000x4 ![0, 1] bcast_S1x4_S500000x4_0_1 (broadcastInDim S1x4 ![1] bcast_S4_S1x4_1 b1)))
      (broadcastInDim S500000x4 ![] bcast_S_S500000x4 (constant (F := Ideal) S_ .f32 0x00000000#32))) (ix2 r k)
      = max (agg1 (ix2 r k) + b1 (ix1 k)) 0 := by
  show max (agg1 (ix2 r k) + (broadcastInDim S500000x4 ![0, 1] bcast_S1x4_S500000x4_0_1 (broadcastInDim S1x4 ![1] bcast_S4_S1x4_1 b1)) (ix2 r k))
    (Ideal.ofBits .f32 0x00000000#32) = _
  rw [bias4_apply, Ideal.ofBits_zero_f32]

/-- h2 at (r, j): the activated row r against column j of W2. -/
theorem Mid_apply (agg1 : Arr Ideal S500000x4 .f32) (b1 : Arr Ideal S4 .f32) (W2 : Arr Ideal S4x7 .f32) (r : Fin 500000) (j : Fin 7) :
    Mid agg1 b1 W2 (ix2 r j) = ∑ k : Fin 4, max (agg1 (ix2 r k) + b1 (ix1 k)) 0 * W2 (ix2 k j) := by
  unfold Mid
  rw [Cert.DenseRows.dotGeneral_plain_apply dot_S500000x4_S4x7_S500000x7_1_0_0_1_n_n rfl rfl rfl rfl mid_lhs0 mid_rhs1 _ W2 r j]
  exact Finset.sum_congr rfl fun k _ => by rw [relu_apply]

/-- z at (r, j). -/
theorem AddB2_apply (agg2 : Arr Ideal S500000x7 .f32) (b2 : Arr Ideal S7 .f32) (r : Fin 500000) (j : Fin 7) :
    AddB2 agg2 b2 (ix2 r j) = agg2 (ix2 r j) + b2 (ix1 j) := by
  show agg2 (ix2 r j) + (broadcastInDim S500000x7 ![0, 1] bcast_S1x7_S500000x7_0_1 (broadcastInDim S1x7 ![1] bcast_S7_S1x7_1 b2)) (ix2 r j) = _
  rw [bias7_apply]

end Cert.RefValue

end
-- ==== Proof.RefSoftmaxIndex.lean ====
/-
  The log-softmax read at an index, at the ideal values.

  A column's maximum, reduced along the rows from -∞, is the fold of max from -∞ over the rows of that column,
  and the sum of the exponentials along the rows from 0 is 0 plus the sum over the rows. So the log-softmax at
  (r, j) is (z (r, j) - M) - log (0 + ∑ over rows of exp (z (row, j) - M)) with M = max -∞ (that fold).
-/
import proofs.«139132_j10462540333056_2_alg».proof.Proof.RefIndex

noncomputable section

namespace Cert.RefValue

open Cert.ReferenceIdeal Cert.ReferenceIdeal.Gen Idealize.ShloMosaic Idealize.ShloMosaic.ValueIdx Finset

/-- The reduction of [500000, 7] along the rows, as a fact of the other kind (it names the inserted index). -/
theorem reduces_rows : S500000x7.Reduces [(0 : Fin 2)] S7 := by decide

/-- Column j with the row coordinate k put back is (k, j). -/
theorem lift_col (j : Fin 7) (k : Fin 500000) : reduces_rows.lift (ix1 j) k = ix2 k j := by
  funext c
  apply Fin.ext
  match c with
  | ⟨0, _⟩ => rfl
  | ⟨1, _⟩ => rfl

/-- Two folds over the same set from the same start by operations that agree are equal. -/
theorem fold_op_congr {α β : Type*} (op1 op2 : β → β → β) [Std.Commutative op1] [Std.Associative op1]
    [Std.Commutative op2] [Std.Associative op2] (h : ∀ x y, op1 x y = op2 x y) (s : Finset α) (b : β) (f : α → β) :
    s.fold op1 b f = s.fold op2 b f := by
  have e : op1 = op2 := funext fun x => funext fun y => h x y
  subst e
  rfl

/-- The host's maximum down column j from the word of -∞: the fold of max from -∞ over the rows. -/
theorem hostColMax_apply (z : Arr Ideal S500000x7 .f32) (j : Fin 7) :
    Host.reduce (FloatOps.maximumf (F := Ideal) (φ := .f32)) z (constant (F := Ideal) S_ .f32 0xFF800000#32) reducesTo_S500000x7_S7_d0 h_S_ (ix1 j)
      = (univ : Finset (Fin 500000)).fold max ⊥ (fun r => z (ix2 r j)) := by
  rw [Host.reduce_eq_fold_single (FloatOps.maximumf (F := Ideal) (φ := .f32)) z _ reducesTo_S500000x7_S7_d0 reduces_rows h_S_ (ix1 j)]
  have hf : (z ∘ reduces_rows.lift (ix1 j)) = fun r : Fin 500000 => z (ix2 r j) :=
    funext fun k => congrArg z (lift_col j k)
  have hinit : (constant (F := Ideal) S_ .f32 0xFF800000#32) (Shape.Idx.first h_S_) = (⊥ : EReal) :=
    RefReal.ofBits_neg_inf_f32
  rw [hf, hinit]
  exact fold_op_congr (FloatOps.maximumf (F := Ideal) (φ := .f32)) max (fun _ _ => rfl) _ _ _

/-- The column maximum, once more compared with -∞. -/
theorem ColMax_apply (z : Arr Ideal S500000x7 .f32) (j : Fin 7) :
    ColMax (F := Ideal) z (ix1 j) = max ⊥ ((univ : Finset (Fin 500000)).fold max ⊥ (fun r => z (ix2 r j))) := by
  unfold ColMax
  rw [ValueIdx.maximumf_apply, hostColMax_apply]
  have hb : (broadcastInDim S7 ![] bcast_S_S7 (constant (F := Ideal) S_ .f32 0xFF800000#32)) (ix1 j) = (⊥ : EReal) :=
    RefReal.ofBits_neg_inf_f32
  rw [hb]

/-- z less its column maximum, at (r, j). -/
theorem Shift_apply (z : Arr Ideal S500000x7 .f32) (r : Fin 500000) (j : Fin 7) :
    Shift (F := Ideal) z (ix2 r j) = z (ix2 r j) - max ⊥ ((univ : Finset (Fin 500000)).fold max ⊥ (fun r' => z (ix2 r' j))) := by
  unfold Shift
  rw [ValueIdx.subf_apply, bias7_apply, ColMax_apply]

/-- The host's sum of exponentials down column j, from the zero word. -/
theorem expSum_apply (y : Arr Ideal S500000x7 .f32) (j : Fin 7) :
    (Host.reduceAdd (F := Ideal) (φ := .f32) (Host.exp (F := Ideal) (φ := .f32) y) (constant (F := Ideal) S_ .f32 0x00000000#32) reducesTo_S500000x7_S7_d0 h_S_) (ix1 j)
      = 0 + ∑ r' : Fin 500000, Ideal.exp (y (ix2 r' j)) := by
  rw [hostReduceAdd_apply, Ideal.hostReduceAdd_single reducesTo_S500000x7_S7_d0 reduces_rows]
  have hinit : (constant (F := Ideal) S_ .f32 0x00000000#32) (Shape.Idx.first h_S_) = (0 : EReal) := Ideal.ofBits_zero_f32
  rw [hinit]
  exact congrArg (0 + ·) (Finset.sum_congr rfl fun k _ => congrArg (fun i => Ideal.exp (y i)) (lift_col j k))

/-- The logarithm of a [7] vector laid along every row through [1, 7], at (r, j). -/
theorem logRow_apply (v : Arr Ideal S7 .f32) (r : Fin 500000) (j : Fin 7) :
    (broadcastInDim S500000x7 ![0, 1] bcast_S1x7_S500000x7_0_1 (Host.log (F := Ideal) (φ := .f32) (broadcastInDim S1x7 ![1] bcast_S7_S1x7_1 v))) (ix2 r j)
      = Ideal.log (v (ix1 j)) := by
  rw [Cert.BroadcastLayout.broadcastInDim_row_apply (n := 500000) (d := 7) _ bcast_S1x7_S500000x7_0_1 r j]
  have h : ∀ w : Arr Ideal S1x7 .f32, (Host.log (F := Ideal) (φ := .f32) w) (ix2 (0 : Fin 1) j) = Ideal.log (w (ix2 (0 : Fin 1) j)) :=
    fun _ => rfl
  rw [h, Cert.DenseRows.broadcastInDim_a_1a_apply (N := 7) v bcast_S7_S1x7_1 0 j]

/-- The log-softmax at (r, j). -/
theorem LogSoftmax_apply (z : Arr Ideal S500000x7 .f32) (r : Fin 500000) (j : Fin 7) :
    LogSoftmax (F := Ideal) z (ix2 r j)
      = (z (ix2 r j) - max ⊥ ((univ : Finset (Fin 500000)).fold max ⊥ (fun r' => z (ix2 r' j))))
        - Ideal.log (0 + ∑ r' : Fin 500000,
            Ideal.exp (z (ix2 r' j) - max ⊥ ((univ : Finset (Fin 500000)).fold max ⊥ (fun r'' => z (ix2 r'' j))))) := by
  unfold LogSoftmax
  rw [ValueIdx.subf_apply, logRow_apply, expSum_apply]
  simp only [Shift_apply]

end Cert.RefValue

end
-- ==== Proof.RefFinite.lean ====
/-
  Every entry of z = agg2 + b2 is a real number when every float input is.

  The precondition says of each float argument that all of its entries have absolute value below +∞, that is,
  that they are real numbers. deg is zero plus a finite sum of ones, a real; 1/√(max deg 1) is then real; the
  pair weights are products of two such reals (or of zeros); a contraction of real arrays, a gather of rows, the
  scaling by the weights and the accumulating scatter into zeros keep every entry real, and so do adding a real
  bias and taking the maximum with zero.
-/
import proofs.«139132_j10462540333056_2_alg».proof.Proof.RefStages
import proofs.«139132_j10462540333056_2_alg».proof.Proof.RefReal
import proofs.«139132_j10462540333056_2_alg».proof.Proof.Gen.Pre_finite_inputs
import Idealize.ShloMosaic.Lib.ReduceAll

noncomputable section

namespace Cert.RefValue

open Cert.ReferenceIdeal Cert.ReferenceIdeal.Gen Idealize.ShloMosaic Cert.RefReal

/-! ## The stages keep entries real -/

theorem zeros_real {S : Shape} (h : S_.BroadcastsInDim S (![] : Fin 0 → Fin S.rank)) (i : S.Idx) :
    IsReal ((broadcastInDim S ![] h (constant (F := Ideal) S_ .f32 0x00000000#32)) i) :=
  broadcastInDim_real _ h _ (fun _ => isReal_ofBits_zero) i

theorem ones_real {S : Shape} (h : S_.BroadcastsInDim S (![] : Fin 0 → Fin S.rank)) (i : S.Idx) :
    IsReal ((broadcastInDim S ![] h (constant (F := Ideal) S_ .f32 0x3F800000#32)) i) :=
  broadcastInDim_real _ h _ (fun _ => isReal_ofBits_one) i

theorem Deg_real (e : IVec S2x16000000 32) (i : S500000.Idx) : IsReal (Deg (F := Ideal) e i) := by
  unfold Deg
  exact scatterAdd_real _ _ _ _ (zeros_real _) (ones_real _) i

theorem Dinv_real (e : IVec S2x16000000 32) (i : S500000.Idx) : IsReal (Dinv (F := Ideal) e i) := by
  unfold Dinv
  refine select_real _ _ _ (fun k => ?_) (fun k => ?_) i
  · exact rsqrt_max_one_real _ _ (Deg_real e) (fun _ => ofBits_one_f32) k
  · exact broadcastInDim_real _ _ _ (fun _ => isReal_ofBits_zero) k

theorem Norm_real (e : IVec S2x16000000 32) (i : S16500000.Idx) : IsReal (Norm (F := Ideal) e i) := by
  unfold Norm
  exact mulf_real _ _ (gather_real _ _ _ (Dinv_real e)) (gather_real _ _ _ (Dinv_real e)) i

theorem DotA_real (x : Arr Ideal S500000x5 .f32) (W1 : Arr Ideal S5x4 .f32) (hx : ∀ i, IsReal (x i)) (hW : ∀ i, IsReal (W1 i))
    (i : S500000x4.Idx) : IsReal (DotA x W1 i) := by
  unfold DotA
  exact dotGeneral_real _ _ _ _ hx hW i

theorem L4_real (e : IVec S2x16000000 32) (h : Arr Ideal S500000x4 .f32) (hh : ∀ i, IsReal (h i)) (i : S500000x4.Idx) :
    IsReal (L4 e h i) := by
  unfold L4
  refine scatterAdd_real _ _ _ _ (zeros_real _) (fun k => ?_) i
  exact mulf_real _ _ (gather_real _ _ _ hh)
    (broadcastInDim_real _ _ _ (broadcastInDim_real _ _ _ (Norm_real e))) k

theorem Mid_real (agg1 : Arr Ideal S500000x4 .f32) (b1 : Arr Ideal S4 .f32) (W2 : Arr Ideal S4x7 .f32) (ha : ∀ i, IsReal (agg1 i))
    (hb : ∀ i, IsReal (b1 i)) (hW : ∀ i, IsReal (W2 i)) (i : S500000x7.Idx) : IsReal (Mid agg1 b1 W2 i) := by
  unfold Mid
  refine dotGeneral_real _ _ _ _ (fun k => ?_) hW i
  exact maximumf_real _ _ (addf_real _ _ ha (broadcastInDim_real _ _ _ (broadcastInDim_real _ _ _ hb))) (zeros_real _) k

theorem L7_real (e : IVec S2x16000000 32) (h : Arr Ideal S500000x7 .f32) (hh : ∀ i, IsReal (h i)) (i : S500000x7.Idx) :
    IsReal (L7 e h i) := by
  unfold L7
  refine scatterAdd_real _ _ _ _ (zeros_real _) (fun k => ?_) i
  exact mulf_real _ _ (gather_real _ _ _ hh)
    (broadcastInDim_real _ _ _ (broadcastInDim_real _ _ _ (Norm_real e))) k

theorem AddB2_real (agg2 : Arr Ideal S500000x7 .f32) (b2 : Arr Ideal S7 .f32) (ha : ∀ i, IsReal (agg2 i)) (hb : ∀ i, IsReal (b2 i))
    (i : S500000x7.Idx) : IsReal (AddB2 agg2 b2 i) := by
  unfold AddB2
  exact addf_real _ _ ha (broadcastInDim_real _ _ _ (broadcastInDim_real _ _ _ hb)) i

/-- Every entry of z is real when the five float arguments' entries are. -/
theorem z_real (x : Arr Ideal S500000x5 .f32) (e : IVec S2x16000000 32) (W1 : Arr Ideal S5x4 .f32) (b1 : Arr Ideal S4 .f32)
    (W2 : Arr Ideal S4x7 .f32) (b2 : Arr Ideal S7 .f32) (hx : ∀ i, IsReal (x i)) (hW1 : ∀ i, IsReal (W1 i)) (hb1 : ∀ i, IsReal (b1 i))
    (hW2 : ∀ i, IsReal (W2 i)) (hb2 : ∀ i, IsReal (b2 i)) (i : S500000x7.Idx) :
    IsReal (AddB2 (L7 e (Mid (L4 e (DotA x W1)) b1 W2)) b2 i) :=
  AddB2_real _ _ (L7_real e _ (Mid_real _ _ _ (L4_real e _ (DotA_real x W1 hx hW1)) hb1 hW2)) hb2 i

/-! ## The precondition says the float arguments' entries are real -/

instance : Subsingleton Cert.Pre_finite_inputs.S_.Idx := ⟨fun a b => funext fun d => d.elim0⟩

/-- An extended real whose absolute value is below the word of +∞ is a real number. -/
theorem isReal_of_abs_lt_inf (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One conjunct of the precondition: all entries of a float array are below +∞ in absolute value. -/
theorem all_real_of_reduce {S : Shape} {axes : List (Fin S.rank)} (a : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (h : Host.reduce IntOp.andi
        (cmpf .olt (Host.absf a) (broadcastInDim S ![] hb (constant (F := Ideal) Cert.Pre_finite_inputs.S_ .f32 0x7F800000#32)))
        (constantI Cert.Pre_finite_inputs.S_ 1 1#1) hr hu ValueIdx.ix0 = 1#1) (i : S.Idx) : IsReal (a i) :=
  isReal_of_abs_lt_inf (a i) (Host.reduce_andi_all _ _ hr hu ValueIdx.ix0 h i)

/-- The generated precondition at the ideal values: every entry of the five float arguments is real. -/
theorem real_of_pre (a0 : FVec Ideal Cert.Pre_finite_inputs.S500000x5 .f32) (a1 : IVec Cert.Pre_finite_inputs.S2x16000000 32)
    (a2 : FVec Ideal Cert.Pre_finite_inputs.S5x4 .f32) (a3 : FVec Ideal Cert.Pre_finite_inputs.S4 .f32)
    (a4 : FVec Ideal Cert.Pre_finite_inputs.S4x7 .f32) (a5 : FVec Ideal Cert.Pre_finite_inputs.S7 .f32)
    (h : Cert.Pre_finite_inputs.fn (F := Ideal) a0 a1 a2 a3 a4 a5 = fun _ => 1#1) :
    (∀ i, IsReal (a0 i)) ∧ (∀ i, IsReal (a2 i)) ∧ (∀ i, IsReal (a3 i)) ∧ (∀ i, IsReal (a4 i)) ∧ (∀ i, IsReal (a5 i)) := by
  have h0 := congrFun h ValueIdx.ix0
  dsimp only [Cert.Pre_finite_inputs.fn, Cert.Pre_finite_inputs.fn_part1] at h0
  obtain ⟨h18, h22⟩ := IntOp.andi_eq_one.1 h0
  obtain ⟨h13, h17⟩ := IntOp.andi_eq_one.1 h18
  obtain ⟨h8, h12⟩ := IntOp.andi_eq_one.1 h13
  obtain ⟨h3, h7⟩ := IntOp.andi_eq_one.1 h8
  exact ⟨all_real_of_reduce a0 _ _ _ h3, all_real_of_reduce a2 _ _ _ h7, all_real_of_reduce a3 _ _ _ h12,
    all_real_of_reduce a4 _ _ _ h17, all_real_of_reduce a5 _ _ _ h22⟩

end Cert.RefValue

end
-- ==== Proof.KernelIdealBridge.Bridge.lean ====
/-
  The kernel program's result as the reference's function of the six arguments, at the ideal values.
  Region 0's array is `x · W1` and region 1's is `max(agg1 + b1, 0) · W2`: the same sums over the contracted axis as the two
  products of the reference, whatever the entries (sums and products on the extended reals, no law needed). The host
  stretches between them are the reference's own propagation steps. Region 3's array over region 2's row of running pairs is
  `z - (m + log l)` with `(m, l)` the last pair of the tile-by-tile recurrence over the column of `z = agg2 + b2`; for a column
  of REAL numbers this is `(z - M) - log (sum of exp (z - M))` with `M` the column's maximum — the one place where the
  finiteness of the inputs is used: every entry of `z` is then a real number.
-/
import proofs.«139132_j10462540333056_2_alg».proof.Proof.KernelIdealBridge.Host
import proofs.«139132_j10462540333056_2_alg».proof.Proof.KernelIdealValue.Arr0
import proofs.«139132_j10462540333056_2_alg».proof.Proof.KernelIdealValue.Arr1
import proofs.«139132_j10462540333056_2_alg».proof.Proof.KernelIdealValue.Arr3
import proofs.«139132_j10462540333056_2_alg».proof.Proof.KernelIdealValue.Inv2
import proofs.«139132_j10462540333056_2_alg».proof.Proof.RefIndex
import proofs.«139132_j10462540333056_2_alg».proof.Proof.RefSoftmaxIndex
import proofs.«139132_j10462540333056_2_alg».proof.Proof.RefFinite
import proofs.«139132_j10462540333056_2_alg».proof.Proof.RefOnline
import Idealize.ShloMosaic.Lib.ValueLayout
import Idealize.ShloMosaic.Lib.ValueIdx
import Idealize.ShloMosaic.Lib.StableHlo.Run
import Idealize.ShloMosaic.Lib.Tactic

set_option maxRecDepth 16384

noncomputable section

namespace Cert.KernelIdeal.Br

open Cert.KernelIdeal Cert.KernelIdeal.Gen Cert.KernelIdeal.Fr
open Idealize.ShloMosaic Idealize.ShloMosaic.TcCoe Idealize.ShloMosaic.Tactic Idealize.SL.Sem Idealize.ShloMosaic.StableHlo
open Cert.RefValue (EdgeSrc EdgeDst Wrap Col Deg Dinv Norm DotA L4 Mid L7 AddB2 LogSoftmax Net)

open Cert.RefReal (IsReal)
open Cert.KernelIdeal.Val (H0 H1 H3 LSE)
open Idealize.ShloMosaic.ValueIdx

/-! ## The regions' arrays are the reference's stages -/

/-- Region 0's array is the first product. -/
theorem H0_eq_DotA (x : FVec Ideal S500000x5 .f32) (w : FVec Ideal S5x4 .f32) : H0 x w = DotA (F := Ideal) x w := by
  funext i
  obtain ⟨r, j, rfl⟩ : ∃ (r : Fin 500000) (j : Fin 4), i = ix2 r j := ⟨i 0, i 1, eq_ix2 i⟩
  rw [Cert.KernelIdeal.Val.H0_apply, Cert.RefValue.DotA_apply]

/-- A vector laid as one row reads, at column `k`, the vector at `k`. -/
theorem row4_apply (b : FVec Ideal S4 .f32) (k : Fin 4) : shapeCast S1x4 b shapeCasts_S4_S1x4 (ix2 (0 : Fin 1) k) = b (ix1 k) :=
  shapeCast_a_1a_apply (a := 4) b shapeCasts_S4_S1x4 0 k
theorem row7_apply (b : FVec Ideal S7 .f32) (j : Fin 7) : shapeCast S1x7 b shapeCasts_S7_S1x7 (ix2 (0 : Fin 1) j) = b (ix1 j) :=
  shapeCast_a_1a_apply (a := 7) b shapeCasts_S7_S1x7 0 j

/-- Region 1's array is the fused middle layer. -/
theorem H1_eq_Mid (a : FVec Ideal S500000x4 .f32) (b1 : FVec Ideal S4 .f32) (w : FVec Ideal S4x7 .f32) :
    H1 a (shapeCast S1x4 b1 shapeCasts_S4_S1x4) w = Mid (F := Ideal) a b1 w := by
  funext i
  obtain ⟨r, j, rfl⟩ : ∃ (r : Fin 500000) (j : Fin 7), i = ix2 r j := ⟨i 0, i 1, eq_ix2 i⟩
  rw [Cert.KernelIdeal.Val.H1_apply, Cert.RefValue.Mid_apply]
  exact Finset.sum_congr rfl fun k _ => by rw [row4_apply]

/-- Region 3's array over region 2's row is the log-softmax down the columns, when every entry of `z = agg2 + b2` is real. -/
theorem H3_LSE_eq_LogSoftmax (agg2 : FVec Ideal S500000x7 .f32) (b2 : FVec Ideal S7 .f32)
    (hz : ∀ i, IsReal (AddB2 (F := Ideal) agg2 b2 i)) :
    H3 agg2 (shapeCast S1x7 b2 shapeCasts_S7_S1x7) (LSE agg2 (shapeCast S1x7 b2 shapeCasts_S7_S1x7))
      = LogSoftmax (F := Ideal) (AddB2 (F := Ideal) agg2 b2) := by
  funext i
  obtain ⟨r, j, rfl⟩ : ∃ (r : Fin 500000) (j : Fin 7), i = ix2 r j := ⟨i 0, i 1, eq_ix2 i⟩
  rw [Cert.KernelIdeal.Val.H3_apply, Cert.KernelIdeal.Val.LSE_apply, Cert.RefValue.LogSoftmax_apply]
  unfold Cert.KernelIdeal.Val.scoreCol
  rw [row7_apply]
  have hcol : (fun r' : Fin 500000 => agg2 (ix2 r' j) + b2 (ix1 j)) = fun r' => AddB2 (F := Ideal) agg2 b2 (ix2 r' j) := by
    funext r'; rw [Cert.RefValue.AddB2_apply]
  rw [hcol, ← Cert.RefValue.AddB2_apply agg2 b2 r j]
  exact (Cert.RefOnline.final_law 5000 100 (by norm_num) (by norm_num) (by norm_num)
    (fun r' : Fin 500000 => AddB2 (F := Ideal) agg2 b2 (ix2 r' j)) (fun r' => hz _) r).symm

/-! ## The result array -/

variable (m : (ℓ : Loc nD τ sig) → Buf (Elt Ideal) ℓ)

/-- Region 3's output array, as the write-backs leave it, is the reference's function of the six argument arrays, when the
    float arguments' entries are real. -/
theorem kernel_value (c : Dev nD)
    (hx : ∀ i, IsReal (((m ((c : Thread nD τ).loc main_arg0)) : FVec Ideal S500000x5 .f32) i)) (hW1 : ∀ i, IsReal (((m ((c : Thread nD τ).loc main_arg2)) : FVec Ideal S5x4 .f32) i)) (hb1 : ∀ i, IsReal (((m ((c : Thread nD τ).loc main_arg3)) : FVec Ideal S4 .f32) i))
    (hW2 : ∀ i, IsReal (((m ((c : Thread nD τ).loc main_arg4)) : FVec Ideal S4x7 .f32) i)) (hb2 : ∀ i, IsReal (((m ((c : Thread nD τ).loc main_arg5)) : FVec Ideal S7 .f32) i)) :
    (dat3 (Fr.V9 m) c).arrAt 3 cfg3.N
      = Net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have e32 : W4 m c main_v32 = DotA (F := Ideal) (m ((c : Thread nD τ).loc main_arg0)) (m ((c : Thread nD τ).loc main_arg2)) :=
    ((W4_arr m c 2).trans (Cert.KernelIdeal.Val.final0 (Fr.V3 m) c)).trans (by
      rw [show Fr.V3 m c main_arg0 = (m ((c : Thread nD τ).loc main_arg0)) from keep_main_arg0_0_3 m c,
        show Fr.V3 m c main_arg2 = (m ((c : Thread nD τ).loc main_arg2)) from keep_main_arg2_0_3 m c, H0_eq_DotA])
  have e45 : Fr.V5 m c main_v45 = L4 (F := Ideal) (edges m c) (DotA (F := Ideal) (m ((c : Thread nD τ).loc main_arg0)) (m ((c : Thread nD τ).loc main_arg2))) :=
    (W5_v45 m c).trans (by rw [e32])
  have e47 : W6 m c main_v47 = Mid (F := Ideal) (L4 (F := Ideal) (edges m c) (DotA (F := Ideal) (m ((c : Thread nD τ).loc main_arg0)) (m ((c : Thread nD τ).loc main_arg2)))) (m ((c : Thread nD τ).loc main_arg3)) (m ((c : Thread nD τ).loc main_arg4)) :=
    ((W6_arr m c 3).trans (Cert.KernelIdeal.Val.final1 (Fr.V5 m) c)).trans (by
      rw [e45, show Fr.V5 m c main_v46 = shapeCast S1x4 (m ((c : Thread nD τ).loc main_arg3)) shapeCasts_S4_S1x4 from W5_v46 m c,
        show Fr.V5 m c main_arg4 = (m ((c : Thread nD τ).loc main_arg4)) from keep_main_arg4_0_5 m c, H1_eq_Mid])
  have e60 : W7 m c main_v60 = L7 (F := Ideal) (edges m c) (Mid (F := Ideal) (L4 (F := Ideal) (edges m c) (DotA (F := Ideal) (m ((c : Thread nD τ).loc main_arg0)) (m ((c : Thread nD τ).loc main_arg2)))) (m ((c : Thread nD τ).loc main_arg3)) (m ((c : Thread nD τ).loc main_arg4))) :=
    (W7_v60 m c).trans (by rw [e47])
  have eA : Fr.V9 m c main_v60 = L7 (F := Ideal) (edges m c) (Mid (F := Ideal) (L4 (F := Ideal) (edges m c) (DotA (F := Ideal) (m ((c : Thread nD τ).loc main_arg0)) (m ((c : Thread nD τ).loc main_arg2)))) (m ((c : Thread nD τ).loc main_arg3)) (m ((c : Thread nD τ).loc main_arg4))) :=
    (keep_main_v60_7_9 m c).trans e60
  have eB : Fr.V9 m c main_v63 = shapeCast S1x7 (m ((c : Thread nD τ).loc main_arg5)) shapeCasts_S7_S1x7 := W9_v63 m c
  have eC : Fr.V9 m c main_v62 = LSE (L7 (F := Ideal) (edges m c) (Mid (F := Ideal) (L4 (F := Ideal) (edges m c) (DotA (F := Ideal) (m ((c : Thread nD τ).loc main_arg0)) (m ((c : Thread nD τ).loc main_arg2)))) (m ((c : Thread nD τ).loc main_arg3)) (m ((c : Thread nD τ).loc main_arg4)))) (shapeCast S1x7 (m ((c : Thread nD τ).loc main_arg5)) shapeCasts_S7_S1x7) :=
    ((keep_main_v62_8_9 m c).trans ((W8_arr m c 2).trans (Cert.KernelIdeal.Val.final2 (Fr.V7 m) c))).trans (by
      rw [show Fr.V7 m c main_v60 = _ from e60, show Fr.V7 m c main_v61 = shapeCast S1x7 (m ((c : Thread nD τ).loc main_arg5)) shapeCasts_S7_S1x7 from W7_v61 m c])
  rw [Cert.KernelIdeal.Val.final3 (Fr.V9 m) c, eA, eB, eC]
  exact H3_LSE_eq_LogSoftmax _ _ (fun i => Cert.RefValue.z_real _ (edges m c) _ _ _ _ hx hW1 hb1 hW2 hb2 i)

end Cert.KernelIdeal.Br

end
-- ==== Proof.LibSsa.lean ====
/-
  SINGLE ASSIGNMENT, READ BACK. A straight line of host operations in which every operation writes buffers that no
  earlier operation touches, and in which no operation's result depends on what its own result buffers held, leaves
  the buffers at a FIXED POINT of each of its operations: what the line leaves in an operation's result buffer is
  that operation's function of what the line leaves in its operands' buffers (`after_eqs`). A program that names a
  fresh buffer for every value is such a line, and the fixed-point equations are then the program's own lines read as
  equations between the final contents: one per operation, each usable by itself.

  The side condition is checked in ONE pass by a rank function `key` on buffers under which the line RISES: each
  operation writes only above a bound on everything touched before it (`Ssa`); buffers numbered in program order,
  each operation reading lower numbers than the one it writes, are the case in point. Per builder of an operation a
  lemma puts one more operation in front of such a line (`ssa_nullary` …), and one reads its equation off the front
  (`eqs_nullary` …).
-/
import Idealize.ShloMosaic.Lib.StableHlo.Run

noncomputable section

namespace Cert.Ssa

open Idealize.ShloMosaic Idealize.ShloMosaic.StableHlo

variable {τ : Topo} {sig : RefSig} {Val : EltTy → Type}

/-- What the operation writes does not depend on what the buffers it writes held before it. -/
def Indep (op : HloOp τ sig Val) : Prop :=
  ∀ F G : Valuation τ sig Val, (∀ x ∈ op.bufs, x ∉ op.writes → F x = G x) → ∀ b ∈ op.writes, op.result F b = op.result G b

/-- The contents `R` are a fixed point of every operation of the list, at the buffers it writes. -/
def Eqs (R : Valuation τ sig Val) : List (HloOp τ sig Val) → Prop
  | [] => True
  | op :: rest => (∀ b ∈ op.writes, R b = op.result R b) ∧ Eqs R rest

theorem eqs_nil (R : Valuation τ sig Val) : Eqs R [] ↔ True := Iff.rfl

theorem eqs_append (R : Valuation τ sig Val) : ∀ l₁ l₂ : List (HloOp τ sig Val), Eqs R (l₁ ++ l₂) ↔ Eqs R l₁ ∧ Eqs R l₂
  | [], l₂ => by rw [List.nil_append]; exact ⟨fun h => ⟨trivial, h⟩, fun h => h.2⟩
  | op :: l₁, l₂ => by
    rw [List.cons_append]
    show (_ ∧ Eqs R (l₁ ++ l₂)) ↔ (_ ∧ Eqs R l₁) ∧ Eqs R l₂
    rw [eqs_append R l₁ l₂, and_assoc]

/-- Under the rank `key` the line rises from `lo`: each operation is independent of its result buffers' old
    contents, writes only buffers ranked above `lo`, and `lo` for the rest of the line bounds everything it
    touches. -/
def Ssa (key : DevRef τ sig → Nat) : Nat → List (HloOp τ sig Val) → Prop
  | _, [] => True
  | lo, op :: rest => Indep op ∧ ∃ m, (∀ w ∈ op.writes, lo < key w) ∧ lo ≤ m ∧ (∀ x ∈ op.bufs, key x ≤ m) ∧ Ssa key m rest

variable {key : DevRef τ sig → Nat}

/-- Every buffer a rising line writes is ranked above its bound. -/
theorem Ssa.lt_writes : ∀ {lo : Nat} {ops : List (HloOp τ sig Val)}, Ssa key lo ops → ∀ o ∈ ops, ∀ w ∈ o.writes, lo < key w
  | _, [], _, _, ho, _, _ => absurd ho List.not_mem_nil
  | _, _ :: _, ⟨_, _, hw, hlm, _, hr⟩, o, ho, w, hwo => by
    rcases List.mem_cons.mp ho with rfl | ho
    · exact hw w hwo
    · exact lt_of_le_of_lt hlm (Ssa.lt_writes hr o ho w hwo)

/-- A buffer ranked at or below the bound is not written: the line leaves it as it found it. -/
theorem Ssa.after_low {lo : Nat} {ops : List (HloOp τ sig Val)} (h : Ssa key lo ops) (V : Valuation τ sig Val)
    {x : DevRef τ sig} (hx : key x ≤ lo) : after ops V x = V x :=
  after_of_forall_not_mem ops V fun o ho hxo => absurd (h.lt_writes o ho x hxo) (not_lt.mpr hx)

/-- **The fixed point.** What a rising line leaves is, at every operation's result buffers, that operation's function
    of what the line leaves. -/
theorem after_eqs : ∀ {lo : Nat} (ops : List (HloOp τ sig Val)) (V : Valuation τ sig Val), Ssa key lo ops → Eqs (after ops V) ops
  | _, [], _, _ => trivial
  | _, op :: rest, V, ⟨hI, _, _, _, hb, hr⟩ => by
    -- the rest of the line writes nothing the first operation touches
    have e1 : ∀ x ∈ op.bufs, after rest (op.result V) x = op.result V x := fun x hx =>
      after_of_forall_not_mem rest _ fun o ho hxo => absurd (hr.lt_writes o ho x hxo) (not_lt.mpr (hb x hx))
    refine ⟨fun b hbw => ?_, after_eqs rest (op.result V) hr⟩
    show after rest (op.result V) b = op.result (after rest (op.result V)) b
    rw [e1 b (op.writes_sub hbw)]
    exact hI V _ (fun x hx hxw => by rw [e1 x hx, op.result_of_not_mem V hxw]) b hbw

/-! ## The builders, one more operation in front -/

section Builders

variable {lo : Nat} {rest : List (HloOp τ sig Val)} {R : Valuation τ sig Val}
variable (x a b c y : Ref sig .tc)

theorem ne_of_key_lt {u v : Ref sig .tc} (h : key (Proc.devRef (τ := τ) .tc u) < key (Proc.devRef (τ := τ) .tc v)) : (Proc.devRef (τ := τ) .tc u) ≠ (Proc.devRef (τ := τ) .tc v) :=
  fun e => absurd (congrArg key e) (Nat.ne_of_lt h)

theorem ssa_nullary (v : y.ty.Contents Val) (hy) (h : lo < key (Proc.devRef (τ := τ) .tc y)) (hr : Ssa key (key (Proc.devRef (τ := τ) .tc y)) rest) :
    Ssa key lo (nullary (τ := τ) y v hy :: rest) :=
  ⟨fun F G _ w hw => by
      rw [nullary_writes, Finset.mem_singleton] at hw; subst hw; rw [nullary_result, nullary_result],
    key (Proc.devRef (τ := τ) .tc y), fun w hw => by rw [nullary_writes, Finset.mem_singleton] at hw; subst hw; exact h, h.le,
    fun z hz => by rw [nullary_bufs, Finset.mem_singleton] at hz; subst hz; exact le_rfl, hr⟩

theorem ssa_unary (f : x.ty.Contents Val → y.ty.Contents Val) (hx hy) (h : lo < key (Proc.devRef (τ := τ) .tc y)) (h1 : key (Proc.devRef (τ := τ) .tc x) < key (Proc.devRef (τ := τ) .tc y))
    (hr : Ssa key (key (Proc.devRef (τ := τ) .tc y)) rest) : Ssa key lo (unary (τ := τ) x y f hx hy :: rest) :=
  ⟨fun F G hFG w hw => by
      rw [unary_writes, Finset.mem_singleton] at hw; subst hw
      rw [unary_result, unary_result, hFG _ (by rw [unary_bufs]; exact Finset.mem_insert_self _ _)
        (by rw [unary_writes, Finset.mem_singleton]; exact ne_of_key_lt h1)],
    key (Proc.devRef (τ := τ) .tc y), fun w hw => by rw [unary_writes, Finset.mem_singleton] at hw; subst hw; exact h, h.le,
    fun z hz => by
      rw [unary_bufs, Finset.mem_insert, Finset.mem_singleton] at hz
      rcases hz with rfl | rfl
      · exact h1.le
      · exact le_rfl, hr⟩

theorem ssa_reshape (he hn hx hy) (h : lo < key (Proc.devRef (τ := τ) .tc y)) (h1 : key (Proc.devRef (τ := τ) .tc x) < key (Proc.devRef (τ := τ) .tc y))
    (hr : Ssa key (key (Proc.devRef (τ := τ) .tc y)) rest) : Ssa key lo (reshape (τ := τ) (Val := Val) x y he hn hx hy :: rest) :=
  ⟨fun F G hFG w hw => by
      rw [reshape_writes, Finset.mem_singleton] at hw; subst hw
      rw [reshape_result, reshape_result, hFG _ (by rw [reshape_bufs]; exact Finset.mem_insert_self _ _)
        (by rw [reshape_writes, Finset.mem_singleton]; exact ne_of_key_lt h1)],
    key (Proc.devRef (τ := τ) .tc y), fun w hw => by rw [reshape_writes, Finset.mem_singleton] at hw; subst hw; exact h, h.le,
    fun z hz => by
      rw [reshape_bufs, Finset.mem_insert, Finset.mem_singleton] at hz
      rcases hz with rfl | rfl
      · exact h1.le
      · exact le_rfl, hr⟩

theorem ssa_binary (f : a.ty.Contents Val → b.ty.Contents Val → y.ty.Contents Val) (ha hb hy) (h : lo < key (Proc.devRef (τ := τ) .tc y))
    (h1 : key (Proc.devRef (τ := τ) .tc a) < key (Proc.devRef (τ := τ) .tc y)) (h2 : key (Proc.devRef (τ := τ) .tc b) < key (Proc.devRef (τ := τ) .tc y))
    (hr : Ssa key (key (Proc.devRef (τ := τ) .tc y)) rest) : Ssa key lo (binary (τ := τ) a b y f ha hb hy :: rest) :=
  ⟨fun F G hFG w hw => by
      rw [binary_writes, Finset.mem_singleton] at hw; subst hw
      rw [binary_result, binary_result,
        hFG (Proc.devRef (τ := τ) .tc a) (by rw [binary_bufs]; exact Finset.mem_insert_self _ _)
          (by rw [binary_writes, Finset.mem_singleton]; exact ne_of_key_lt h1),
        hFG (Proc.devRef (τ := τ) .tc b) (by rw [binary_bufs]; exact Finset.mem_insert_of_mem (Finset.mem_insert_self _ _))
          (by rw [binary_writes, Finset.mem_singleton]; exact ne_of_key_lt h2)],
    key (Proc.devRef (τ := τ) .tc y), fun w hw => by rw [binary_writes, Finset.mem_singleton] at hw; subst hw; exact h, h.le,
    fun z hz => by
      rw [binary_bufs, Finset.mem_insert, Finset.mem_insert, Finset.mem_singleton] at hz
      rcases hz with rfl | rfl | rfl
      · exact h1.le
      · exact h2.le
      · exact le_rfl, hr⟩

theorem ssa_ternary (f : c.ty.Contents Val → a.ty.Contents Val → b.ty.Contents Val → y.ty.Contents Val) (hc ha hb hy)
    (h : lo < key (Proc.devRef (τ := τ) .tc y)) (h0 : key (Proc.devRef (τ := τ) .tc c) < key (Proc.devRef (τ := τ) .tc y)) (h1 : key (Proc.devRef (τ := τ) .tc a) < key (Proc.devRef (τ := τ) .tc y)) (h2 : key (Proc.devRef (τ := τ) .tc b) < key (Proc.devRef (τ := τ) .tc y))
    (hr : Ssa key (key (Proc.devRef (τ := τ) .tc y)) rest) : Ssa key lo (ternary (τ := τ) c a b y f hc ha hb hy :: rest) :=
  ⟨fun F G hFG w hw => by
      rw [ternary_writes, Finset.mem_singleton] at hw; subst hw
      rw [ternary_result, ternary_result,
        hFG (Proc.devRef (τ := τ) .tc c) (by rw [ternary_bufs]; exact Finset.mem_insert_self _ _)
          (by rw [ternary_writes, Finset.mem_singleton]; exact ne_of_key_lt h0),
        hFG (Proc.devRef (τ := τ) .tc a) (by rw [ternary_bufs]; exact Finset.mem_insert_of_mem (Finset.mem_insert_self _ _))
          (by rw [ternary_writes, Finset.mem_singleton]; exact ne_of_key_lt h1),
        hFG (Proc.devRef (τ := τ) .tc b) (by rw [ternary_bufs]; exact Finset.mem_insert_of_mem (Finset.mem_insert_of_mem (Finset.mem_insert_self _ _)))
          (by rw [ternary_writes, Finset.mem_singleton]; exact ne_of_key_lt h2)],
    key (Proc.devRef (τ := τ) .tc y), fun w hw => by rw [ternary_writes, Finset.mem_singleton] at hw; subst hw; exact h, h.le,
    fun z hz => by
      rw [ternary_bufs, Finset.mem_insert, Finset.mem_insert, Finset.mem_insert, Finset.mem_singleton] at hz
      rcases hz with rfl | rfl | rfl | rfl
      · exact h0.le
      · exact h1.le
      · exact h2.le
      · exact le_rfl, hr⟩

theorem ssa_nary {n : Nat} (xs : Fin n → Ref sig .tc) (f : ((k : Fin n) → (xs k).ty.Contents Val) → y.ty.Contents Val) (hxs hy)
    (h : lo < key (Proc.devRef (τ := τ) .tc y)) (h1 : ∀ k, key (Proc.devRef (τ := τ) .tc (xs k)) < key (Proc.devRef (τ := τ) .tc y))
    (hr : Ssa key (key (Proc.devRef (τ := τ) .tc y)) rest) : Ssa key lo (nary (τ := τ) xs y f hxs hy :: rest) :=
  ⟨fun F G hFG w hw => by
      rw [nary_writes, Finset.mem_singleton] at hw; subst hw
      rw [nary_result, nary_result]
      congr 1
      funext k
      exact hFG (Proc.devRef (τ := τ) .tc (xs k))
        (show (Proc.devRef (τ := τ) .tc (xs k)) ∈ insert (Proc.devRef (τ := τ) .tc y) (Finset.univ.image fun j => (Proc.devRef (τ := τ) .tc (xs j))) from
          Finset.mem_insert_of_mem (Finset.mem_image_of_mem _ (Finset.mem_univ k)))
        (by rw [nary_writes, Finset.mem_singleton]; exact ne_of_key_lt (h1 k)),
    key (Proc.devRef (τ := τ) .tc y), fun w hw => by rw [nary_writes, Finset.mem_singleton] at hw; subst hw; exact h, h.le,
    fun z hz => by
      rcases Finset.mem_insert.mp (show z ∈ insert (Proc.devRef (τ := τ) .tc y) (Finset.univ.image fun j => (Proc.devRef (τ := τ) .tc (xs j))) from hz) with rfl | hz
      · exact le_rfl
      · obtain ⟨k, -, rfl⟩ := Finset.mem_image.mp hz
        exact (h1 k).le, hr⟩

/-! ## … and its equation read off the front -/

theorem eqs_nullary (v : y.ty.Contents Val) (hy) :
    Eqs R (nullary (τ := τ) y v hy :: rest) ↔ R (Proc.devRef (τ := τ) .tc y) = v ∧ Eqs R rest := by
  show (∀ w ∈ (nullary (τ := τ) y v hy).writes, _) ∧ _ ↔ _
  rw [nullary_writes]; simp only [Finset.mem_singleton, forall_eq]; rw [nullary_result]

theorem eqs_unary (f : x.ty.Contents Val → y.ty.Contents Val) (hx hy) :
    Eqs R (unary (τ := τ) x y f hx hy :: rest) ↔ R (Proc.devRef (τ := τ) .tc y) = f (R (Proc.devRef (τ := τ) .tc x)) ∧ Eqs R rest := by
  show (∀ w ∈ (unary (τ := τ) x y f hx hy).writes, _) ∧ _ ↔ _
  rw [unary_writes]; simp only [Finset.mem_singleton, forall_eq]; rw [unary_result]

theorem eqs_reshape (he hn hx hy) :
    Eqs R (reshape (τ := τ) (Val := Val) x y he hn hx hy :: rest)
      ↔ R (Proc.devRef (τ := τ) .tc y) = (fun i => he ▸ shapeCast y.ty.shape (R (Proc.devRef (τ := τ) .tc x)) hn i) ∧ Eqs R rest := by
  show (∀ w ∈ (reshape (τ := τ) (Val := Val) x y he hn hx hy).writes, _) ∧ _ ↔ _
  rw [reshape_writes]; simp only [Finset.mem_singleton, forall_eq]; rw [reshape_result]

theorem eqs_binary (f : a.ty.Contents Val → b.ty.Contents Val → y.ty.Contents Val) (ha hb hy) :
    Eqs R (binary (τ := τ) a b y f ha hb hy :: rest) ↔ R (Proc.devRef (τ := τ) .tc y) = f (R (Proc.devRef (τ := τ) .tc a)) (R (Proc.devRef (τ := τ) .tc b)) ∧ Eqs R rest := by
  show (∀ w ∈ (binary (τ := τ) a b y f ha hb hy).writes, _) ∧ _ ↔ _
  rw [binary_writes]; simp only [Finset.mem_singleton, forall_eq]; rw [binary_result]

theorem eqs_ternary (f : c.ty.Contents Val → a.ty.Contents Val → b.ty.Contents Val → y.ty.Contents Val) (hc ha hb hy) :
    Eqs R (ternary (τ := τ) c a b y f hc ha hb hy :: rest)
      ↔ R (Proc.devRef (τ := τ) .tc y) = f (R (Proc.devRef (τ := τ) .tc c)) (R (Proc.devRef (τ := τ) .tc a)) (R (Proc.devRef (τ := τ) .tc b)) ∧ Eqs R rest := by
  show (∀ w ∈ (ternary (τ := τ) c a b y f hc ha hb hy).writes, _) ∧ _ ↔ _
  rw [ternary_writes]; simp only [Finset.mem_singleton, forall_eq]; rw [ternary_result]

theorem eqs_nary {n : Nat} (xs : Fin n → Ref sig .tc) (f : ((k : Fin n) → (xs k).ty.Contents Val) → y.ty.Contents Val) (hxs hy) :
    Eqs R (nary (τ := τ) xs y f hxs hy :: rest) ↔ R (Proc.devRef (τ := τ) .tc y) = f (fun k => R (Proc.devRef (τ := τ) .tc (xs k))) ∧ Eqs R rest := by
  show (∀ w ∈ (nary (τ := τ) xs y f hxs hy).writes, _) ∧ _ ↔ _
  rw [nary_writes]; simp only [Finset.mem_singleton, forall_eq]; rw [nary_result]

end Builders

end Cert.Ssa

end
-- ==== Proof.RefSsa.lean ====
/-
  The reference's 101 host operations each write a buffer of their own, numbered in the order of first use, and read
  only lower-numbered buffers: under that numbering the line rises, which is the single-assignment condition.
-/
import proofs.«139132_j10462540333056_2_alg».proof.Proof.RefRunP
import proofs.«139132_j10462540333056_2_alg».proof.Proof.LibSsa
import Idealize.ShloMosaic.PureOps.Ideal

noncomputable section

namespace Cert.RefValue

open Cert.ReferenceIdeal Cert.ReferenceIdeal.Gen Idealize.ShloMosaic Idealize.ShloMosaic.TcCoe Idealize.SL.Sem Idealize.ShloMosaic.StableHlo

/-- The rank of a buffer: its number in the table, which is the program's order of first use. -/
def key (d : DevRef τ sig) : Nat := d.idx.val

set_option maxHeartbeats 4000000 in
/-- The line rises under that rank from the arguments' buffers (numbers 0 to 5). -/
theorem ssa_ops : Cert.Ssa.Ssa (τ := τ) (sig := sig) (Val := Elt Ideal) key 5 (Cert.ReferenceIdeal.ValueP.ops (F := Ideal)) := by
  refine Cert.Ssa.ssa_unary _ _ _ _ _ (by decide) (by decide) ?_   -- main_v0
  refine Cert.Ssa.ssa_reshape _ _ _ _ _ _ (by decide) (by decide) ?_   -- main_v1
  refine Cert.Ssa.ssa_unary _ _ _ _ _ (by decide) (by decide) ?_   -- main_v2
  refine Cert.Ssa.ssa_reshape _ _ _ _ _ _ (by decide) (by decide) ?_   -- main_v3
  refine Cert.Ssa.ssa_nullary _ _ _ (by decide) ?_   -- main_v4
  refine Cert.Ssa.ssa_binary _ _ _ _ _ _ _ (by decide) (by decide) (by decide) ?_   -- main_v5
  refine Cert.Ssa.ssa_binary _ _ _ _ _ _ _ (by decide) (by decide) (by decide) ?_   -- main_v6
  refine Cert.Ssa.ssa_nullary _ _ _ (by decide) ?_   -- main_cst
  refine Cert.Ssa.ssa_unary _ _ _ _ _ (by decide) (by decide) ?_   -- main_v7
  refine Cert.Ssa.ssa_nullary _ _ _ (by decide) ?_   -- main_cst_0
  refine Cert.Ssa.ssa_unary _ _ _ _ _ (by decide) (by decide) ?_   -- main_v8
  refine Cert.Ssa.ssa_unary _ _ _ _ _ (by decide) (by decide) ?_   -- main_v9
  refine Cert.Ssa.ssa_ternary _ _ _ _ _ _ _ _ _ (by decide) (by decide) (by decide) (by decide) ?_   -- main_v10
  refine Cert.Ssa.ssa_nullary _ _ _ (by decide) ?_   -- main_cst_1
  refine Cert.Ssa.ssa_unary _ _ _ _ _ (by decide) (by decide) ?_   -- main_v11
  refine Cert.Ssa.ssa_binary _ _ _ _ _ _ _ (by decide) (by decide) (by decide) ?_   -- main_v12
  refine Cert.Ssa.ssa_nullary _ _ _ (by decide) ?_   -- main_cst_2
  refine Cert.Ssa.ssa_unary _ _ _ _ _ (by decide) (by decide) ?_   -- main_v13
  refine Cert.Ssa.ssa_binary _ _ _ _ _ _ _ (by decide) (by decide) (by decide) ?_   -- main_v14
  refine Cert.Ssa.ssa_unary _ _ _ _ _ (by decide) (by decide) ?_   -- main_v15
  refine Cert.Ssa.ssa_nullary _ _ _ (by decide) ?_   -- main_cst_3
  refine Cert.Ssa.ssa_unary _ _ _ _ _ (by decide) (by decide) ?_   -- main_call0_v0
  refine Cert.Ssa.ssa_unary _ _ _ _ _ (by decide) (by decide) ?_   -- main_call0_v1
  refine Cert.Ssa.ssa_ternary _ _ _ _ _ _ _ _ _ (by decide) (by decide) (by decide) (by decide) ?_   -- main_v16
  refine Cert.Ssa.ssa_nullary _ _ _ (by decide) ?_   -- main_c
  refine Cert.Ssa.ssa_unary _ _ _ _ _ (by decide) (by decide) ?_   -- main_v17
  refine Cert.Ssa.ssa_binary _ _ _ _ _ _ _ (by decide) (by decide) (by decide) ?_   -- main_v18
  refine Cert.Ssa.ssa_nullary _ _ _ (by decide) ?_   -- main_c_4
  refine Cert.Ssa.ssa_unary _ _ _ _ _ (by decide) (by decide) ?_   -- main_v19
  refine Cert.Ssa.ssa_binary _ _ _ _ _ _ _ (by decide) (by decide) (by decide) ?_   -- main_v20
  refine Cert.Ssa.ssa_ternary _ _ _ _ _ _ _ _ _ (by decide) (by decide) (by decide) (by decide) ?_   -- main_v21
  refine Cert.Ssa.ssa_unary _ _ _ _ _ (by decide) (by decide) ?_   -- main_v22
  refine Cert.Ssa.ssa_binary _ _ _ _ _ _ _ (by decide) (by decide) (by decide) ?_   -- main_v23
  refine Cert.Ssa.ssa_nullary _ _ _ (by decide) ?_   -- main_c_5
  refine Cert.Ssa.ssa_unary _ _ _ _ _ (by decide) (by decide) ?_   -- main_v24
  refine Cert.Ssa.ssa_binary _ _ _ _ _ _ _ (by decide) (by decide) (by decide) ?_   -- main_v25
  refine Cert.Ssa.ssa_nullary _ _ _ (by decide) ?_   -- main_c_6
  refine Cert.Ssa.ssa_unary _ _ _ _ _ (by decide) (by decide) ?_   -- main_v26
  refine Cert.Ssa.ssa_binary _ _ _ _ _ _ _ (by decide) (by decide) (by decide) ?_   -- main_v27
  refine Cert.Ssa.ssa_ternary _ _ _ _ _ _ _ _ _ (by decide) (by decide) (by decide) (by decide) ?_   -- main_v28
  refine Cert.Ssa.ssa_unary _ _ _ _ _ (by decide) (by decide) ?_   -- main_v29
  refine Cert.Ssa.ssa_binary _ _ _ _ _ _ _ (by decide) (by decide) (by decide) ?_   -- main_v30
  refine Cert.Ssa.ssa_binary _ _ _ _ _ _ _ (by decide) (by decide) (by decide) ?_   -- main_v31
  refine Cert.Ssa.ssa_binary _ _ _ _ _ _ _ (by decide) (by decide) (by decide) ?_   -- main_v32
  refine Cert.Ssa.ssa_nullary _ _ _ (by decide) ?_   -- main_c_7
  refine Cert.Ssa.ssa_unary _ _ _ _ _ (by decide) (by decide) ?_   -- main_v33
  refine Cert.Ssa.ssa_binary _ _ _ _ _ _ _ (by decide) (by decide) (by decide) ?_   -- main_v34
  refine Cert.Ssa.ssa_nullary _ _ _ (by decide) ?_   -- main_c_8
  refine Cert.Ssa.ssa_unary _ _ _ _ _ (by decide) (by decide) ?_   -- main_v35
  refine Cert.Ssa.ssa_binary _ _ _ _ _ _ _ (by decide) (by decide) (by decide) ?_   -- main_v36
  refine Cert.Ssa.ssa_ternary _ _ _ _ _ _ _ _ _ (by decide) (by decide) (by decide) (by decide) ?_   -- main_v37
  refine Cert.Ssa.ssa_unary _ _ _ _ _ (by decide) (by decide) ?_   -- main_v38
  refine Cert.Ssa.ssa_binary _ _ _ _ _ _ _ (by decide) (by decide) (by decide) ?_   -- main_v39
  refine Cert.Ssa.ssa_unary _ _ _ _ _ (by decide) (by decide) ?_   -- main_v40
  refine Cert.Ssa.ssa_unary _ _ _ _ _ (by decide) (by decide) ?_   -- main_v41
  refine Cert.Ssa.ssa_binary _ _ _ _ _ _ _ (by decide) (by decide) (by decide) ?_   -- main_v42
  refine Cert.Ssa.ssa_nullary _ _ _ (by decide) ?_   -- main_cst_9
  refine Cert.Ssa.ssa_unary _ _ _ _ _ (by decide) (by decide) ?_   -- main_v43
  refine Cert.Ssa.ssa_unary _ _ _ _ _ (by decide) (by decide) ?_   -- main_v44
  refine Cert.Ssa.ssa_ternary _ _ _ _ _ _ _ _ _ (by decide) (by decide) (by decide) (by decide) ?_   -- main_v45
  refine Cert.Ssa.ssa_unary _ _ _ _ _ (by decide) (by decide) ?_   -- main_v46
  refine Cert.Ssa.ssa_unary _ _ _ _ _ (by decide) (by decide) ?_   -- main_v47
  refine Cert.Ssa.ssa_binary _ _ _ _ _ _ _ (by decide) (by decide) (by decide) ?_   -- main_v48
  refine Cert.Ssa.ssa_nullary _ _ _ (by decide) ?_   -- main_call1_cst
  refine Cert.Ssa.ssa_unary _ _ _ _ _ (by decide) (by decide) ?_   -- main_call1_v0
  refine Cert.Ssa.ssa_binary _ _ _ _ _ _ _ (by decide) (by decide) (by decide) ?_   -- main_v49
  refine Cert.Ssa.ssa_binary _ _ _ _ _ _ _ (by decide) (by decide) (by decide) ?_   -- main_v50
  refine Cert.Ssa.ssa_nullary _ _ _ (by decide) ?_   -- main_c_10
  refine Cert.Ssa.ssa_unary _ _ _ _ _ (by decide) (by decide) ?_   -- main_v51
  refine Cert.Ssa.ssa_binary _ _ _ _ _ _ _ (by decide) (by decide) (by decide) ?_   -- main_v52
  refine Cert.Ssa.ssa_nullary _ _ _ (by decide) ?_   -- main_c_11
  refine Cert.Ssa.ssa_unary _ _ _ _ _ (by decide) (by decide) ?_   -- main_v53
  refine Cert.Ssa.ssa_binary _ _ _ _ _ _ _ (by decide) (by decide) (by decide) ?_   -- main_v54
  refine Cert.Ssa.ssa_ternary _ _ _ _ _ _ _ _ _ (by decide) (by decide) (by decide) (by decide) ?_   -- main_v55
  refine Cert.Ssa.ssa_unary _ _ _ _ _ (by decide) (by decide) ?_   -- main_v56
  refine Cert.Ssa.ssa_binary _ _ _ _ _ _ _ (by decide) (by decide) (by decide) ?_   -- main_v57
  refine Cert.Ssa.ssa_unary _ _ _ _ _ (by decide) (by decide) ?_   -- main_v58
  refine Cert.Ssa.ssa_unary _ _ _ _ _ (by decide) (by decide) ?_   -- main_v59
  refine Cert.Ssa.ssa_binary _ _ _ _ _ _ _ (by decide) (by decide) (by decide) ?_   -- main_v60
  refine Cert.Ssa.ssa_nullary _ _ _ (by decide) ?_   -- main_cst_12
  refine Cert.Ssa.ssa_unary _ _ _ _ _ (by decide) (by decide) ?_   -- main_v61
  refine Cert.Ssa.ssa_unary _ _ _ _ _ (by decide) (by decide) ?_   -- main_v62
  refine Cert.Ssa.ssa_ternary _ _ _ _ _ _ _ _ _ (by decide) (by decide) (by decide) (by decide) ?_   -- main_v63
  refine Cert.Ssa.ssa_unary _ _ _ _ _ (by decide) (by decide) ?_   -- main_v64
  refine Cert.Ssa.ssa_unary _ _ _ _ _ (by decide) (by decide) ?_   -- main_v65
  refine Cert.Ssa.ssa_binary _ _ _ _ _ _ _ (by decide) (by decide) (by decide) ?_   -- main_v66
  refine Cert.Ssa.ssa_nullary _ _ _ (by decide) ?_   -- main_call2_cst
  refine Cert.Ssa.ssa_binary _ _ _ _ _ _ _ (by decide) (by decide) (by decide) ?_   -- main_call2_v0
  refine Cert.Ssa.ssa_nullary _ _ _ (by decide) ?_   -- main_call2_cst_0
  refine Cert.Ssa.ssa_unary _ _ _ _ _ (by decide) (by decide) ?_   -- main_call2_v1
  refine Cert.Ssa.ssa_binary _ _ _ _ _ _ _ (by decide) (by decide) (by decide) ?_   -- main_call2_v2
  refine Cert.Ssa.ssa_unary _ _ _ _ _ (by decide) (by decide) ?_   -- main_call2_v3
  refine Cert.Ssa.ssa_unary _ _ _ _ _ (by decide) (by decide) ?_   -- main_call2_v4
  refine Cert.Ssa.ssa_binary _ _ _ _ _ _ _ (by decide) (by decide) (by decide) ?_   -- main_call2_v5
  refine Cert.Ssa.ssa_unary _ _ _ _ _ (by decide) (by decide) ?_   -- main_call2_v6
  refine Cert.Ssa.ssa_nullary _ _ _ (by decide) ?_   -- main_call2_cst_1
  refine Cert.Ssa.ssa_binary _ _ _ _ _ _ _ (by decide) (by decide) (by decide) ?_   -- main_call2_v7
  refine Cert.Ssa.ssa_unary _ _ _ _ _ (by decide) (by decide) ?_   -- main_call2_v8
  refine Cert.Ssa.ssa_unary _ _ _ _ _ (by decide) (by decide) ?_   -- main_call2_v9
  refine Cert.Ssa.ssa_unary _ _ _ _ _ (by decide) (by decide) ?_   -- main_call2_v10
  refine Cert.Ssa.ssa_binary _ _ _ _ _ _ _ (by decide) (by decide) (by decide) ?_   -- main_v67
  exact trivial

end Cert.RefValue

end
-- ==== Proof.RefNet.lean ====
/-
  The reference's operations read as equations between final contents, stage by stage.

  If the contents R of the buffers are a fixed point of every one of the 101 operations, then the result buffer
  holds the network Net of what the six argument buffers hold: the equations are read upwards, each stage (the
  pair lists, the degree, the weights, the two propagations, the two dense layers, the log-softmax) closed by
  the stages before it, so that no term grows beyond one stage.
-/
import proofs.«139132_j10462540333056_2_alg».proof.Proof.RefRunP
import proofs.«139132_j10462540333056_2_alg».proof.Proof.RefStages
import proofs.«139132_j10462540333056_2_alg».proof.Proof.LibSsa

noncomputable section

namespace Cert.RefValue

open Cert.ReferenceIdeal Cert.ReferenceIdeal.Gen Idealize.ShloMosaic Idealize.ShloMosaic.TcCoe Idealize.SL.Sem Idealize.ShloMosaic.StableHlo

/-- A typed reference's transport of contents is the identity up to heterogeneous equality. -/
theorem ofBuf_eq {Val : EltTy → Type} {T : BufTy} (x : TRef sig T) (v : x.ref.ty.Contents Val) (v' : T.Contents Val) (h : HEq v v') :
    x.ofBuf v = v' := eq_of_heq ((cast_heq _ _).trans h)

theorem toBuf_eq {Val : EltTy → Type} {T : BufTy} (x : TRef sig T) (v : T.Contents Val) (v' : x.ref.ty.Contents Val) (h : HEq v v') :
    x.toBuf v = v' := eq_of_heq ((cast_heq _ _).trans h)

set_option maxHeartbeats 4000000 in
/-- From the fixed-point equations: the result buffer holds the network of the arguments' buffers. -/
theorem net_of_eqs (R : Valuation τ sig (Elt Ideal)) (E : Cert.Ssa.Eqs R (Cert.ReferenceIdeal.ValueP.ops (F := Ideal))) :
    R (Proc.devRef (τ := τ) .tc main_v67) = Net (R (Proc.devRef (τ := τ) .tc main_arg0)) (R (Proc.devRef (τ := τ) .tc main_arg1)) (R (Proc.devRef (τ := τ) .tc main_arg2)) (R (Proc.devRef (τ := τ) .tc main_arg3)) (R (Proc.devRef (τ := τ) .tc main_arg4)) (R (Proc.devRef (τ := τ) .tc main_arg5)) := by
  obtain ⟨e_main_v0, E⟩ := (Cert.Ssa.eqs_unary _ _ _ _ _).1 E
  obtain ⟨e_main_v1, E⟩ := (Cert.Ssa.eqs_reshape _ _ _ _ _ _).1 E
  obtain ⟨e_main_v2, E⟩ := (Cert.Ssa.eqs_unary _ _ _ _ _).1 E
  obtain ⟨e_main_v3, E⟩ := (Cert.Ssa.eqs_reshape _ _ _ _ _ _).1 E
  obtain ⟨e_main_v4, E⟩ := (Cert.Ssa.eqs_nullary _ _ _).1 E
  obtain ⟨e_main_v5, E⟩ := (Cert.Ssa.eqs_binary _ _ _ _ _ _ _).1 E
  obtain ⟨e_main_v6, E⟩ := (Cert.Ssa.eqs_binary _ _ _ _ _ _ _).1 E
  obtain ⟨e_main_cst, E⟩ := (Cert.Ssa.eqs_nullary _ _ _).1 E
  obtain ⟨e_main_v7, E⟩ := (Cert.Ssa.eqs_unary _ _ _ _ _).1 E
  obtain ⟨e_main_cst_0, E⟩ := (Cert.Ssa.eqs_nullary _ _ _).1 E
  obtain ⟨e_main_v8, E⟩ := (Cert.Ssa.eqs_unary _ _ _ _ _).1 E
  obtain ⟨e_main_v9, E⟩ := (Cert.Ssa.eqs_unary _ _ _ _ _).1 E
  obtain ⟨e_main_v10, E⟩ := (Cert.Ssa.eqs_ternary _ _ _ _ _ _ _ _ _).1 E
  obtain ⟨e_main_cst_1, E⟩ := (Cert.Ssa.eqs_nullary _ _ _).1 E
  obtain ⟨e_main_v11, E⟩ := (Cert.Ssa.eqs_unary _ _ _ _ _).1 E
  obtain ⟨e_main_v12, E⟩ := (Cert.Ssa.eqs_binary _ _ _ _ _ _ _).1 E
  obtain ⟨e_main_cst_2, E⟩ := (Cert.Ssa.eqs_nullary _ _ _).1 E
  obtain ⟨e_main_v13, E⟩ := (Cert.Ssa.eqs_unary _ _ _ _ _).1 E
  obtain ⟨e_main_v14, E⟩ := (Cert.Ssa.eqs_binary _ _ _ _ _ _ _).1 E
  obtain ⟨e_main_v15, E⟩ := (Cert.Ssa.eqs_unary _ _ _ _ _).1 E
  obtain ⟨e_main_cst_3, E⟩ := (Cert.Ssa.eqs_nullary _ _ _).1 E
  obtain ⟨e_main_call0_v0, E⟩ := (Cert.Ssa.eqs_unary _ _ _ _ _).1 E
  replace e_main_call0_v0 : R (Proc.devRef (τ := τ) .tc main_call0_v0) = id (R (Proc.devRef (τ := τ) .tc main_cst_3)) := e_main_call0_v0
  obtain ⟨e_main_call0_v1, E⟩ := (Cert.Ssa.eqs_unary _ _ _ _ _).1 E
  replace e_main_call0_v1 : R (Proc.devRef (τ := τ) .tc main_call0_v1) = broadcastInDim S500000 ![] bcast_S_S500000 (R (Proc.devRef (τ := τ) .tc main_call0_v0)) := e_main_call0_v1
  obtain ⟨e_main_v16, E⟩ := (Cert.Ssa.eqs_ternary _ _ _ _ _ _ _ _ _).1 E
  replace e_main_v16 : R (Proc.devRef (τ := τ) .tc main_v16) = select (s := S500000) (α := Ideal .f32) (R (Proc.devRef (τ := τ) .tc main_v12)) (R (Proc.devRef (τ := τ) .tc main_v15)) (R (Proc.devRef (τ := τ) .tc main_call0_v1)) := e_main_v16
  obtain ⟨e_main_c, E⟩ := (Cert.Ssa.eqs_nullary _ _ _).1 E
  obtain ⟨e_main_v17, E⟩ := (Cert.Ssa.eqs_unary _ _ _ _ _).1 E
  obtain ⟨e_main_v18, E⟩ := (Cert.Ssa.eqs_binary _ _ _ _ _ _ _).1 E
  obtain ⟨e_main_c_4, E⟩ := (Cert.Ssa.eqs_nullary _ _ _).1 E
  obtain ⟨e_main_v19, E⟩ := (Cert.Ssa.eqs_unary _ _ _ _ _).1 E
  obtain ⟨e_main_v20, E⟩ := (Cert.Ssa.eqs_binary _ _ _ _ _ _ _).1 E
  obtain ⟨e_main_v21, E⟩ := (Cert.Ssa.eqs_ternary _ _ _ _ _ _ _ _ _).1 E
  obtain ⟨e_main_v22, E⟩ := (Cert.Ssa.eqs_unary _ _ _ _ _).1 E
  obtain ⟨e_main_v23, E⟩ := (Cert.Ssa.eqs_binary _ _ _ _ _ _ _).1 E
  obtain ⟨e_main_c_5, E⟩ := (Cert.Ssa.eqs_nullary _ _ _).1 E
  obtain ⟨e_main_v24, E⟩ := (Cert.Ssa.eqs_unary _ _ _ _ _).1 E
  obtain ⟨e_main_v25, E⟩ := (Cert.Ssa.eqs_binary _ _ _ _ _ _ _).1 E
  obtain ⟨e_main_c_6, E⟩ := (Cert.Ssa.eqs_nullary _ _ _).1 E
  obtain ⟨e_main_v26, E⟩ := (Cert.Ssa.eqs_unary _ _ _ _ _).1 E
  obtain ⟨e_main_v27, E⟩ := (Cert.Ssa.eqs_binary _ _ _ _ _ _ _).1 E
  obtain ⟨e_main_v28, E⟩ := (Cert.Ssa.eqs_ternary _ _ _ _ _ _ _ _ _).1 E
  obtain ⟨e_main_v29, E⟩ := (Cert.Ssa.eqs_unary _ _ _ _ _).1 E
  obtain ⟨e_main_v30, E⟩ := (Cert.Ssa.eqs_binary _ _ _ _ _ _ _).1 E
  obtain ⟨e_main_v31, E⟩ := (Cert.Ssa.eqs_binary _ _ _ _ _ _ _).1 E
  obtain ⟨e_main_v32, E⟩ := (Cert.Ssa.eqs_binary _ _ _ _ _ _ _).1 E
  obtain ⟨e_main_c_7, E⟩ := (Cert.Ssa.eqs_nullary _ _ _).1 E
  obtain ⟨e_main_v33, E⟩ := (Cert.Ssa.eqs_unary _ _ _ _ _).1 E
  obtain ⟨e_main_v34, E⟩ := (Cert.Ssa.eqs_binary _ _ _ _ _ _ _).1 E
  obtain ⟨e_main_c_8, E⟩ := (Cert.Ssa.eqs_nullary _ _ _).1 E
  obtain ⟨e_main_v35, E⟩ := (Cert.Ssa.eqs_unary _ _ _ _ _).1 E
  obtain ⟨e_main_v36, E⟩ := (Cert.Ssa.eqs_binary _ _ _ _ _ _ _).1 E
  obtain ⟨e_main_v37, E⟩ := (Cert.Ssa.eqs_ternary _ _ _ _ _ _ _ _ _).1 E
  obtain ⟨e_main_v38, E⟩ := (Cert.Ssa.eqs_unary _ _ _ _ _).1 E
  obtain ⟨e_main_v39, E⟩ := (Cert.Ssa.eqs_binary _ _ _ _ _ _ _).1 E
  obtain ⟨e_main_v40, E⟩ := (Cert.Ssa.eqs_unary _ _ _ _ _).1 E
  obtain ⟨e_main_v41, E⟩ := (Cert.Ssa.eqs_unary _ _ _ _ _).1 E
  obtain ⟨e_main_v42, E⟩ := (Cert.Ssa.eqs_binary _ _ _ _ _ _ _).1 E
  obtain ⟨e_main_cst_9, E⟩ := (Cert.Ssa.eqs_nullary _ _ _).1 E
  obtain ⟨e_main_v43, E⟩ := (Cert.Ssa.eqs_unary _ _ _ _ _).1 E
  obtain ⟨e_main_v44, E⟩ := (Cert.Ssa.eqs_unary _ _ _ _ _).1 E
  obtain ⟨e_main_v45, E⟩ := (Cert.Ssa.eqs_ternary _ _ _ _ _ _ _ _ _).1 E
  obtain ⟨e_main_v46, E⟩ := (Cert.Ssa.eqs_unary _ _ _ _ _).1 E
  obtain ⟨e_main_v47, E⟩ := (Cert.Ssa.eqs_unary _ _ _ _ _).1 E
  obtain ⟨e_main_v48, E⟩ := (Cert.Ssa.eqs_binary _ _ _ _ _ _ _).1 E
  obtain ⟨e_main_call1_cst, E⟩ := (Cert.Ssa.eqs_nullary _ _ _).1 E
  replace e_main_call1_cst : R (Proc.devRef (τ := τ) .tc main_call1_cst) = constant (F := Ideal) S_ .f32 0x00000000#32 := e_main_call1_cst
  obtain ⟨e_main_call1_v0, E⟩ := (Cert.Ssa.eqs_unary _ _ _ _ _).1 E
  replace e_main_call1_v0 : R (Proc.devRef (τ := τ) .tc main_call1_v0) = broadcastInDim S500000x4 ![] bcast_S_S500000x4 (R (Proc.devRef (τ := τ) .tc main_call1_cst)) := e_main_call1_v0
  obtain ⟨e_main_v49, E⟩ := (Cert.Ssa.eqs_binary _ _ _ _ _ _ _).1 E
  replace e_main_v49 : R (Proc.devRef (τ := τ) .tc main_v49) = maximumf (s := S500000x4) (F := Ideal) (φ := .f32) (R (Proc.devRef (τ := τ) .tc main_v48)) (R (Proc.devRef (τ := τ) .tc main_call1_v0)) := e_main_v49
  obtain ⟨e_main_v50, E⟩ := (Cert.Ssa.eqs_binary _ _ _ _ _ _ _).1 E
  obtain ⟨e_main_c_10, E⟩ := (Cert.Ssa.eqs_nullary _ _ _).1 E
  obtain ⟨e_main_v51, E⟩ := (Cert.Ssa.eqs_unary _ _ _ _ _).1 E
  obtain ⟨e_main_v52, E⟩ := (Cert.Ssa.eqs_binary _ _ _ _ _ _ _).1 E
  obtain ⟨e_main_c_11, E⟩ := (Cert.Ssa.eqs_nullary _ _ _).1 E
  obtain ⟨e_main_v53, E⟩ := (Cert.Ssa.eqs_unary _ _ _ _ _).1 E
  obtain ⟨e_main_v54, E⟩ := (Cert.Ssa.eqs_binary _ _ _ _ _ _ _).1 E
  obtain ⟨e_main_v55, E⟩ := (Cert.Ssa.eqs_ternary _ _ _ _ _ _ _ _ _).1 E
  obtain ⟨e_main_v56, E⟩ := (Cert.Ssa.eqs_unary _ _ _ _ _).1 E
  obtain ⟨e_main_v57, E⟩ := (Cert.Ssa.eqs_binary _ _ _ _ _ _ _).1 E
  obtain ⟨e_main_v58, E⟩ := (Cert.Ssa.eqs_unary _ _ _ _ _).1 E
  obtain ⟨e_main_v59, E⟩ := (Cert.Ssa.eqs_unary _ _ _ _ _).1 E
  obtain ⟨e_main_v60, E⟩ := (Cert.Ssa.eqs_binary _ _ _ _ _ _ _).1 E
  obtain ⟨e_main_cst_12, E⟩ := (Cert.Ssa.eqs_nullary _ _ _).1 E
  obtain ⟨e_main_v61, E⟩ := (Cert.Ssa.eqs_unary _ _ _ _ _).1 E
  obtain ⟨e_main_v62, E⟩ := (Cert.Ssa.eqs_unary _ _ _ _ _).1 E
  obtain ⟨e_main_v63, E⟩ := (Cert.Ssa.eqs_ternary _ _ _ _ _ _ _ _ _).1 E
  obtain ⟨e_main_v64, E⟩ := (Cert.Ssa.eqs_unary _ _ _ _ _).1 E
  obtain ⟨e_main_v65, E⟩ := (Cert.Ssa.eqs_unary _ _ _ _ _).1 E
  obtain ⟨e_main_v66, E⟩ := (Cert.Ssa.eqs_binary _ _ _ _ _ _ _).1 E
  obtain ⟨e_main_call2_cst, E⟩ := (Cert.Ssa.eqs_nullary _ _ _).1 E
  replace e_main_call2_cst : R (Proc.devRef (τ := τ) .tc main_call2_cst) = constant (F := Ideal) S_ .f32 0xFF800000#32 := e_main_call2_cst
  obtain ⟨e_main_call2_v0, E⟩ := (Cert.Ssa.eqs_binary _ _ _ _ _ _ _).1 E
  replace e_main_call2_v0 : R (Proc.devRef (τ := τ) .tc main_call2_v0) = Host.reduce (s := S500000x7) (t := S7) (u := S_) (FloatOps.maximumf (F := Ideal) (φ := .f32)) (R (Proc.devRef (τ := τ) .tc main_v66)) (R (Proc.devRef (τ := τ) .tc main_call2_cst)) reducesTo_S500000x7_S7_d0 h_S_ := by
    refine e_main_call2_v0.trans ?_
    beta_reduce
    refine (toBuf_eq _ _ _ HEq.rfl).trans ?_
    exact congrArg₂ (fun X Y => Host.reduce (s := S500000x7) (t := S7) (u := S_) (FloatOps.maximumf (F := Ideal) (φ := .f32)) X Y reducesTo_S500000x7_S7_d0 h_S_)
      (ofBuf_eq _ _ _ HEq.rfl) (ofBuf_eq _ _ _ HEq.rfl)
  obtain ⟨e_main_call2_cst_0, E⟩ := (Cert.Ssa.eqs_nullary _ _ _).1 E
  replace e_main_call2_cst_0 : R (Proc.devRef (τ := τ) .tc main_call2_cst_0) = constant (F := Ideal) S_ .f32 0xFF800000#32 := e_main_call2_cst_0
  obtain ⟨e_main_call2_v1, E⟩ := (Cert.Ssa.eqs_unary _ _ _ _ _).1 E
  replace e_main_call2_v1 : R (Proc.devRef (τ := τ) .tc main_call2_v1) = broadcastInDim S7 ![] bcast_S_S7 (R (Proc.devRef (τ := τ) .tc main_call2_cst_0)) := e_main_call2_v1
  obtain ⟨e_main_call2_v2, E⟩ := (Cert.Ssa.eqs_binary _ _ _ _ _ _ _).1 E
  replace e_main_call2_v2 : R (Proc.devRef (τ := τ) .tc main_call2_v2) = maximumf (s := S7) (F := Ideal) (φ := .f32) (R (Proc.devRef (τ := τ) .tc main_call2_v1)) (R (Proc.devRef (τ := τ) .tc main_call2_v0)) := e_main_call2_v2
  obtain ⟨e_main_call2_v3, E⟩ := (Cert.Ssa.eqs_unary _ _ _ _ _).1 E
  replace e_main_call2_v3 : R (Proc.devRef (τ := τ) .tc main_call2_v3) = broadcastInDim S1x7 ![1] bcast_S7_S1x7_1 (R (Proc.devRef (τ := τ) .tc main_call2_v2)) := e_main_call2_v3
  obtain ⟨e_main_call2_v4, E⟩ := (Cert.Ssa.eqs_unary _ _ _ _ _).1 E
  replace e_main_call2_v4 : R (Proc.devRef (τ := τ) .tc main_call2_v4) = broadcastInDim S500000x7 ![0, 1] bcast_S1x7_S500000x7_0_1 (R (Proc.devRef (τ := τ) .tc main_call2_v3)) := e_main_call2_v4
  obtain ⟨e_main_call2_v5, E⟩ := (Cert.Ssa.eqs_binary _ _ _ _ _ _ _).1 E
  replace e_main_call2_v5 : R (Proc.devRef (τ := τ) .tc main_call2_v5) = subf (s := S500000x7) (F := Ideal) (φ := .f32) (R (Proc.devRef (τ := τ) .tc main_v66)) (R (Proc.devRef (τ := τ) .tc main_call2_v4)) := e_main_call2_v5
  obtain ⟨e_main_call2_v6, E⟩ := (Cert.Ssa.eqs_unary _ _ _ _ _).1 E
  replace e_main_call2_v6 : R (Proc.devRef (τ := τ) .tc main_call2_v6) = Host.exp (s := S500000x7) (F := Ideal) (φ := .f32) (R (Proc.devRef (τ := τ) .tc main_call2_v5)) := e_main_call2_v6
  obtain ⟨e_main_call2_cst_1, E⟩ := (Cert.Ssa.eqs_nullary _ _ _).1 E
  replace e_main_call2_cst_1 : R (Proc.devRef (τ := τ) .tc main_call2_cst_1) = constant (F := Ideal) S_ .f32 0x00000000#32 := e_main_call2_cst_1
  obtain ⟨e_main_call2_v7, E⟩ := (Cert.Ssa.eqs_binary _ _ _ _ _ _ _).1 E
  replace e_main_call2_v7 : R (Proc.devRef (τ := τ) .tc main_call2_v7) = Host.reduceAdd (s := S500000x7) (t := S7) (u := S_) (F := Ideal) (φ := .f32) (R (Proc.devRef (τ := τ) .tc main_call2_v6)) (R (Proc.devRef (τ := τ) .tc main_call2_cst_1)) reducesTo_S500000x7_S7_d0 h_S_ := by
    refine e_main_call2_v7.trans ?_
    beta_reduce
    refine (toBuf_eq _ _ _ HEq.rfl).trans ?_
    exact congrArg₂ (fun X Y => Host.reduceAdd (s := S500000x7) (t := S7) (u := S_) (F := Ideal) (φ := .f32) X Y reducesTo_S500000x7_S7_d0 h_S_)
      (ofBuf_eq _ _ _ HEq.rfl) (ofBuf_eq _ _ _ HEq.rfl)
  obtain ⟨e_main_call2_v8, E⟩ := (Cert.Ssa.eqs_unary _ _ _ _ _).1 E
  replace e_main_call2_v8 : R (Proc.devRef (τ := τ) .tc main_call2_v8) = broadcastInDim S1x7 ![1] bcast_S7_S1x7_1 (R (Proc.devRef (τ := τ) .tc main_call2_v7)) := e_main_call2_v8
  obtain ⟨e_main_call2_v9, E⟩ := (Cert.Ssa.eqs_unary _ _ _ _ _).1 E
  replace e_main_call2_v9 : R (Proc.devRef (τ := τ) .tc main_call2_v9) = Host.log (s := S1x7) (F := Ideal) (φ := .f32) (R (Proc.devRef (τ := τ) .tc main_call2_v8)) := e_main_call2_v9
  obtain ⟨e_main_call2_v10, E⟩ := (Cert.Ssa.eqs_unary _ _ _ _ _).1 E
  replace e_main_call2_v10 : R (Proc.devRef (τ := τ) .tc main_call2_v10) = broadcastInDim S500000x7 ![0, 1] bcast_S1x7_S500000x7_0_1 (R (Proc.devRef (τ := τ) .tc main_call2_v9)) := e_main_call2_v10
  obtain ⟨e_main_v67, E⟩ := (Cert.Ssa.eqs_binary _ _ _ _ _ _ _).1 E
  replace e_main_v67 : R (Proc.devRef (τ := τ) .tc main_v67) = subf (s := S500000x7) (F := Ideal) (φ := .f32) (R (Proc.devRef (τ := τ) .tc main_call2_v5)) (R (Proc.devRef (τ := τ) .tc main_call2_v10)) := e_main_v67
  have h5 : R (Proc.devRef (τ := τ) .tc main_v5) = EdgeSrc (R (Proc.devRef (τ := τ) .tc main_arg1)) := by
    rw [e_main_v5, e_main_v1, e_main_v0, e_main_v4]; rfl
  have h6 : R (Proc.devRef (τ := τ) .tc main_v6) = EdgeDst (R (Proc.devRef (τ := τ) .tc main_arg1)) := by
    rw [e_main_v6, e_main_v3, e_main_v2, e_main_v4]; rfl
  have h9 : R (Proc.devRef (τ := τ) .tc main_v9) = Col (EdgeDst (R (Proc.devRef (τ := τ) .tc main_arg1))) := by
    rw [e_main_v9, h6]; rfl
  have h10 : R (Proc.devRef (τ := τ) .tc main_v10) = Deg (R (Proc.devRef (τ := τ) .tc main_arg1)) := by
    rw [e_main_v10, e_main_v8, e_main_cst_0, h9, e_main_v7, e_main_cst]; rfl
  have h16 : R (Proc.devRef (τ := τ) .tc main_v16) = Dinv (R (Proc.devRef (τ := τ) .tc main_arg1)) := by
    rw [e_main_v16, e_main_v12, e_main_v11, e_main_cst_1, e_main_v15, e_main_v14, e_main_v13, e_main_cst_2, e_main_call0_v1, e_main_call0_v0, e_main_cst_3, h10]; rfl
  have h22 : R (Proc.devRef (τ := τ) .tc main_v22) = Wrap (EdgeSrc (R (Proc.devRef (τ := τ) .tc main_arg1))) := by
    rw [e_main_v22, e_main_v21, e_main_v18, e_main_v17, e_main_c, e_main_v20, e_main_v19, e_main_c_4, h5]; rfl
  have h29 : R (Proc.devRef (τ := τ) .tc main_v29) = Wrap (EdgeDst (R (Proc.devRef (τ := τ) .tc main_arg1))) := by
    rw [e_main_v29, e_main_v28, e_main_v25, e_main_v24, e_main_c_5, e_main_v27, e_main_v26, e_main_c_6, h6]; rfl
  have h31 : R (Proc.devRef (τ := τ) .tc main_v31) = Norm (R (Proc.devRef (τ := τ) .tc main_arg1)) := by
    rw [e_main_v31, e_main_v23, e_main_v30, h16, h22, h29]; rfl
  have h32 : R (Proc.devRef (τ := τ) .tc main_v32) = DotA (R (Proc.devRef (τ := τ) .tc main_arg0)) (R (Proc.devRef (τ := τ) .tc main_arg2)) := by
    rw [e_main_v32]; rfl
  have h38 : R (Proc.devRef (τ := τ) .tc main_v38) = Wrap (EdgeSrc (R (Proc.devRef (τ := τ) .tc main_arg1))) := by
    rw [e_main_v38, e_main_v37, e_main_v34, e_main_v33, e_main_c_7, e_main_v36, e_main_v35, e_main_c_8, h5]; rfl
  have h44 : R (Proc.devRef (τ := τ) .tc main_v44) = Col (EdgeDst (R (Proc.devRef (τ := τ) .tc main_arg1))) := by
    rw [e_main_v44, h6]; rfl
  have h45 : R (Proc.devRef (τ := τ) .tc main_v45) = L4 (R (Proc.devRef (τ := τ) .tc main_arg1)) (DotA (R (Proc.devRef (τ := τ) .tc main_arg0)) (R (Proc.devRef (τ := τ) .tc main_arg2))) := by
    rw [e_main_v45, e_main_v43, e_main_cst_9, h44, e_main_v42, e_main_v39, h32, h38, e_main_v41, e_main_v40, h31]; rfl
  have h50 : R (Proc.devRef (τ := τ) .tc main_v50) = Mid (L4 (R (Proc.devRef (τ := τ) .tc main_arg1)) (DotA (R (Proc.devRef (τ := τ) .tc main_arg0)) (R (Proc.devRef (τ := τ) .tc main_arg2)))) (R (Proc.devRef (τ := τ) .tc main_arg3)) (R (Proc.devRef (τ := τ) .tc main_arg4)) := by
    rw [e_main_v50, e_main_v49, e_main_v48, h45, e_main_v47, e_main_v46, e_main_call1_v0, e_main_call1_cst]; rfl
  have h56 : R (Proc.devRef (τ := τ) .tc main_v56) = Wrap (EdgeSrc (R (Proc.devRef (τ := τ) .tc main_arg1))) := by
    rw [e_main_v56, e_main_v55, e_main_v52, e_main_v51, e_main_c_10, e_main_v54, e_main_v53, e_main_c_11, h5]; rfl
  have h62 : R (Proc.devRef (τ := τ) .tc main_v62) = Col (EdgeDst (R (Proc.devRef (τ := τ) .tc main_arg1))) := by
    rw [e_main_v62, h6]; rfl
  have h63 : R (Proc.devRef (τ := τ) .tc main_v63) = L7 (R (Proc.devRef (τ := τ) .tc main_arg1)) (Mid (L4 (R (Proc.devRef (τ := τ) .tc main_arg1)) (DotA (R (Proc.devRef (τ := τ) .tc main_arg0)) (R (Proc.devRef (τ := τ) .tc main_arg2)))) (R (Proc.devRef (τ := τ) .tc main_arg3)) (R (Proc.devRef (τ := τ) .tc main_arg4))) := by
    rw [e_main_v63, e_main_v61, e_main_cst_12, h62, e_main_v60, e_main_v57, h50, h56, e_main_v59, e_main_v58, h31]; rfl
  have h66 : R (Proc.devRef (τ := τ) .tc main_v66) = AddB2 (L7 (R (Proc.devRef (τ := τ) .tc main_arg1)) (Mid (L4 (R (Proc.devRef (τ := τ) .tc main_arg1)) (DotA (R (Proc.devRef (τ := τ) .tc main_arg0)) (R (Proc.devRef (τ := τ) .tc main_arg2)))) (R (Proc.devRef (τ := τ) .tc main_arg3)) (R (Proc.devRef (τ := τ) .tc main_arg4)))) (R (Proc.devRef (τ := τ) .tc main_arg5)) := by
    rw [e_main_v66, h63, e_main_v65, e_main_v64]; rfl
  have hc2 : R (Proc.devRef (τ := τ) .tc main_call2_v2) = ColMax (R (Proc.devRef (τ := τ) .tc main_v66)) := by
    rw [e_main_call2_v2, e_main_call2_v1, e_main_call2_cst_0, e_main_call2_v0, e_main_call2_cst]; rfl
  have hc5 : R (Proc.devRef (τ := τ) .tc main_call2_v5) = Shift (R (Proc.devRef (τ := τ) .tc main_v66)) := by
    rw [e_main_call2_v5, e_main_call2_v4, e_main_call2_v3, hc2]; rfl
  have h67 : R (Proc.devRef (τ := τ) .tc main_v67) = LogSoftmax (R (Proc.devRef (τ := τ) .tc main_v66)) := by
    rw [e_main_v67, hc5, e_main_call2_v10, e_main_call2_v9, e_main_call2_v8, e_main_call2_v7, e_main_call2_v6, hc5, e_main_call2_cst_1]; rfl
  rw [h67, h66]; rfl

end Cert.RefValue

end
-- ==== Proof.RefRun.lean ====
/-
  The reference's run, read back through single assignment.

  The reference is a straight line of 101 host operations, each writing a buffer of its own that no earlier
  operation touches. Whatever such a line leaves in its buffers is a fixed point of every operation: the contents
  of an operation's result buffer are that operation's function of the final contents of its operands. Reading
  these equations upwards, stage by stage, the final contents of the result buffer are the network Net of the six
  arguments' contents at launch, which no operation writes.
-/
import proofs.«139132_j10462540333056_2_alg».proof.Proof.RefRunP
import proofs.«139132_j10462540333056_2_alg».proof.Proof.RefStages
import proofs.«139132_j10462540333056_2_alg».proof.Proof.RefSsa
import proofs.«139132_j10462540333056_2_alg».proof.Proof.RefNet

noncomputable section

namespace Cert.RefValue

open Cert.ReferenceIdeal Cert.ReferenceIdeal.Gen Idealize.ShloMosaic Idealize.ShloMosaic.TcCoe Idealize.SL.Sem Idealize.ShloMosaic.StableHlo

/-- The reference runs, ends with the network of its arguments in its result buffer, and leaves its arguments. -/
theorem refRun (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v67)
          = Net (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run (Cert.ReferenceIdeal.defs (F := Ideal)) _ _).mono (fun r h c => ?_)
    (run_seq Cert.ReferenceIdeal.ValueP.scopedRefs_eq Cert.ReferenceIdeal.ValueP.scopedSems_eq (Cert.ReferenceIdeal.defs (F := Ideal)) (main (F := Ideal))
      (fun _ => Cert.ReferenceIdeal.ValueP.ops (F := Ideal)) Cert.ReferenceIdeal.ValueP.main_eq (fun _ => Cert.ReferenceIdeal.ValueP.ops_sub) m ρ)
  have hE := Cert.Ssa.after_eqs (key := key) (Cert.ReferenceIdeal.ValueP.ops (F := Ideal)) (launchContents m c) ssa_ops
  have hlow : ∀ x : DevRef τ sig, key x ≤ 5 →
      after (Cert.ReferenceIdeal.ValueP.ops (F := Ideal)) (launchContents m c) x = launchContents m c x :=
    fun x hx => Cert.Ssa.Ssa.after_low ssa_ops (launchContents m c) hx
  have hnet := net_of_eqs _ hE
  rw [hlow (Proc.devRef (τ := τ) .tc main_arg0) (by decide), hlow (Proc.devRef (τ := τ) .tc main_arg1) (by decide), hlow (Proc.devRef (τ := τ) .tc main_arg2) (by decide), hlow (Proc.devRef (τ := τ) .tc main_arg3) (by decide), hlow (Proc.devRef (τ := τ) .tc main_arg4) (by decide), hlow (Proc.devRef (τ := τ) .tc main_arg5) (by decide)] at hnet
  exact ⟨(h c main_v67).trans hnet, (h c main_arg0).trans (hlow (Proc.devRef (τ := τ) .tc main_arg0) (by decide)), (h c main_arg1).trans (hlow (Proc.devRef (τ := τ) .tc main_arg1) (by decide)),
    (h c main_arg2).trans (hlow (Proc.devRef (τ := τ) .tc main_arg2) (by decide)), (h c main_arg3).trans (hlow (Proc.devRef (τ := τ) .tc main_arg3) (by decide)), (h c main_arg4).trans (hlow (Proc.devRef (τ := τ) .tc main_arg4) (by decide)),
    (h c main_arg5).trans (hlow (Proc.devRef (τ := τ) .tc main_arg5) (by decide))⟩

end Cert.RefValue

end
-- ==== Proof.lean ====
/-
  The certificate of a two-layer graph convolution with a log-softmax down the node axis: the kernel program (four tiled
  regions among host operations on the edge list) against its reference.
  * Frames. Each kernel program is ten segments — stretches of host operations and four regions —; every region is run at a
    symbolic grid point (three of them store one value over their whole output block; the third region carries a running
    column maximum and a running rescaled sum of exponentials in two scratch buffers from point to point), and no segment
    writes an argument. The reference is a straight line of host operations, run so that every printed line holds of the
    final contents.
  * The idealization rewrote nothing, so there is nothing to preserve.
  * Values, on the extended reals: the two tiled products are the reference's products (the same sums); the host stretches are
    the reference's propagation steps on the same operands; and the tile-by-tile log-sum-exp followed by the subtraction is the
    reference's log-softmax because, the inputs being finite, every entry of the last layer's output is a real number.
-/
import proofs.«139132_j10462540333056_2_alg».proof.Defs
import proofs.«139132_j10462540333056_2_alg».proof.Proof.Gen.Kernel
import proofs.«139132_j10462540333056_2_alg».proof.Proof.Gen.KernelIdeal
import proofs.«139132_j10462540333056_2_alg».proof.Proof.Gen.ReferenceIdeal
import proofs.«139132_j10462540333056_2_alg».proof.Proof.Gen.Pre_finite_inputs
import proofs.«139132_j10462540333056_2_alg».proof.Proof.KernelFrame.Run
import proofs.«139132_j10462540333056_2_alg».proof.Proof.KernelIdealFrame.Run
import proofs.«139132_j10462540333056_2_alg».proof.Proof.KernelIdealBridge.Bridge
import proofs.«139132_j10462540333056_2_alg».proof.Proof.RefRun
import proofs.«139132_j10462540333056_2_alg».proof.Proof.RefFinite
import Idealize.ShloMosaic.Adequacy
import Idealize.ShloMosaic.Init

noncomputable section

namespace Cert.Proof

open Idealize.ShloMosaic Idealize.SL.Sem

/-- The word-level kernel program runs to the end, faults nowhere and leaves its arguments as launched. -/
theorem frame_kernel : Cert.frame_Kernel := fun m ρ _ => Cert.Kernel.Fr.frame (F := Bits) m ρ

/-- So does the idealized kernel program. -/
theorem frame_kernelIdeal : Cert.frame_KernelIdeal := fun m ρ _ => Cert.KernelIdeal.Fr.frame (F := Ideal) m ρ

/-- So does the reference: its run with the result dropped. -/
theorem frame_referenceIdeal : Cert.frame_ReferenceIdeal := fun m ρ _ =>
  (θ_run (Cert.ReferenceIdeal.defs (F := Ideal)) _ _).mono (fun _ h c => (h c).2) (Cert.RefValue.refRun m ρ)

/-- The idealization rewrote no operation. -/
theorem preserves : Cert.preserves_Kernel_KernelIdeal := trivial

/-- From memories that agree on the arguments both idealized programs end with the same result array: the reference's function
    of the six arguments. -/
theorem algebraic : Cert.algebraic_KernelIdeal_ReferenceIdeal := by
  intro m ρ m' ρ' hpre hagree
  refine ⟨fun c => Cert.RefValue.Net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run (Cert.KernelIdeal.defs (F := Ideal)) _ _).mono (fun r h c => ?_) (Cert.KernelIdeal.Fr.run_result (F := Ideal) m ρ)
    obtain ⟨hx, hW1, hb1, hW2, hb2⟩ := Cert.RefValue.real_of_pre _ _ _ _ _ _ (hpre c)
    exact ⟨(h c).1.trans (Cert.KernelIdeal.Br.kernel_value m c hx hW1 hb1 hW2 hb2), (h c).2⟩
  · refine (θ_run (Cert.ReferenceIdeal.defs (F := Ideal)) _ _).mono (fun r h c => ⟨?_, (h c).2⟩) (Cert.RefValue.refRun m' ρ')
    rw [(h c).1, (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
